-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v89)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v89) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S8192x1 : Shape := ⟨2, ![8192, 1]⟩
abbrev S256x256 : Shape := ⟨2, ![256, 256]⟩
abbrev S128x128 : Shape := ⟨2, ![128, 128]⟩
abbrev S8192x8192 : Shape := ⟨2, ![8192, 8192]⟩
abbrev S512x256 : Shape := ⟨2, ![512, 256]⟩
abbrev S256 : Shape := ⟨1, ![256]⟩
abbrev S256x128 : Shape := ⟨2, ![256, 128]⟩
abbrev S128 : Shape := ⟨1, ![128]⟩
abbrev S256x2 : Shape := ⟨2, ![256, 2]⟩
abbrev S128x8 : Shape := ⟨2, ![128, 8]⟩
abbrev S8 : Shape := ⟨1, ![8]⟩
abbrev S262144 : Shape := ⟨1, ![262144]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S8192x1 : S_.BroadcastsInDim S8192x1 (![] : Fin 0 → Fin S8192x1.rank)
  reducesTo_S8192x1_S_d0_1 : S8192x1.ReducesTo [0, 1] S_
  bcast_S_S256x256 : S_.BroadcastsInDim S256x256 (![] : Fin 0 → Fin S256x256.rank)
  reducesTo_S256x256_S_d0_1 : S256x256.ReducesTo [0, 1] S_
  bcast_S_S128x128 : S_.BroadcastsInDim S128x128 (![] : Fin 0 → Fin S128x128.rank)
  reducesTo_S128x128_S_d0_1 : S128x128.ReducesTo [0, 1] S_
  bcast_S_S8192x8192 : S_.BroadcastsInDim S8192x8192 (![] : Fin 0 → Fin S8192x8192.rank)
  reducesTo_S8192x8192_S_d0_1 : S8192x8192.ReducesTo [0, 1] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S256x2 : S_.BroadcastsInDim S256x2 (![] : Fin 0 → Fin S256x2.rank)
  reducesTo_S256x2_S_d0_1 : S256x2.ReducesTo [0, 1] S_
  bcast_S_S128x8 : S_.BroadcastsInDim S128x8 (![] : Fin 0 → Fin S128x8.rank)
  reducesTo_S128x8_S_d0_1 : S128x8.ReducesTo [0, 1] S_
  bcast_S_S8 : S_.BroadcastsInDim S8 (![] : Fin 0 → Fin S8.rank)
  reducesTo_S8_S_d0 : S8.ReducesTo [0] S_

variable [Facts]

def fn_part5 {F : FTy → Type} [FloatOps F] (main_v83 : IVec S_ 1) (main_v84 : FVec F S8 .f32) (main_cst_32 : FVec F S_ .f32) : IVec S_ 1 :=
  let main_v85 : FVec F S8 .f32 := broadcastInDim S8 ![] bcast_S_S8 main_cst_32
  let main_v86 : IVec S8 1 := cmpf .olt main_v84 main_v85
  let main_c_33 : IVec S_ 1 := constantI S_ 1 1#1
  let main_v87 : IVec S_ 1 := (fun x v => Host.reduce IntOp.andi x v reducesTo_S8_S_d0 h_S_) main_v86 main_c_33
  let main_v88 : IVec S_ 1 := andi main_v83 main_v87
  main_v88

def fn_part4 {F : FTy → Type} [FloatOps F] (main_arg14 : FVec F S128 .f32) (main_arg15 : FVec F S256x2 .f32) (main_arg16 : FVec F S128x8 .f32) (main_arg17 : FVec F S8 .f32) (main_v63 : IVec S_ 1) (main_v67 : IVec S_ 1) : IVec S_ 1 :=
  let main_v68 : IVec S_ 1 := andi main_v63 main_v67
  let main_v69 : FVec F S128 .f32 := Host.absf main_arg14
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S256x2 .f32 := Host.absf main_arg15
  let main_cst_28 : FVec F S_ .f32 := constant S_ .f32 0x7F800000#32
  let main_v75 : FVec F S256x2 .f32 := broadcastInDim S256x2 ![] bcast_S_S256x2 main_cst_28
  let main_v76 : IVec S256x2 1 := cmpf .olt main_v74 main_v75
  let main_c_29 : IVec S_ 1 := constantI S_ 1 1#1
  let main_v77 : IVec S_ 1 := (fun x v => Host.reduce IntOp.andi x v reducesTo_S256x2_S_d0_1 h_S_) main_v76 main_c_29
  let main_v78 : IVec S_ 1 := andi main_v73 main_v77
  let main_v79 : FVec F S128x8 .f32 := Host.absf main_arg16
  let main_cst_30 : FVec F S_ .f32 := constant S_ .f32 0x7F800000#32
  let main_v80 : FVec F S128x8 .f32 := broadcastInDim S128x8 ![] bcast_S_S128x8 main_cst_30
  let main_v81 : IVec S128x8 1 := cmpf .olt main_v79 main_v80
  let main_c_31 : IVec S_ 1 := constantI S_ 1 1#1
  let main_v82 : IVec S_ 1 := (fun x v => Host.reduce IntOp.andi x v reducesTo_S128x8_S_d0_1 h_S_) main_v81 main_c_31
  let main_v83 : IVec S_ 1 := andi main_v78 main_v82
  let main_v84 : FVec F S8 .f32 := Host.absf main_arg17
  let main_cst_32 : FVec F S_ .f32 := constant S_ .f32 0x7F800000#32
  fn_part5 (F := F) main_v83 main_v84 main_cst_32

def fn_part3 {F : FTy → Type} [FloatOps F] (main_arg11 : FVec F S512x256 .f32) (main_arg12 : FVec F S256 .f32) (main_arg13 : FVec F S256x128 .f32) (main_arg14 : FVec F S128 .f32) (main_arg15 : FVec F S256x2 .f32) (main_arg16 : FVec F S128x8 .f32) (main_arg17 : FVec F S8 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S512x256 .f32 := Host.absf main_arg11
  let main_cst_20 : FVec F S_ .f32 := constant S_ .f32 0x7F800000#32
  let main_v55 : FVec F S512x256 .f32 := broadcastInDim S512x256 ![] bcast_S_S512x256 main_cst_20
  let main_v56 : IVec S512x256 1 := cmpf .olt main_v54 main_v55
  let main_c_21 : IVec S_ 1 := constantI S_ 1 1#1
  let main_v57 : IVec S_ 1 := (fun x v => Host.reduce IntOp.andi x v reducesTo_S512x256_S_d0_1 h_S_) main_v56 main_c_21
  let main_v58 : IVec S_ 1 := andi main_v53 main_v57
  let main_v59 : FVec F S256 .f32 := Host.absf main_arg12
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256x128 .f32 := Host.absf main_arg13
  let main_cst_24 : FVec F S_ .f32 := constant S_ .f32 0x7F800000#32
  let main_v65 : FVec F S256x128 .f32 := broadcastInDim S256x128 ![] bcast_S_S256x128 main_cst_24
  let main_v66 : IVec S256x128 1 := cmpf .olt main_v64 main_v65
  let main_c_25 : IVec S_ 1 := constantI S_ 1 1#1
  let main_v67 : IVec S_ 1 := (fun x v => Host.reduce IntOp.andi x v reducesTo_S256x128_S_d0_1 h_S_) main_v66 main_c_25
  fn_part4 (F := F) main_arg14 main_arg15 main_arg16 main_arg17 main_v63 main_v67

def fn_part2 {F : FTy → Type} [FloatOps F] (main_arg7 : FVec F S512x256 .f32) (main_arg8 : FVec F S256 .f32) (main_arg9 : FVec F S256x128 .f32) (main_arg10 : FVec F S128 .f32) (main_arg11 : FVec F S512x256 .f32) (main_arg12 : FVec F S256 .f32) (main_arg13 : FVec F S256x128 .f32) (main_arg14 : FVec F S128 .f32) (main_arg15 : FVec F S256x2 .f32) (main_arg16 : FVec F S128x8 .f32) (main_arg17 : FVec F S8 .f32) (main_v33 : IVec S_ 1) : IVec S_ 1 :=
  let main_v34 : FVec F S512x256 .f32 := Host.absf main_arg7
  let main_cst_12 : FVec F S_ .f32 := constant S_ .f32 0x7F800000#32
  let main_v35 : FVec F S512x256 .f32 := broadcastInDim S512x256 ![] bcast_S_S512x256 main_cst_12
  let main_v36 : IVec S512x256 1 := cmpf .olt main_v34 main_v35
  let main_c_13 : IVec S_ 1 := constantI S_ 1 1#1
  let main_v37 : IVec S_ 1 := (fun x v => Host.reduce IntOp.andi x v reducesTo_S512x256_S_d0_1 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x128 .f32 := Host.absf main_arg9
  let main_cst_16 : FVec F S_ .f32 := constant S_ .f32 0x7F800000#32
  let main_v45 : FVec F S256x128 .f32 := broadcastInDim S256x128 ![] bcast_S_S256x128 main_cst_16
  let main_v46 : IVec S256x128 1 := cmpf .olt main_v44 main_v45
  let main_c_17 : IVec S_ 1 := constantI S_ 1 1#1
  let main_v47 : IVec S_ 1 := (fun x v => Host.reduce IntOp.andi x v reducesTo_S256x128_S_d0_1 h_S_) main_v46 main_c_17
  let main_v48 : IVec S_ 1 := andi main_v43 main_v47
  let main_v49 : FVec F S128 .f32 := Host.absf main_arg10
  let main_cst_18 : FVec F S_ .f32 := constant S_ .f32 0x7F800000#32
  let main_v50 : FVec F S128 .f32 := broadcastInDim S128 ![] bcast_S_S128 main_cst_18
  fn_part3 (F := F) main_arg11 main_arg12 main_arg13 main_arg14 main_arg15 main_arg16 main_arg17 main_v48 main_v49 main_v50

def fn_part1 {F : FTy → Type} [FloatOps F] (main_arg4 : FVec F S256x256 .f32) (main_arg5 : FVec F S128x128 .f32) (main_arg6 : FVec F S8192x8192 .f32) (main_arg7 : FVec F S512x256 .f32) (main_arg8 : FVec F S256 .f32) (main_arg9 : FVec F S256x128 .f32) (main_arg10 : FVec F S128 .f32) (main_arg11 : FVec F S512x256 .f32) (main_arg12 : FVec F S256 .f32) (main_arg13 : FVec F S256x128 .f32) (main_arg14 : FVec F S128 .f32) (main_arg15 : FVec F S256x2 .f32) (main_arg16 : FVec F S128x8 .f32) (main_arg17 : FVec F S8 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S8192x8192 .f32 := Host.absf main_arg6
  let main_cst_10 : FVec F S_ .f32 := constant S_ .f32 0x7F800000#32
  let main_v30 : FVec F S8192x8192 .f32 := broadcastInDim S8192x8192 ![] bcast_S_S8192x8192 main_cst_10
  let main_v31 : IVec S8192x8192 1 := cmpf .olt main_v29 main_v30
  let main_c_11 : IVec S_ 1 := constantI S_ 1 1#1
  let main_v32 : IVec S_ 1 := (fun x v => Host.reduce IntOp.andi x v reducesTo_S8192x8192_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_v33

def fn {F : FTy → Type} [FloatOps F] (main_arg0 : FVec F S8192x512 .f32) (main_arg1 : FVec F S8192x1 .f32) (main_arg2 : FVec F S256x256 .f32) (main_arg3 : FVec F S128x128 .f32) (main_arg4 : FVec F S256x256 .f32) (main_arg5 : FVec F S128x128 .f32) (main_arg6 : FVec F S8192x8192 .f32) (main_arg7 : FVec F S512x256 .f32) (main_arg8 : FVec F S256 .f32) (main_arg9 : FVec F S256x128 .f32) (main_arg10 : FVec F S128 .f32) (main_arg11 : FVec F S512x256 .f32) (main_arg12 : FVec F S256 .f32) (main_arg13 : FVec F S256x128 .f32) (main_arg14 : FVec F S128 .f32) (main_arg15 : FVec F S256x2 .f32) (main_arg16 : FVec F S128x8 .f32) (main_arg17 : FVec F S8 .f32) (main_arg18 : IVec S262144 32) (main_arg19 : IVec S262144 32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x1 .f32 := Host.absf main_arg1
  let main_cst_0 : FVec F S_ .f32 := constant S_ .f32 0x7F800000#32
  let main_v5 : FVec F S8192x1 .f32 := broadcastInDim S8192x1 ![] bcast_S_S8192x1 main_cst_0
  let main_v6 : IVec S8192x1 1 := cmpf .olt main_v4 main_v5
  let main_c_1 : IVec S_ 1 := constantI S_ 1 1#1
  let main_v7 : IVec S_ 1 := (fun x v => Host.reduce IntOp.andi x v reducesTo_S8192x1_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_arg8 main_arg9 main_arg10 main_arg11 main_arg12 main_arg13 main_arg14 main_arg15 main_arg16 main_arg17 main_v13 main_v16
-- ==== Kernel.lean ====
abbrev S8192x512 : Shape := ⟨2, ![8192, 512]⟩
abbrev S8192x1 : Shape := ⟨2, ![8192, 1]⟩
abbrev S256x256 : Shape := ⟨2, ![256, 256]⟩
abbrev S128x128 : Shape := ⟨2, ![128, 128]⟩
abbrev S8192x8192 : Shape := ⟨2, ![8192, 8192]⟩
abbrev S512x256 : Shape := ⟨2, ![512, 256]⟩
abbrev S256 : Shape := ⟨1, ![256]⟩
abbrev S256x128 : Shape := ⟨2, ![256, 128]⟩
abbrev S128 : Shape := ⟨1, ![128]⟩
abbrev S256x2 : Shape := ⟨2, ![256, 2]⟩
abbrev S128x8 : Shape := ⟨2, ![128, 8]⟩
abbrev S8 : Shape := ⟨1, ![8]⟩
abbrev S262144 : Shape := ⟨1, ![262144]⟩
abbrev S_ : Shape := ⟨0, ![]⟩
abbrev S1x256 : Shape := ⟨2, ![1, 256]⟩
abbrev S8192x256 : Shape := ⟨2, ![8192, 256]⟩
abbrev S2048x512 : Shape := ⟨2, ![2048, 512]⟩
abbrev S2048x256 : Shape := ⟨2, ![2048, 256]⟩
abbrev S262144x1 : Shape := ⟨2, ![262144, 1]⟩
abbrev S262144x256 : Shape := ⟨2, ![262144, 256]⟩
abbrev S1x128 : Shape := ⟨2, ![1, 128]⟩
abbrev S8192x128 : Shape := ⟨2, ![8192, 128]⟩
abbrev S2048x128 : Shape := ⟨2, ![2048, 128]⟩
abbrev S262144x128 : Shape := ⟨2, ![262144, 128]⟩
abbrev S1024x2048 : Shape := ⟨2, ![1024, 2048]⟩
abbrev S1024x256 : Shape := ⟨2, ![1024, 256]⟩
abbrev S1024x128 : Shape := ⟨2, ![1024, 128]⟩
abbrev S8192x2 : Shape := ⟨2, ![8192, 2]⟩
abbrev S8192 : Shape := ⟨1, ![8192]⟩
abbrev S8192x8 : Shape := ⟨2, ![8192, 8]⟩
abbrev S1x8 : Shape := ⟨2, ![1, 8]⟩

abbrev nBuf : Space → Nat
  | .hbm => 131
  | .vmem => 44
  | .smem => 0
  | _ => 0

abbrev hbmTy0_0 (i : Nat) : BufTy := match i % 128 with
  | 0 => ⟨S8192x512, .f32⟩
  | 1 => ⟨S8192x1, .f32⟩
  | 2 => ⟨S256x256, .f32⟩
  | 3 => ⟨S128x128, .f32⟩
  | 4 => ⟨S256x256, .f32⟩
  | 5 => ⟨S128x128, .f32⟩
  | 6 => ⟨S8192x8192, .f32⟩
  | 7 => ⟨S512x256, .f32⟩
  | 8 => ⟨S256, .f32⟩
  | 9 => ⟨S256x128, .f32⟩
  | 10 => ⟨S128, .f32⟩
  | 11 => ⟨S512x256, .f32⟩
  | 12 => ⟨S256, .f32⟩
  | 13 => ⟨S256x128, .f32⟩
  | 14 => ⟨S128, .f32⟩
  | 15 => ⟨S256x2, .f32⟩
  | 16 => ⟨S128x8, .f32⟩
  | 17 => ⟨S8, .f32⟩
  | 18 => ⟨S262144, .i32⟩
  | 19 => ⟨S262144, .i32⟩
  | 20 => ⟨S512x256, .f32⟩
  | 21 => ⟨S256x128, .f32⟩
  | 22 => ⟨S512x256, .f32⟩
  | 23 => ⟨S256x128, .f32⟩
  | 24 => ⟨S_, .f32⟩
  | 25 => ⟨S1x256, .f32⟩
  | 26 => ⟨S8192x256, .f32⟩
  | 27 => ⟨S_, .i32⟩
  | 28 => ⟨S262144, .i32⟩
  | 29 => ⟨S262144, .i1⟩
  | 30 => ⟨S_, .i32⟩
  | 31 => ⟨S262144, .i32⟩
  | 32 => ⟨S262144, .i32⟩
  | 33 => ⟨S262144, .i32⟩
  | 34 => ⟨S262144x1, .i32⟩
  | 35 => ⟨S262144x256, .f32⟩
  | 36 => ⟨S_, .i32⟩
  | 37 => ⟨S262144, .i32⟩
  | 38 => ⟨S262144, .i1⟩
  | 39 => ⟨S_, .i32⟩
  | 40 => ⟨S262144, .i32⟩
  | 41 => ⟨S262144, .i32⟩
  | 42 => ⟨S262144, .i32⟩
  | 43 => ⟨S262144x1, .i32⟩
  | 44 => ⟨S262144x1, .f32⟩
  | 45 => ⟨S262144x256, .f32⟩
  | 46 => ⟨S262144x256, .f32⟩
  | 47 => ⟨S_, .f32⟩
  | 48 => ⟨S8192x256, .f32⟩
  | 49 => ⟨S262144x1, .i32⟩
  | 50 => ⟨S8192x256, .f32⟩
  | 51 => ⟨S8192x256, .f32⟩
  | 52 => ⟨S8192x256, .f32⟩
  | 53 => ⟨S1x256, .f32⟩
  | 54 => ⟨S8192x256, .f32⟩
  | 55 => ⟨S8192x256, .f32⟩
  | 56 => ⟨S_, .f32⟩
  | 57 => ⟨S8192x256, .f32⟩
  | 58 => ⟨S8192x256, .f32⟩
  | 59 => ⟨S_, .f32⟩
  | 60 => ⟨S1x128, .f32⟩
  | 61 => ⟨S8192x128, .f32⟩
  | 62 => ⟨S_, .i32⟩
  | 63 => ⟨S262144, .i32⟩
  | 64 => ⟨S262144, .i1⟩
  | 65 => ⟨S_, .i32⟩
  | 66 => ⟨S262144, .i32⟩
  | 67 => ⟨S262144, .i32⟩
  | 68 => ⟨S262144, .i32⟩
  | 69 => ⟨S262144x1, .i32⟩
  | 70 => ⟨S262144x128, .f32⟩
  | 71 => ⟨S_, .i32⟩
  | 72 => ⟨S262144, .i32⟩
  | 73 => ⟨S262144, .i1⟩
  | 74 => ⟨S_, .i32⟩
  | 75 => ⟨S262144, .i32⟩
  | 76 => ⟨S262144, .i32⟩
  | 77 => ⟨S262144, .i32⟩
  | 78 => ⟨S262144x1, .i32⟩
  | 79 => ⟨S262144x1, .f32⟩
  | 80 => ⟨S262144x128, .f32⟩
  | 81 => ⟨S262144x128, .f32⟩
  | 82 => ⟨S_, .f32⟩
  | 83 => ⟨S8192x128, .f32⟩
  | 84 => ⟨S262144x1, .i32⟩
  | 85 => ⟨S8192x128, .f32⟩
  | 86 => ⟨S8192x128, .f32⟩
  | 87 => ⟨S8192x128, .f32⟩
  | 88 => ⟨S1x128, .f32⟩
  | 89 => ⟨S8192x128, .f32⟩
  | 90 => ⟨S8192x128, .f32⟩
  | 91 => ⟨S_, .f32⟩
  | 92 => ⟨S8192x128, .f32⟩
  | 93 => ⟨S8192x128, .f32⟩
  | 94 => ⟨S_, .f32⟩
  | 95 => ⟨S1x256, .f32⟩
  | 96 => ⟨S8192x256, .f32⟩
  | 97 => ⟨S1x256, .f32⟩
  | 98 => ⟨S8192x256, .f32⟩
  | 99 => ⟨S_, .f32⟩
  | 100 => ⟨S1x128, .f32⟩
  | 101 => ⟨S8192x128, .f32⟩
  | 102 => ⟨S1x128, .f32⟩
  | 103 => ⟨S8192x128, .f32⟩
  | 104 => ⟨S8192x256, .f32⟩
  | 105 => ⟨S8192x2, .f32⟩
  | 106 => ⟨S_, .f32⟩
  | 107 => ⟨S8192, .f32⟩
  | 108 => ⟨S_, .f32⟩
  | 109 => ⟨S8192, .f32⟩
  | 110 => ⟨S8192, .f32⟩
  | 111 => ⟨S8192x1, .f32⟩
  | 112 => ⟨S8192x2, .f32⟩
  | 113 => ⟨S8192x2, .f32⟩
  | 114 => ⟨S8192x2, .f32⟩
  | 115 => ⟨S_, .f32⟩
  | 116 => ⟨S8192, .f32⟩
  | 117 => ⟨S8192x1, .f32⟩
  | 118 => ⟨S8192x2, .f32⟩
  | 119 => ⟨S8192x2, .f32⟩
  | 120 => ⟨S8192x1, .f32⟩
  | 121 => ⟨S8192x128, .f32⟩
  | 122 => ⟨S8192x128, .f32⟩
  | 123 => ⟨S8192x1, .f32⟩
  | 124 => ⟨S8192x128, .f32⟩
  | 125 => ⟨S8192x128, .f32⟩
  | 126 => ⟨S8192x128, .f32⟩
  | 127 => ⟨S8192x8, .f32⟩
  | _ => ⟨S8192x512, .f32⟩

abbrev hbmTy0_1 (i : Nat) : BufTy := match i % 128 with
  | 0 => ⟨S1x8, .f32⟩
  | 1 => ⟨S8192x8, .f32⟩
  | 2 => ⟨S8192x8, .f32⟩
  | _ => ⟨S8192x512, .f32⟩

abbrev hbmTy (i : Nat) : BufTy := match i / 128 with
  | 0 => hbmTy0_0 i
  | 1 => hbmTy0_1 i
  | _ => ⟨S8192x512, .f32⟩

abbrev bufTy : (tb : Table) → Fin (tcTables nBuf tb) → BufTy
  | .hbm, ⟨i, _⟩ => hbmTy i
  | .local _ .vmem, ⟨0, _⟩ => ⟨S2048x512, .f32⟩
  | .local _ .vmem, ⟨1, _⟩ => ⟨S2048x512, .f32⟩
  | .local _ .vmem, ⟨2, _⟩ => ⟨S512x256, .f32⟩
  | .local _ .vmem, ⟨3, _⟩ => ⟨S1x256, .f32⟩
  | .local _ .vmem, ⟨4, _⟩ => ⟨S2048x256, .f32⟩
  | .local _ .vmem, ⟨5, _⟩ => ⟨S2048x256, .f32⟩
  | .local _ .vmem, ⟨6, _⟩ => ⟨S2048x256, .f32⟩
  | .local _ .vmem, ⟨7, _⟩ => ⟨S2048x256, .f32⟩
  | .local _ .vmem, ⟨8, _⟩ => ⟨S2048x256, .f32⟩
  | .local _ .vmem, ⟨9, _⟩ => ⟨S256x128, .f32⟩
  | .local _ .vmem, ⟨10, _⟩ => ⟨S1x128, .f32⟩
  | .local _ .vmem, ⟨11, _⟩ => ⟨S2048x128, .f32⟩
  | .local _ .vmem, ⟨12, _⟩ => ⟨S2048x128, .f32⟩
  | .local _ .vmem, ⟨13, _⟩ => ⟨S2048x128, .f32⟩
  | .local _ .vmem, ⟨14, _⟩ => ⟨S2048x512, .f32⟩
  | .local _ .vmem, ⟨15, _⟩ => ⟨S2048x512, .f32⟩
  | .local _ .vmem, ⟨16, _⟩ => ⟨S512x256, .f32⟩
  | .local _ .vmem, ⟨17, _⟩ => ⟨S1x256, .f32⟩
  | .local _ .vmem, ⟨18, _⟩ => ⟨S2048x256, .f32⟩
  | .local _ .vmem, ⟨19, _⟩ => ⟨S2048x256, .f32⟩
  | .local _ .vmem, ⟨20, _⟩ => ⟨S2048x256, .f32⟩
  | .local _ .vmem, ⟨21, _⟩ => ⟨S1024x2048, .f32⟩
  | .local _ .vmem, ⟨22, _⟩ => ⟨S1024x2048, .f32⟩
  | .local _ .vmem, ⟨23, _⟩ => ⟨S2048x256, .f32⟩
  | .local _ .vmem, ⟨24, _⟩ => ⟨S2048x256, .f32⟩
  | .local _ .vmem, ⟨25, _⟩ => ⟨S1x256, .f32⟩
  | .local _ .vmem, ⟨26, _⟩ => ⟨S1024x256, .f32⟩
  | .local _ .vmem, ⟨27, _⟩ => ⟨S1024x256, .f32⟩
  | .local _ .vmem, ⟨28, _⟩ => ⟨S1024x256, .f32⟩
  | .local _ .vmem, ⟨29, _⟩ => ⟨S2048x256, .f32⟩
  | .local _ .vmem, ⟨30, _⟩ => ⟨S2048x256, .f32⟩
  | .local _ .vmem, ⟨31, _⟩ => ⟨S256x128, .f32⟩
  | .local _ .vmem, ⟨32, _⟩ => ⟨S1x128, .f32⟩
  | .local _ .vmem, ⟨33, _⟩ => ⟨S2048x128, .f32⟩
  | .local _ .vmem, ⟨34, _⟩ => ⟨S2048x128, .f32⟩
  | .local _ .vmem, ⟨35, _⟩ => ⟨S2048x128, .f32⟩
  | .local _ .vmem, ⟨36, _⟩ => ⟨S1024x2048, .f32⟩
  | .local _ .vmem, ⟨37, _⟩ => ⟨S1024x2048, .f32⟩
  | .local _ .vmem, ⟨38, _⟩ => ⟨S2048x128, .f32⟩
  | .local _ .vmem, ⟨39, _⟩ => ⟨S2048x128, .f32⟩
  | .local _ .vmem, ⟨40, _⟩ => ⟨S1x128, .f32⟩
  | .local _ .vmem, ⟨41, _⟩ => ⟨S1024x128, .f32⟩
  | .local _ .vmem, ⟨42, _⟩ => ⟨S1024x128, .f32⟩
  | .local _ .vmem, ⟨43, _⟩ => ⟨S1024x128, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_cst : Ref sig .tc := ⟨.hbm, 24, rfl⟩
abbrev main_v4 : Ref sig .tc := ⟨.hbm, 25, rfl⟩
abbrev main_v5 : Ref sig .tc := ⟨.hbm, 26, rfl⟩
abbrev main_c : Ref sig .tc := ⟨.hbm, 27, rfl⟩
abbrev main_v6 : Ref sig .tc := ⟨.hbm, 28, rfl⟩
abbrev main_v7 : Ref sig .tc := ⟨.hbm, 29, rfl⟩
abbrev main_c_0 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_c_1 : Ref sig .tc := ⟨.hbm, 36, rfl⟩
abbrev main_v13 : Ref sig .tc := ⟨.hbm, 37, rfl⟩
abbrev main_v14 : Ref sig .tc := ⟨.hbm, 38, rfl⟩
abbrev main_c_2 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_cst_3 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_call0_cst : Ref sig .tc := ⟨.hbm, 56, rfl⟩
abbrev main_call0_v0 : Ref sig .tc := ⟨.hbm, 57, rfl⟩
abbrev main_v30 : Ref sig .tc := ⟨.hbm, 58, rfl⟩
abbrev main_cst_4 : Ref sig .tc := ⟨.hbm, 59, rfl⟩
abbrev main_v31 : Ref sig .tc := ⟨.hbm, 60, rfl⟩
abbrev main_v32 : Ref sig .tc := ⟨.hbm, 61, rfl⟩
abbrev main_c_5 : Ref sig .tc := ⟨.hbm, 62, rfl⟩
abbrev main_v33 : Ref sig .tc := ⟨.hbm, 63, rfl⟩
abbrev main_v34 : Ref sig .tc := ⟨.hbm, 64, rfl⟩
abbrev main_c_6 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_c_7 : Ref sig .tc := ⟨.hbm, 71, rfl⟩
abbrev main_v40 : Ref sig .tc := ⟨.hbm, 72, rfl⟩
abbrev main_v41 : Ref sig .tc := ⟨.hbm, 73, rfl⟩
abbrev main_c_8 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_cst_9 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_call1_cst : Ref sig .tc := ⟨.hbm, 91, rfl⟩
abbrev main_call1_v0 : Ref sig .tc := ⟨.hbm, 92, rfl⟩
abbrev main_v57 : Ref sig .tc := ⟨.hbm, 93, rfl⟩
abbrev main_cst_10 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_cst_11 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_cst_12 : Ref sig .tc := ⟨.hbm, 106, rfl⟩
abbrev main_v68 : Ref sig .tc := ⟨.hbm, 107, rfl⟩
abbrev main_cst_13 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_cst_14 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc1_scratch0 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg3_1 : Ref sig .tc := ⟨.vmem, 19, rfl⟩
abbrev cc2_scratch0 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc3_scratch0 : Ref sig .tc := ⟨.vmem, 28, rfl⟩
abbrev cc4_stg0_0 : Ref sig .tc := ⟨.vmem, 29, rfl⟩
abbrev cc4_stg0_1 : Ref sig .tc := ⟨.vmem, 30, rfl⟩
abbrev cc4_stg1_0 : Ref sig .tc := ⟨.vmem, 31, rfl⟩
abbrev cc4_stg2_0 : Ref sig .tc := ⟨.vmem, 32, rfl⟩
abbrev cc4_stg3_0 : Ref sig .tc := ⟨.vmem, 33, rfl⟩
abbrev cc4_stg3_1 : Ref sig .tc := ⟨.vmem, 34, rfl⟩
abbrev cc4_scratch0 : Ref sig .tc := ⟨.vmem, 35, rfl⟩
abbrev cc5_stg0_0 : Ref sig .tc := ⟨.vmem, 36, rfl⟩
abbrev cc5_stg0_1 : Ref sig .tc := ⟨.vmem, 37, rfl⟩
abbrev cc5_stg1_0 : Ref sig .tc := ⟨.vmem, 38, rfl⟩
abbrev cc5_stg1_1 : Ref sig .tc := ⟨.vmem, 39, rfl⟩
abbrev cc5_stg2_0 : Ref sig .tc := ⟨.vmem, 40, rfl⟩
abbrev cc5_stg3_0 : Ref sig .tc := ⟨.vmem, 41, rfl⟩
abbrev cc5_stg3_1 : Ref sig .tc := ⟨.vmem, 42, rfl⟩
abbrev cc5_scratch0 : Ref sig .tc := ⟨.vmem, 43, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem3_0 : DmaSem sig := 23
abbrev cc3_sem3_1 : DmaSem sig := 24
abbrev cc4_sem0_0 : DmaSem sig := 25
abbrev cc4_sem0_1 : DmaSem sig := 26
abbrev cc4_sem1_0 : DmaSem sig := 27
abbrev cc4_sem2_0 : DmaSem sig := 28
abbrev cc4_sem3_0 : DmaSem sig := 29
abbrev cc4_sem3_1 : DmaSem sig := 30
abbrev cc5_sem0_0 : DmaSem sig := 31
abbrev cc5_sem0_1 : DmaSem sig := 32
abbrev cc5_sem1_0 : DmaSem sig := 33
abbrev cc5_sem1_1 : DmaSem sig := 34
abbrev cc5_sem2_0 : DmaSem sig := 35
abbrev cc5_sem3_0 : DmaSem sig := 36
abbrev cc5_sem3_1 : DmaSem sig := 37

abbrev nD : Nat := 1
abbrev τ : Topo := Topo.v7x

variable {F : FTy → Type} [FloatOps F]

abbrev grid0 : Pipeline.Grid := ⟨3, ![4, 1, 1], ![false, false, false]⟩

def k0_cond2 (i : grid0.Coords) : BitVec 1 :=
  let arg2 : BitVec 32 := BitVec.ofNat 32 (i 2).val
  let c0_i32_8 : BitVec 32 := 0#32
  let v14 : BitVec 1 := Scalar.cmpi .eq arg2 c0_i32_8
  let v15 : BitVec 32 := Scalar.extui v14
  let c0_i32_9 : BitVec 32 := 0#32
  let v16 : BitVec 1 := Scalar.cmpi .ne v15 c0_i32_9
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true, false]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev grid1 : Pipeline.Grid := ⟨3, ![4, 1, 1], ![false, false, false]⟩

def k1_cond2 (i : grid1.Coords) : BitVec 1 :=
  let arg2 : BitVec 32 := BitVec.ofNat 32 (i 2).val
  let c0_i32_8 : BitVec 32 := 0#32
  let v15 : BitVec 1 := Scalar.cmpi .eq arg2 c0_i32_8
  let v16 : BitVec 32 := Scalar.extui v15
  let c0_i32_9 : BitVec 32 := 0#32
  let v17 : BitVec 1 := Scalar.cmpi .ne v16 c0_i32_9
  v17

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S2048x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 1 → Memref sig .tc .vmem S256x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true, true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, true, false]

abbrev stage1_3 : Fin 2 → Memref sig .tc .vmem S2048x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev grid2 : Pipeline.Grid := ⟨3, ![4, 1, 1], ![false, false, false]⟩

def k2_cond2 (i : grid2.Coords) : BitVec 1 :=
  let arg2 : BitVec 32 := BitVec.ofNat 32 (i 2).val
  let c0_i32_8 : BitVec 32 := 0#32
  let v14 : BitVec 1 := Scalar.cmpi .eq arg2 c0_i32_8
  let v15 : BitVec 32 := Scalar.extui v14
  let c0_i32_9 : BitVec 32 := 0#32
  let v16 : BitVec 1 := Scalar.cmpi .ne v15 c0_i32_9
  v16

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S2048x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 1 → Memref sig .tc .vmem S512x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true, true]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, true, false]

abbrev stage2_3 : Fin 2 → Memref sig .tc .vmem S2048x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, false]

abbrev grid3 : Pipeline.Grid := ⟨3, ![8, 1, 4], ![false, false, false]⟩

def k3_cond2 (i : grid3.Coords) : BitVec 1 :=
  let arg2 : BitVec 32 := BitVec.ofNat 32 (i 2).val
  let c3_i32 : BitVec 32 := 3#32
  let v14 : BitVec 1 := Scalar.cmpi .eq arg2 c3_i32
  let v15 : BitVec 32 := Scalar.extui v14
  let c0_i32_8 : BitVec 32 := 0#32
  let v16 : BitVec 1 := Scalar.cmpi .ne v15 c0_i32_8
  v16

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc3_transform_3 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S1024x2048 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S2048x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false, true, false]

abbrev stage3_3 : Fin 2 → Memref sig .tc .vmem S1024x256 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true, false]

abbrev grid4 : Pipeline.Grid := ⟨3, ![4, 1, 1], ![false, false, false]⟩

def k4_cond2 (i : grid4.Coords) : BitVec 1 :=
  let arg2 : BitVec 32 := BitVec.ofNat 32 (i 2).val
  let c0_i32_8 : BitVec 32 := 0#32
  let v15 : BitVec 1 := Scalar.cmpi .eq arg2 c0_i32_8
  let v16 : BitVec 32 := Scalar.extui v15
  let c0_i32_9 : BitVec 32 := 0#32
  let v17 : BitVec 1 := Scalar.cmpi .ne v16 c0_i32_9
  v17

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc4_transform_3 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 2 → Memref sig .tc .vmem S2048x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 1 → Memref sig .tc .vmem S256x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, true, true]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false, true, false]

abbrev stage4_3 : Fin 2 → Memref sig .tc .vmem S2048x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, true, false]

abbrev grid5 : Pipeline.Grid := ⟨3, ![8, 1, 4], ![false, false, false]⟩

def k5_cond2 (i : grid5.Coords) : BitVec 1 :=
  let arg2 : BitVec 32 := BitVec.ofNat 32 (i 2).val
  let c3_i32 : BitVec 32 := 3#32
  let v14 : BitVec 1 := Scalar.cmpi .eq arg2 c3_i32
  let v15 : BitVec 32 := Scalar.extui v14
  let c0_i32_8 : BitVec 32 := 0#32
  let v16 : BitVec 1 := Scalar.cmpi .ne v15 c0_i32_8
  v16

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc5_transform_3 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage5_0 : Fin 2 → Memref sig .tc .vmem S1024x2048 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false, true]

abbrev stage5_1 : Fin 2 → Memref sig .tc .vmem S2048x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true, true]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false, true, false]

abbrev stage5_3 : Fin 2 → Memref sig .tc .vmem S1024x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true, true, false]

class Facts₀ : Prop where
  bcast_S_S1x256 : S_.BroadcastsInDim S1x256 (![] : Fin 0 → Fin S1x256.rank)
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S2048x512_S2048x512_0_0 : ∀ a, (![0, 0] : Fin 2 → Nat) a + S2048x512.size a ≤ S2048x512.size a
  h_S2048x512 : 0 < S2048x512.numel
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  shapeCasts_S512x256_S512x256 : S512x256.ShapeCasts S512x256
  bcast_S_S262144 : S_.BroadcastsInDim S262144 (![] : Fin 0 → Fin S262144.rank)
  bcast_S262144_S262144x1_0 : S262144.BroadcastsInDim S262144x1 (![0] : Fin 1 → Fin S262144x1.rank)
  bcast_S262144x1_S262144x256_0_1 : S262144x1.BroadcastsInDim S262144x256 (![0, 1] : Fin 2 → Fin S262144x256.rank)
  bcast_S_S8192x256 : S_.BroadcastsInDim S8192x256 (![] : Fin 0 → Fin S8192x256.rank)
  bcast_S8192x1_S8192x256_0_1 : S8192x1.BroadcastsInDim S8192x256 (![0, 1] : Fin 2 → Fin S8192x256.rank)
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  bcast_S_S1x128 : S_.BroadcastsInDim S1x128 (![] : Fin 0 → Fin S1x128.rank)
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S256x128_S256x128_0_0 : ∀ a, (![0, 0] : Fin 2 → Nat) a + S256x128.size a ≤ S256x128.size a
  h_S256x128 : 0 < S256x128.numel
  shapeCasts_S256x128_S256x128 : S256x128.ShapeCasts S256x128
  bcast_S262144x1_S262144x128_0_1 : S262144x1.BroadcastsInDim S262144x128 (![0, 1] : Fin 2 → Fin S262144x128.rank)
  bcast_S_S8192x128 : S_.BroadcastsInDim S8192x128 (![] : Fin 0 → Fin S8192x128.rank)
  bcast_S8192x1_S8192x128_0_1 : S8192x1.BroadcastsInDim S8192x128 (![0, 1] : Fin 2 → Fin S8192x128.rank)
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  shapeCasts_S256_S1x256 : S256.ShapeCasts S1x256
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1024x2048_S1024x2048_0_0 : ∀ a, (![0, 0] : Fin 2 → Nat) a + S1024x2048.size a ≤ S1024x2048.size a
  h_S1024x2048 : 0 < S1024x2048.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  shapeCasts_S128_S1x128 : S128.ShapeCasts S1x128
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  concatenates_S8192x128_S8192x128_S8192x256_d1 : Shape.Concatenates [S8192x128, S8192x128] S8192x256 1
  reducesTo_S8192x2_S8192_d1 : S8192x2.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x2_0_1 : S8192x1.BroadcastsInDim S8192x2 (![0, 1] : Fin 2 → Fin S8192x2.rank)
  slices_S8192x2_S8192x1_0_0 : S8192x2.Slices ![0, 0] S8192x1
  slices_S8192x2_S8192x1_0_1 : S8192x2.Slices ![0, 1] S8192x1
  bcast_S8_S1x8_1 : S8.BroadcastsInDim S1x8 (![1] : Fin 1 → Fin S1x8.rank)
  bcast_S1x8_S8192x8_0_1 : S1x8.BroadcastsInDim S8192x8 (![0, 1] : Fin 2 → Fin S8192x8.rank)
  dot_S512x256_S256x256_S512x256_1_0_0_1_n_n_wf : DotDims.WF S512x256 S256x256 S512x256 [1] [0] [0] [1] [] []
  dot_S256x128_S128x128_S256x128_1_0_0_1_n_n_wf : DotDims.WF S256x128 S128x128 S256x128 [1] [0] [0] [1] [] []
  dot_S2048x512_S512x256_S2048x256_1_0_0_1_n_n_wf : DotDims.WF S2048x512 S512x256 S2048x256 [1] [0] [0] [1] [] []
  gather_S8192x256_S262144x1_S262144x256_1_0_n_n_0_1_1256_wf : GatherDims.WF S8192x256 S262144x1 S262144x256 [1] [0] [] [0] [] 1 ![1, 256]
  gather_S8192x1_S262144x1_S262144x1_1_0_n_n_0_1_11_wf : GatherDims.WF S8192x1 S262144x1 S262144x1 [1] [0] [] [0] [] 1 ![1, 1]
  scatter_S8192x256_S262144x1_S262144x256_1_0_0_1_wf : ScatterDims.WF S8192x256 S262144x1 S262144x256 [1] [0] [0] 1
  dot_S2048x256_S256x128_S2048x128_1_0_0_1_n_n_wf : DotDims.WF S2048x256 S256x128 S2048x128 [1] [0] [0] [1] [] []
  gather_S8192x128_S262144x1_S262144x128_1_0_n_n_0_1_1128_wf : GatherDims.WF S8192x128 S262144x1 S262144x128 [1] [0] [] [0] [] 1 ![1, 128]
  scatter_S8192x128_S262144x1_S262144x128_1_0_0_1_wf : ScatterDims.WF S8192x128 S262144x1 S262144x128 [1] [0] [0] 1
  dot_S1024x2048_S2048x256_S1024x256_1_0_0_1_n_n_wf : DotDims.WF S1024x2048 S2048x256 S1024x256 [1] [0] [0] [1] [] []
  dot_S1024x2048_S2048x128_S1024x128_1_0_0_1_n_n_wf : DotDims.WF S1024x2048 S2048x128 S1024x128 [1] [0] [0] [1] [] []
  dot_S8192x256_S256x2_S8192x2_1_0_0_1_n_n_wf : DotDims.WF S8192x256 S256x2 S8192x2 [1] [0] [0] [1] [] []
  dot_S8192x128_S128x8_S8192x8_1_0_0_1_n_n_wf : DotDims.WF S8192x128 S128x8 S8192x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S8192x512.size a
  hwx0_0 : ∀ i : grid0.Coords, EltTy.bits .f32 = 32 ∨ (Rect.block (s := S8192x512) S2048x512.size (cc0_transform_0 i) (hinb0_0 i)).WholeWords (EltTy.packing .f32)
  hstage0_1 : ∀ j, (stage0_1 j).IsWhole
  nbuf0_1 : grid0.bufCount reads0_1 false = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 false = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x256.size a ≤ S8192x256.size a
  hwx0_3 : ∀ i : grid0.Coords, EltTy.bits .f32 = 32 ∨ (Rect.block (s := S8192x256) S2048x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x256.size a ≤ S8192x256.size a
  hwx1_0 : ∀ i : grid1.Coords, EltTy.bits .f32 = 32 ∨ (Rect.block (s := S8192x256) S2048x256.size (cc1_transform_0 i) (hinb1_0 i)).WholeWords (EltTy.packing .f32)
  hstage1_1 : ∀ j, (stage1_1 j).IsWhole
  nbuf1_1 : grid1.bufCount reads1_1 false = 1
  hreads1_1 : ∀ i i' : grid1.Coords, (∀ a, reads1_1 a = true → i a = i' a) → cc1_transform_1 i = cc1_transform_1 i'
  hinb1_1 : ∀ (i : grid1.Coords) a, (cc1_transform_1 i a + 1) * S256x128.size a ≤ S256x128.size a
  hwx1_1 : ∀ i : grid1.Coords, EltTy.bits .f32 = 32 ∨ (Rect.block (s := S256x128) S256x128.size (cc1_transform_1 i) (hinb1_1 i)).WholeWords (EltTy.packing .f32)
  hstage1_2 : ∀ j, (stage1_2 j).IsWhole
  nbuf1_2 : grid1.bufCount reads1_2 false = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x128.size a ≤ S8192x128.size a
  hwx1_3 : ∀ i : grid1.Coords, EltTy.bits .f32 = 32 ∨ (Rect.block (s := S8192x128) S2048x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x512.size a ≤ S8192x512.size a
  hwx2_0 : ∀ i : grid2.Coords, EltTy.bits .f32 = 32 ∨ (Rect.block (s := S8192x512) S2048x512.size (cc2_transform_0 i) (hinb2_0 i)).WholeWords (EltTy.packing .f32)
  hstage2_1 : ∀ j, (stage2_1 j).IsWhole
  nbuf2_1 : grid2.bufCount reads2_1 false = 1
  hreads2_1 : ∀ i i' : grid2.Coords, (∀ a, reads2_1 a = true → i a = i' a) → cc2_transform_1 i = cc2_transform_1 i'
  hinb2_1 : ∀ (i : grid2.Coords) a, (cc2_transform_1 i a + 1) * S512x256.size a ≤ S512x256.size a
  hwx2_1 : ∀ i : grid2.Coords, EltTy.bits .f32 = 32 ∨ (Rect.block (s := S512x256) S512x256.size (cc2_transform_1 i) (hinb2_1 i)).WholeWords (EltTy.packing .f32)
  hstage2_2 : ∀ j, (stage2_2 j).IsWhole
  nbuf2_2 : grid2.bufCount reads2_2 false = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2048x256.size a ≤ S8192x256.size a
  hwx2_3 : ∀ i : grid2.Coords, EltTy.bits .f32 = 32 ∨ (Rect.block (s := S8192x256) S2048x256.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x2048.size a ≤ S8192x8192.size a
  hwx3_0 : ∀ i : grid3.Coords, EltTy.bits .f32 = 32 ∨ (Rect.block (s := S8192x8192) S1024x2048.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2048x256.size a ≤ S8192x256.size a
  hwx3_1 : ∀ i : grid3.Coords, EltTy.bits .f32 = 32 ∨ (Rect.block (s := S8192x256) S2048x256.size (cc3_transform_1 i) (hinb3_1 i)).WholeWords (EltTy.packing .f32)
  hstage3_2 : ∀ j, (stage3_2 j).IsWhole
  nbuf3_2 : grid3.bufCount reads3_2 false = 1
  hreads3_2 : ∀ i i' : grid3.Coords, (∀ a, reads3_2 a = true → i a = i' a) → cc3_transform_2 i = cc3_transform_2 i'
  hinb3_2 : ∀ (i : grid3.Coords) a, (cc3_transform_2 i a + 1) * S1x256.size a ≤ S1x256.size a
  hwx3_2 : ∀ i : grid3.Coords, EltTy.bits .f32 = 32 ∨ (Rect.block (s := S1x256) S1x256.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1024x256.size a ≤ S8192x256.size a
  hwx3_3 : ∀ i : grid3.Coords, EltTy.bits .f32 = 32 ∨ (Rect.block (s := S8192x256) S1024x256.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2048x256.size a ≤ S8192x256.size a
  hwx4_0 : ∀ i : grid4.Coords, EltTy.bits .f32 = 32 ∨ (Rect.block (s := S8192x256) S2048x256.size (cc4_transform_0 i) (hinb4_0 i)).WholeWords (EltTy.packing .f32)
  hstage4_1 : ∀ j, (stage4_1 j).IsWhole
  nbuf4_1 : grid4.bufCount reads4_1 false = 1
  hreads4_1 : ∀ i i' : grid4.Coords, (∀ a, reads4_1 a = true → i a = i' a) → cc4_transform_1 i = cc4_transform_1 i'
  hinb4_1 : ∀ (i : grid4.Coords) a, (cc4_transform_1 i a + 1) * S256x128.size a ≤ S256x128.size a
  hwx4_1 : ∀ i : grid4.Coords, EltTy.bits .f32 = 32 ∨ (Rect.block (s := S256x128) S256x128.size (cc4_transform_1 i) (hinb4_1 i)).WholeWords (EltTy.packing .f32)
  hstage4_2 : ∀ j, (stage4_2 j).IsWhole
  nbuf4_2 : grid4.bufCount reads4_2 false = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2048x128.size a ≤ S8192x128.size a
  hwx4_3 : ∀ i : grid4.Coords, EltTy.bits .f32 = 32 ∨ (Rect.block (s := S8192x128) S2048x128.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1024x2048.size a ≤ S8192x8192.size a
  hwx5_0 : ∀ i : grid5.Coords, EltTy.bits .f32 = 32 ∨ (Rect.block (s := S8192x8192) S1024x2048.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2048x128.size a ≤ S8192x128.size a
  hwx5_1 : ∀ i : grid5.Coords, EltTy.bits .f32 = 32 ∨ (Rect.block (s := S8192x128) S2048x128.size (cc5_transform_1 i) (hinb5_1 i)).WholeWords (EltTy.packing .f32)
  hstage5_2 : ∀ j, (stage5_2 j).IsWhole
  nbuf5_2 : grid5.bufCount reads5_2 false = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S1024x128.size a ≤ S8192x128.size a
  hwx5_3 : ∀ i : grid5.Coords, EltTy.bits .f32 = 32 ∨ (Rect.block (s := S8192x128) S1024x128.size (cc5_transform_3 i) (hinb5_3 i)).WholeWords (EltTy.packing .f32)

variable [Facts₀]

def dot_S512x256_S256x256_S512x256_1_0_0_1_n_n : DotDims S512x256 S256x256 S512x256 where
  lhsContracting := [1]
  rhsContracting := [0]
  lhsNonContracting := [0]
  rhsNonContracting := [1]
  lhsBatch := []
  rhsBatch := []
  wf := dot_S512x256_S256x256_S512x256_1_0_0_1_n_n_wf
def dot_S256x128_S128x128_S256x128_1_0_0_1_n_n : DotDims S256x128 S128x128 S256x128 where
  lhsContracting := [1]
  rhsContracting := [0]
  lhsNonContracting := [0]
  rhsNonContracting := [1]
  lhsBatch := []
  rhsBatch := []
  wf := dot_S256x128_S128x128_S256x128_1_0_0_1_n_n_wf
def dot_S2048x512_S512x256_S2048x256_1_0_0_1_n_n : DotDims S2048x512 S512x256 S2048x256 where
  lhsContracting := [1]
  rhsContracting := [0]
  lhsNonContracting := [0]
  rhsNonContracting := [1]
  lhsBatch := []
  rhsBatch := []
  wf := dot_S2048x512_S512x256_S2048x256_1_0_0_1_n_n_wf
def gather_S8192x256_S262144x1_S262144x256_1_0_n_n_0_1_1256 : GatherDims S8192x256 S262144x1 S262144x256 where
  offsetDims := [1]
  collapsedSliceDims := [0]
  operandBatchingDims := []
  startIndicesBatchingDims := []
  startIndexMap := [0]
  indexVectorDim := 1
  sliceSizes := ![1, 256]
  wf := gather_S8192x256_S262144x1_S262144x256_1_0_n_n_0_1_1256_wf
def gather_S8192x1_S262144x1_S262144x1_1_0_n_n_0_1_11 : GatherDims S8192x1 S262144x1 S262144x1 where
  offsetDims := [1]
  collapsedSliceDims := [0]
  operandBatchingDims := []
  startIndicesBatchingDims := []
  startIndexMap := [0]
  indexVectorDim := 1
  sliceSizes := ![1, 1]
  wf := gather_S8192x1_S262144x1_S262144x1_1_0_n_n_0_1_11_wf
def scatter_S8192x256_S262144x1_S262144x256_1_0_0_1 : ScatterDims S8192x256 S262144x1 S262144x256 where
  updateWindowDims := [1]
  insertedWindowDims := [0]
  scatterDimsToOperandDims := [0]
  indexVectorDim := 1
  wf := scatter_S8192x256_S262144x1_S262144x256_1_0_0_1_wf
def dot_S2048x256_S256x128_S2048x128_1_0_0_1_n_n : DotDims S2048x256 S256x128 S2048x128 where
  lhsContracting := [1]
  rhsContracting := [0]
  lhsNonContracting := [0]
  rhsNonContracting := [1]
  lhsBatch := []
  rhsBatch := []
  wf := dot_S2048x256_S256x128_S2048x128_1_0_0_1_n_n_wf
def gather_S8192x128_S262144x1_S262144x128_1_0_n_n_0_1_1128 : GatherDims S8192x128 S262144x1 S262144x128 where
  offsetDims := [1]
  collapsedSliceDims := [0]
  operandBatchingDims := []
  startIndicesBatchingDims := []
  startIndexMap := [0]
  indexVectorDim := 1
  sliceSizes := ![1, 128]
  wf := gather_S8192x128_S262144x1_S262144x128_1_0_n_n_0_1_1128_wf
def scatter_S8192x128_S262144x1_S262144x128_1_0_0_1 : ScatterDims S8192x128 S262144x1 S262144x128 where
  updateWindowDims := [1]
  insertedWindowDims := [0]
  scatterDimsToOperandDims := [0]
  indexVectorDim := 1
  wf := scatter_S8192x128_S262144x1_S262144x128_1_0_0_1_wf
def dot_S1024x2048_S2048x256_S1024x256_1_0_0_1_n_n : DotDims S1024x2048 S2048x256 S1024x256 where
  lhsContracting := [1]
  rhsContracting := [0]
  lhsNonContracting := [0]
  rhsNonContracting := [1]
  lhsBatch := []
  rhsBatch := []
  wf := dot_S1024x2048_S2048x256_S1024x256_1_0_0_1_n_n_wf
def dot_S1024x2048_S2048x128_S1024x128_1_0_0_1_n_n : DotDims S1024x2048 S2048x128 S1024x128 where
  lhsContracting := [1]
  rhsContracting := [0]
  lhsNonContracting := [0]
  rhsNonContracting := [1]
  lhsBatch := []
  rhsBatch := []
  wf := dot_S1024x2048_S2048x128_S1024x128_1_0_0_1_n_n_wf
def dot_S8192x256_S256x2_S8192x2_1_0_0_1_n_n : DotDims S8192x256 S256x2 S8192x2 where
  lhsContracting := [1]
  rhsContracting := [0]
  lhsNonContracting := [0]
  rhsNonContracting := [1]
  lhsBatch := []
  rhsBatch := []
  wf := dot_S8192x256_S256x2_S8192x2_1_0_0_1_n_n_wf
def dot_S8192x128_S128x8_S8192x8_1_0_0_1_n_n : DotDims S8192x128 S128x8 S8192x8 where
  lhsContracting := [1]
  rhsContracting := [0]
  lhsNonContracting := [0]
  rhsNonContracting := [1]
  lhsBatch := []
  rhsBatch := []
  wf := dot_S8192x128_S128x8_S8192x8_1_0_0_1_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x256.size cc0_transform_1 reads0_1 false false 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x256.size cc0_transform_2 reads0_2 false false 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S2048x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v30) S2048x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S256x128.size cc1_transform_1 reads1_1 false false 1 stage1_1 sem1_1
    hrank1 hreads1_1 hinb1_1 nbuf1_1 (Memref.isWhole_whole _) hwx1_1 hstage1_1

abbrev win1_2 : Pipeline.Window sig grid1 :=
  Pipeline.Window.ofSpec (Memref.whole main_v31) S1x128.size cc1_transform_2 reads1_2 false false 1 stage1_2 sem1_2
    hrank1 hreads1_2 hinb1_2 nbuf1_2 (Memref.isWhole_whole _) hwx1_2 hstage1_2

abbrev win1_3 : Pipeline.Window sig grid1 :=
  Pipeline.Window.ofSpec (Memref.whole main_v32) S2048x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_arg0) S2048x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2) S512x256.size cc2_transform_1 reads2_1 false false 1 stage2_1 sem2_1
    hrank2 hreads2_1 hinb2_1 nbuf2_1 (Memref.isWhole_whole _) hwx2_1 hstage2_1

abbrev win2_2 : Pipeline.Window sig grid2 :=
  Pipeline.Window.ofSpec (Memref.whole main_v58) S1x256.size cc2_transform_2 reads2_2 false false 1 stage2_2 sem2_2
    hrank2 hreads2_2 hinb2_2 nbuf2_2 (Memref.isWhole_whole _) hwx2_2 hstage2_2

abbrev win2_3 : Pipeline.Window sig grid2 :=
  Pipeline.Window.ofSpec (Memref.whole main_v59) S2048x256.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

abbrev win3_0 : Pipeline.Window sig grid3 :=
  Pipeline.Window.ofSpec (Memref.whole main_arg6) S1024x2048.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v59) S2048x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v60) S1x256.size cc3_transform_2 reads3_2 false false 1 stage3_2 sem3_2
    hrank3 hreads3_2 hinb3_2 nbuf3_2 (Memref.isWhole_whole _) hwx3_2 hstage3_2

abbrev win3_3 : Pipeline.Window sig grid3 :=
  Pipeline.Window.ofSpec (Memref.whole main_v61) S1024x256.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev idle3 : Fin 4 → grid3.Coords → Bool := fun | 0 => fun _ => false | 1 => fun _ => false | 2 => fun _ => false | 3 => fun i => !(k3_cond2 i == 1#1) | ⟨_ + 4, h⟩ => absurd h (Nat.not_lt.2 (Nat.le_add_left _ _))

abbrev win4_0 : Pipeline.Window sig grid4 :=
  Pipeline.Window.ofSpec (Memref.whole main_v61) S2048x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v3) S256x128.size cc4_transform_1 reads4_1 false false 1 stage4_1 sem4_1
    hrank4 hreads4_1 hinb4_1 nbuf4_1 (Memref.isWhole_whole _) hwx4_1 hstage4_1

abbrev win4_2 : Pipeline.Window sig grid4 :=
  Pipeline.Window.ofSpec (Memref.whole main_v62) S1x128.size cc4_transform_2 reads4_2 false false 1 stage4_2 sem4_2
    hrank4 hreads4_2 hinb4_2 nbuf4_2 (Memref.isWhole_whole _) hwx4_2 hstage4_2

abbrev win4_3 : Pipeline.Window sig grid4 :=
  Pipeline.Window.ofSpec (Memref.whole main_v63) S2048x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev idle4 : Fin 4 → grid4.Coords → Bool := fun | 0 => fun _ => false | 1 => fun _ => false | 2 => fun _ => false | 3 => fun i => !(k4_cond2 i == 1#1) | ⟨_ + 4, h⟩ => absurd h (Nat.not_lt.2 (Nat.le_add_left _ _))

abbrev win5_0 : Pipeline.Window sig grid5 :=
  Pipeline.Window.ofSpec (Memref.whole main_arg6) S1024x2048.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v63) S2048x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v64) S1x128.size cc5_transform_2 reads5_2 false false 1 stage5_2 sem5_2
    hrank5 hreads5_2 hinb5_2 nbuf5_2 (Memref.isWhole_whole _) hwx5_2 hstage5_2

abbrev win5_3 : Pipeline.Window sig grid5 :=
  Pipeline.Window.ofSpec (Memref.whole main_v65) S1024x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev idle5 : Fin 4 → grid5.Coords → Bool := fun | 0 => fun _ => false | 1 => fun _ => false | 2 => fun _ => false | 3 => fun i => !(k5_cond2 i == 1#1) | ⟨_ + 4, h⟩ => absurd h (Nat.not_lt.2 (Nat.le_add_left _ _))

class Facts : Prop extends Facts₀ where

variable [Facts]
-- ==== ReferenceIdeal.lean ====
abbrev S8192x512 : Shape := ⟨2, ![8192, 512]⟩
abbrev S8192x1 : Shape := ⟨2, ![8192, 1]⟩
abbrev S256x256 : Shape := ⟨2, ![256, 256]⟩
abbrev S128x128 : Shape := ⟨2, ![128, 128]⟩
abbrev S8192x8192 : Shape := ⟨2, ![8192, 8192]⟩
abbrev S512x256 : Shape := ⟨2, ![512, 256]⟩
abbrev S256 : Shape := ⟨1, ![256]⟩
abbrev S256x128 : Shape := ⟨2, ![256, 128]⟩
abbrev S128 : Shape := ⟨1, ![128]⟩
abbrev S256x2 : Shape := ⟨2, ![256, 2]⟩
abbrev S128x8 : Shape := ⟨2, ![128, 8]⟩
abbrev S8 : Shape := ⟨1, ![8]⟩
abbrev S262144 : Shape := ⟨1, ![262144]⟩
abbrev S8192x256 : Shape := ⟨2, ![8192, 256]⟩
abbrev S_ : Shape := ⟨0, ![]⟩
abbrev S262144x1 : Shape := ⟨2, ![262144, 1]⟩
abbrev S262144x256 : Shape := ⟨2, ![262144, 256]⟩
abbrev S1x256 : Shape := ⟨2, ![1, 256]⟩
abbrev S8192x128 : Shape := ⟨2, ![8192, 128]⟩
abbrev S262144x128 : Shape := ⟨2, ![262144, 128]⟩
abbrev S1x128 : Shape := ⟨2, ![1, 128]⟩
abbrev S8192x2 : Shape := ⟨2, ![8192, 2]⟩
abbrev S8192 : Shape := ⟨1, ![8192]⟩
abbrev S8192x8 : Shape := ⟨2, ![8192, 8]⟩
abbrev S1x8 : Shape := ⟨2, ![1, 8]⟩

abbrev nBuf : Space → Nat
  | .hbm => 133
  | .vmem => 0
  | .smem => 0
  | _ => 0

abbrev hbmTy0_0 (i : Nat) : BufTy := match i % 128 with
  | 0 => ⟨S8192x512, .f32⟩
  | 1 => ⟨S8192x1, .f32⟩
  | 2 => ⟨S256x256, .f32⟩
  | 3 => ⟨S128x128, .f32⟩
  | 4 => ⟨S256x256, .f32⟩
  | 5 => ⟨S128x128, .f32⟩
  | 6 => ⟨S8192x8192, .f32⟩
  | 7 => ⟨S512x256, .f32⟩
  | 8 => ⟨S256, .f32⟩
  | 9 => ⟨S256x128, .f32⟩
  | 10 => ⟨S128, .f32⟩
  | 11 => ⟨S512x256, .f32⟩
  | 12 => ⟨S256, .f32⟩
  | 13 => ⟨S256x128, .f32⟩
  | 14 => ⟨S128, .f32⟩
  | 15 => ⟨S256x2, .f32⟩
  | 16 => ⟨S128x8, .f32⟩
  | 17 => ⟨S8, .f32⟩
  | 18 => ⟨S262144, .i32⟩
  | 19 => ⟨S262144, .i32⟩
  | 20 => ⟨S512x256, .f32⟩
  | 21 => ⟨S8192x256, .f32⟩
  | 22 => ⟨S_, .i32⟩
  | 23 => ⟨S262144, .i32⟩
  | 24 => ⟨S262144, .i1⟩
  | 25 => ⟨S_, .i32⟩
  | 26 => ⟨S262144, .i32⟩
  | 27 => ⟨S262144, .i32⟩
  | 28 => ⟨S262144, .i32⟩
  | 29 => ⟨S262144x1, .i32⟩
  | 30 => ⟨S262144x256, .f32⟩
  | 31 => ⟨S_, .i32⟩
  | 32 => ⟨S262144, .i32⟩
  | 33 => ⟨S262144, .i1⟩
  | 34 => ⟨S_, .i32⟩
  | 35 => ⟨S262144, .i32⟩
  | 36 => ⟨S262144, .i32⟩
  | 37 => ⟨S262144, .i32⟩
  | 38 => ⟨S262144x1, .i32⟩
  | 39 => ⟨S262144x1, .f32⟩
  | 40 => ⟨S262144x256, .f32⟩
  | 41 => ⟨S262144x256, .f32⟩
  | 42 => ⟨S_, .f32⟩
  | 43 => ⟨S8192x256, .f32⟩
  | 44 => ⟨S262144x1, .i32⟩
  | 45 => ⟨S8192x256, .f32⟩
  | 46 => ⟨S8192x256, .f32⟩
  | 47 => ⟨S8192x256, .f32⟩
  | 48 => ⟨S1x256, .f32⟩
  | 49 => ⟨S8192x256, .f32⟩
  | 50 => ⟨S8192x256, .f32⟩
  | 51 => ⟨S_, .f32⟩
  | 52 => ⟨S8192x256, .f32⟩
  | 53 => ⟨S8192x256, .f32⟩
  | 54 => ⟨S256x128, .f32⟩
  | 55 => ⟨S8192x128, .f32⟩
  | 56 => ⟨S_, .i32⟩
  | 57 => ⟨S262144, .i32⟩
  | 58 => ⟨S262144, .i1⟩
  | 59 => ⟨S_, .i32⟩
  | 60 => ⟨S262144, .i32⟩
  | 61 => ⟨S262144, .i32⟩
  | 62 => ⟨S262144, .i32⟩
  | 63 => ⟨S262144x1, .i32⟩
  | 64 => ⟨S262144x128, .f32⟩
  | 65 => ⟨S_, .i32⟩
  | 66 => ⟨S262144, .i32⟩
  | 67 => ⟨S262144, .i1⟩
  | 68 => ⟨S_, .i32⟩
  | 69 => ⟨S262144, .i32⟩
  | 70 => ⟨S262144, .i32⟩
  | 71 => ⟨S262144, .i32⟩
  | 72 => ⟨S262144x1, .i32⟩
  | 73 => ⟨S262144x1, .f32⟩
  | 74 => ⟨S262144x128, .f32⟩
  | 75 => ⟨S262144x128, .f32⟩
  | 76 => ⟨S_, .f32⟩
  | 77 => ⟨S8192x128, .f32⟩
  | 78 => ⟨S262144x1, .i32⟩
  | 79 => ⟨S8192x128, .f32⟩
  | 80 => ⟨S8192x128, .f32⟩
  | 81 => ⟨S8192x128, .f32⟩
  | 82 => ⟨S1x128, .f32⟩
  | 83 => ⟨S8192x128, .f32⟩
  | 84 => ⟨S8192x128, .f32⟩
  | 85 => ⟨S_, .f32⟩
  | 86 => ⟨S8192x128, .f32⟩
  | 87 => ⟨S8192x128, .f32⟩
  | 88 => ⟨S512x256, .f32⟩
  | 89 => ⟨S8192x256, .f32⟩
  | 90 => ⟨S8192x256, .f32⟩
  | 91 => ⟨S1x256, .f32⟩
  | 92 => ⟨S8192x256, .f32⟩
  | 93 => ⟨S8192x256, .f32⟩
  | 94 => ⟨S_, .f32⟩
  | 95 => ⟨S8192x256, .f32⟩
  | 96 => ⟨S8192x256, .f32⟩
  | 97 => ⟨S256x128, .f32⟩
  | 98 => ⟨S8192x128, .f32⟩
  | 99 => ⟨S8192x128, .f32⟩
  | 100 => ⟨S1x128, .f32⟩
  | 101 => ⟨S8192x128, .f32⟩
  | 102 => ⟨S8192x128, .f32⟩
  | 103 => ⟨S_, .f32⟩
  | 104 => ⟨S8192x128, .f32⟩
  | 105 => ⟨S8192x128, .f32⟩
  | 106 => ⟨S8192x256, .f32⟩
  | 107 => ⟨S8192x2, .f32⟩
  | 108 => ⟨S_, .f32⟩
  | 109 => ⟨S8192, .f32⟩
  | 110 => ⟨S_, .f32⟩
  | 111 => ⟨S8192, .f32⟩
  | 112 => ⟨S8192, .f32⟩
  | 113 => ⟨S8192x1, .f32⟩
  | 114 => ⟨S8192x2, .f32⟩
  | 115 => ⟨S8192x2, .f32⟩
  | 116 => ⟨S8192x2, .f32⟩
  | 117 => ⟨S_, .f32⟩
  | 118 => ⟨S8192, .f32⟩
  | 119 => ⟨S8192x1, .f32⟩
  | 120 => ⟨S8192x2, .f32⟩
  | 121 => ⟨S8192x2, .f32⟩
  | 122 => ⟨S8192x1, .f32⟩
  | 123 => ⟨S8192x128, .f32⟩
  | 124 => ⟨S8192x128, .f32⟩
  | 125 => ⟨S8192x1, .f32⟩
  | 126 => ⟨S8192x128, .f32⟩
  | 127 => ⟨S8192x128, .f32⟩
  | _ => ⟨S8192x512, .f32⟩

abbrev hbmTy0_1 (i : Nat) : BufTy := match i % 128 with
  | 0 => ⟨S8192x128, .f32⟩
  | 1 => ⟨S8192x8, .f32⟩
  | 2 => ⟨S1x8, .f32⟩
  | 3 => ⟨S8192x8, .f32⟩
  | 4 => ⟨S8192x8, .f32⟩
  | _ => ⟨S8192x512, .f32⟩

abbrev hbmTy (i : Nat) : BufTy := match i / 128 with
  | 0 => hbmTy0_0 i
  | 1 => hbmTy0_1 i
  | _ => ⟨S8192x512, .f32⟩

abbrev bufTy : (tb : Table) → Fin (tcTables nBuf tb) → BufTy
  | .hbm, ⟨i, _⟩ => hbmTy i
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_c : Ref sig .tc := ⟨.hbm, 22, rfl⟩
abbrev main_v2 : Ref sig .tc := ⟨.hbm, 23, rfl⟩
abbrev main_v3 : Ref sig .tc := ⟨.hbm, 24, rfl⟩
abbrev main_c_0 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_c_1 : Ref sig .tc := ⟨.hbm, 31, rfl⟩
abbrev main_v9 : Ref sig .tc := ⟨.hbm, 32, rfl⟩
abbrev main_v10 : Ref sig .tc := ⟨.hbm, 33, rfl⟩
abbrev main_c_2 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_cst : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_call0_cst : Ref sig .tc := ⟨.hbm, 51, rfl⟩
abbrev main_call0_v0 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_c_3 : Ref sig .tc := ⟨.hbm, 56, rfl⟩
abbrev main_v29 : Ref sig .tc := ⟨.hbm, 57, rfl⟩
abbrev main_v30 : Ref sig .tc := ⟨.hbm, 58, rfl⟩
abbrev main_c_4 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_c_5 : Ref sig .tc := ⟨.hbm, 65, rfl⟩
abbrev main_v36 : Ref sig .tc := ⟨.hbm, 66, rfl⟩
abbrev main_v37 : Ref sig .tc := ⟨.hbm, 67, rfl⟩
abbrev main_c_6 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_cst_7 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_call1_cst : Ref sig .tc := ⟨.hbm, 85, rfl⟩
abbrev main_call1_v0 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_call2_cst : Ref sig .tc := ⟨.hbm, 94, rfl⟩
abbrev main_call2_v0 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_call3_cst : Ref sig .tc := ⟨.hbm, 103, rfl⟩
abbrev main_call3_v0 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_cst_8 : Ref sig .tc := ⟨.hbm, 108, rfl⟩
abbrev main_v70 : Ref sig .tc := ⟨.hbm, 109, rfl⟩
abbrev main_cst_9 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_cst_10 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩

abbrev nD : Nat := 1
abbrev τ : Topo := Topo.v7x

variable {F : FTy → Type} [FloatOps F]

class Facts₀ : Prop where
  bcast_S_S262144 : S_.BroadcastsInDim S262144 (![] : Fin 0 → Fin S262144.rank)
  bcast_S262144_S262144x1_0 : S262144.BroadcastsInDim S262144x1 (![0] : Fin 1 → Fin S262144x1.rank)
  bcast_S262144x1_S262144x256_0_1 : S262144x1.BroadcastsInDim S262144x256 (![0, 1] : Fin 2 → Fin S262144x256.rank)
  bcast_S_S8192x256 : S_.BroadcastsInDim S8192x256 (![] : Fin 0 → Fin S8192x256.rank)
  bcast_S8192x1_S8192x256_0_1 : S8192x1.BroadcastsInDim S8192x256 (![0, 1] : Fin 2 → Fin S8192x256.rank)
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  bcast_S262144x1_S262144x128_0_1 : S262144x1.BroadcastsInDim S262144x128 (![0, 1] : Fin 2 → Fin S262144x128.rank)
  bcast_S_S8192x128 : S_.BroadcastsInDim S8192x128 (![] : Fin 0 → Fin S8192x128.rank)
  bcast_S8192x1_S8192x128_0_1 : S8192x1.BroadcastsInDim S8192x128 (![0, 1] : Fin 2 → Fin S8192x128.rank)
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  concatenates_S8192x128_S8192x128_S8192x256_d1 : Shape.Concatenates [S8192x128, S8192x128] S8192x256 1
  reducesTo_S8192x2_S8192_d1 : S8192x2.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x2_0_1 : S8192x1.BroadcastsInDim S8192x2 (![0, 1] : Fin 2 → Fin S8192x2.rank)
  slices_S8192x2_S8192x1_0_0 : S8192x2.Slices ![0, 0] S8192x1
  slices_S8192x2_S8192x1_0_1 : S8192x2.Slices ![0, 1] S8192x1
  bcast_S8_S1x8_1 : S8.BroadcastsInDim S1x8 (![1] : Fin 1 → Fin S1x8.rank)
  bcast_S1x8_S8192x8_0_1 : S1x8.BroadcastsInDim S8192x8 (![0, 1] : Fin 2 → Fin S8192x8.rank)
  dot_S512x256_S256x256_S512x256_1_0_0_1_n_n_wf : DotDims.WF S512x256 S256x256 S512x256 [1] [0] [0] [1] [] []
  dot_S8192x512_S512x256_S8192x256_1_0_0_1_n_n_wf : DotDims.WF S8192x512 S512x256 S8192x256 [1] [0] [0] [1] [] []
  gather_S8192x256_S262144x1_S262144x256_1_0_n_n_0_1_1256_wf : GatherDims.WF S8192x256 S262144x1 S262144x256 [1] [0] [] [0] [] 1 ![1, 256]
  gather_S8192x1_S262144x1_S262144x1_1_0_n_n_0_1_11_wf : GatherDims.WF S8192x1 S262144x1 S262144x1 [1] [0] [] [0] [] 1 ![1, 1]
  scatter_S8192x256_S262144x1_S262144x256_1_0_0_1_wf : ScatterDims.WF S8192x256 S262144x1 S262144x256 [1] [0] [0] 1
  dot_S256x128_S128x128_S256x128_1_0_0_1_n_n_wf : DotDims.WF S256x128 S128x128 S256x128 [1] [0] [0] [1] [] []
  dot_S8192x256_S256x128_S8192x128_1_0_0_1_n_n_wf : DotDims.WF S8192x256 S256x128 S8192x128 [1] [0] [0] [1] [] []
  gather_S8192x128_S262144x1_S262144x128_1_0_n_n_0_1_1128_wf : GatherDims.WF S8192x128 S262144x1 S262144x128 [1] [0] [] [0] [] 1 ![1, 128]
  scatter_S8192x128_S262144x1_S262144x128_1_0_0_1_wf : ScatterDims.WF S8192x128 S262144x1 S262144x128 [1] [0] [0] 1
  dot_S8192x8192_S8192x256_S8192x256_1_0_0_1_n_n_wf : DotDims.WF S8192x8192 S8192x256 S8192x256 [1] [0] [0] [1] [] []
  dot_S8192x8192_S8192x128_S8192x128_1_0_0_1_n_n_wf : DotDims.WF S8192x8192 S8192x128 S8192x128 [1] [0] [0] [1] [] []
  dot_S8192x256_S256x2_S8192x2_1_0_0_1_n_n_wf : DotDims.WF S8192x256 S256x2 S8192x2 [1] [0] [0] [1] [] []
  dot_S8192x128_S128x8_S8192x8_1_0_0_1_n_n_wf : DotDims.WF S8192x128 S128x8 S8192x8 [1] [0] [0] [1] [] []

variable [Facts₀]

def dot_S512x256_S256x256_S512x256_1_0_0_1_n_n : DotDims S512x256 S256x256 S512x256 where
  lhsContracting := [1]
  rhsContracting := [0]
  lhsNonContracting := [0]
  rhsNonContracting := [1]
  lhsBatch := []
  rhsBatch := []
  wf := dot_S512x256_S256x256_S512x256_1_0_0_1_n_n_wf
def dot_S8192x512_S512x256_S8192x256_1_0_0_1_n_n : DotDims S8192x512 S512x256 S8192x256 where
  lhsContracting := [1]
  rhsContracting := [0]
  lhsNonContracting := [0]
  rhsNonContracting := [1]
  lhsBatch := []
  rhsBatch := []
  wf := dot_S8192x512_S512x256_S8192x256_1_0_0_1_n_n_wf
def gather_S8192x256_S262144x1_S262144x256_1_0_n_n_0_1_1256 : GatherDims S8192x256 S262144x1 S262144x256 where
  offsetDims := [1]
  collapsedSliceDims := [0]
  operandBatchingDims := []
  startIndicesBatchingDims := []
  startIndexMap := [0]
  indexVectorDim := 1
  sliceSizes := ![1, 256]
  wf := gather_S8192x256_S262144x1_S262144x256_1_0_n_n_0_1_1256_wf
def gather_S8192x1_S262144x1_S262144x1_1_0_n_n_0_1_11 : GatherDims S8192x1 S262144x1 S262144x1 where
  offsetDims := [1]
  collapsedSliceDims := [0]
  operandBatchingDims := []
  startIndicesBatchingDims := []
  startIndexMap := [0]
  indexVectorDim := 1
  sliceSizes := ![1, 1]
  wf := gather_S8192x1_S262144x1_S262144x1_1_0_n_n_0_1_11_wf
def scatter_S8192x256_S262144x1_S262144x256_1_0_0_1 : ScatterDims S8192x256 S262144x1 S262144x256 where
  updateWindowDims := [1]
  insertedWindowDims := [0]
  scatterDimsToOperandDims := [0]
  indexVectorDim := 1
  wf := scatter_S8192x256_S262144x1_S262144x256_1_0_0_1_wf
def dot_S256x128_S128x128_S256x128_1_0_0_1_n_n : DotDims S256x128 S128x128 S256x128 where
  lhsContracting := [1]
  rhsContracting := [0]
  lhsNonContracting := [0]
  rhsNonContracting := [1]
  lhsBatch := []
  rhsBatch := []
  wf := dot_S256x128_S128x128_S256x128_1_0_0_1_n_n_wf
def dot_S8192x256_S256x128_S8192x128_1_0_0_1_n_n : DotDims S8192x256 S256x128 S8192x128 where
  lhsContracting := [1]
  rhsContracting := [0]
  lhsNonContracting := [0]
  rhsNonContracting := [1]
  lhsBatch := []
  rhsBatch := []
  wf := dot_S8192x256_S256x128_S8192x128_1_0_0_1_n_n_wf
def gather_S8192x128_S262144x1_S262144x128_1_0_n_n_0_1_1128 : GatherDims S8192x128 S262144x1 S262144x128 where
  offsetDims := [1]
  collapsedSliceDims := [0]
  operandBatchingDims := []
  startIndicesBatchingDims := []
  startIndexMap := [0]
  indexVectorDim := 1
  sliceSizes := ![1, 128]
  wf := gather_S8192x128_S262144x1_S262144x128_1_0_n_n_0_1_1128_wf
def scatter_S8192x128_S262144x1_S262144x128_1_0_0_1 : ScatterDims S8192x128 S262144x1 S262144x128 where
  updateWindowDims := [1]
  insertedWindowDims := [0]
  scatterDimsToOperandDims := [0]
  indexVectorDim := 1
  wf := scatter_S8192x128_S262144x1_S262144x128_1_0_0_1_wf
def dot_S8192x8192_S8192x256_S8192x256_1_0_0_1_n_n : DotDims S8192x8192 S8192x256 S8192x256 where
  lhsContracting := [1]
  rhsContracting := [0]
  lhsNonContracting := [0]
  rhsNonContracting := [1]
  lhsBatch := []
  rhsBatch := []
  wf := dot_S8192x8192_S8192x256_S8192x256_1_0_0_1_n_n_wf
def dot_S8192x8192_S8192x128_S8192x128_1_0_0_1_n_n : DotDims S8192x8192 S8192x128 S8192x128 where
  lhsContracting := [1]
  rhsContracting := [0]
  lhsNonContracting := [0]
  rhsNonContracting := [1]
  lhsBatch := []
  rhsBatch := []
  wf := dot_S8192x8192_S8192x128_S8192x128_1_0_0_1_n_n_wf
def dot_S8192x256_S256x2_S8192x2_1_0_0_1_n_n : DotDims S8192x256 S256x2 S8192x2 where
  lhsContracting := [1]
  rhsContracting := [0]
  lhsNonContracting := [0]
  rhsNonContracting := [1]
  lhsBatch := []
  rhsBatch := []
  wf := dot_S8192x256_S256x2_S8192x2_1_0_0_1_n_n_wf
def dot_S8192x128_S128x8_S8192x8_1_0_0_1_n_n : DotDims S8192x128 S128x8 S8192x8 where
  lhsContracting := [1]
  rhsContracting := [0]
  lhsNonContracting := [0]
  rhsNonContracting := [1]
  lhsBatch := []
  rhsBatch := []
  wf := dot_S8192x128_S128x8_S8192x8_1_0_0_1_n_n_wf

class Facts : Prop extends Facts₀ where

variable [Facts]
-- ==== Proof.AccK0.lean ====
/-
  Region 0: the first feature projection of the local branch, feats · (w1 · tao_1_L), computed in four row blocks of
  2048 rows with the whole contraction (512) in one step. The grid's last axis has a single step, so at every grid
  point the body zeroes its accumulator, adds the block product feats[rows] · W into it, and copies the accumulator to
  the output block. Nothing is carried from one point to the next: the accumulator is owned at arbitrary contents
  between points.

  This module runs the body symbolically on whole staging memrefs, records what it leaves in the output block and in
  the accumulator as the stores the run finds, and discharges the pipeline's body obligation at every point for the
  proof data "inputs keep their blocks, the output block holds those stores read back".
-/
import proofs.«157716_j2267742732442_1_alg».proof.Proof.Gen.Kernel.Launch
import proofs.«157716_j2267742732442_1_alg».proof.Proof.Gen.Kernel.Skeleton
import proofs.«157716_j2267742732442_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Acc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

/-! ## The two conditions of the body -/

/-- The accumulator is zeroed when the last grid coordinate is 0. -/
abbrev first0 (i : grid0.Coords) : Prop := (Scalar.cmpi .ne (Scalar.extui (Scalar.cmpi .eq (BitVec.ofNat 32 (i 2).val) 0#32)) 0#32) = 1#1
/-- The output block is written at the last contraction step, which here is also step 0. -/
abbrev last0 (i : grid0.Coords) : Prop := k0_cond2 i = 1#1

/-- Both hold at every grid point: the contraction axis has one step. -/
theorem first0_all : ∀ t : Fin cfg0.N, first0 (grid0.coords t) :=
  (by decide +kernel : ∀ t : Fin grid0.N, first0 (grid0.coords t))
theorem last0_all : ∀ t : Fin cfg0.N, last0 (grid0.coords t) :=
  (by decide +kernel : ∀ t : Fin grid0.N, last0 (grid0.coords t))

/-! ## The body on whole memrefs -/

set_option maxHeartbeats 1000000 in
/-- The body on whole memrefs: the three inputs at their contents, the output block and the accumulator at anything.
    It runs to the continuation with the inputs as they were and with the output block and the accumulator each
    overwritten by a list of stores (last first), which the symbolic run finds. -/
noncomputable def bodyRun0 (c : Dev nD) (i : grid0.Coords)
    (arg3 : Memref sig .tc .vmem S2048x512 .f32) (harg3 : arg3.IsWhole) (arg4 : Memref sig .tc .vmem S512x256 .f32) (harg4 : arg4.IsWhole)
    (arg5 : Memref sig .tc .vmem S1x256 .f32) (harg5 : arg5.IsWhole) (arg6 : Memref sig .tc .vmem S2048x256 .f32) (harg6 : arg6.IsWhole)
    (arg7 : Memref sig .tc .vmem S2048x256 .f32) (harg7 : arg7.IsWhole) (hf : first0 i) (hl : last0 i)
    (x0 : Vec F S2048x512 .f32) (x1 : Vec F S512x256 .f32) (x2 : Vec F S1x256 .f32) :
    Σ' (LO : List (View.Piece (Elt F) S2048x256 .f32)), { LS : List (View.Piece (Elt F) S2048x256 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg6 fullShare d) ∗ (∃ d, owns (c : Thread nD τ) arg7 fullShare d)
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f LO)
                ∗ (∃ f, arg7.view.loc (c : Thread nD τ) ↦[arg7.view.set]{fullShare} arg7.view.writes (Elt F) f LS)) -∗ K ⟨⟩))
          ⊢ wp frame (wpE (defs₀ (F := F)) Variants.none c none) E (cc0_kernel i arg3 harg3 arg4 harg4 arg5 harg5 arg6 harg6 arg7 harg7) K } := by
  refine ⟨?_, ?_, fun E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%d3, %f3, -, H3⟩, ⟨%ds, %fs, -, HS⟩, Hk⟩
    obtain rfl := harg3.eq_unread hf0; obtain rfl := harg4.eq_unread hf1; obtain rfl := harg5.eq_unread hf2
    sl_exec (disch := first | exact hf | exact hl)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS

/-- The stores into the output block cover it (one store of the whole block). -/
theorem ocover0 (c : Dev nD) (i : grid0.Coords)
    (arg3 : Memref sig .tc .vmem S2048x512 .f32) (harg3 : arg3.IsWhole) (arg4 : Memref sig .tc .vmem S512x256 .f32) (harg4 : arg4.IsWhole)
    (arg5 : Memref sig .tc .vmem S1x256 .f32) (harg5 : arg5.IsWhole) (arg6 : Memref sig .tc .vmem S2048x256 .f32) (harg6 : arg6.IsWhole)
    (arg7 : Memref sig .tc .vmem S2048x256 .f32) (harg7 : arg7.IsWhole) (hf : first0 i) (hl : last0 i)
    (x0 : Vec F S2048x512 .f32) (x1 : Vec F S512x256 .f32) (x2 : Vec F S1x256 .f32) (y : S2048x256.Idx) :
    ∃ pc ∈ (bodyRun0 c i arg3 harg3 arg4 harg4 arg5 harg5 arg6 harg6 arg7 harg7 hf hl x0 x1 x2).1, y ∈ pc.1.set :=
  View.cover_of_tiledL (bodyRun0 c i arg3 harg3 arg4 harg4 arg5 harg5 arg6 harg6 arg7 harg7 hf hl x0 x1 x2).1 S2048x256.size (by sl_kernel_rfl) y

/-- What the body leaves in the output block: its stores read back. -/
def out0 (c : Dev nD) (i : grid0.Coords)
    (arg3 : Memref sig .tc .vmem S2048x512 .f32) (harg3 : arg3.IsWhole) (arg4 : Memref sig .tc .vmem S512x256 .f32) (harg4 : arg4.IsWhole)
    (arg5 : Memref sig .tc .vmem S1x256 .f32) (harg5 : arg5.IsWhole) (arg6 : Memref sig .tc .vmem S2048x256 .f32) (harg6 : arg6.IsWhole)
    (arg7 : Memref sig .tc .vmem S2048x256 .f32) (harg7 : arg7.IsWhole) (hf : first0 i) (hl : last0 i)
    (x0 : Vec F S2048x512 .f32) (x1 : Vec F S512x256 .f32) (x2 : Vec F S1x256 .f32) : Vec F S2048x256 .f32 :=
  View.canon (bodyRun0 c i arg3 harg3 arg4 harg4 arg5 harg5 arg6 harg6 arg7 harg7 hf hl x0 x1 x2).1

/-! ## The memrefs the pipeline passes at a point -/

abbrev ms0_0 (t : Fin cfg0.N) : Memref sig .tc .vmem S2048x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x256 .f32 := win0_3.stage (cfg0.slots t 3)
abbrev hs0_3 (t : Fin cfg0.N) : (ms0_3 t).IsWhole := hstage0_3 ((cfg0.slots t 3).cast nbuf0_3)
/-- The accumulator: a whole scoped buffer of the kernel's own. -/
abbrev scM0 : Memref sig .tc .vmem S2048x256 .f32 := Memref.whole cc0_scratch0

/-! ## No window is idle at any point -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel

/-! ## The invariant between points -/

/-- Between points: the accumulator at anything, every other scoped buffer that is no staging buffer of this call
    untouched, and the generator register at some state. -/
def Phi0 (c : Dev nD) : sProp 𝕄 :=
  iprop(iprop(iprop(∃ d, owns (c : Thread nD τ) scM0 fullShare d)
      ∗ Pipeline.scopedRestBut (Ix := Unit) (Name := ℕ) (U := UR sig nD τ) (Lvl := ℕ) (Val := Elt F) spec0 c [cc0_scratch0])
    ∗ (∃ r, prngReg c r))

/-- It is the scoped rest of this call with the generator register, the accumulator named. -/
theorem PhiA0_eq (c : Dev nD) : (Pipeline.ΦA spec0 c : sProp 𝕄) = Phi0 c := by
  unfold Pipeline.ΦA Phi0; rw [scopedRest0_split]; simp only [scM0, owns_whole]; try rfl

section Data

-- the contents of the TensorCore's buffers when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (when it is not
    fetched its block index has not moved). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- What the output block holds after point `t`: the body's stores there, read back, on the point's input blocks. -/
def outAt0 (c : Dev nD) (t : Fin cfg0.N) : Vec F S2048x256 .f32 :=
  out0 c (grid0.coords t) (ms0_0 t) (hs0_0 t) (ms0_1 t) (hs0_1 t) (ms0_2 t) (hs0_2 t) (ms0_3 t) (hs0_3 t) scM0 (Memref.isWhole_whole _)
    (first0_all t) (last0_all t) (iblk0 V c 0 t) (iblk0 V c 1 t) (iblk0 V c 2 t)

/-- The proof data of this pipeline on core `c`: the arrays as the region finds them; after the body at point `t`
    each input's buffer at its block and the output's at `outAt0`; the invariant `Phi0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => outAt0 V c t
  Φ _ := Phi0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = outAt0 V c t := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 1600000 in
/-- The body at any point: the inputs' memrefs hold their blocks, the invariant lends the accumulator at anything and
    takes it back at anything, the output block ends at the stores read back. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = Phi0 c from rfl, show (dat0 V c).Φ t.castSucc = Phi0 c from rfl,
    show (dat0 V c).owesAt () t.succ = (dat0 V c).owesAt () t.castSucc from rfl]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  unfold Phi0 outAt0 out0
  iintro ⟨⟨⟨HS, Hb⟩, Hg⟩, Ho, ⟨%d0, H0⟩, ⟨%d1, H1⟩, ⟨%d2, H2⟩, ⟨%d3, H3⟩⟩
  iapply ((bodyRun0 c (grid0.coords t) _ _ _ _ _ _ _ _ _ _ (first0_all t) (last0_all t) (iblk0 V c 0 t) (iblk0 V c 1 t) (iblk0 V c 2 t)).2.2 Set.univ _)
  isplitl [H0]; · iexact H0
  isplitl [H1]; · iexact H1
  isplitl [H2]; · iexact H2
  isplitl [H3]; · iexists _; iexact H3
  isplitl [HS]; · iexact HS
  iintro ⟨H0, H1, H2, ⟨%e3, H3⟩, ⟨%es, HS⟩⟩
  isplitl [HS Hb Hg]
  · isplitl [HS Hb]
    · isplitl [HS]
      · iexists _; unfold owns; iexists _; isplitr
        swap; · iexact HS
        ipureintro; rfl
      iexact Hb
    iexact Hg
  isplitl [Ho]; · iexact Ho
  isplitl [H0]; · iexact H0
  isplitl [H1]; · iexact H1
  isplitl [H2]; · iexact H2
  unfold owns; iexists _; isplitr
  swap; · iexact H3
  ipureintro; exact View.read_writes_eq_canon _ _ _ (ocover0 c _ _ _ _ _ _ _ _ _ _ _ _ _ _ _ _)

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Data

end Cert.Kernel.Acc

end
-- ==== Proof.AccK1.lean ====
/-
  Region 1: the second projection of the local branch, h · (w2 · tao_2_L), where h is the first layer's output after
  the edge aggregation, bias and positive part. Four row blocks of 2048 rows, the whole contraction (256) in one step:
  at every grid point the body zeroes its accumulator, adds the block product into it, and copies it to the output
  block. Nothing is carried between points.

  The body is run symbolically on whole staging memrefs; what it leaves in the output block and the accumulator is the
  list of stores the run finds; the pipeline's body obligation follows at every point.
-/
import proofs.«157716_j2267742732442_1_alg».proof.Proof.Gen.Kernel.Launch
import proofs.«157716_j2267742732442_1_alg».proof.Proof.Gen.Kernel.Skeleton
import proofs.«157716_j2267742732442_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Acc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

/-! ## The two conditions of the body -/

/-- The accumulator is zeroed when the last grid coordinate is 0. -/
abbrev first1 (i : grid1.Coords) : Prop := (Scalar.cmpi .ne (Scalar.extui (Scalar.cmpi .eq (BitVec.ofNat 32 (i 2).val) 0#32)) 0#32) = 1#1
/-- The output block is written at the last contraction step, which here is also step 0. -/
abbrev last1 (i : grid1.Coords) : Prop := k1_cond2 i = 1#1

theorem first1_all : ∀ t : Fin cfg1.N, first1 (grid1.coords t) :=
  (by decide +kernel : ∀ t : Fin grid1.N, first1 (grid1.coords t))
theorem last1_all : ∀ t : Fin cfg1.N, last1 (grid1.coords t) :=
  (by decide +kernel : ∀ t : Fin grid1.N, last1 (grid1.coords t))

/-! ## The body on whole memrefs -/

set_option maxHeartbeats 1000000 in
/-- The body on whole memrefs: the three inputs at their contents, the output block and the accumulator at anything.
    It runs to the continuation with the inputs as they were and with the output block and the accumulator each
    overwritten by a list of stores (last first), which the symbolic run finds. -/
noncomputable def bodyRun1 (c : Dev nD) (i : grid1.Coords)
    (arg3 : Memref sig .tc .vmem S2048x256 .f32) (harg3 : arg3.IsWhole) (arg4 : Memref sig .tc .vmem S256x128 .f32) (harg4 : arg4.IsWhole)
    (arg5 : Memref sig .tc .vmem S1x128 .f32) (harg5 : arg5.IsWhole) (arg6 : Memref sig .tc .vmem S2048x128 .f32) (harg6 : arg6.IsWhole)
    (arg7 : Memref sig .tc .vmem S2048x128 .f32) (harg7 : arg7.IsWhole) (hf : first1 i) (hl : last1 i)
    (x0 : Vec F S2048x256 .f32) (x1 : Vec F S256x128 .f32) (x2 : Vec F S1x128 .f32) :
    Σ' (LO : List (View.Piece (Elt F) S2048x128 .f32)), { LS : List (View.Piece (Elt F) S2048x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg6 fullShare d) ∗ (∃ d, owns (c : Thread nD τ) arg7 fullShare d)
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f LO)
                ∗ (∃ f, arg7.view.loc (c : Thread nD τ) ↦[arg7.view.set]{fullShare} arg7.view.writes (Elt F) f LS)) -∗ K ⟨⟩))
          ⊢ wp frame (wpE (defs₀ (F := F)) Variants.none c none) E (cc1_kernel i arg3 harg3 arg4 harg4 arg5 harg5 arg6 harg6 arg7 harg7) K } := by
  refine ⟨?_, ?_, fun E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%d3, %f3, -, H3⟩, ⟨%ds, %fs, -, HS⟩, Hk⟩
    obtain rfl := harg3.eq_unread hf0; obtain rfl := harg4.eq_unread hf1; obtain rfl := harg5.eq_unread hf2
    sl_exec (disch := first | exact hf | exact hl)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS

/-- The stores into the output block cover it (one store of the whole block). -/
theorem ocover1 (c : Dev nD) (i : grid1.Coords)
    (arg3 : Memref sig .tc .vmem S2048x256 .f32) (harg3 : arg3.IsWhole) (arg4 : Memref sig .tc .vmem S256x128 .f32) (harg4 : arg4.IsWhole)
    (arg5 : Memref sig .tc .vmem S1x128 .f32) (harg5 : arg5.IsWhole) (arg6 : Memref sig .tc .vmem S2048x128 .f32) (harg6 : arg6.IsWhole)
    (arg7 : Memref sig .tc .vmem S2048x128 .f32) (harg7 : arg7.IsWhole) (hf : first1 i) (hl : last1 i)
    (x0 : Vec F S2048x256 .f32) (x1 : Vec F S256x128 .f32) (x2 : Vec F S1x128 .f32) (y : S2048x128.Idx) :
    ∃ pc ∈ (bodyRun1 c i arg3 harg3 arg4 harg4 arg5 harg5 arg6 harg6 arg7 harg7 hf hl x0 x1 x2).1, y ∈ pc.1.set :=
  View.cover_of_tiledL (bodyRun1 c i arg3 harg3 arg4 harg4 arg5 harg5 arg6 harg6 arg7 harg7 hf hl x0 x1 x2).1 S2048x128.size (by sl_kernel_rfl) y

/-- What the body leaves in the output block: its stores read back. -/
def out1 (c : Dev nD) (i : grid1.Coords)
    (arg3 : Memref sig .tc .vmem S2048x256 .f32) (harg3 : arg3.IsWhole) (arg4 : Memref sig .tc .vmem S256x128 .f32) (harg4 : arg4.IsWhole)
    (arg5 : Memref sig .tc .vmem S1x128 .f32) (harg5 : arg5.IsWhole) (arg6 : Memref sig .tc .vmem S2048x128 .f32) (harg6 : arg6.IsWhole)
    (arg7 : Memref sig .tc .vmem S2048x128 .f32) (harg7 : arg7.IsWhole) (hf : first1 i) (hl : last1 i)
    (x0 : Vec F S2048x256 .f32) (x1 : Vec F S256x128 .f32) (x2 : Vec F S1x128 .f32) : Vec F S2048x128 .f32 :=
  View.canon (bodyRun1 c i arg3 harg3 arg4 harg4 arg5 harg5 arg6 harg6 arg7 harg7 hf hl x0 x1 x2).1

/-! ## The memrefs the pipeline passes at a point -/

abbrev ms1_0 (t : Fin cfg1.N) : Memref sig .tc .vmem S2048x256 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S256x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2048x128 .f32 := win1_3.stage (cfg1.slots t 3)
abbrev hs1_3 (t : Fin cfg1.N) : (ms1_3 t).IsWhole := hstage1_3 ((cfg1.slots t 3).cast nbuf1_3)
/-- The accumulator: a whole scoped buffer of the kernel's own. -/
abbrev scM1 : Memref sig .tc .vmem S2048x128 .f32 := Memref.whole cc1_scratch0

/-! ## No window is idle at any point -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel

/-! ## The invariant between points -/

/-- Between points: the accumulator at anything, every other scoped buffer that is no staging buffer of this call
    untouched, and the generator register at some state. -/
def Phi1 (c : Dev nD) : sProp 𝕄 :=
  iprop(iprop(iprop(∃ d, owns (c : Thread nD τ) scM1 fullShare d)
      ∗ Pipeline.scopedRestBut (Ix := Unit) (Name := ℕ) (U := UR sig nD τ) (Lvl := ℕ) (Val := Elt F) spec1 c [cc1_scratch0])
    ∗ (∃ r, prngReg c r))

/-- It is the scoped rest of this call with the generator register, the accumulator named. -/
theorem PhiA1_eq (c : Dev nD) : (Pipeline.ΦA spec1 c : sProp 𝕄) = Phi1 c := by
  unfold Pipeline.ΦA Phi1; rw [scopedRest1_split]; simp only [scM1, owns_whole]; try rfl

section Data

-- the contents of the TensorCore's buffers when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (when it is not
    fetched its block index has not moved). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- What the output block holds after point `t`: the body's stores there, read back, on the point's input blocks. -/
def outAt1 (c : Dev nD) (t : Fin cfg1.N) : Vec F S2048x128 .f32 :=
  out1 c (grid1.coords t) (ms1_0 t) (hs1_0 t) (ms1_1 t) (hs1_1 t) (ms1_2 t) (hs1_2 t) (ms1_3 t) (hs1_3 t) scM1 (Memref.isWhole_whole _)
    (first1_all t) (last1_all t) (iblk1 V c 0 t) (iblk1 V c 1 t) (iblk1 V c 2 t)

/-- The proof data of this pipeline on core `c`: the arrays as the region finds them; after the body at point `t`
    each input's buffer at its block and the output's at `outAt1`; the invariant `Phi1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outAt1 V c t
  Φ _ := Phi1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = outAt1 V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 1600000 in
/-- The body at any point: the inputs' memrefs hold their blocks, the invariant lends the accumulator at anything and
    takes it back at anything, the output block ends at the stores read back. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = Phi1 c from rfl, show (dat1 V c).Φ t.castSucc = Phi1 c from rfl,
    show (dat1 V c).owesAt () t.succ = (dat1 V c).owesAt () t.castSucc from rfl]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  unfold Phi1 outAt1 out1
  iintro ⟨⟨⟨HS, Hb⟩, Hg⟩, Ho, ⟨%d0, H0⟩, ⟨%d1, H1⟩, ⟨%d2, H2⟩, ⟨%d3, H3⟩⟩
  iapply ((bodyRun1 c (grid1.coords t) _ _ _ _ _ _ _ _ _ _ (first1_all t) (last1_all t) (iblk1 V c 0 t) (iblk1 V c 1 t) (iblk1 V c 2 t)).2.2 Set.univ _)
  isplitl [H0]; · iexact H0
  isplitl [H1]; · iexact H1
  isplitl [H2]; · iexact H2
  isplitl [H3]; · iexists _; iexact H3
  isplitl [HS]; · iexact HS
  iintro ⟨H0, H1, H2, ⟨%e3, H3⟩, ⟨%es, HS⟩⟩
  isplitl [HS Hb Hg]
  · isplitl [HS Hb]
    · isplitl [HS]
      · iexists _; unfold owns; iexists _; isplitr
        swap; · iexact HS
        ipureintro; rfl
      iexact Hb
    iexact Hg
  isplitl [Ho]; · iexact Ho
  isplitl [H0]; · iexact H0
  isplitl [H1]; · iexact H1
  isplitl [H2]; · iexact H2
  unfold owns; iexists _; isplitr
  swap; · iexact H3
  ipureintro; exact View.read_writes_eq_canon _ _ _ (ocover1 c _ _ _ _ _ _ _ _ _ _ _ _ _ _ _ _)

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Data

end Cert.Kernel.Acc

end
-- ==== Proof.AccK2.lean ====
/-
  Region 2: the first projection of the global branch, feats · (w1g · tao_1_G). Four row blocks of 2048 rows, the whole
  contraction (512) in one step: at every grid point the body zeroes its accumulator, adds the block product into it,
  and copies it to the output block. Nothing is carried between points.

  The body is run symbolically on whole staging memrefs; what it leaves in the output block and the accumulator is the
  list of stores the run finds; the pipeline's body obligation follows at every point.
-/
import proofs.«157716_j2267742732442_1_alg».proof.Proof.Gen.Kernel.Launch
import proofs.«157716_j2267742732442_1_alg».proof.Proof.Gen.Kernel.Skeleton
import proofs.«157716_j2267742732442_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Acc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

/-! ## The two conditions of the body -/

/-- The accumulator is zeroed when the last grid coordinate is 0. -/
abbrev first2 (i : grid2.Coords) : Prop := (Scalar.cmpi .ne (Scalar.extui (Scalar.cmpi .eq (BitVec.ofNat 32 (i 2).val) 0#32)) 0#32) = 1#1
/-- The output block is written at the last contraction step, which here is also step 0. -/
abbrev last2 (i : grid2.Coords) : Prop := k2_cond2 i = 1#1

theorem first2_all : ∀ t : Fin cfg2.N, first2 (grid2.coords t) :=
  (by decide +kernel : ∀ t : Fin grid2.N, first2 (grid2.coords t))
theorem last2_all : ∀ t : Fin cfg2.N, last2 (grid2.coords t) :=
  (by decide +kernel : ∀ t : Fin grid2.N, last2 (grid2.coords t))

/-! ## The body on whole memrefs -/

set_option maxHeartbeats 1000000 in
/-- The body on whole memrefs: the three inputs at their contents, the output block and the accumulator at anything.
    It runs to the continuation with the inputs as they were and with the output block and the accumulator each
    overwritten by a list of stores (last first), which the symbolic run finds. -/
noncomputable def bodyRun2 (c : Dev nD) (i : grid2.Coords)
    (arg3 : Memref sig .tc .vmem S2048x512 .f32) (harg3 : arg3.IsWhole) (arg4 : Memref sig .tc .vmem S512x256 .f32) (harg4 : arg4.IsWhole)
    (arg5 : Memref sig .tc .vmem S1x256 .f32) (harg5 : arg5.IsWhole) (arg6 : Memref sig .tc .vmem S2048x256 .f32) (harg6 : arg6.IsWhole)
    (arg7 : Memref sig .tc .vmem S2048x256 .f32) (harg7 : arg7.IsWhole) (hf : first2 i) (hl : last2 i)
    (x0 : Vec F S2048x512 .f32) (x1 : Vec F S512x256 .f32) (x2 : Vec F S1x256 .f32) :
    Σ' (LO : List (View.Piece (Elt F) S2048x256 .f32)), { LS : List (View.Piece (Elt F) S2048x256 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg6 fullShare d) ∗ (∃ d, owns (c : Thread nD τ) arg7 fullShare d)
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f LO)
                ∗ (∃ f, arg7.view.loc (c : Thread nD τ) ↦[arg7.view.set]{fullShare} arg7.view.writes (Elt F) f LS)) -∗ K ⟨⟩))
          ⊢ wp frame (wpE (defs₀ (F := F)) Variants.none c none) E (cc2_kernel i arg3 harg3 arg4 harg4 arg5 harg5 arg6 harg6 arg7 harg7) K } := by
  refine ⟨?_, ?_, fun E K => ?run⟩
  case run =>
    simp only [cc2_kernel_eq_skeleton]; unfold cc2_kernel_skel
    unfold owns
    iintro ⟨⟨%f0, %hf0, H0⟩, ⟨%f1, %hf1, H1⟩, ⟨%f2, %hf2, H2⟩, ⟨%d3, %f3, -, H3⟩, ⟨%ds, %fs, -, HS⟩, Hk⟩
    obtain rfl := harg3.eq_unread hf0; obtain rfl := harg4.eq_unread hf1; obtain rfl := harg5.eq_unread hf2
    sl_exec (disch := first | exact hf | exact hl)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS

/-- The stores into the output block cover it (one store of the whole block). -/
theorem ocover2 (c : Dev nD) (i : grid2.Coords)
    (arg3 : Memref sig .tc .vmem S2048x512 .f32) (harg3 : arg3.IsWhole) (arg4 : Memref sig .tc .vmem S512x256 .f32) (harg4 : arg4.IsWhole)
    (arg5 : Memref sig .tc .vmem S1x256 .f32) (harg5 : arg5.IsWhole) (arg6 : Memref sig .tc .vmem S2048x256 .f32) (harg6 : arg6.IsWhole)
    (arg7 : Memref sig .tc .vmem S2048x256 .f32) (harg7 : arg7.IsWhole) (hf : first2 i) (hl : last2 i)
    (x0 : Vec F S2048x512 .f32) (x1 : Vec F S512x256 .f32) (x2 : Vec F S1x256 .f32) (y : S2048x256.Idx) :
    ∃ pc ∈ (bodyRun2 c i arg3 harg3 arg4 harg4 arg5 harg5 arg6 harg6 arg7 harg7 hf hl x0 x1 x2).1, y ∈ pc.1.set :=
  View.cover_of_tiledL (bodyRun2 c i arg3 harg3 arg4 harg4 arg5 harg5 arg6 harg6 arg7 harg7 hf hl x0 x1 x2).1 S2048x256.size (by sl_kernel_rfl) y

/-- What the body leaves in the output block: its stores read back. -/
def out2 (c : Dev nD) (i : grid2.Coords)
    (arg3 : Memref sig .tc .vmem S2048x512 .f32) (harg3 : arg3.IsWhole) (arg4 : Memref sig .tc .vmem S512x256 .f32) (harg4 : arg4.IsWhole)
    (arg5 : Memref sig .tc .vmem S1x256 .f32) (harg5 : arg5.IsWhole) (arg6 : Memref sig .tc .vmem S2048x256 .f32) (harg6 : arg6.IsWhole)
    (arg7 : Memref sig .tc .vmem S2048x256 .f32) (harg7 : arg7.IsWhole) (hf : first2 i) (hl : last2 i)
    (x0 : Vec F S2048x512 .f32) (x1 : Vec F S512x256 .f32) (x2 : Vec F S1x256 .f32) : Vec F S2048x256 .f32 :=
  View.canon (bodyRun2 c i arg3 harg3 arg4 harg4 arg5 harg5 arg6 harg6 arg7 harg7 hf hl x0 x1 x2).1

/-! ## The memrefs the pipeline passes at a point -/

abbrev ms2_0 (t : Fin cfg2.N) : Memref sig .tc .vmem S2048x512 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S512x256 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x256 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S2048x256 .f32 := win2_3.stage (cfg2.slots t 3)
abbrev hs2_3 (t : Fin cfg2.N) : (ms2_3 t).IsWhole := hstage2_3 ((cfg2.slots t 3).cast nbuf2_3)
/-- The accumulator: a whole scoped buffer of the kernel's own. -/
abbrev scM2 : Memref sig .tc .vmem S2048x256 .f32 := Memref.whole cc2_scratch0

/-! ## No window is idle at any point -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel

/-! ## The invariant between points -/

/-- Between points: the accumulator at anything, every other scoped buffer that is no staging buffer of this call
    untouched, and the generator register at some state. -/
def Phi2 (c : Dev nD) : sProp 𝕄 :=
  iprop(iprop(iprop(∃ d, owns (c : Thread nD τ) scM2 fullShare d)
      ∗ Pipeline.scopedRestBut (Ix := Unit) (Name := ℕ) (U := UR sig nD τ) (Lvl := ℕ) (Val := Elt F) spec2 c [cc2_scratch0])
    ∗ (∃ r, prngReg c r))

/-- It is the scoped rest of this call with the generator register, the accumulator named. -/
theorem PhiA2_eq (c : Dev nD) : (Pipeline.ΦA spec2 c : sProp 𝕄) = Phi2 c := by
  unfold Pipeline.ΦA Phi2; rw [scopedRest2_split]; simp only [scM2, owns_whole]; try rfl

section Data

-- the contents of the TensorCore's buffers when the region is entered
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not (when it is not
    fetched its block index has not moved). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- What the output block holds after point `t`: the body's stores there, read back, on the point's input blocks. -/
def outAt2 (c : Dev nD) (t : Fin cfg2.N) : Vec F S2048x256 .f32 :=
  out2 c (grid2.coords t) (ms2_0 t) (hs2_0 t) (ms2_1 t) (hs2_1 t) (ms2_2 t) (hs2_2 t) (ms2_3 t) (hs2_3 t) scM2 (Memref.isWhole_whole _)
    (first2_all t) (last2_all t) (iblk2 V c 0 t) (iblk2 V c 1 t) (iblk2 V c 2 t)

/-- The proof data of this pipeline on core `c`: the arrays as the region finds them; after the body at point `t`
    each input's buffer at its block and the output's at `outAt2`; the invariant `Phi2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => outAt2 V c t
  Φ _ := Phi2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = outAt2 V c t := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 1600000 in
/-- The body at any point: the inputs' memrefs hold their blocks, the invariant lends the accumulator at anything and
    takes it back at anything, the output block ends at the stores read back. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = Phi2 c from rfl, show (dat2 V c).Φ t.castSucc = Phi2 c from rfl,
    show (dat2 V c).owesAt () t.succ = (dat2 V c).owesAt () t.castSucc from rfl]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  unfold Phi2 outAt2 out2
  iintro ⟨⟨⟨HS, Hb⟩, Hg⟩, Ho, ⟨%d0, H0⟩, ⟨%d1, H1⟩, ⟨%d2, H2⟩, ⟨%d3, H3⟩⟩
  iapply ((bodyRun2 c (grid2.coords t) _ _ _ _ _ _ _ _ _ _ (first2_all t) (last2_all t) (iblk2 V c 0 t) (iblk2 V c 1 t) (iblk2 V c 2 t)).2.2 Set.univ _)
  isplitl [H0]; · iexact H0
  isplitl [H1]; · iexact H1
  isplitl [H2]; · iexact H2
  isplitl [H3]; · iexists _; iexact H3
  isplitl [HS]; · iexact HS
  iintro ⟨H0, H1, H2, ⟨%e3, H3⟩, ⟨%es, HS⟩⟩
  isplitl [HS Hb Hg]
  · isplitl [HS Hb]
    · isplitl [HS]
      · iexists _; unfold owns; iexists _; isplitr
        swap; · iexact HS
        ipureintro; rfl
      iexact Hb
    iexact Hg
  isplitl [Ho]; · iexact Ho
  isplitl [H0]; · iexact H0
  isplitl [H1]; · iexact H1
  isplitl [H2]; · iexact H2
  unfold owns; iexists _; isplitr
  swap; · iexact H3
  ipureintro; exact View.read_writes_eq_canon _ _ _ (ocover2 c _ _ _ _ _ _ _ _ _ _ _ _ _ _ _ _)

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

end Data

end Cert.Kernel.Acc

end
-- ==== Proof.AccK3.lean ====
/-
  Region 3: the first dense propagation of the global branch, max(PPMI · t1 + b1g, 0), where t1 is region 2's result.
  The 8192 rows are cut into eight blocks of 1024 and the contraction (8192) into four steps of 2048; the grid's last
  axis walks the contraction steps. The body keeps an accumulator of one output block across the four steps:
    * at the first step (case A) it zeroes the accumulator and adds the step's product PPMI[rows, cols] · t1[cols, :];
    * at the two middle steps (case B) it adds the step's product to what the previous step left;
    * at the last step (case C) it adds the step's product, then writes max(accumulator + bias, 0) to the output block.
  The output block is written back only after the last step; at the other steps its staging buffer is left as found.

  This module runs the body symbolically in each case on whole staging memrefs, records what each case leaves in the
  accumulator (and, in case C, in the output block) as the stores the run finds, defines point by point what the
  accumulator and the output block hold, and discharges the pipeline's body obligation at every point.
-/
import proofs.«157716_j2267742732442_1_alg».proof.Proof.Gen.Kernel.Launch
import proofs.«157716_j2267742732442_1_alg».proof.Proof.Gen.Kernel.Skeleton
import proofs.«157716_j2267742732442_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Acc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

/-! ## The two conditions of the body, in closed form over the grid -/

/-- The accumulator is zeroed when the last grid coordinate is 0. -/
abbrev first3 (i : grid3.Coords) : Prop := (Scalar.cmpi .ne (Scalar.extui (Scalar.cmpi .eq (BitVec.ofNat 32 (i 2).val) 0#32)) 0#32) = 1#1
/-- The output block is written when the last grid coordinate is 3, the last contraction step. -/
abbrev last3 (i : grid3.Coords) : Prop := k3_cond2 i = 1#1

/-- The grid is walked with the contraction step fastest: the first step is at the points ≡ 0 (mod 4), -/
theorem hfirst3 : ∀ t : Fin cfg3.N, first3 (grid3.coords t) ↔ t.val % 4 = 0 :=
  (by decide +kernel : ∀ t : Fin grid3.N, first3 (grid3.coords t) ↔ t.val % 4 = 0)
/-- the last at the points ≡ 3 (mod 4). -/
theorem hlast3 : ∀ t : Fin cfg3.N, last3 (grid3.coords t) ↔ t.val % 4 = 3 :=
  (by decide +kernel : ∀ t : Fin grid3.N, last3 (grid3.coords t) ↔ t.val % 4 = 3)

/-! ## Where the output window is idle -/

theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
/-- Away from the last step the output window is idle and is not written back; -/
theorem idleAt3 : ∀ t : Fin cfg3.N, ¬last3 (grid3.coords t) → cfg3.idle 3 (grid3.coords t) = true := by decide +kernel
theorem noFlush3 : ∀ t : Fin cfg3.N, ¬last3 (grid3.coords t) → (cfg3.win 3).flush t = false := by decide +kernel
/-- at the last step it is live. -/
theorem liveAt3_3 : ∀ t : Fin cfg3.N, last3 (grid3.coords t) → cfg3.idle 3 (grid3.coords t) = false := by decide +kernel

/-! ## The body on whole memrefs, case by case -/

set_option maxHeartbeats 1000000 in
/-- CASE A (first step): inputs at their contents, the output block at any contents `xo` (untouched), the accumulator
    at anything. The accumulator ends overwritten by the found stores. -/
noncomputable def bodyRun3_A (c : Dev nD) (i : grid3.Coords)
    (arg3 : Memref sig .tc .vmem S1024x2048 .f32) (harg3 : arg3.IsWhole) (arg4 : Memref sig .tc .vmem S2048x256 .f32) (harg4 : arg4.IsWhole)
    (arg5 : Memref sig .tc .vmem S1x256 .f32) (harg5 : arg5.IsWhole) (arg6 : Memref sig .tc .vmem S1024x256 .f32) (harg6 : arg6.IsWhole)
    (arg7 : Memref sig .tc .vmem S1024x256 .f32) (harg7 : arg7.IsWhole) (hf : first3 i) (hl : ¬last3 i)
    (x0 : Vec F S1024x2048 .f32) (x1 : Vec F S2048x256 .f32) (x2 : Vec F S1x256 .f32) :
    { LS : List (View.Piece (Elt F) S1024x256 .f32) //
      ∀ (xo : Vec F S1024x256 .f32) (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare xo ∗ (∃ d, owns (c : Thread nD τ) arg7 fullShare d)
            ∗ (iprop(owns (c : Thread nD τ) arg3 fullShare x0 ∗ owns (c : Thread nD τ) arg4 fullShare x1 ∗ owns (c : Thread nD τ) arg5 fullShare x2
                ∗ owns (c : Thread nD τ) arg6 fullShare xo
                ∗ (∃ f, arg7.view.loc (c : Thread nD τ) ↦[arg7.view.set]{fullShare} arg7.view.writes (Elt F) f LS)) -∗ K ⟨⟩))
          ⊢ wp frame (wpE (defs₀ (F := F)) Variants.none c none) E (cc3_kernel i arg3 harg3 arg4 harg4 arg5 harg5 arg6 harg6 arg7 harg7) K } := by
  refine ⟨?_, fun xo E K => ?run⟩
  case run =>
    simp only [cc3_kernel_eq_skeleton]; unfold cc3_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg3.eq_unread hf0; obtain rfl := harg4.eq_unread hf1; obtain rfl := harg5.eq_unread hf2; obtain rfl := harg6.eq_unread hf3
    sl_exec (disch := first | exact hf | exact hl)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

set_option maxHeartbeats 1000000 in
/-- CASE B (a middle step): as case A, the accumulator at the contents `xs` the previous step left. -/
noncomputable def bodyRun3_B (c : Dev nD) (i : grid3.Coords)
    (arg3 : Memref sig .tc .vmem S1024x2048 .f32) (harg3 : arg3.IsWhole) (arg4 : Memref sig .tc .vmem S2048x256 .f32) (harg4 : arg4.IsWhole)
    (arg5 : Memref sig .tc .vmem S1x256 .f32) (harg5 : arg5.IsWhole) (arg6 : Memref sig .tc .vmem S1024x256 .f32) (harg6 : arg6.IsWhole)
    (arg7 : Memref sig .tc .vmem S1024x256 .f32) (harg7 : arg7.IsWhole) (hf : ¬first3 i) (hl : ¬last3 i)
    (x0 : Vec F S1024x2048 .f32) (x1 : Vec F S2048x256 .f32) (x2 : Vec F S1x256 .f32) (xs : Vec F S1024x256 .f32) :
    { LS : List (View.Piece (Elt F) S1024x256 .f32) //
      ∀ (xo : Vec F S1024x256 .f32) (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare xo ∗ owns (c : Thread nD τ) arg7 fullShare xs
            ∗ (iprop(owns (c : Thread nD τ) arg3 fullShare x0 ∗ owns (c : Thread nD τ) arg4 fullShare x1 ∗ owns (c : Thread nD τ) arg5 fullShare x2
                ∗ owns (c : Thread nD τ) arg6 fullShare xo
                ∗ (∃ f, arg7.view.loc (c : Thread nD τ) ↦[arg7.view.set]{fullShare} arg7.view.writes (Elt F) f LS)) -∗ K ⟨⟩))
          ⊢ wp frame (wpE (defs₀ (F := F)) Variants.none c none) E (cc3_kernel i arg3 harg3 arg4 harg4 arg5 harg5 arg6 harg6 arg7 harg7) K } := by
  refine ⟨?_, fun xo E K => ?run⟩
  case run =>
    simp only [cc3_kernel_eq_skeleton]; unfold cc3_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg3.eq_unread hf0; obtain rfl := harg4.eq_unread hf1; obtain rfl := harg5.eq_unread hf2; obtain rfl := harg6.eq_unread hf3
    obtain rfl := harg7.eq_unread hfs
    sl_exec (disch := first | exact hf | exact hl)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

set_option maxHeartbeats 1000000 in
/-- CASE C (last step): the accumulator at the contents `xs` the previous step left, the output block at anything;
    both end overwritten by the found stores. -/
noncomputable def bodyRun3_C (c : Dev nD) (i : grid3.Coords)
    (arg3 : Memref sig .tc .vmem S1024x2048 .f32) (harg3 : arg3.IsWhole) (arg4 : Memref sig .tc .vmem S2048x256 .f32) (harg4 : arg4.IsWhole)
    (arg5 : Memref sig .tc .vmem S1x256 .f32) (harg5 : arg5.IsWhole) (arg6 : Memref sig .tc .vmem S1024x256 .f32) (harg6 : arg6.IsWhole)
    (arg7 : Memref sig .tc .vmem S1024x256 .f32) (harg7 : arg7.IsWhole) (hf : ¬first3 i) (hl : last3 i)
    (x0 : Vec F S1024x2048 .f32) (x1 : Vec F S2048x256 .f32) (x2 : Vec F S1x256 .f32) (xs : Vec F S1024x256 .f32) :
    Σ' (LO : List (View.Piece (Elt F) S1024x256 .f32)), { LS : List (View.Piece (Elt F) S1024x256 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg6 fullShare d) ∗ owns (c : Thread nD τ) arg7 fullShare xs
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f LO)
                ∗ (∃ f, arg7.view.loc (c : Thread nD τ) ↦[arg7.view.set]{fullShare} arg7.view.writes (Elt F) f LS)) -∗ K ⟨⟩))
          ⊢ wp frame (wpE (defs₀ (F := F)) Variants.none c none) E (cc3_kernel i arg3 harg3 arg4 harg4 arg5 harg5 arg6 harg6 arg7 harg7) K } := by
  refine ⟨?_, ?_, fun E K => ?run⟩
  case run =>
    simp only [cc3_kernel_eq_skeleton]; unfold cc3_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg3.eq_unread hf0; obtain rfl := harg4.eq_unread hf1; obtain rfl := harg5.eq_unread hf2
    obtain rfl := harg7.eq_unread hfs
    sl_exec (disch := first | exact hf | exact hl)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS

/-! ## The stores cover what they overwrite -/

theorem scover3_A (c : Dev nD) (i : grid3.Coords)
    (arg3 : Memref sig .tc .vmem S1024x2048 .f32) (harg3 : arg3.IsWhole) (arg4 : Memref sig .tc .vmem S2048x256 .f32) (harg4 : arg4.IsWhole)
    (arg5 : Memref sig .tc .vmem S1x256 .f32) (harg5 : arg5.IsWhole) (arg6 : Memref sig .tc .vmem S1024x256 .f32) (harg6 : arg6.IsWhole)
    (arg7 : Memref sig .tc .vmem S1024x256 .f32) (harg7 : arg7.IsWhole) (hf : first3 i) (hl : ¬last3 i)
    (x0 : Vec F S1024x2048 .f32) (x1 : Vec F S2048x256 .f32) (x2 : Vec F S1x256 .f32) (y : S1024x256.Idx) :
    ∃ pc ∈ (bodyRun3_A c i arg3 harg3 arg4 harg4 arg5 harg5 arg6 harg6 arg7 harg7 hf hl x0 x1 x2).1, y ∈ pc.1.set :=
  View.cover_of_tiledL (bodyRun3_A c i arg3 harg3 arg4 harg4 arg5 harg5 arg6 harg6 arg7 harg7 hf hl x0 x1 x2).1 S1024x256.size (by sl_kernel_rfl) y
theorem scover3_B (c : Dev nD) (i : grid3.Coords)
    (arg3 : Memref sig .tc .vmem S1024x2048 .f32) (harg3 : arg3.IsWhole) (arg4 : Memref sig .tc .vmem S2048x256 .f32) (harg4 : arg4.IsWhole)
    (arg5 : Memref sig .tc .vmem S1x256 .f32) (harg5 : arg5.IsWhole) (arg6 : Memref sig .tc .vmem S1024x256 .f32) (harg6 : arg6.IsWhole)
    (arg7 : Memref sig .tc .vmem S1024x256 .f32) (harg7 : arg7.IsWhole) (hf : ¬first3 i) (hl : ¬last3 i)
    (x0 : Vec F S1024x2048 .f32) (x1 : Vec F S2048x256 .f32) (x2 : Vec F S1x256 .f32) (xs : Vec F S1024x256 .f32) (y : S1024x256.Idx) :
    ∃ pc ∈ (bodyRun3_B c i arg3 harg3 arg4 harg4 arg5 harg5 arg6 harg6 arg7 harg7 hf hl x0 x1 x2 xs).1, y ∈ pc.1.set :=
  View.cover_of_tiledL (bodyRun3_B c i arg3 harg3 arg4 harg4 arg5 harg5 arg6 harg6 arg7 harg7 hf hl x0 x1 x2 xs).1 S1024x256.size (by sl_kernel_rfl) y
theorem scover3_C (c : Dev nD) (i : grid3.Coords)
    (arg3 : Memref sig .tc .vmem S1024x2048 .f32) (harg3 : arg3.IsWhole) (arg4 : Memref sig .tc .vmem S2048x256 .f32) (harg4 : arg4.IsWhole)
    (arg5 : Memref sig .tc .vmem S1x256 .f32) (harg5 : arg5.IsWhole) (arg6 : Memref sig .tc .vmem S1024x256 .f32) (harg6 : arg6.IsWhole)
    (arg7 : Memref sig .tc .vmem S1024x256 .f32) (harg7 : arg7.IsWhole) (hf : ¬first3 i) (hl : last3 i)
    (x0 : Vec F S1024x2048 .f32) (x1 : Vec F S2048x256 .f32) (x2 : Vec F S1x256 .f32) (xs : Vec F S1024x256 .f32) (y : S1024x256.Idx) :
    ∃ pc ∈ (bodyRun3_C c i arg3 harg3 arg4 harg4 arg5 harg5 arg6 harg6 arg7 harg7 hf hl x0 x1 x2 xs).2.1, y ∈ pc.1.set :=
  View.cover_of_tiledL (bodyRun3_C c i arg3 harg3 arg4 harg4 arg5 harg5 arg6 harg6 arg7 harg7 hf hl x0 x1 x2 xs).2.1 S1024x256.size (by sl_kernel_rfl) y
theorem ocover3_C (c : Dev nD) (i : grid3.Coords)
    (arg3 : Memref sig .tc .vmem S1024x2048 .f32) (harg3 : arg3.IsWhole) (arg4 : Memref sig .tc .vmem S2048x256 .f32) (harg4 : arg4.IsWhole)
    (arg5 : Memref sig .tc .vmem S1x256 .f32) (harg5 : arg5.IsWhole) (arg6 : Memref sig .tc .vmem S1024x256 .f32) (harg6 : arg6.IsWhole)
    (arg7 : Memref sig .tc .vmem S1024x256 .f32) (harg7 : arg7.IsWhole) (hf : ¬first3 i) (hl : last3 i)
    (x0 : Vec F S1024x2048 .f32) (x1 : Vec F S2048x256 .f32) (x2 : Vec F S1x256 .f32) (xs : Vec F S1024x256 .f32) (y : S1024x256.Idx) :
    ∃ pc ∈ (bodyRun3_C c i arg3 harg3 arg4 harg4 arg5 harg5 arg6 harg6 arg7 harg7 hf hl x0 x1 x2 xs).1, y ∈ pc.1.set :=
  View.cover_of_tiledL (bodyRun3_C c i arg3 harg3 arg4 harg4 arg5 harg5 arg6 harg6 arg7 harg7 hf hl x0 x1 x2 xs).1 S1024x256.size (by sl_kernel_rfl) y

/-! ## What each case leaves -/

/-- The accumulator after case A. -/
def sA3 (c : Dev nD) (i : grid3.Coords)
    (arg3 : Memref sig .tc .vmem S1024x2048 .f32) (harg3 : arg3.IsWhole) (arg4 : Memref sig .tc .vmem S2048x256 .f32) (harg4 : arg4.IsWhole)
    (arg5 : Memref sig .tc .vmem S1x256 .f32) (harg5 : arg5.IsWhole) (arg6 : Memref sig .tc .vmem S1024x256 .f32) (harg6 : arg6.IsWhole)
    (arg7 : Memref sig .tc .vmem S1024x256 .f32) (harg7 : arg7.IsWhole) (hf : first3 i) (hl : ¬last3 i)
    (x0 : Vec F S1024x2048 .f32) (x1 : Vec F S2048x256 .f32) (x2 : Vec F S1x256 .f32) : Vec F S1024x256 .f32 :=
  View.canon (bodyRun3_A c i arg3 harg3 arg4 harg4 arg5 harg5 arg6 harg6 arg7 harg7 hf hl x0 x1 x2).1
/-- The accumulator after case B. -/
def sB3 (c : Dev nD) (i : grid3.Coords)
    (arg3 : Memref sig .tc .vmem S1024x2048 .f32) (harg3 : arg3.IsWhole) (arg4 : Memref sig .tc .vmem S2048x256 .f32) (harg4 : arg4.IsWhole)
    (arg5 : Memref sig .tc .vmem S1x256 .f32) (harg5 : arg5.IsWhole) (arg6 : Memref sig .tc .vmem S1024x256 .f32) (harg6 : arg6.IsWhole)
    (arg7 : Memref sig .tc .vmem S1024x256 .f32) (harg7 : arg7.IsWhole) (hf : ¬first3 i) (hl : ¬last3 i)
    (x0 : Vec F S1024x2048 .f32) (x1 : Vec F S2048x256 .f32) (x2 : Vec F S1x256 .f32) (xs : Vec F S1024x256 .f32) : Vec F S1024x256 .f32 :=
  View.canon (bodyRun3_B c i arg3 harg3 arg4 harg4 arg5 harg5 arg6 harg6 arg7 harg7 hf hl x0 x1 x2 xs).1
/-- The accumulator after case C. -/
def sC3 (c : Dev nD) (i : grid3.Coords)
    (arg3 : Memref sig .tc .vmem S1024x2048 .f32) (harg3 : arg3.IsWhole) (arg4 : Memref sig .tc .vmem S2048x256 .f32) (harg4 : arg4.IsWhole)
    (arg5 : Memref sig .tc .vmem S1x256 .f32) (harg5 : arg5.IsWhole) (arg6 : Memref sig .tc .vmem S1024x256 .f32) (harg6 : arg6.IsWhole)
    (arg7 : Memref sig .tc .vmem S1024x256 .f32) (harg7 : arg7.IsWhole) (hf : ¬first3 i) (hl : last3 i)
    (x0 : Vec F S1024x2048 .f32) (x1 : Vec F S2048x256 .f32) (x2 : Vec F S1x256 .f32) (xs : Vec F S1024x256 .f32) : Vec F S1024x256 .f32 :=
  View.canon (bodyRun3_C c i arg3 harg3 arg4 harg4 arg5 harg5 arg6 harg6 arg7 harg7 hf hl x0 x1 x2 xs).2.1
/-- The output block after case C. -/
def oC3 (c : Dev nD) (i : grid3.Coords)
    (arg3 : Memref sig .tc .vmem S1024x2048 .f32) (harg3 : arg3.IsWhole) (arg4 : Memref sig .tc .vmem S2048x256 .f32) (harg4 : arg4.IsWhole)
    (arg5 : Memref sig .tc .vmem S1x256 .f32) (harg5 : arg5.IsWhole) (arg6 : Memref sig .tc .vmem S1024x256 .f32) (harg6 : arg6.IsWhole)
    (arg7 : Memref sig .tc .vmem S1024x256 .f32) (harg7 : arg7.IsWhole) (hf : ¬first3 i) (hl : last3 i)
    (x0 : Vec F S1024x2048 .f32) (x1 : Vec F S2048x256 .f32) (x2 : Vec F S1x256 .f32) (xs : Vec F S1024x256 .f32) : Vec F S1024x256 .f32 :=
  View.canon (bodyRun3_C c i arg3 harg3 arg4 harg4 arg5 harg5 arg6 harg6 arg7 harg7 hf hl x0 x1 x2 xs).1

/-! ## The memrefs the pipeline passes at a point -/

abbrev ms3_0 (t : Fin cfg3.N) : Memref sig .tc .vmem S1024x2048 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S2048x256 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x256 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1024x256 .f32 := win3_3.stage (cfg3.slots t 3)
abbrev hs3_3 (t : Fin cfg3.N) : (ms3_3 t).IsWhole := hstage3_3 ((cfg3.slots t 3).cast nbuf3_3)
/-- The accumulator: a whole scoped buffer of the kernel's own. -/
abbrev scM3 : Memref sig .tc .vmem S1024x256 .f32 := Memref.whole cc3_scratch0

/-! ## The invariant before the first point -/

/-- Before the first point: the accumulator at anything, every other scoped buffer that is no staging buffer of this
    call untouched, and the generator register at some state. -/
def Phi3any (c : Dev nD) : sProp 𝕄 :=
  iprop(iprop(iprop(∃ d, owns (c : Thread nD τ) scM3 fullShare d)
      ∗ Pipeline.scopedRestBut (Ix := Unit) (Name := ℕ) (U := UR sig nD τ) (Lvl := ℕ) (Val := Elt F) spec3 c [cc3_scratch0])
    ∗ (∃ r, prngReg c r))

/-- It is the scoped rest of this call with the generator register, the accumulator named. -/
theorem PhiA3_eq (c : Dev nD) : (Pipeline.ΦA spec3 c : sProp 𝕄) = Phi3any c := by
  unfold Pipeline.ΦA Phi3any; rw [scopedRest3_split]; simp only [scM3, owns_whole]; try rfl

section Data

-- the contents of the TensorCore's buffers when the region is entered
variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, fetched there or not (when it is not
    fetched its block index has not moved). -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## What the output block and the accumulator hold after each point -/

/-- THE ACCUMULATION. After the body at position `n`: (the output block's staging buffer, the accumulator). The case
    is the one the closed forms select at `n`; cases B and C start from what position `n - 1` left in the accumulator.
    Away from the last step the first component is a placeholder nothing reads (the window is idle there). -/
def outsAt3 (c : Dev nD) : (n : ℕ) → n < cfg3.N → Vec F S1024x256 .f32 × Vec F S1024x256 .f32
  | 0, hn => (View.canon [], sA3 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) scM3 (Memref.isWhole_whole _)
      ((hfirst3 ⟨0, hn⟩).mpr (Nat.zero_mod _)) (fun h => absurd ((hlast3 ⟨0, hn⟩).mp h) (by show ¬ (0 % 4 = 3); omega))
      (iblk3 V c 0 ⟨0, hn⟩) (iblk3 V c 1 ⟨0, hn⟩) (iblk3 V c 2 ⟨0, hn⟩))
  | n + 1, hn =>
    if h0 : (n + 1) % 4 = 0 then
      (View.canon [], sA3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3 (Memref.isWhole_whole _)
        ((hfirst3 ⟨n + 1, hn⟩).mpr h0) (fun h => absurd ((hlast3 ⟨n + 1, hn⟩).mp h) (by dsimp only; omega))
        (iblk3 V c 0 ⟨n + 1, hn⟩) (iblk3 V c 1 ⟨n + 1, hn⟩) (iblk3 V c 2 ⟨n + 1, hn⟩))
    else if h1 : (n + 1) % 4 = 3 then
      (oC3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3 (Memref.isWhole_whole _)
          (fun h => h0 ((hfirst3 ⟨n + 1, hn⟩).mp h)) ((hlast3 ⟨n + 1, hn⟩).mpr h1)
          (iblk3 V c 0 ⟨n + 1, hn⟩) (iblk3 V c 1 ⟨n + 1, hn⟩) (iblk3 V c 2 ⟨n + 1, hn⟩) (outsAt3 c n (Nat.lt_of_succ_lt hn)).2,
       sC3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3 (Memref.isWhole_whole _)
          (fun h => h0 ((hfirst3 ⟨n + 1, hn⟩).mp h)) ((hlast3 ⟨n + 1, hn⟩).mpr h1)
          (iblk3 V c 0 ⟨n + 1, hn⟩) (iblk3 V c 1 ⟨n + 1, hn⟩) (iblk3 V c 2 ⟨n + 1, hn⟩) (outsAt3 c n (Nat.lt_of_succ_lt hn)).2)
    else
      (View.canon [], sB3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3 (Memref.isWhole_whole _)
          (fun h => h0 ((hfirst3 ⟨n + 1, hn⟩).mp h)) (fun h => h1 ((hlast3 ⟨n + 1, hn⟩).mp h))
          (iblk3 V c 0 ⟨n + 1, hn⟩) (iblk3 V c 1 ⟨n + 1, hn⟩) (iblk3 V c 2 ⟨n + 1, hn⟩) (outsAt3 c n (Nat.lt_of_succ_lt hn)).2)

/-- `outsAt3` at a first step: case A's contents. -/
theorem outsAt3_A (c : Dev nD) (t : Fin cfg3.N) (h0 : t.val % 4 = 0) :
    outsAt3 V c t.val t.isLt = (View.canon [], sA3 c (grid3.coords t) (ms3_0 t) (hs3_0 t) (ms3_1 t) (hs3_1 t) (ms3_2 t) (hs3_2 t) (ms3_3 t) (hs3_3 t) scM3 (Memref.isWhole_whole _)
      ((hfirst3 t).mpr h0) (fun h => absurd ((hlast3 t).mp h) (by omega))
      (iblk3 V c 0 t) (iblk3 V c 1 t) (iblk3 V c 2 t)) := by
  obtain ⟨n, hn⟩ := t
  cases n with
  | zero => exact rfl
  | succ n => exact (dif_pos h0).trans rfl

/-- `outsAt3` at a middle step: case B's contents, over what the point before left. -/
theorem outsAt3_B (c : Dev nD) (t : Fin cfg3.N) (h0 : ¬t.val % 4 = 0) (h1 : ¬t.val % 4 = 3) :
    outsAt3 V c t.val t.isLt = (View.canon [], sB3 c (grid3.coords t) (ms3_0 t) (hs3_0 t) (ms3_1 t) (hs3_1 t) (ms3_2 t) (hs3_2 t) (ms3_3 t) (hs3_3 t) scM3 (Memref.isWhole_whole _)
      (fun h => h0 ((hfirst3 t).mp h)) (fun h => h1 ((hlast3 t).mp h))
      (iblk3 V c 0 t) (iblk3 V c 1 t) (iblk3 V c 2 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt3` at a last step: case C's contents, over what the point before left. -/
theorem outsAt3_C (c : Dev nD) (t : Fin cfg3.N) (h0 : ¬t.val % 4 = 0) (h1 : t.val % 4 = 3) :
    outsAt3 V c t.val t.isLt = (oC3 c (grid3.coords t) (ms3_0 t) (hs3_0 t) (ms3_1 t) (hs3_1 t) (ms3_2 t) (hs3_2 t) (ms3_3 t) (hs3_3 t) scM3 (Memref.isWhole_whole _)
      (fun h => h0 ((hfirst3 t).mp h)) ((hlast3 t).mpr h1)
      (iblk3 V c 0 t) (iblk3 V c 1 t) (iblk3 V c 2 t) (outsAt3 V c (t.val - 1) (Nat.lt_of_le_of_lt (Nat.sub_le _ _) t.isLt)).2,
     sC3 c (grid3.coords t) (ms3_0 t) (hs3_0 t) (ms3_1 t) (hs3_1 t) (ms3_2 t) (hs3_2 t) (ms3_3 t) (hs3_3 t) scM3 (Memref.isWhole_whole _)
      (fun h => h0 ((hfirst3 t).mp h)) ((hlast3 t).mpr h1)
      (iblk3 V c 0 t) (iblk3 V c 1 t) (iblk3 V c 2 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- Before position `n`: before the first point the accumulator at anything; afterwards the accumulator at what the
    point before left in it; beside it the other scoped buffers untouched and the generator register at some state. -/
def PhiS3 (c : Dev nD) : (n : ℕ) → n ≤ cfg3.N → sProp 𝕄
  | 0, _ => Phi3any c
  | n + 1, hn => iprop(iprop(owns (c : Thread nD τ) scM3 fullShare ((outsAt3 V c n hn).2)
      ∗ Pipeline.scopedRestBut (Ix := Unit) (Name := ℕ) (U := UR sig nD τ) (Lvl := ℕ) (Val := Elt F) spec3 c [cc3_scratch0])
    ∗ (∃ r, prngReg c r))

theorem PhiS3_zero (c : Dev nD) (n : ℕ) (h : n ≤ cfg3.N) (hz : n = 0) : PhiS3 V c n h = Phi3any c := by
  subst hz; rfl

theorem PhiS3_succ (c : Dev nD) (n : ℕ) (hn : n < cfg3.N) :
    PhiS3 V c (n + 1) hn = iprop(iprop(owns (c : Thread nD τ) scM3 fullShare ((outsAt3 V c n hn).2)
      ∗ Pipeline.scopedRestBut (Ix := Unit) (Name := ℕ) (U := UR sig nD τ) (Lvl := ℕ) (Val := Elt F) spec3 c [cc3_scratch0])
    ∗ (∃ r, prngReg c r)) := rfl

theorem PhiS3_pos (c : Dev nD) (n : ℕ) (h : n ≤ cfg3.N) (hz : n ≠ 0) :
    PhiS3 V c n h = iprop(iprop(owns (c : Thread nD τ) scM3 fullShare ((outsAt3 V c (n - 1) (by omega)).2)
      ∗ Pipeline.scopedRestBut (Ix := Unit) (Name := ℕ) (U := UR sig nD τ) (Lvl := ℕ) (Val := Elt F) spec3 c [cc3_scratch0])
    ∗ (∃ r, prngReg c r)) := by
  cases n with
  | zero => exact absurd rfl hz
  | succ n => rfl

/-! ## The pipeline's proof data -/

/-- The proof data of this pipeline on core `c`: the arrays as the region finds them; after the body at point `t`
    each input's buffer at its block and the output's at `outsAt3`'s first component; the invariant `PhiS3`; nothing
    owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = (outsAt3 V c t.val t.isLt).1 := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

set_option maxHeartbeats 4800000 in
/-- The body at any point. The closed forms say which case the point is in. The invariant hands the body the
    accumulator at what the point before left (at anything before the first point) and takes it back at this point's
    contents; away from the last step the output block's buffer passes through untouched, at the last step it ends at
    the stores read back. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl]
  rw [show (dat3 V c).Φ t.succ = PhiS3 V c (t.val + 1) t.isLt from rfl, PhiS3_succ]
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  rw [show (dat3 V c).leavesExact 2 t = owns (c : Thread nD τ) (ms3_2 t) fullShare ((dat3 V c).after 2 t) from by
    unfold Dat.leavesExact; rw [liveAt3_2 t], after3_2]
  have hN : t.val < 32 := lt_of_lt_of_eq t.isLt (show cfg3.N = 32 from N_3)
  by_cases h0 : t.val % 4 = 0
  · have hf : first3 (grid3.coords t) := (hfirst3 t).mpr h0
    have hl : ¬last3 (grid3.coords t) := fun h => absurd ((hlast3 t).mp h) (by omega)
    rw [Dat.leavesExact_idle (dat3 V c) 3 t (idleAt3 t hl) (noFlush3 t hl)]
    rw [outsAt3_A V c t h0]
    unfold sA3; (try dsimp only)
    by_cases hz : t.val = 0
    · rw [PhiS3_castSucc V c t, PhiS3_zero V c _ _ hz]; unfold Phi3any
      iintro ⟨⟨⟨HS, Hb⟩, Hg⟩, Ho, ⟨%d0, H0⟩, ⟨%d1, H1⟩, ⟨%d2, H2⟩, ⟨%d3, H3⟩⟩
      iapply ((bodyRun3_A c (grid3.coords t) _ _ _ _ _ _ _ _ _ _ hf hl (iblk3 V c 0 t) (iblk3 V c 1 t) (iblk3 V c 2 t)).2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hb Hg]
      · isplitl [HS Hb]
        · isplitl [HS]
          · unfold owns; iexists _; isplitr
            swap; · iexact HS
            ipureintro; exact View.read_writes_eq_canon _ _ _ (scover3_A c _ _ _ _ _ _ _ _ _ _ _ _ _ _ _ _)
          iexact Hb
        iexact Hg
      isplitl [Ho]; · iexact Ho
      isplitl [H0]; · iexact H0
      isplitl [H1]; · iexact H1
      isplitl [H2]; · iexact H2
      iexists _; iexact H3
    · rw [PhiS3_castSucc V c t, PhiS3_pos V c _ _ hz]
      iintro ⟨⟨⟨HS, Hb⟩, Hg⟩, Ho, ⟨%d0, H0⟩, ⟨%d1, H1⟩, ⟨%d2, H2⟩, ⟨%d3, H3⟩⟩
      iapply ((bodyRun3_A c (grid3.coords t) _ _ _ _ _ _ _ _ _ _ hf hl (iblk3 V c 0 t) (iblk3 V c 1 t) (iblk3 V c 2 t)).2 _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [HS Hb Hg]
      · isplitl [HS Hb]
        · isplitl [HS]
          · unfold owns; iexists _; isplitr
            swap; · iexact HS
            ipureintro; exact View.read_writes_eq_canon _ _ _ (scover3_A c _ _ _ _ _ _ _ _ _ _ _ _ _ _ _ _)
          iexact Hb
        iexact Hg
      isplitl [Ho]; · iexact Ho
      isplitl [H0]; · iexact H0
      isplitl [H1]; · iexact H1
      isplitl [H2]; · iexact H2
      iexists _; iexact H3
  · have hz : t.val ≠ 0 := fun e => h0 (by rw [e])
    have hf : ¬first3 (grid3.coords t) := fun h => h0 ((hfirst3 t).mp h)
    by_cases h1 : t.val % 4 = 3
    · have hl : last3 (grid3.coords t) := (hlast3 t).mpr h1
      rw [show (dat3 V c).leavesExact 3 t = owns (c : Thread nD τ) (ms3_3 t) fullShare ((dat3 V c).after 3 t) from by
        unfold Dat.leavesExact; rw [liveAt3_3 t hl], after3_3]
      rw [outsAt3_C V c t h0 h1]
      unfold oC3 sC3; (try dsimp only)
      rw [PhiS3_castSucc V c t, PhiS3_pos V c _ _ hz]
      iintro ⟨⟨⟨HS, Hb⟩, Hg⟩, Ho, ⟨%d0, H0⟩, ⟨%d1, H1⟩, ⟨%d2, H2⟩, ⟨%d3, H3⟩⟩
      iapply ((bodyRun3_C c (grid3.coords t) _ _ _ _ _ _ _ _ _ _ hf hl (iblk3 V c 0 t) (iblk3 V c 1 t) (iblk3 V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hb Hg]
      · isplitl [HS Hb]
        · isplitl [HS]
          · unfold owns; iexists _; isplitr
            swap; · iexact HS
            ipureintro; exact View.read_writes_eq_canon _ _ _ (scover3_C c _ _ _ _ _ _ _ _ _ _ _ _ _ _ _ _ _)
          iexact Hb
        iexact Hg
      isplitl [Ho]; · iexact Ho
      isplitl [H0]; · iexact H0
      isplitl [H1]; · iexact H1
      isplitl [H2]; · iexact H2
      unfold owns; iexists _; isplitr
      swap; · iexact H3
      ipureintro; exact View.read_writes_eq_canon _ _ _ (ocover3_C c _ _ _ _ _ _ _ _ _ _ _ _ _ _ _ _ _)
    · have hl : ¬last3 (grid3.coords t) := fun h => h1 ((hlast3 t).mp h)
      rw [Dat.leavesExact_idle (dat3 V c) 3 t (idleAt3 t hl) (noFlush3 t hl)]
      rw [outsAt3_B V c t h0 h1]
      unfold sB3; (try dsimp only)
      rw [PhiS3_castSucc V c t, PhiS3_pos V c _ _ hz]
      iintro ⟨⟨⟨HS, Hb⟩, Hg⟩, Ho, ⟨%d0, H0⟩, ⟨%d1, H1⟩, ⟨%d2, H2⟩, ⟨%d3, H3⟩⟩
      iapply ((bodyRun3_B c (grid3.coords t) _ _ _ _ _ _ _ _ _ _ hf hl (iblk3 V c 0 t) (iblk3 V c 1 t) (iblk3 V c 2 t) _).2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hb Hg]
      · isplitl [HS Hb]
        · isplitl [HS]
          · unfold owns; iexists _; isplitr
            swap; · iexact HS
            ipureintro; exact View.read_writes_eq_canon _ _ _ (scover3_B c _ _ _ _ _ _ _ _ _ _ _ _ _ _ _ _ _)
          iexact Hb
        iexact Hg
      isplitl [Ho]; · iexact Ho
      isplitl [H0]; · iexact H0
      isplitl [H1]; · iexact H1
      isplitl [H2]; · iexact H2
      iexists _; iexact H3

/-- The pipeline's body obligation, at every point. -/
theorem body_obligation3 (c : Dev nD) : BodyObligation (dat3 (F := F) V c) (defs₀ (F := F)) Variants.none () Set.univ := fun t => by
  rw [bigSep_W3, bigSep_W3]
  exact sound_body3 V c t

/-- After any point the invariant gives back the form it had before the first: the accumulator's contents forgotten. -/
theorem Phi3_out (c : Dev nD) (t : Fin (cfg3.N + 1)) (ht : t.val ≠ 0) : (dat3 V c).Φ t ⊢ Phi3any c := by
  rw [show (dat3 V c).Φ t = PhiS3 V c t.val (Nat.le_of_lt_succ t.isLt) from rfl, PhiS3_pos V c _ _ ht]; unfold Phi3any
  iintro ⟨⟨HS, Hb⟩, Hg⟩
  isplitl [HS Hb]
  · isplitl [HS]
    · iexists _; iexact HS
    iexact Hb
  iexact Hg

end Data

end Cert.Kernel.Acc

end
-- ==== Proof.AccK4.lean ====
/-
  Region 4: the second projection of the global branch, hg · (w2g · tao_2_G), where hg is the first global layer's
  output. Four row blocks of 2048 rows, the whole contraction (256) in one step: at every grid point the body zeroes
  its accumulator, adds the block product into it, and copies it to the output block. Nothing is carried between points.

  The body is run symbolically on whole staging memrefs; what it leaves in the output block and the accumulator is the
  list of stores the run finds; the pipeline's body obligation follows at every point.
-/
import proofs.«157716_j2267742732442_1_alg».proof.Proof.Gen.Kernel.Launch
import proofs.«157716_j2267742732442_1_alg».proof.Proof.Gen.Kernel.Skeleton
import proofs.«157716_j2267742732442_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Acc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

/-! ## The two conditions of the body -/

/-- The accumulator is zeroed when the last grid coordinate is 0. -/
abbrev first4 (i : grid4.Coords) : Prop := (Scalar.cmpi .ne (Scalar.extui (Scalar.cmpi .eq (BitVec.ofNat 32 (i 2).val) 0#32)) 0#32) = 1#1
/-- The output block is written at the last contraction step, which here is also step 0. -/
abbrev last4 (i : grid4.Coords) : Prop := k4_cond2 i = 1#1

theorem first4_all : ∀ t : Fin cfg4.N, first4 (grid4.coords t) :=
  (by decide +kernel : ∀ t : Fin grid4.N, first4 (grid4.coords t))
theorem last4_all : ∀ t : Fin cfg4.N, last4 (grid4.coords t) :=
  (by decide +kernel : ∀ t : Fin grid4.N, last4 (grid4.coords t))

/-! ## The body on whole memrefs -/

set_option maxHeartbeats 1000000 in
/-- The body on whole memrefs: the three inputs at their contents, the output block and the accumulator at anything.
    It runs to the continuation with the inputs as they were and with the output block and the accumulator each
    overwritten by a list of stores (last first), which the symbolic run finds. -/
noncomputable def bodyRun4 (c : Dev nD) (i : grid4.Coords)
    (arg3 : Memref sig .tc .vmem S2048x256 .f32) (harg3 : arg3.IsWhole) (arg4 : Memref sig .tc .vmem S256x128 .f32) (harg4 : arg4.IsWhole)
    (arg5 : Memref sig .tc .vmem S1x128 .f32) (harg5 : arg5.IsWhole) (arg6 : Memref sig .tc .vmem S2048x128 .f32) (harg6 : arg6.IsWhole)
    (arg7 : Memref sig .tc .vmem S2048x128 .f32) (harg7 : arg7.IsWhole) (hf : first4 i) (hl : last4 i)
    (x0 : Vec F S2048x256 .f32) (x1 : Vec F S256x128 .f32) (x2 : Vec F S1x128 .f32) :
    Σ' (LO : List (View.Piece (Elt F) S2048x128 .f32)), { LS : List (View.Piece (Elt F) S2048x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg6 fullShare d) ∗ (∃ d, owns (c : Thread nD τ) arg7 fullShare d)
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f LO)
                ∗ (∃ f, arg7.view.loc (c : Thread nD τ) ↦[arg7.view.set]{fullShare} arg7.view.writes (Elt F) f LS)) -∗ K ⟨⟩))
          ⊢ wp frame (wpE (defs₀ (F := F)) Variants.none c none) E (cc4_kernel i arg3 harg3 arg4 harg4 arg5 harg5 arg6 harg6 arg7 harg7) K } := by
  refine ⟨?_, ?_, fun E K => ?run⟩
  case run =>
    simp only [cc4_kernel_eq_skeleton]; unfold cc4_kernel_skel
    unfold owns
    iintro ⟨⟨%f0, %hf0, H0⟩, ⟨%f1, %hf1, H1⟩, ⟨%f2, %hf2, H2⟩, ⟨%d3, %f3, -, H3⟩, ⟨%ds, %fs, -, HS⟩, Hk⟩
    obtain rfl := harg3.eq_unread hf0; obtain rfl := harg4.eq_unread hf1; obtain rfl := harg5.eq_unread hf2
    sl_exec (disch := first | exact hf | exact hl)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS

/-- The stores into the output block cover it (one store of the whole block). -/
theorem ocover4 (c : Dev nD) (i : grid4.Coords)
    (arg3 : Memref sig .tc .vmem S2048x256 .f32) (harg3 : arg3.IsWhole) (arg4 : Memref sig .tc .vmem S256x128 .f32) (harg4 : arg4.IsWhole)
    (arg5 : Memref sig .tc .vmem S1x128 .f32) (harg5 : arg5.IsWhole) (arg6 : Memref sig .tc .vmem S2048x128 .f32) (harg6 : arg6.IsWhole)
    (arg7 : Memref sig .tc .vmem S2048x128 .f32) (harg7 : arg7.IsWhole) (hf : first4 i) (hl : last4 i)
    (x0 : Vec F S2048x256 .f32) (x1 : Vec F S256x128 .f32) (x2 : Vec F S1x128 .f32) (y : S2048x128.Idx) :
    ∃ pc ∈ (bodyRun4 c i arg3 harg3 arg4 harg4 arg5 harg5 arg6 harg6 arg7 harg7 hf hl x0 x1 x2).1, y ∈ pc.1.set :=
  View.cover_of_tiledL (bodyRun4 c i arg3 harg3 arg4 harg4 arg5 harg5 arg6 harg6 arg7 harg7 hf hl x0 x1 x2).1 S2048x128.size (by sl_kernel_rfl) y

/-- What the body leaves in the output block: its stores read back. -/
def out4 (c : Dev nD) (i : grid4.Coords)
    (arg3 : Memref sig .tc .vmem S2048x256 .f32) (harg3 : arg3.IsWhole) (arg4 : Memref sig .tc .vmem S256x128 .f32) (harg4 : arg4.IsWhole)
    (arg5 : Memref sig .tc .vmem S1x128 .f32) (harg5 : arg5.IsWhole) (arg6 : Memref sig .tc .vmem S2048x128 .f32) (harg6 : arg6.IsWhole)
    (arg7 : Memref sig .tc .vmem S2048x128 .f32) (harg7 : arg7.IsWhole) (hf : first4 i) (hl : last4 i)
    (x0 : Vec F S2048x256 .f32) (x1 : Vec F S256x128 .f32) (x2 : Vec F S1x128 .f32) : Vec F S2048x128 .f32 :=
  View.canon (bodyRun4 c i arg3 harg3 arg4 harg4 arg5 harg5 arg6 harg6 arg7 harg7 hf hl x0 x1 x2).1

/-! ## The memrefs the pipeline passes at a point -/

abbrev ms4_0 (t : Fin cfg4.N) : Memref sig .tc .vmem S2048x256 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S256x128 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1x128 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S2048x128 .f32 := win4_3.stage (cfg4.slots t 3)
abbrev hs4_3 (t : Fin cfg4.N) : (ms4_3 t).IsWhole := hstage4_3 ((cfg4.slots t 3).cast nbuf4_3)
/-- The accumulator: a whole scoped buffer of the kernel's own. -/
abbrev scM4 : Memref sig .tc .vmem S2048x128 .f32 := Memref.whole cc4_scratch0

/-! ## No window is idle at any point -/

theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel
theorem liveAt4_3 : ∀ t : Fin cfg4.N, cfg4.idle 3 (grid4.coords t) = false := by decide +kernel

/-! ## The invariant between points -/

/-- Between points: the accumulator at anything, every other scoped buffer that is no staging buffer of this call
    untouched, and the generator register at some state. -/
def Phi4 (c : Dev nD) : sProp 𝕄 :=
  iprop(iprop(iprop(∃ d, owns (c : Thread nD τ) scM4 fullShare d)
      ∗ Pipeline.scopedRestBut (Ix := Unit) (Name := ℕ) (U := UR sig nD τ) (Lvl := ℕ) (Val := Elt F) spec4 c [cc4_scratch0])
    ∗ (∃ r, prngReg c r))

/-- It is the scoped rest of this call with the generator register, the accumulator named. -/
theorem PhiA4_eq (c : Dev nD) : (Pipeline.ΦA spec4 c : sProp 𝕄) = Phi4 c := by
  unfold Pipeline.ΦA Phi4; rw [scopedRest4_split]; simp only [scM4, owns_whole]; try rfl

section Data

-- the contents of the TensorCore's buffers when the region is entered
variable (V : (c : Dev nD) → (b : Ref sig .tc) → Buf (Elt F) ((c : Thread nD τ).loc b))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's current staging buffer holds its block at every point, fetched there or not (when it is not
    fetched its block index has not moved). -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- What the output block holds after point `t`: the body's stores there, read back, on the point's input blocks. -/
def outAt4 (c : Dev nD) (t : Fin cfg4.N) : Vec F S2048x128 .f32 :=
  out4 c (grid4.coords t) (ms4_0 t) (hs4_0 t) (ms4_1 t) (hs4_1 t) (ms4_2 t) (hs4_2 t) (ms4_3 t) (hs4_3 t) scM4 (Memref.isWhole_whole _)
    (first4_all t) (last4_all t) (iblk4 V c 0 t) (iblk4 V c 1 t) (iblk4 V c 2 t)

/-- The proof data of this pipeline on core `c`: the arrays as the region finds them; after the body at point `t`
    each input's buffer at its block and the output's at `outAt4`; the invariant `Phi4`; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => outAt4 V c t
  Φ _ := Phi4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = outAt4 V c t := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-! ## The body obligation -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t)

set_option maxHeartbeats 1600000 in
/-- The body at any point: the inputs' memrefs hold their blocks, the invariant lends the accumulator at anything and
    takes it back at anything, the output block ends at the stores read back. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = Phi4 c from rfl, show (dat4 V c).Φ t.castSucc = Phi4 c from rfl,
    show (dat4 V c).owesAt () t.succ = (dat4 V c).owesAt () t.castSucc from rfl]
  rw [show (dat4 V c).leavesExact 0 t = owns (c : Thread nD τ) (ms4_0 t) fullShare ((dat4 V c).after 0 t) from by
    unfold Dat.leavesExact; rw [liveAt4_0 t], after4_0]
  rw [show (dat4 V c).leavesExact 1 t = owns (c : Thread nD τ) (ms4_1 t) fullShare ((dat4 V c).after 1 t) from by
    unfold Dat.leavesExact; rw [liveAt4_1 t], after4_1]
  rw [show (dat4 V c).leavesExact 2 t = owns (c : Thread nD τ) (ms4_2 t) fullShare ((dat4 V c).after 2 t) from by
    unfold Dat.leavesExact; rw [liveAt4_2 t], after4_2]
  rw [show (dat4 V c).leavesExact 3 t = owns (c : Thread nD τ) (ms4_3 t) fullShare ((dat4 V c).after 3 t) from by
    unfold Dat.leavesExact; rw [liveAt4_3 t], after4_3]
  unfold Phi4 outAt4 out4
  iintro ⟨⟨⟨HS, Hb⟩, Hg⟩, Ho, ⟨%d0, H0⟩, ⟨%d1, H1⟩, ⟨%d2, H2⟩, ⟨%d3, H3⟩⟩
  iapply ((bodyRun4 c (grid4.coords t) _ _ _ _ _ _ _ _ _ _ (first4_all t) (last4_all t) (iblk4 V c 0 t) (iblk4 V c 1 t) (iblk4 V c 2 t)).2.2 Set.univ _)
  isplitl [H0]; · iexact H0
  isplitl [H1]; · iexact H1
  isplitl [H2]; · iexact H2
  isplitl [H3]; · iexists _; iexact H3
  isplitl [HS]; · iexact HS
  iintro ⟨H0, H1, H2, ⟨%e3, H3⟩, ⟨%es, HS⟩⟩
  isplitl [HS Hb Hg]
  · isplitl [HS Hb]
    · isplitl [HS]
      · iexists _; unfold owns; iexists _; isplitr
        swap; · iexact HS
        ipureintro; rfl
      iexact Hb
    iexact Hg
  isplitl [Ho]; · iexact Ho
  isplitl [H0]; · iexact H0
  isplitl [H1]; · iexact H1
  isplitl [H2]; · iexact H2
  unfold owns; iexists _; isplitr
  swap; · iexact H3
  ipureintro; exact View.read_writes_eq_canon _ _ _ (ocover4 c _ _ _ _ _ _ _ _ _ _ _ _ _ _ _ _)

/-- The pipeline's body obligation, at every point. -/
theorem body_obligation4 (c : Dev nD) : BodyObligation (dat4 (F := F) V c) (defs₀ (F := F)) Variants.none () Set.univ := fun t => by
  rw [bigSep_W4, bigSep_W4]
  exact sound_body4 V c t

end Data

end Cert.Kernel.Acc

end
-- ==== Proof.AccK5.lean ====
/-
  Region 5: the second dense propagation of the global branch, max(PPMI · t2 + b2g, 0), where t2 is region 4's result.
  Eight row blocks of 1024 rows; the contraction (8192) in four steps of 2048 along the grid's last axis. The body keeps
  an accumulator of one output block across the four steps:
    * at the first step (case A) it zeroes the accumulator and adds the step's product PPMI[rows, cols] · t2[cols, :];
    * at the two middle steps (case B) it adds the step's product to what the previous step left;
    * at the last step (case C) it adds the step's product, then writes max(accumulator + bias, 0) to the output block.
  The output block is written back only after the last step; at the other steps its staging buffer is left as found.

  This module runs the body symbolically in each case on whole staging memrefs, records what each case leaves in the
  accumulator (and, in case C, in the output block) as the stores the run finds, defines point by point what the
  accumulator and the output block hold, and discharges the pipeline's body obligation at every point.
-/
import proofs.«157716_j2267742732442_1_alg».proof.Proof.Gen.Kernel.Launch
import proofs.«157716_j2267742732442_1_alg».proof.Proof.Gen.Kernel.Skeleton
import proofs.«157716_j2267742732442_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Acc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

/-! ## The two conditions of the body, in closed form over the grid -/

/-- The accumulator is zeroed when the last grid coordinate is 0. -/
abbrev first5 (i : grid5.Coords) : Prop := (Scalar.cmpi .ne (Scalar.extui (Scalar.cmpi .eq (BitVec.ofNat 32 (i 2).val) 0#32)) 0#32) = 1#1
/-- The output block is written when the last grid coordinate is 3, the last contraction step. -/
abbrev last5 (i : grid5.Coords) : Prop := k5_cond2 i = 1#1

/-- The grid is walked with the contraction step fastest: the first step is at the points ≡ 0 (mod 4), -/
theorem hfirst5 : ∀ t : Fin cfg5.N, first5 (grid5.coords t) ↔ t.val % 4 = 0 :=
  (by decide +kernel : ∀ t : Fin grid5.N, first5 (grid5.coords t) ↔ t.val % 4 = 0)
/-- the last at the points ≡ 3 (mod 4). -/
theorem hlast5 : ∀ t : Fin cfg5.N, last5 (grid5.coords t) ↔ t.val % 4 = 3 :=
  (by decide +kernel : ∀ t : Fin grid5.N, last5 (grid5.coords t) ↔ t.val % 4 = 3)

/-! ## Where the output window is idle -/

theorem liveAt5_0 : ∀ t : Fin cfg5.N, cfg5.idle 0 (grid5.coords t) = false := by decide +kernel
theorem liveAt5_1 : ∀ t : Fin cfg5.N, cfg5.idle 1 (grid5.coords t) = false := by decide +kernel
theorem liveAt5_2 : ∀ t : Fin cfg5.N, cfg5.idle 2 (grid5.coords t) = false := by decide +kernel
/-- Away from the last step the output window is idle and is not written back; -/
theorem idleAt5 : ∀ t : Fin cfg5.N, ¬last5 (grid5.coords t) → cfg5.idle 3 (grid5.coords t) = true := by decide +kernel
theorem noFlush5 : ∀ t : Fin cfg5.N, ¬last5 (grid5.coords t) → (cfg5.win 3).flush t = false := by decide +kernel
/-- at the last step it is live. -/
theorem liveAt5_3 : ∀ t : Fin cfg5.N, last5 (grid5.coords t) → cfg5.idle 3 (grid5.coords t) = false := by decide +kernel

/-! ## The body on whole memrefs, case by case -/

set_option maxHeartbeats 1000000 in
/-- CASE A (first step): inputs at their contents, the output block at any contents `xo` (untouched), the accumulator
    at anything. The accumulator ends overwritten by the found stores. -/
noncomputable def bodyRun5_A (c : Dev nD) (i : grid5.Coords)
    (arg3 : Memref sig .tc .vmem S1024x2048 .f32) (harg3 : arg3.IsWhole) (arg4 : Memref sig .tc .vmem S2048x128 .f32) (harg4 : arg4.IsWhole)
    (arg5 : Memref sig .tc .vmem S1x128 .f32) (harg5 : arg5.IsWhole) (arg6 : Memref sig .tc .vmem S1024x128 .f32) (harg6 : arg6.IsWhole)
    (arg7 : Memref sig .tc .vmem S1024x128 .f32) (harg7 : arg7.IsWhole) (hf : first5 i) (hl : ¬last5 i)
    (x0 : Vec F S1024x2048 .f32) (x1 : Vec F S2048x128 .f32) (x2 : Vec F S1x128 .f32) :
    { LS : List (View.Piece (Elt F) S1024x128 .f32) //
      ∀ (xo : Vec F S1024x128 .f32) (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare xo ∗ (∃ d, owns (c : Thread nD τ) arg7 fullShare d)
            ∗ (iprop(owns (c : Thread nD τ) arg3 fullShare x0 ∗ owns (c : Thread nD τ) arg4 fullShare x1 ∗ owns (c : Thread nD τ) arg5 fullShare x2
                ∗ owns (c : Thread nD τ) arg6 fullShare xo
                ∗ (∃ f, arg7.view.loc (c : Thread nD τ) ↦[arg7.view.set]{fullShare} arg7.view.writes (Elt F) f LS)) -∗ K ⟨⟩))
          ⊢ wp frame (wpE (defs₀ (F := F)) Variants.none c none) E (cc5_kernel i arg3 harg3 arg4 harg4 arg5 harg5 arg6 harg6 arg7 harg7) K } := by
  refine ⟨?_, fun xo E K => ?run⟩
  case run =>
    simp only [cc5_kernel_eq_skeleton]; unfold cc5_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg3.eq_unread hf0; obtain rfl := harg4.eq_unread hf1; obtain rfl := harg5.eq_unread hf2; obtain rfl := harg6.eq_unread hf3
    sl_exec (disch := first | exact hf | exact hl)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

set_option maxHeartbeats 1000000 in
/-- CASE B (a middle step): as case A, the accumulator at the contents `xs` the previous step left. -/
noncomputable def bodyRun5_B (c : Dev nD) (i : grid5.Coords)
    (arg3 : Memref sig .tc .vmem S1024x2048 .f32) (harg3 : arg3.IsWhole) (arg4 : Memref sig .tc .vmem S2048x128 .f32) (harg4 : arg4.IsWhole)
    (arg5 : Memref sig .tc .vmem S1x128 .f32) (harg5 : arg5.IsWhole) (arg6 : Memref sig .tc .vmem S1024x128 .f32) (harg6 : arg6.IsWhole)
    (arg7 : Memref sig .tc .vmem S1024x128 .f32) (harg7 : arg7.IsWhole) (hf : ¬first5 i) (hl : ¬last5 i)
    (x0 : Vec F S1024x2048 .f32) (x1 : Vec F S2048x128 .f32) (x2 : Vec F S1x128 .f32) (xs : Vec F S1024x128 .f32) :
    { LS : List (View.Piece (Elt F) S1024x128 .f32) //
      ∀ (xo : Vec F S1024x128 .f32) (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare xo ∗ owns (c : Thread nD τ) arg7 fullShare xs
            ∗ (iprop(owns (c : Thread nD τ) arg3 fullShare x0 ∗ owns (c : Thread nD τ) arg4 fullShare x1 ∗ owns (c : Thread nD τ) arg5 fullShare x2
                ∗ owns (c : Thread nD τ) arg6 fullShare xo
                ∗ (∃ f, arg7.view.loc (c : Thread nD τ) ↦[arg7.view.set]{fullShare} arg7.view.writes (Elt F) f LS)) -∗ K ⟨⟩))
          ⊢ wp frame (wpE (defs₀ (F := F)) Variants.none c none) E (cc5_kernel i arg3 harg3 arg4 harg4 arg5 harg5 arg6 harg6 arg7 harg7) K } := by
  refine ⟨?_, fun xo E K => ?run⟩
  case run =>
    simp only [cc5_kernel_eq_skeleton]; unfold cc5_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg3.eq_unread hf0; obtain rfl := harg4.eq_unread hf1; obtain rfl := harg5.eq_unread hf2; obtain rfl := harg6.eq_unread hf3
    obtain rfl := harg7.eq_unread hfs
    sl_exec (disch := first | exact hf | exact hl)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

set_option maxHeartbeats 1000000 in
/-- CASE C (last step): the accumulator at the contents `xs` the previous step left, the output block at anything;
    both end overwritten by the found stores. -/
noncomputable def bodyRun5_C (c : Dev nD) (i : grid5.Coords)
    (arg3 : Memref sig .tc .vmem S1024x2048 .f32) (harg3 : arg3.IsWhole) (arg4 : Memref sig .tc .vmem S2048x128 .f32) (harg4 : arg4.IsWhole)
    (arg5 : Memref sig .tc .vmem S1x128 .f32) (harg5 : arg5.IsWhole) (arg6 : Memref sig .tc .vmem S1024x128 .f32) (harg6 : arg6.IsWhole)
    (arg7 : Memref sig .tc .vmem S1024x128 .f32) (harg7 : arg7.IsWhole) (hf : ¬first5 i) (hl : last5 i)
    (x0 : Vec F S1024x2048 .f32) (x1 : Vec F S2048x128 .f32) (x2 : Vec F S1x128 .f32) (xs : Vec F S1024x128 .f32) :
    Σ' (LO : List (View.Piece (Elt F) S1024x128 .f32)), { LS : List (View.Piece (Elt F) S1024x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg6 fullShare d) ∗ owns (c : Thread nD τ) arg7 fullShare xs
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f LO)
                ∗ (∃ f, arg7.view.loc (c : Thread nD τ) ↦[arg7.view.set]{fullShare} arg7.view.writes (Elt F) f LS)) -∗ K ⟨⟩))
          ⊢ wp frame (wpE (defs₀ (F := F)) Variants.none c none) E (cc5_kernel i arg3 harg3 arg4 harg4 arg5 harg5 arg6 harg6 arg7 harg7) K } := by
  refine ⟨?_, ?_, fun E K => ?run⟩
  case run =>
    simp only [cc5_kernel_eq_skeleton]; unfold cc5_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg3.eq_unread hf0; obtain rfl := harg4.eq_unread hf1; obtain rfl := harg5.eq_unread hf2
    obtain rfl := harg7.eq_unread hfs
    sl_exec (disch := first | exact hf | exact hl)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS

/-! ## The stores cover what they overwrite -/

theorem scover5_A (c : Dev nD) (i : grid5.Coords)
    (arg3 : Memref sig .tc .vmem S1024x2048 .f32) (harg3 : arg3.IsWhole) (arg4 : Memref sig .tc .vmem S2048x128 .f32) (harg4 : arg4.IsWhole)
    (arg5 : Memref sig .tc .vmem S1x128 .f32) (harg5 : arg5.IsWhole) (arg6 : Memref sig .tc .vmem S1024x128 .f32) (harg6 : arg6.IsWhole)
    (arg7 : Memref sig .tc .vmem S1024x128 .f32) (harg7 : arg7.IsWhole) (hf : first5 i) (hl : ¬last5 i)
    (x0 : Vec F S1024x2048 .f32) (x1 : Vec F S2048x128 .f32) (x2 : Vec F S1x128 .f32) (y : S1024x128.Idx) :
    ∃ pc ∈ (bodyRun5_A c i arg3 harg3 arg4 harg4 arg5 harg5 arg6 harg6 arg7 harg7 hf hl x0 x1 x2).1, y ∈ pc.1.set :=
  View.cover_of_tiledL (bodyRun5_A c i arg3 harg3 arg4 harg4 arg5 harg5 arg6 harg6 arg7 harg7 hf hl x0 x1 x2).1 S1024x128.size (by sl_kernel_rfl) y
theorem scover5_B (c : Dev nD) (i : grid5.Coords)
    (arg3 : Memref sig .tc .vmem S1024x2048 .f32) (harg3 : arg3.IsWhole) (arg4 : Memref sig .tc .vmem S2048x128 .f32) (harg4 : arg4.IsWhole)
    (arg5 : Memref sig .tc .vmem S1x128 .f32) (harg5 : arg5.IsWhole) (arg6 : Memref sig .tc .vmem S1024x128 .f32) (harg6 : arg6.IsWhole)
    (arg7 : Memref sig .tc .vmem S1024x128 .f32) (harg7 : arg7.IsWhole) (hf : ¬first5 i) (hl : ¬last5 i)
    (x0 : Vec F S1024x2048 .f32) (x1 : Vec F S2048x128 .f32) (x2 : Vec F S1x128 .f32) (xs : Vec F S1024x128 .f32) (y : S1024x128.Idx) :
    ∃ pc ∈ (bodyRun5_B c i arg3 harg3 arg4 harg4 arg5 harg5 arg6 harg6 arg7 harg7 hf hl x0 x1 x2 xs).1, y ∈ pc.1.set :=
  View.cover_of_tiledL (bodyRun5_B c i arg3 harg3 arg4 harg4 arg5 harg5 arg6 harg6 arg7 harg7 hf hl x0 x1 x2 xs).1 S1024x128.size (by sl_kernel_rfl) y
theorem scover5_C (c : Dev nD) (i : grid5.Coords)
    (arg3 : Memref sig .tc .vmem S1024x2048 .f32) (harg3 : arg3.IsWhole) (arg4 : Memref sig .tc .vmem S2048x128 .f32) (harg4 : arg4.IsWhole)
    (arg5 : Memref sig .tc .vmem S1x128 .f32) (harg5 : arg5.IsWhole) (arg6 : Memref sig .tc .vmem S1024x128 .f32) (harg6 : arg6.IsWhole)
    (arg7 : Memref sig .tc .vmem S1024x128 .f32) (harg7 : arg7.IsWhole) (hf : ¬first5 i) (hl : last5 i)
    (x0 : Vec F S1024x2048 .f32) (x1 : Vec F S2048x128 .f32) (x2 : Vec F S1x128 .f32) (xs : Vec F S1024x128 .f32) (y : S1024x128.Idx) :
    ∃ pc ∈ (bodyRun5_C c i arg3 harg3 arg4 harg4 arg5 harg5 arg6 harg6 arg7 harg7 hf hl x0 x1 x2 xs).2.1, y ∈ pc.1.set :=
  View.cover_of_tiledL (bodyRun5_C c i arg3 harg3 arg4 harg4 arg5 harg5 arg6 harg6 arg7 harg7 hf hl x0 x1 x2 xs).2.1 S1024x128.size (by sl_kernel_rfl) y
theorem ocover5_C (c : Dev nD) (i : grid5.Coords)
    (arg3 : Memref sig .tc .vmem S1024x2048 .f32) (harg3 : arg3.IsWhole) (arg4 : Memref sig .tc .vmem S2048x128 .f32) (harg4 : arg4.IsWhole)
    (arg5 : Memref sig .tc .vmem S1x128 .f32) (harg5 : arg5.IsWhole) (arg6 : Memref sig .tc .vmem S1024x128 .f32) (harg6 : arg6.IsWhole)
    (arg7 : Memref sig .tc .vmem S1024x128 .f32) (harg7 : arg7.IsWhole) (hf : ¬first5 i) (hl : last5 i)
    (x0 : Vec F S1024x2048 .f32) (x1 : Vec F S2048x128 .f32) (x2 : Vec F S1x128 .f32) (xs : Vec F S1024x128 .f32) (y : S1024x128.Idx) :
    ∃ pc ∈ (bodyRun5_C c i arg3 harg3 arg4 harg4 arg5 harg5 arg6 harg6 arg7 harg7 hf hl x0 x1 x2 xs).1, y ∈ pc.1.set :=
  View.cover_of_tiledL (bodyRun5_C c i arg3 harg3 arg4 harg4 arg5 harg5 arg6 harg6 arg7 harg7 hf hl x0 x1 x2 xs).1 S1024x128.size (by sl_kernel_rfl) y

/-! ## What each case leaves -/

/-- The accumulator after case A. -/
def sA5 (c : Dev nD) (i : grid5.Coords)
    (arg3 : Memref sig .tc .vmem S1024x2048 .f32) (harg3 : arg3.IsWhole) (arg4 : Memref sig .tc .vmem S2048x128 .f32) (harg4 : arg4.IsWhole)
    (arg5 : Memref sig .tc .vmem S1x128 .f32) (harg5 : arg5.IsWhole) (arg6 : Memref sig .tc .vmem S1024x128 .f32) (harg6 : arg6.IsWhole)
    (arg7 : Memref sig .tc .vmem S1024x128 .f32) (harg7 : arg7.IsWhole) (hf : first5 i) (hl : ¬last5 i)
    (x0 : Vec F S1024x2048 .f32) (x1 : Vec F S2048x128 .f32) (x2 : Vec F S1x128 .f32) : Vec F S1024x128 .f32 :=
  View.canon (bodyRun5_A c i arg3 harg3 arg4 harg4 arg5 harg5 arg6 harg6 arg7 harg7 hf hl x0 x1 x2).1
/-- The accumulator after case B. -/
def sB5 (c : Dev nD) (i : grid5.Coords)
    (arg3 : Memref sig .tc .vmem S1024x2048 .f32) (harg3 : arg3.IsWhole) (arg4 : Memref sig .tc .vmem S2048x128 .f32) (harg4 : arg4.IsWhole)
    (arg5 : Memref sig .tc .vmem S1x128 .f32) (harg5 : arg5.IsWhole) (arg6 : Memref sig .tc .vmem S1024x128 .f32) (harg6 : arg6.IsWhole)
    (arg7 : Memref sig .tc .vmem S1024x128 .f32) (harg7 : arg7.IsWhole) (hf : ¬first5 i) (hl : ¬last5 i)
    (x0 : Vec F S1024x2048 .f32) (x1 : Vec F S2048x128 .f32) (x2 : Vec F S1x128 .f32) (xs : Vec F S1024x128 .f32) : Vec F S1024x128 .f32 :=
  View.canon (bodyRun5_B c i arg3 harg3 arg4 harg4 arg5 harg5 arg6 harg6 arg7 harg7 hf hl x0 x1 x2 xs).1
/-- The accumulator after case C. -/
def sC5 (c : Dev nD) (i : grid5.Coords)
    (arg3 : Memref sig .tc .vmem S1024x2048 .f32) (harg3 : arg3.IsWhole) (arg4 : Memref sig .tc .vmem S2048x128 .f32) (harg4 : arg4.IsWhole)
    (arg5 : Memref sig .tc .vmem S1x128 .f32) (harg5 : arg5.IsWhole) (arg6 : Memref sig .tc .vmem S1024x128 .f32) (harg6 : arg6.IsWhole)
    (arg7 : Memref sig .tc .vmem S1024x128 .f32) (harg7 : arg7.IsWhole) (hf : ¬first5 i) (hl : last5 i)
    (x0 : Vec F S1024x2048 .f32) (x1 : Vec F S2048x128 .f32) (x2 : Vec F S1x128 .f32) (xs : Vec F S1024x128 .f32) : Vec F S1024x128 .f32 :=
  View.canon (bodyRun5_C c i arg3 harg3 arg4 harg4 arg5 harg5 arg6 harg6 arg7 harg7 hf hl x0 x1 x2 xs).2.1
/-- The output block after case C. -/
def oC5 (c : Dev nD) (i : grid5.Coords)
    (arg3 : Memref sig .tc .vmem S1024x2048 .f32) (harg3 : arg3.IsWhole) (arg4 : Memref sig .tc .vmem S2048x128 .f32) (harg4 : arg4.IsWhole)
    (arg5 : Memref sig .tc .vmem S1x128 .f32) (harg5 : arg5.IsWhole) (arg6 : Memref sig .tc .vmem S1024x128 .f32) (harg6 : arg6.IsWhole)
    (arg7 : Memref sig .tc .vmem S1024x128 .f32) (harg7 : arg7.IsWhole) (hf : ¬first5 i) (hl : last5 i)
    (x0 : Vec F S1024x2048 .f32) (x1 : Vec F S2048x128 .f32) (x2 : Vec F S1x128 .f32) (xs : Vec F S1024x128 .f32) : Vec F S1024x128 .f32 :=
  View.canon (bodyRun5_C c i arg3 harg3 arg4 harg4 arg5 harg5 arg6 harg6 arg7 harg7 hf hl x0 x1 x2 xs).1

/-! ## The memrefs the pipeline passes at a point -/

abbrev ms5_0 (t : Fin cfg5.N) : Memref sig .tc .vmem S1024x2048 .f32 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S2048x128 .f32 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S1x128 .f32 := win5_2.stage (cfg5.slots t 2)
abbrev hs5_2 (t : Fin cfg5.N) : (ms5_2 t).IsWhole := hstage5_2 ((cfg5.slots t 2).cast nbuf5_2)
abbrev ms5_3 (t : Fin cfg5.N) : Memref sig .tc .vmem S1024x128 .f32 := win5_3.stage (cfg5.slots t 3)
abbrev hs5_3 (t : Fin cfg5.N) : (ms5_3 t).IsWhole := hstage5_3 ((cfg5.slots t 3).cast nbuf5_3)
/-- The accumulator: a whole scoped buffer of the kernel's own. -/
abbrev scM5 : Memref sig .tc .vmem S1024x128 .f32 := Memref.whole cc5_scratch0

/-! ## The invariant before the first point -/

/-- Before the first point: the accumulator at anything, every other scoped buffer that is no staging buffer of this
    call untouched, and the generator register at some state. -/
def Phi5any (c : Dev nD) : sProp 𝕄 :=
  iprop(iprop(iprop(∃ d, owns (c : Thread nD τ) scM5 fullShare d)
      ∗ Pipeline.scopedRestBut (Ix := Unit) (Name := ℕ) (U := UR sig nD τ) (Lvl := ℕ) (Val := Elt F) spec5 c [cc5_scratch0])
    ∗ (∃ r, prngReg c r))

/-- It is the scoped rest of this call with the generator register, the accumulator named. -/
theorem PhiA5_eq (c : Dev nD) : (Pipeline.ΦA spec5 c : sProp 𝕄) = Phi5any c := by
  unfold Pipeline.ΦA Phi5any; rw [scopedRest5_split]; simp only [scM5, owns_whole]; try rfl

section Data

-- the contents of the TensorCore's buffers when the region is entered
variable (V : (c : Dev nD) → (b : Ref sig .tc) → Buf (Elt F) ((c : Thread nD τ).loc b))

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- An input window's current staging buffer holds its block at every point, fetched there or not (when it is not
    fetched its block index has not moved). -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-! ## What the output block and the accumulator hold after each point -/

/-- THE ACCUMULATION. After the body at position `n`: (the output block's staging buffer, the accumulator). The case
    is the one the closed forms select at `n`; cases B and C start from what position `n - 1` left in the accumulator.
    Away from the last step the first component is a placeholder nothing reads (the window is idle there). -/
def outsAt5 (c : Dev nD) : (n : ℕ) → n < cfg5.N → Vec F S1024x128 .f32 × Vec F S1024x128 .f32
  | 0, hn => (View.canon [], sA5 c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) (ms5_3 ⟨0, hn⟩) (hs5_3 ⟨0, hn⟩) scM5 (Memref.isWhole_whole _)
      ((hfirst5 ⟨0, hn⟩).mpr (Nat.zero_mod _)) (fun h => absurd ((hlast5 ⟨0, hn⟩).mp h) (by show ¬ (0 % 4 = 3); omega))
      (iblk5 V c 0 ⟨0, hn⟩) (iblk5 V c 1 ⟨0, hn⟩) (iblk5 V c 2 ⟨0, hn⟩))
  | n + 1, hn =>
    if h0 : (n + 1) % 4 = 0 then
      (View.canon [], sA5 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) scM5 (Memref.isWhole_whole _)
        ((hfirst5 ⟨n + 1, hn⟩).mpr h0) (fun h => absurd ((hlast5 ⟨n + 1, hn⟩).mp h) (by dsimp only; omega))
        (iblk5 V c 0 ⟨n + 1, hn⟩) (iblk5 V c 1 ⟨n + 1, hn⟩) (iblk5 V c 2 ⟨n + 1, hn⟩))
    else if h1 : (n + 1) % 4 = 3 then
      (oC5 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) scM5 (Memref.isWhole_whole _)
          (fun h => h0 ((hfirst5 ⟨n + 1, hn⟩).mp h)) ((hlast5 ⟨n + 1, hn⟩).mpr h1)
          (iblk5 V c 0 ⟨n + 1, hn⟩) (iblk5 V c 1 ⟨n + 1, hn⟩) (iblk5 V c 2 ⟨n + 1, hn⟩) (outsAt5 c n (Nat.lt_of_succ_lt hn)).2,
       sC5 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) scM5 (Memref.isWhole_whole _)
          (fun h => h0 ((hfirst5 ⟨n + 1, hn⟩).mp h)) ((hlast5 ⟨n + 1, hn⟩).mpr h1)
          (iblk5 V c 0 ⟨n + 1, hn⟩) (iblk5 V c 1 ⟨n + 1, hn⟩) (iblk5 V c 2 ⟨n + 1, hn⟩) (outsAt5 c n (Nat.lt_of_succ_lt hn)).2)
    else
      (View.canon [], sB5 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) scM5 (Memref.isWhole_whole _)
          (fun h => h0 ((hfirst5 ⟨n + 1, hn⟩).mp h)) (fun h => h1 ((hlast5 ⟨n + 1, hn⟩).mp h))
          (iblk5 V c 0 ⟨n + 1, hn⟩) (iblk5 V c 1 ⟨n + 1, hn⟩) (iblk5 V c 2 ⟨n + 1, hn⟩) (outsAt5 c n (Nat.lt_of_succ_lt hn)).2)

/-- `outsAt5` at a first step: case A's contents. -/
theorem outsAt5_A (c : Dev nD) (t : Fin cfg5.N) (h0 : t.val % 4 = 0) :
    outsAt5 V c t.val t.isLt = (View.canon [], sA5 c (grid5.coords t) (ms5_0 t) (hs5_0 t) (ms5_1 t) (hs5_1 t) (ms5_2 t) (hs5_2 t) (ms5_3 t) (hs5_3 t) scM5 (Memref.isWhole_whole _)
      ((hfirst5 t).mpr h0) (fun h => absurd ((hlast5 t).mp h) (by omega))
      (iblk5 V c 0 t) (iblk5 V c 1 t) (iblk5 V c 2 t)) := by
  obtain ⟨n, hn⟩ := t
  cases n with
  | zero => exact rfl
  | succ n => exact (dif_pos h0).trans rfl

/-- `outsAt5` at a middle step: case B's contents, over what the point before left. -/
theorem outsAt5_B (c : Dev nD) (t : Fin cfg5.N) (h0 : ¬t.val % 4 = 0) (h1 : ¬t.val % 4 = 3) :
    outsAt5 V c t.val t.isLt = (View.canon [], sB5 c (grid5.coords t) (ms5_0 t) (hs5_0 t) (ms5_1 t) (hs5_1 t) (ms5_2 t) (hs5_2 t) (ms5_3 t) (hs5_3 t) scM5 (Memref.isWhole_whole _)
      (fun h => h0 ((hfirst5 t).mp h)) (fun h => h1 ((hlast5 t).mp h))
      (iblk5 V c 0 t) (iblk5 V c 1 t) (iblk5 V c 2 t) (outsAt5 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt5` at a last step: case C's contents, over what the point before left. -/
theorem outsAt5_C (c : Dev nD) (t : Fin cfg5.N) (h0 : ¬t.val % 4 = 0) (h1 : t.val % 4 = 3) :
    outsAt5 V c t.val t.isLt = (oC5 c (grid5.coords t) (ms5_0 t) (hs5_0 t) (ms5_1 t) (hs5_1 t) (ms5_2 t) (hs5_2 t) (ms5_3 t) (hs5_3 t) scM5 (Memref.isWhole_whole _)
      (fun h => h0 ((hfirst5 t).mp h)) ((hlast5 t).mpr h1)
      (iblk5 V c 0 t) (iblk5 V c 1 t) (iblk5 V c 2 t) (outsAt5 V c (t.val - 1) (Nat.lt_of_le_of_lt (Nat.sub_le _ _) t.isLt)).2,
     sC5 c (grid5.coords t) (ms5_0 t) (hs5_0 t) (ms5_1 t) (hs5_1 t) (ms5_2 t) (hs5_2 t) (ms5_3 t) (hs5_3 t) scM5 (Memref.isWhole_whole _)
      (fun h => h0 ((hfirst5 t).mp h)) ((hlast5 t).mpr h1)
      (iblk5 V c 0 t) (iblk5 V c 1 t) (iblk5 V c 2 t) (outsAt5 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- Before position `n`: before the first point the accumulator at anything; afterwards the accumulator at what the
    point before left in it; beside it the other scoped buffers untouched and the generator register at some state. -/
def PhiS5 (c : Dev nD) : (n : ℕ) → n ≤ cfg5.N → sProp 𝕄
  | 0, _ => Phi5any c
  | n + 1, hn => iprop(iprop(owns (c : Thread nD τ) scM5 fullShare ((outsAt5 V c n hn).2)
      ∗ Pipeline.scopedRestBut (Ix := Unit) (Name := ℕ) (U := UR sig nD τ) (Lvl := ℕ) (Val := Elt F) spec5 c [cc5_scratch0])
    ∗ (∃ r, prngReg c r))

theorem PhiS5_zero (c : Dev nD) (n : ℕ) (h : n ≤ cfg5.N) (hz : n = 0) : PhiS5 V c n h = Phi5any c := by
  subst hz; rfl

theorem PhiS5_succ (c : Dev nD) (n : ℕ) (hn : n < cfg5.N) :
    PhiS5 V c (n + 1) hn = iprop(iprop(owns (c : Thread nD τ) scM5 fullShare ((outsAt5 V c n hn).2)
      ∗ Pipeline.scopedRestBut (Ix := Unit) (Name := ℕ) (U := UR sig nD τ) (Lvl := ℕ) (Val := Elt F) spec5 c [cc5_scratch0])
    ∗ (∃ r, prngReg c r)) := rfl

theorem PhiS5_pos (c : Dev nD) (n : ℕ) (h : n ≤ cfg5.N) (hz : n ≠ 0) :
    PhiS5 V c n h = iprop(iprop(owns (c : Thread nD τ) scM5 fullShare ((outsAt5 V c (n - 1) (by omega)).2)
      ∗ Pipeline.scopedRestBut (Ix := Unit) (Name := ℕ) (U := UR sig nD τ) (Lvl := ℕ) (Val := Elt F) spec5 c [cc5_scratch0])
    ∗ (∃ r, prngReg c r)) := by
  cases n with
  | zero => exact absurd rfl hz
  | succ n => rfl

/-! ## The pipeline's proof data -/

/-- The proof data of this pipeline on core `c`: the arrays as the region finds them; after the body at point `t`
    each input's buffer at its block and the output's at `outsAt5`'s first component; the invariant `PhiS5`; nothing
    owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => (outsAt5 V c t.val t.isLt).1
  Φ t := PhiS5 V c t.val (Nat.le_of_lt_succ t.isLt)
  q _ := fullShare
  owed _ := 0

theorem A_eq5 (c : Dev nD) (w : Fin cfg5.W) : (dat5 V c).A w = V c (Pipeline.arrRef spec5 w) := by
  dsimp only [dat5]

theorem PhiS5_castSucc (c : Dev nD) (t : Fin cfg5.N) :
    (dat5 V c).Φ t.castSucc = PhiS5 V c t.val (Nat.le_of_lt t.isLt) := by
  dsimp only [dat5]; simp only [Fin.coe_castSucc]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = (outsAt5 V c t.val t.isLt).1 := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

/-! ## The body obligation -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))

/-- and what it returns. -/
def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t
    ∗ (dat5 V c).leavesExact 3 t)

set_option maxHeartbeats 4800000 in
/-- The body at any point. The closed forms say which case the point is in. The invariant hands the body the
    accumulator at what the point before left (at anything before the first point) and takes it back at this point's
    contents; away from the last step the output block's buffer passes through untouched, at the last step it ends at
    the stores read back. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).owesAt () t.succ = (dat5 V c).owesAt () t.castSucc from rfl]
  rw [show (dat5 V c).Φ t.succ = PhiS5 V c (t.val + 1) t.isLt from rfl, PhiS5_succ]
  rw [show (dat5 V c).leavesExact 0 t = owns (c : Thread nD τ) (ms5_0 t) fullShare ((dat5 V c).after 0 t) from by
    unfold Dat.leavesExact; rw [liveAt5_0 t], after5_0]
  rw [show (dat5 V c).leavesExact 1 t = owns (c : Thread nD τ) (ms5_1 t) fullShare ((dat5 V c).after 1 t) from by
    unfold Dat.leavesExact; rw [liveAt5_1 t], after5_1]
  rw [show (dat5 V c).leavesExact 2 t = owns (c : Thread nD τ) (ms5_2 t) fullShare ((dat5 V c).after 2 t) from by
    unfold Dat.leavesExact; rw [liveAt5_2 t], after5_2]
  have hN : t.val < 32 := lt_of_lt_of_eq t.isLt (show cfg5.N = 32 from N_5)
  by_cases h0 : t.val % 4 = 0
  · have hf : first5 (grid5.coords t) := (hfirst5 t).mpr h0
    have hl : ¬last5 (grid5.coords t) := fun h => absurd ((hlast5 t).mp h) (by omega)
    rw [Dat.leavesExact_idle (dat5 V c) 3 t (idleAt5 t hl) (noFlush5 t hl)]
    rw [outsAt5_A V c t h0]
    unfold sA5; (try dsimp only)
    by_cases hz : t.val = 0
    · rw [PhiS5_castSucc V c t, PhiS5_zero V c _ _ hz]; unfold Phi5any
      iintro ⟨⟨⟨HS, Hb⟩, Hg⟩, Ho, ⟨%d0, H0⟩, ⟨%d1, H1⟩, ⟨%d2, H2⟩, ⟨%d3, H3⟩⟩
      iapply ((bodyRun5_A c (grid5.coords t) _ _ _ _ _ _ _ _ _ _ hf hl (iblk5 V c 0 t) (iblk5 V c 1 t) (iblk5 V c 2 t)).2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hb Hg]
      · isplitl [HS Hb]
        · isplitl [HS]
          · unfold owns; iexists _; isplitr
            swap; · iexact HS
            ipureintro; exact View.read_writes_eq_canon _ _ _ (scover5_A c _ _ _ _ _ _ _ _ _ _ _ _ _ _ _ _)
          iexact Hb
        iexact Hg
      isplitl [Ho]; · iexact Ho
      isplitl [H0]; · iexact H0
      isplitl [H1]; · iexact H1
      isplitl [H2]; · iexact H2
      iexists _; iexact H3
    · rw [PhiS5_castSucc V c t, PhiS5_pos V c _ _ hz]
      iintro ⟨⟨⟨HS, Hb⟩, Hg⟩, Ho, ⟨%d0, H0⟩, ⟨%d1, H1⟩, ⟨%d2, H2⟩, ⟨%d3, H3⟩⟩
      iapply ((bodyRun5_A c (grid5.coords t) _ _ _ _ _ _ _ _ _ _ hf hl (iblk5 V c 0 t) (iblk5 V c 1 t) (iblk5 V c 2 t)).2 _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [HS Hb Hg]
      · isplitl [HS Hb]
        · isplitl [HS]
          · unfold owns; iexists _; isplitr
            swap; · iexact HS
            ipureintro; exact View.read_writes_eq_canon _ _ _ (scover5_A c _ _ _ _ _ _ _ _ _ _ _ _ _ _ _ _)
          iexact Hb
        iexact Hg
      isplitl [Ho]; · iexact Ho
      isplitl [H0]; · iexact H0
      isplitl [H1]; · iexact H1
      isplitl [H2]; · iexact H2
      iexists _; iexact H3
  · have hz : t.val ≠ 0 := fun e => h0 (by rw [e])
    have hf : ¬first5 (grid5.coords t) := fun h => h0 ((hfirst5 t).mp h)
    by_cases h1 : t.val % 4 = 3
    · have hl : last5 (grid5.coords t) := (hlast5 t).mpr h1
      rw [show (dat5 V c).leavesExact 3 t = owns (c : Thread nD τ) (ms5_3 t) fullShare ((dat5 V c).after 3 t) from by
        unfold Dat.leavesExact; rw [liveAt5_3 t hl], after5_3]
      rw [outsAt5_C V c t h0 h1]
      unfold oC5 sC5; (try dsimp only)
      rw [PhiS5_castSucc V c t, PhiS5_pos V c _ _ hz]
      iintro ⟨⟨⟨HS, Hb⟩, Hg⟩, Ho, ⟨%d0, H0⟩, ⟨%d1, H1⟩, ⟨%d2, H2⟩, ⟨%d3, H3⟩⟩
      iapply ((bodyRun5_C c (grid5.coords t) _ _ _ _ _ _ _ _ _ _ hf hl (iblk5 V c 0 t) (iblk5 V c 1 t) (iblk5 V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hb Hg]
      · isplitl [HS Hb]
        · isplitl [HS]
          · unfold owns; iexists _; isplitr
            swap; · iexact HS
            ipureintro; exact View.read_writes_eq_canon _ _ _ (scover5_C c _ _ _ _ _ _ _ _ _ _ _ _ _ _ _ _ _)
          iexact Hb
        iexact Hg
      isplitl [Ho]; · iexact Ho
      isplitl [H0]; · iexact H0
      isplitl [H1]; · iexact H1
      isplitl [H2]; · iexact H2
      unfold owns; iexists _; isplitr
      swap; · iexact H3
      ipureintro; exact View.read_writes_eq_canon _ _ _ (ocover5_C c _ _ _ _ _ _ _ _ _ _ _ _ _ _ _ _ _)
    · have hl : ¬last5 (grid5.coords t) := fun h => h1 ((hlast5 t).mp h)
      rw [Dat.leavesExact_idle (dat5 V c) 3 t (idleAt5 t hl) (noFlush5 t hl)]
      rw [outsAt5_B V c t h0 h1]
      unfold sB5; (try dsimp only)
      rw [PhiS5_castSucc V c t, PhiS5_pos V c _ _ hz]
      iintro ⟨⟨⟨HS, Hb⟩, Hg⟩, Ho, ⟨%d0, H0⟩, ⟨%d1, H1⟩, ⟨%d2, H2⟩, ⟨%d3, H3⟩⟩
      iapply ((bodyRun5_B c (grid5.coords t) _ _ _ _ _ _ _ _ _ _ hf hl (iblk5 V c 0 t) (iblk5 V c 1 t) (iblk5 V c 2 t) _).2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hb Hg]
      · isplitl [HS Hb]
        · isplitl [HS]
          · unfold owns; iexists _; isplitr
            swap; · iexact HS
            ipureintro; exact View.read_writes_eq_canon _ _ _ (scover5_B c _ _ _ _ _ _ _ _ _ _ _ _ _ _ _ _ _)
          iexact Hb
        iexact Hg
      isplitl [Ho]; · iexact Ho
      isplitl [H0]; · iexact H0
      isplitl [H1]; · iexact H1
      isplitl [H2]; · iexact H2
      iexists _; iexact H3

/-- The pipeline's body obligation, at every point. -/
theorem body_obligation5 (c : Dev nD) : BodyObligation (dat5 (F := F) V c) (defs₀ (F := F)) Variants.none () Set.univ := fun t => by
  rw [bigSep_W5, bigSep_W5]
  exact sound_body5 V c t

/-- After any point the invariant gives back the form it had before the first: the accumulator's contents forgotten. -/
theorem Phi5_out (c : Dev nD) (t : Fin (cfg5.N + 1)) (ht : t.val ≠ 0) : (dat5 V c).Φ t ⊢ Phi5any c := by
  rw [show (dat5 V c).Φ t = PhiS5 V c t.val (Nat.le_of_lt_succ t.isLt) from rfl, PhiS5_pos V c _ _ ht]; unfold Phi5any
  iintro ⟨⟨HS, Hb⟩, Hg⟩
  isplitl [HS Hb]
  · isplitl [HS]
    · iexists _; iexact HS
    iexact Hb
  iexact Hg

end Data

end Cert.Kernel.Acc

end
-- ==== Proof.RunK.lean ====
/-
  The whole run of @main: six kernel regions among stretches of host operations.

  Between two items every unscoped buffer of a core is held whole at a named valuation: the launch contents, then
  each host stretch applied in order, and after a region the region's arrays at what its write-backs leave (the three
  input arrays unchanged, the output array block by block what the body stored) with every other buffer as before.
  Beside the buffers ride the generator register at some state and the core owing nothing.

  Each region is a segment record over these thread states: on entry its arrays are split out of the unscoped buffers
  and the scoped rest (which contains the kernel's accumulator) goes into the region's invariant; on exit the arrays
  are put back at their final contents and the scoped rest is returned with the accumulator's contents forgotten.
  The run theorem reads every unscoped buffer at the last valuation off the final state; the frame claim (the
  argument arrays end as launched) and the value of the result buffer are read from it.
-/
import proofs.«157716_j2267742732442_1_alg».proof.Proof.AccK0
import proofs.«157716_j2267742732442_1_alg».proof.Proof.AccK1
import proofs.«157716_j2267742732442_1_alg».proof.Proof.AccK2
import proofs.«157716_j2267742732442_1_alg».proof.Proof.AccK3
import proofs.«157716_j2267742732442_1_alg».proof.Proof.AccK4
import proofs.«157716_j2267742732442_1_alg».proof.Proof.AccK5
import proofs.«157716_j2267742732442_1_alg».proof.Proof.Gen.Kernel.Regions

set_option maxRecDepth 16384

noncomputable section

namespace Cert.Kernel.Acc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev B0 : Dev nD → Valuation τ sig (Elt F) := fun c b => (s₀ m ρ).mem ((c : Dev nD), b)
/-- After the first host stretch (the four parameter products and the zero bias row): region 0's entry. -/
abbrev B1 : Dev nD → Valuation τ sig (Elt F) := fun c => StableHlo.after hostOps0 (B0 m ρ c)
abbrev T1 : (c : Dev nD) → (b : Ref sig .tc) → Buf (Elt F) ((c : Thread nD τ).loc b) := fun c b => B1 m ρ c b
/-- At region 0's exit: its arrays at what the pipeline leaves, every other buffer as entered. -/
def B2 (c : Dev nD) : Valuation τ sig (Elt F) :=
  Pipeline.withArrays spec0 c (B1 m ρ c) fun w => (dat0 (T1 m ρ) c).arrAt w cfg0.N
theorem B2_arr (c : Dev nD) (w : Fin cfg0.W) :
    B2 m ρ c (Proc.devRef .tc (Pipeline.arrRef spec0 w)) = (dat0 (T1 m ρ) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
abbrev T2 : (c : Dev nD) → (b : Ref sig .tc) → Buf (Elt F) ((c : Thread nD τ).loc b) := fun c b => B2 m ρ c b
theorem hF0 (c : Dev nD) (w : Fin cfg0.W) : (dat0 (T1 m ρ) c).arrAt w cfg0.N = T2 m ρ c (Pipeline.arrRef spec0 w) :=
  (B2_arr m ρ c w).symm
theorem hrest0 (c : Dev nD) : ∀ b, b ∉ Finset.univ.image (Pipeline.arrRef spec0) → T2 m ρ c b = T1 m ρ c b :=
  fun b hb => B2_of_ne m ρ c b fun w e => hb (Finset.mem_image.mpr ⟨w, Finset.mem_univ _, e⟩)

/-- The first layer's edge aggregation, bias and positive part on the host; then region 1's zero bias row. -/
abbrev B3 : Dev nD → Valuation τ sig (Elt F) := fun c => StableHlo.after hostOps1 (B2 m ρ c)
abbrev B4 : Dev nD → Valuation τ sig (Elt F) := fun c => StableHlo.after hostOps1_1 (B3 m ρ c)
abbrev B5 : Dev nD → Valuation τ sig (Elt F) := fun c => StableHlo.after hostOps1_2 (B4 m ρ c)
abbrev T5 : (c : Dev nD) → (b : Ref sig .tc) → Buf (Elt F) ((c : Thread nD τ).loc b) := fun c b => B5 m ρ c b
/-- At region 1's exit. -/
def B6 (c : Dev nD) : Valuation τ sig (Elt F) :=
  Pipeline.withArrays spec1 c (B5 m ρ c) fun w => (dat1 (T5 m ρ) c).arrAt w cfg1.N
theorem B6_arr (c : Dev nD) (w : Fin cfg1.W) :
    B6 m ρ c (Proc.devRef .tc (Pipeline.arrRef spec1 w)) = (dat1 (T5 m ρ) c).arrAt w cfg1.N := by
  unfold B6; exact Pipeline.withArrays_arr spec1 launch1.win.arr_inj c _ _ w
theorem B6_of_ne (c : Dev nD) (b : Ref sig .tc) (hb : ∀ w, Pipeline.arrRef spec1 w ≠ b) :
    B6 m ρ c (Proc.devRef .tc b) = B5 m ρ c (Proc.devRef .tc b) := by
  unfold B6; exact Pipeline.withArrays_of_ne spec1 c _ _ b hb
abbrev T6 : (c : Dev nD) → (b : Ref sig .tc) → Buf (Elt F) ((c : Thread nD τ).loc b) := fun c b => B6 m ρ c b
theorem hF1 (c : Dev nD) (w : Fin cfg1.W) : (dat1 (T5 m ρ) c).arrAt w cfg1.N = T6 m ρ c (Pipeline.arrRef spec1 w) :=
  (B6_arr m ρ c w).symm
theorem hrest1 (c : Dev nD) : ∀ b, b ∉ Finset.univ.image (Pipeline.arrRef spec1) → T6 m ρ c b = T5 m ρ c b :=
  fun b hb => B6_of_ne m ρ c b fun w e => hb (Finset.mem_image.mpr ⟨w, Finset.mem_univ _, e⟩)

/-- The second layer's edge aggregation, bias and positive part; then region 2's zero bias row. -/
abbrev B7 : Dev nD → Valuation τ sig (Elt F) := fun c => StableHlo.after hostOps2 (B6 m ρ c)
abbrev B8 : Dev nD → Valuation τ sig (Elt F) := fun c => StableHlo.after hostOps2_1 (B7 m ρ c)
abbrev B9 : Dev nD → Valuation τ sig (Elt F) := fun c => StableHlo.after hostOps2_2 (B8 m ρ c)
abbrev T9 : (c : Dev nD) → (b : Ref sig .tc) → Buf (Elt F) ((c : Thread nD τ).loc b) := fun c b => B9 m ρ c b
/-- At region 2's exit. -/
def B10 (c : Dev nD) : Valuation τ sig (Elt F) :=
  Pipeline.withArrays spec2 c (B9 m ρ c) fun w => (dat2 (T9 m ρ) c).arrAt w cfg2.N
theorem B10_arr (c : Dev nD) (w : Fin cfg2.W) :
    B10 m ρ c (Proc.devRef .tc (Pipeline.arrRef spec2 w)) = (dat2 (T9 m ρ) c).arrAt w cfg2.N := by
  unfold B10; exact Pipeline.withArrays_arr spec2 launch2.win.arr_inj c _ _ w
theorem B10_of_ne (c : Dev nD) (b : Ref sig .tc) (hb : ∀ w, Pipeline.arrRef spec2 w ≠ b) :
    B10 m ρ c (Proc.devRef .tc b) = B9 m ρ c (Proc.devRef .tc b) := by
  unfold B10; exact Pipeline.withArrays_of_ne spec2 c _ _ b hb
abbrev T10 : (c : Dev nD) → (b : Ref sig .tc) → Buf (Elt F) ((c : Thread nD τ).loc b) := fun c b => B10 m ρ c b
theorem hF2 (c : Dev nD) (w : Fin cfg2.W) : (dat2 (T9 m ρ) c).arrAt w cfg2.N = T10 m ρ c (Pipeline.arrRef spec2 w) :=
  (B10_arr m ρ c w).symm
theorem hrest2 (c : Dev nD) : ∀ b, b ∉ Finset.univ.image (Pipeline.arrRef spec2) → T10 m ρ c b = T9 m ρ c b :=
  fun b hb => B10_of_ne m ρ c b fun w e => hb (Finset.mem_image.mpr ⟨w, Finset.mem_univ _, e⟩)

/-- The first global bias as a row. -/
abbrev B11 : Dev nD → Valuation τ sig (Elt F) := fun c => StableHlo.after hostOps3 (B10 m ρ c)
abbrev T11 : (c : Dev nD) → (b : Ref sig .tc) → Buf (Elt F) ((c : Thread nD τ).loc b) := fun c b => B11 m ρ c b
/-- At region 3's exit. -/
def B12 (c : Dev nD) : Valuation τ sig (Elt F) :=
  Pipeline.withArrays spec3 c (B11 m ρ c) fun w => (dat3 (T11 m ρ) c).arrAt w cfg3.N
theorem B12_arr (c : Dev nD) (w : Fin cfg3.W) :
    B12 m ρ c (Proc.devRef .tc (Pipeline.arrRef spec3 w)) = (dat3 (T11 m ρ) c).arrAt w cfg3.N := by
  unfold B12; exact Pipeline.withArrays_arr spec3 launch3.win.arr_inj c _ _ w
theorem B12_of_ne (c : Dev nD) (b : Ref sig .tc) (hb : ∀ w, Pipeline.arrRef spec3 w ≠ b) :
    B12 m ρ c (Proc.devRef .tc b) = B11 m ρ c (Proc.devRef .tc b) := by
  unfold B12; exact Pipeline.withArrays_of_ne spec3 c _ _ b hb
abbrev T12 : (c : Dev nD) → (b : Ref sig .tc) → Buf (Elt F) ((c : Thread nD τ).loc b) := fun c b => B12 m ρ c b
theorem hF3 (c : Dev nD) (w : Fin cfg3.W) : (dat3 (T11 m ρ) c).arrAt w cfg3.N = T12 m ρ c (Pipeline.arrRef spec3 w) :=
  (B12_arr m ρ c w).symm
theorem hrest3 (c : Dev nD) : ∀ b, b ∉ Finset.univ.image (Pipeline.arrRef spec3) → T12 m ρ c b = T11 m ρ c b :=
  fun b hb => B12_of_ne m ρ c b fun w e => hb (Finset.mem_image.mpr ⟨w, Finset.mem_univ _, e⟩)

/-- Region 4's zero bias row. -/
abbrev B13 : Dev nD → Valuation τ sig (Elt F) := fun c => StableHlo.after hostOps4 (B12 m ρ c)
abbrev T13 : (c : Dev nD) → (b : Ref sig .tc) → Buf (Elt F) ((c : Thread nD τ).loc b) := fun c b => B13 m ρ c b
/-- At region 4's exit. -/
def B14 (c : Dev nD) : Valuation τ sig (Elt F) :=
  Pipeline.withArrays spec4 c (B13 m ρ c) fun w => (dat4 (T13 m ρ) c).arrAt w cfg4.N
theorem B14_arr (c : Dev nD) (w : Fin cfg4.W) :
    B14 m ρ c (Proc.devRef .tc (Pipeline.arrRef spec4 w)) = (dat4 (T13 m ρ) c).arrAt w cfg4.N := by
  unfold B14; exact Pipeline.withArrays_arr spec4 launch4.win.arr_inj c _ _ w
theorem B14_of_ne (c : Dev nD) (b : Ref sig .tc) (hb : ∀ w, Pipeline.arrRef spec4 w ≠ b) :
    B14 m ρ c (Proc.devRef .tc b) = B13 m ρ c (Proc.devRef .tc b) := by
  unfold B14; exact Pipeline.withArrays_of_ne spec4 c _ _ b hb
abbrev T14 : (c : Dev nD) → (b : Ref sig .tc) → Buf (Elt F) ((c : Thread nD τ).loc b) := fun c b => B14 m ρ c b
theorem hF4 (c : Dev nD) (w : Fin cfg4.W) : (dat4 (T13 m ρ) c).arrAt w cfg4.N = T14 m ρ c (Pipeline.arrRef spec4 w) :=
  (B14_arr m ρ c w).symm
theorem hrest4 (c : Dev nD) : ∀ b, b ∉ Finset.univ.image (Pipeline.arrRef spec4) → T14 m ρ c b = T13 m ρ c b :=
  fun b hb => B14_of_ne m ρ c b fun w e => hb (Finset.mem_image.mpr ⟨w, Finset.mem_univ _, e⟩)

/-- The second global bias as a row. -/
abbrev B15 : Dev nD → Valuation τ sig (Elt F) := fun c => StableHlo.after hostOps5 (B14 m ρ c)
abbrev T15 : (c : Dev nD) → (b : Ref sig .tc) → Buf (Elt F) ((c : Thread nD τ).loc b) := fun c b => B15 m ρ c b
/-- At region 5's exit. -/
def B16 (c : Dev nD) : Valuation τ sig (Elt F) :=
  Pipeline.withArrays spec5 c (B15 m ρ c) fun w => (dat5 (T15 m ρ) c).arrAt w cfg5.N
theorem B16_arr (c : Dev nD) (w : Fin cfg5.W) :
    B16 m ρ c (Proc.devRef .tc (Pipeline.arrRef spec5 w)) = (dat5 (T15 m ρ) c).arrAt w cfg5.N := by
  unfold B16; exact Pipeline.withArrays_arr spec5 launch5.win.arr_inj c _ _ w
theorem B16_of_ne (c : Dev nD) (b : Ref sig .tc) (hb : ∀ w, Pipeline.arrRef spec5 w ≠ b) :
    B16 m ρ c (Proc.devRef .tc b) = B15 m ρ c (Proc.devRef .tc b) := by
  unfold B16; exact Pipeline.withArrays_of_ne spec5 c _ _ b hb
abbrev T16 : (c : Dev nD) → (b : Ref sig .tc) → Buf (Elt F) ((c : Thread nD τ).loc b) := fun c b => B16 m ρ c b
theorem hF5 (c : Dev nD) (w : Fin cfg5.W) : (dat5 (T15 m ρ) c).arrAt w cfg5.N = T16 m ρ c (Pipeline.arrRef spec5 w) :=
  (B16_arr m ρ c w).symm
theorem hrest5 (c : Dev nD) : ∀ b, b ∉ Finset.univ.image (Pipeline.arrRef spec5) → T16 m ρ c b = T15 m ρ c b :=
  fun b hb => B16_of_ne m ρ c b fun w e => hb (Finset.mem_image.mpr ⟨w, Finset.mem_univ _, e⟩)

/-- The attention fusion and the classifier on the host: the last valuation. -/
abbrev B17 : Dev nD → Valuation τ sig (Elt F) := fun c => StableHlo.after hostOps6 (B16 m ρ c)

/-! ## The proof data family and what rides beside the buffers -/

/-- Every pipeline's proof data, each at its region's entry contents. -/
def pdatsA : (p : Fin 6) → (c : Dev nD) → Dat τ (Elt F) Unit ℕ (UR sig nD τ) ℕ (Pipeline.pin (pcfgs (F := F)) adm p) c
  | ⟨0, _⟩ => fun c => dat0 (T1 m ρ) c
  | ⟨1, _⟩ => fun c => dat1 (T5 m ρ) c
  | ⟨2, _⟩ => fun c => dat2 (T9 m ρ) c
  | ⟨3, _⟩ => fun c => dat3 (T11 m ρ) c
  | ⟨4, _⟩ => fun c => dat4 (T13 m ρ) c
  | ⟨5, _⟩ => fun c => dat5 (T15 m ρ) c

abbrev 𝒱A : Variants := Variants.none
abbrev LA : GSem nD τ sig → Finset Unit := fun _ => ∅
abbrev lvA : GSem nD τ sig → Unit → ℕ := fun _ _ => 0
/-- The generator register at some state and the core owing nothing. -/
abbrev Rd (c : Dev nD) : sProp 𝕄 := iprop((∃ r, prngReg c r) ∗ ∃ W, owes (c : Thread nD τ) (0 : CellTallies nD τ sig Unit) W)

/-- A host stretch as a segment over the unscoped references from the contents `W`, `Rd` riding along. -/
abbrev hsegA (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱A LA lvA :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rd

theorem mem_ucA (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
/-- Region 0 over the thread state: entered from every unscoped buffer at `B1`, left at `B2`. -/
def regA0 : Pipeline.RegionSeg (pcfgs (F := F)) adm (pdatsA m ρ) () defs₀ 𝒱A LA lvA 0 where
  win := launch0.win.to₀
  block_pos := launch0.block_pos
  stage_whole := launch0.stage_whole
  K := PEmpty
  osem k := k.elim
  ho := Pipeline.OwnSemFacts.none _
  hbody c := (body_obligation0 (T1 m ρ) c).loose
  hwaits := Pipeline.hwaits_of_owed_zero _ _ _ _ LA lvA 0 fun _ _ => rfl
  pre c := iprop(StableHlo.held (c : Thread nD τ) (Pipeline.ucRefs τ sig) (B1 m ρ c) ∗ Rd c)
  post c := iprop(StableHlo.held (c : Thread nD τ) (Pipeline.ucRefs τ sig) (B2 m ρ c) ∗ Rd c)
  X c := iprop(∃ r, prngReg c r)
  Y c := iprop(∃ r, prngReg c r)
  Z c := Pipeline.unscopedRest (Ix := Unit) (Name := ℕ) (U := UR sig nD τ) (Lvl := ℕ) spec0 c (T1 m ρ c)
  hentry c := by
    rw [Pipeline.ownSems0_none]
    have hsplit := Pipeline.arrays_of_unscopedBufs (p := 0) (pcfgs (F := F)) adm (pdatsA m ρ) launch0.win launch0.arr_whole c
      ((pdatsA m ρ 0 c).share_full fun _ => rfl) (T1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsA m ρ 0 c).Φ 0 = Phi0 c from rfl, ← PhiA0_eq]; unfold Pipeline.ΦA
    iintro ⟨Hp, -, Hr⟩
    isplitl [Hr]; · iexact Hr
    iexact Hp
  hout c := by
    rw [Pipeline.ownSems0_none, show (pdatsA m ρ 0 c).Φ (Fin.last _) = Phi0 c from rfl, ← PhiA0_eq]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdatsA m ρ) ((pdatsA m ρ 0 c).share_full fun _ => rfl)
      (T1 m ρ c) (T2 m ρ c) ((pdatsA m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `B5`, left at `B6`. -/
def regA1 : Pipeline.RegionSeg (pcfgs (F := F)) adm (pdatsA m ρ) () defs₀ 𝒱A LA lvA 1 where
  win := launch1.win.to₀
  block_pos := launch1.block_pos
  stage_whole := launch1.stage_whole
  K := PEmpty
  osem k := k.elim
  ho := Pipeline.OwnSemFacts.none _
  hbody c := (body_obligation1 (T5 m ρ) c).loose
  hwaits := Pipeline.hwaits_of_owed_zero _ _ _ _ LA lvA 1 fun _ _ => rfl
  pre c := iprop(StableHlo.held (c : Thread nD τ) (Pipeline.ucRefs τ sig) (B5 m ρ c) ∗ Rd c)
  post c := iprop(StableHlo.held (c : Thread nD τ) (Pipeline.ucRefs τ sig) (B6 m ρ c) ∗ Rd c)
  X c := iprop(∃ r, prngReg c r)
  Y c := iprop(∃ r, prngReg c r)
  Z c := Pipeline.unscopedRest (Ix := Unit) (Name := ℕ) (U := UR sig nD τ) (Lvl := ℕ) spec1 c (T5 m ρ c)
  hentry c := by
    rw [Pipeline.ownSems0_none]
    have hsplit := Pipeline.arrays_of_unscopedBufs (p := 1) (pcfgs (F := F)) adm (pdatsA m ρ) launch1.win launch1.arr_whole c
      ((pdatsA m ρ 1 c).share_full fun _ => rfl) (T5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsA m ρ 1 c).Φ 0 = Phi1 c from rfl, ← PhiA1_eq]; unfold Pipeline.ΦA
    iintro ⟨Hp, -, Hr⟩
    isplitl [Hr]; · iexact Hr
    iexact Hp
  hout c := by
    rw [Pipeline.ownSems0_none, show (pdatsA m ρ 1 c).Φ (Fin.last _) = Phi1 c from rfl, ← PhiA1_eq]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdatsA m ρ) ((pdatsA m ρ 1 c).share_full fun _ => rfl)
      (T5 m ρ c) (T6 m ρ c) ((pdatsA m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `B9`, left at `B10`. -/
def regA2 : Pipeline.RegionSeg (pcfgs (F := F)) adm (pdatsA m ρ) () defs₀ 𝒱A LA lvA 2 where
  win := launch2.win.to₀
  block_pos := launch2.block_pos
  stage_whole := launch2.stage_whole
  K := PEmpty
  osem k := k.elim
  ho := Pipeline.OwnSemFacts.none _
  hbody c := (body_obligation2 (T9 m ρ) c).loose
  hwaits := Pipeline.hwaits_of_owed_zero _ _ _ _ LA lvA 2 fun _ _ => rfl
  pre c := iprop(StableHlo.held (c : Thread nD τ) (Pipeline.ucRefs τ sig) (B9 m ρ c) ∗ Rd c)
  post c := iprop(StableHlo.held (c : Thread nD τ) (Pipeline.ucRefs τ sig) (B10 m ρ c) ∗ Rd c)
  X c := iprop(∃ r, prngReg c r)
  Y c := iprop(∃ r, prngReg c r)
  Z c := Pipeline.unscopedRest (Ix := Unit) (Name := ℕ) (U := UR sig nD τ) (Lvl := ℕ) spec2 c (T9 m ρ c)
  hentry c := by
    rw [Pipeline.ownSems0_none]
    have hsplit := Pipeline.arrays_of_unscopedBufs (p := 2) (pcfgs (F := F)) adm (pdatsA m ρ) launch2.win launch2.arr_whole c
      ((pdatsA m ρ 2 c).share_full fun _ => rfl) (T9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsA m ρ 2 c).Φ 0 = Phi2 c from rfl, ← PhiA2_eq]; unfold Pipeline.ΦA
    iintro ⟨Hp, -, Hr⟩
    isplitl [Hr]; · iexact Hr
    iexact Hp
  hout c := by
    rw [Pipeline.ownSems0_none, show (pdatsA m ρ 2 c).Φ (Fin.last _) = Phi2 c from rfl, ← PhiA2_eq]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdatsA m ρ) ((pdatsA m ρ 2 c).share_full fun _ => rfl)
      (T9 m ρ c) (T10 m ρ c) ((pdatsA m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `B11`, left at `B12`. Its invariant starts
    with the accumulator at anything and ends with the accumulator's last contents forgotten. -/
def regA3 : Pipeline.RegionSeg (pcfgs (F := F)) adm (pdatsA m ρ) () defs₀ 𝒱A LA lvA 3 where
  win := launch3.win.to₀
  block_pos := launch3.block_pos
  stage_whole := launch3.stage_whole
  K := PEmpty
  osem k := k.elim
  ho := Pipeline.OwnSemFacts.none _
  hbody c := (body_obligation3 (T11 m ρ) c).loose
  hwaits := Pipeline.hwaits_of_owed_zero _ _ _ _ LA lvA 3 fun _ _ => rfl
  pre c := iprop(StableHlo.held (c : Thread nD τ) (Pipeline.ucRefs τ sig) (B11 m ρ c) ∗ Rd c)
  post c := iprop(StableHlo.held (c : Thread nD τ) (Pipeline.ucRefs τ sig) (B12 m ρ c) ∗ Rd c)
  X c := iprop(∃ r, prngReg c r)
  Y c := iprop(∃ r, prngReg c r)
  Z c := Pipeline.unscopedRest (Ix := Unit) (Name := ℕ) (U := UR sig nD τ) (Lvl := ℕ) spec3 c (T11 m ρ c)
  hentry c := by
    rw [Pipeline.ownSems0_none]
    have hsplit := Pipeline.arrays_of_unscopedBufs (p := 3) (pcfgs (F := F)) adm (pdatsA m ρ) launch3.win launch3.arr_whole c
      ((pdatsA m ρ 3 c).share_full fun _ => rfl) (T11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsA m ρ 3 c).Φ 0 = Phi3any c from rfl, ← PhiA3_eq]; unfold Pipeline.ΦA
    iintro ⟨Hp, -, Hr⟩
    isplitl [Hr]; · iexact Hr
    iexact Hp
  hout c := by
    rw [Pipeline.ownSems0_none]
    have h1 := Phi3_out (T11 m ρ) c (Fin.last _) (by rw [Fin.val_last]; have : cfg3.N = 32 := N_3; omega)
    have h2 : (Phi3any c : sProp 𝕄) ⊢ iprop((∃ r, prngReg c r) ∗ emp ∗ Pipeline.scopedRest (Ix := Unit) (Name := ℕ) (U := UR sig nD τ) (Lvl := ℕ) (Val := Elt F) spec3 c) := by
      rw [← PhiA3_eq]; unfold Pipeline.ΦA
      iintro ⟨Hr, Hp⟩
      isplitl [Hp]; · iexact Hp
      isplitr; · iempintro
      iexact Hr
    exact h1.trans h2
  hexit c := by
    have hjoin := Pipeline.unscopedBufs_of_arrays (p := 3) (pcfgs (F := F)) adm (Ix := Unit) (Name := ℕ) (U := UR sig nD τ) (Lvl := ℕ)
      launch3.win launch3.arr_whole c (pdatsA m ρ) ((pdatsA m ρ 3 c).share_full fun _ => rfl)
      (T11 m ρ c) (T12 m ρ c) ((pdatsA m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at `B13`, left at `B14`. -/
def regA4 : Pipeline.RegionSeg (pcfgs (F := F)) adm (pdatsA m ρ) () defs₀ 𝒱A LA lvA 4 where
  win := launch4.win.to₀
  block_pos := launch4.block_pos
  stage_whole := launch4.stage_whole
  K := PEmpty
  osem k := k.elim
  ho := Pipeline.OwnSemFacts.none _
  hbody c := (body_obligation4 (T13 m ρ) c).loose
  hwaits := Pipeline.hwaits_of_owed_zero _ _ _ _ LA lvA 4 fun _ _ => rfl
  pre c := iprop(StableHlo.held (c : Thread nD τ) (Pipeline.ucRefs τ sig) (B13 m ρ c) ∗ Rd c)
  post c := iprop(StableHlo.held (c : Thread nD τ) (Pipeline.ucRefs τ sig) (B14 m ρ c) ∗ Rd c)
  X c := iprop(∃ r, prngReg c r)
  Y c := iprop(∃ r, prngReg c r)
  Z c := Pipeline.unscopedRest (Ix := Unit) (Name := ℕ) (U := UR sig nD τ) (Lvl := ℕ) spec4 c (T13 m ρ c)
  hentry c := by
    rw [Pipeline.ownSems0_none]
    have hsplit := Pipeline.arrays_of_unscopedBufs (p := 4) (pcfgs (F := F)) adm (pdatsA m ρ) launch4.win launch4.arr_whole c
      ((pdatsA m ρ 4 c).share_full fun _ => rfl) (T13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsA m ρ 4 c).Φ 0 = Phi4 c from rfl, ← PhiA4_eq]; unfold Pipeline.ΦA
    iintro ⟨Hp, -, Hr⟩
    isplitl [Hr]; · iexact Hr
    iexact Hp
  hout c := by
    rw [Pipeline.ownSems0_none, show (pdatsA m ρ 4 c).Φ (Fin.last _) = Phi4 c from rfl, ← PhiA4_eq]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdatsA m ρ) ((pdatsA m ρ 4 c).share_full fun _ => rfl)
      (T13 m ρ c) (T14 m ρ c) ((pdatsA m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 over the thread state: entered from every unscoped buffer at `B15`, left at `B16`. Its invariant starts
    with the accumulator at anything and ends with the accumulator's last contents forgotten. -/
def regA5 : Pipeline.RegionSeg (pcfgs (F := F)) adm (pdatsA m ρ) () defs₀ 𝒱A LA lvA 5 where
  win := launch5.win.to₀
  block_pos := launch5.block_pos
  stage_whole := launch5.stage_whole
  K := PEmpty
  osem k := k.elim
  ho := Pipeline.OwnSemFacts.none _
  hbody c := (body_obligation5 (T15 m ρ) c).loose
  hwaits := Pipeline.hwaits_of_owed_zero _ _ _ _ LA lvA 5 fun _ _ => rfl
  pre c := iprop(StableHlo.held (c : Thread nD τ) (Pipeline.ucRefs τ sig) (B15 m ρ c) ∗ Rd c)
  post c := iprop(StableHlo.held (c : Thread nD τ) (Pipeline.ucRefs τ sig) (B16 m ρ c) ∗ Rd c)
  X c := iprop(∃ r, prngReg c r)
  Y c := iprop(∃ r, prngReg c r)
  Z c := Pipeline.unscopedRest (Ix := Unit) (Name := ℕ) (U := UR sig nD τ) (Lvl := ℕ) spec5 c (T15 m ρ c)
  hentry c := by
    rw [Pipeline.ownSems0_none]
    have hsplit := Pipeline.arrays_of_unscopedBufs (p := 5) (pcfgs (F := F)) adm (pdatsA m ρ) launch5.win launch5.arr_whole c
      ((pdatsA m ρ 5 c).share_full fun _ => rfl) (T15 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsA m ρ 5 c).Φ 0 = Phi5any c from rfl, ← PhiA5_eq]; unfold Pipeline.ΦA
    iintro ⟨Hp, -, Hr⟩
    isplitl [Hr]; · iexact Hr
    iexact Hp
  hout c := by
    rw [Pipeline.ownSems0_none]
    have h1 := Phi5_out (T15 m ρ) c (Fin.last _) (by rw [Fin.val_last]; have : cfg5.N = 32 := N_5; omega)
    have h2 : (Phi5any c : sProp 𝕄) ⊢ iprop((∃ r, prngReg c r) ∗ emp ∗ Pipeline.scopedRest (Ix := Unit) (Name := ℕ) (U := UR sig nD τ) (Lvl := ℕ) (Val := Elt F) spec5 c) := by
      rw [← PhiA5_eq]; unfold Pipeline.ΦA
      iintro ⟨Hr, Hp⟩
      isplitl [Hp]; · iexact Hp
      isplitr; · iempintro
      iexact Hr
    exact h1.trans h2
  hexit c := by
    have hjoin := Pipeline.unscopedBufs_of_arrays (p := 5) (pcfgs (F := F)) adm (Ix := Unit) (Name := ℕ) (U := UR sig nD τ) (Lvl := ℕ)
      launch5.win launch5.arr_whole c (pdatsA m ρ) ((pdatsA m ρ 5 c).share_full fun _ => rfl)
      (T15 m ρ c) (T16 m ρ c) ((pdatsA m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

/-- @main's 17 items in order: a host segment per stretch from its boundary's contents, a region per pallas_call. -/
abbrev segsA : List (Pipeline.Seg (pcfgs (F := F)) adm (pdatsA m ρ) () defs₀ 𝒱A LA lvA) :=
  [ .host (hsegA hostOps0 hostOps0_sub hostOps0_fresh (B0 m ρ)),
    .region (regA0 m ρ),
    .host (hsegA hostOps1 hostOps1_sub hostOps1_fresh (B2 m ρ)),
    .host (hsegA hostOps1_1 hostOps1_1_sub hostOps1_1_fresh (B3 m ρ)),
    .host (hsegA hostOps1_2 hostOps1_2_sub hostOps1_2_fresh (B4 m ρ)),
    .region (regA1 m ρ),
    .host (hsegA hostOps2 hostOps2_sub hostOps2_fresh (B6 m ρ)),
    .host (hsegA hostOps2_1 hostOps2_1_sub hostOps2_1_fresh (B7 m ρ)),
    .host (hsegA hostOps2_2 hostOps2_2_sub hostOps2_2_fresh (B8 m ρ)),
    .region (regA2 m ρ),
    .host (hsegA hostOps3 hostOps3_sub hostOps3_fresh (B10 m ρ)),
    .region (regA3 m ρ),
    .host (hsegA hostOps4 hostOps4_sub hostOps4_fresh (B12 m ρ)),
    .region (regA4 m ρ),
    .host (hsegA hostOps5 hostOps5_sub hostOps5_fresh (B14 m ρ)),
    .region (regA5 m ρ),
    .host (hsegA hostOps6 hostOps6_sub hostOps6_fresh (B16 m ρ)) ]

/-- @main is the run of the segments. -/
theorem main_runA (c : Dev nD) : main (F := F) c = Pipeline.Seg.run (segsA m ρ) := (main_chain c).trans (by chain_rfl)

set_option backward.isDefEq.respectTransparency.types false in
/-- THE RUN. From any memory with zero counters every weakly fair execution of @main terminates without a fault, and
    every final state holds each unscoped buffer of each core at the last valuation `B17`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B17 m ρ c b) :=
  Pipeline.θ_run_regions_kit (pcfgs (F := F)) adm (pdatsA m ρ) () cellOf_inj emb₁ defs₀ 𝒱A LA lvA m ρ main (segsA m ρ)
    (fun c Q => by rw [main_runA m ρ c])
    (by simp only [segsA, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ Rd c))
    (Tₙ := fun c => iprop(StableHlo.held (c : Thread nD τ) (Pipeline.ucRefs τ sig) (B17 m ρ c) ∗ ∃ r, prngReg c r))
    (hch := ⟨fun _ => .rfl, fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun _ => .rfl,
      fun c => by
        show (iprop(StableHlo.held (c : Thread nD τ) (Pipeline.ucRefs τ sig) (B17 m ρ c) ∗ Rd c) : sProp 𝕄) ⊢ _
        iintro ⟨Hh, Hp, Ho⟩
        isplitl [Hh Hp]
        · isplitl [Hh]; · iexact Hh
          iexact Hp
        iexact Ho⟩)
    (hinit := by
      refine Pipeline.initEach LA lvA fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B17 m ρ c b)
    (hfin := fun c s' => by
      iintro ⟨⟨Hh, -⟩, HSI⟩
      unfold StableHlo.held
      imodintro
      iapply (pointsTo_read_all (Pipeline.ucRefs τ sig) (fun b => (((c : Thread nD τ)).1, b)) (B17 m ρ c) s')
      isplitl [Hh] <;> iassumption)
    (hQ := fun s h c => h c)

end Cert.Kernel.Acc

end
-- ==== Proof.KeepK.lean ====
/-
  What each item of @main leaves alone.

  A host stretch changes only the buffers its operations write; a region changes only its output array (its input
  arrays end as they were, and every buffer that is none of its arrays is untouched). From these, a buffer that is
  written once and read later is read unchanged, and the argument arrays are read everywhere as launched.
-/
import proofs.«157716_j2267742732442_1_alg».proof.Proof.RunK

set_option maxRecDepth 16384

noncomputable section

namespace Cert.Kernel.Acc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]
variable (m : (ℓ : Loc nD τ sig) → Buf (Elt F) ℓ) (ρ : Dev nD → PrngReg) (c : Dev nD)

/-! ## One item at a time -/

theorem K1 (r : Ref sig .tc) (h : r ∉ hostOps0_W) : B1 m ρ c r = B0 m ρ c r :=
  StableHlo.after_of_writes_sub hostOps0 _ hostOps0_writes h
theorem K2 (r : Ref sig .tc) (h : ∀ w, Pipeline.arrRef spec0 w ≠ r) : B2 m ρ c r = B1 m ρ c r := B2_of_ne m ρ c r h
theorem K2in (w : Fin cfg0.W) (hw : (cfg0.win w).isOut = false) :
    B2 m ρ c (Pipeline.arrRef spec0 w) = B1 m ρ c (Pipeline.arrRef spec0 w) :=
  (B2_arr m ρ c w).trans (((dat0 (T1 m ρ) c).arrAt_in w hw _).trans (A_eq0 (T1 m ρ) c w))
theorem K3 (r : Ref sig .tc) (h : r ∉ hostOps1_W) : B3 m ρ c r = B2 m ρ c r :=
  StableHlo.after_of_writes_sub hostOps1 _ hostOps1_writes h
theorem K4 (r : Ref sig .tc) (h : r ∉ hostOps1_1_W) : B4 m ρ c r = B3 m ρ c r :=
  StableHlo.after_of_writes_sub hostOps1_1 _ hostOps1_1_writes h
theorem K5 (r : Ref sig .tc) (h : r ∉ hostOps1_2_W) : B5 m ρ c r = B4 m ρ c r :=
  StableHlo.after_of_writes_sub hostOps1_2 _ hostOps1_2_writes h
theorem K6 (r : Ref sig .tc) (h : ∀ w, Pipeline.arrRef spec1 w ≠ r) : B6 m ρ c r = B5 m ρ c r := B6_of_ne m ρ c r h
theorem K7 (r : Ref sig .tc) (h : r ∉ hostOps2_W) : B7 m ρ c r = B6 m ρ c r :=
  StableHlo.after_of_writes_sub hostOps2 _ hostOps2_writes h
theorem K8 (r : Ref sig .tc) (h : r ∉ hostOps2_1_W) : B8 m ρ c r = B7 m ρ c r :=
  StableHlo.after_of_writes_sub hostOps2_1 _ hostOps2_1_writes h
theorem K9 (r : Ref sig .tc) (h : r ∉ hostOps2_2_W) : B9 m ρ c r = B8 m ρ c r :=
  StableHlo.after_of_writes_sub hostOps2_2 _ hostOps2_2_writes h
theorem K10 (r : Ref sig .tc) (h : ∀ w, Pipeline.arrRef spec2 w ≠ r) : B10 m ρ c r = B9 m ρ c r := B10_of_ne m ρ c r h
theorem K10in (w : Fin cfg2.W) (hw : (cfg2.win w).isOut = false) :
    B10 m ρ c (Pipeline.arrRef spec2 w) = B9 m ρ c (Pipeline.arrRef spec2 w) :=
  (B10_arr m ρ c w).trans (((dat2 (T9 m ρ) c).arrAt_in w hw _).trans (A_eq2 (T9 m ρ) c w))
theorem K11 (r : Ref sig .tc) (h : r ∉ hostOps3_W) : B11 m ρ c r = B10 m ρ c r :=
  StableHlo.after_of_writes_sub hostOps3 _ hostOps3_writes h
theorem K12 (r : Ref sig .tc) (h : ∀ w, Pipeline.arrRef spec3 w ≠ r) : B12 m ρ c r = B11 m ρ c r := B12_of_ne m ρ c r h
theorem K12in (w : Fin cfg3.W) (hw : (cfg3.win w).isOut = false) :
    B12 m ρ c (Pipeline.arrRef spec3 w) = B11 m ρ c (Pipeline.arrRef spec3 w) :=
  (B12_arr m ρ c w).trans (((dat3 (T11 m ρ) c).arrAt_in w hw _).trans (A_eq3 (T11 m ρ) c w))
theorem K13 (r : Ref sig .tc) (h : r ∉ hostOps4_W) : B13 m ρ c r = B12 m ρ c r :=
  StableHlo.after_of_writes_sub hostOps4 _ hostOps4_writes h
theorem K14 (r : Ref sig .tc) (h : ∀ w, Pipeline.arrRef spec4 w ≠ r) : B14 m ρ c r = B13 m ρ c r := B14_of_ne m ρ c r h
theorem K15 (r : Ref sig .tc) (h : r ∉ hostOps5_W) : B15 m ρ c r = B14 m ρ c r :=
  StableHlo.after_of_writes_sub hostOps5 _ hostOps5_writes h
theorem K16 (r : Ref sig .tc) (h : ∀ w, Pipeline.arrRef spec5 w ≠ r) : B16 m ρ c r = B15 m ρ c r := B16_of_ne m ρ c r h
theorem K16in (w : Fin cfg5.W) (hw : (cfg5.win w).isOut = false) :
    B16 m ρ c (Pipeline.arrRef spec5 w) = B15 m ρ c (Pipeline.arrRef spec5 w) :=
  (B16_arr m ρ c w).trans (((dat5 (T15 m ρ) c).arrAt_in w hw _).trans (A_eq5 (T15 m ρ) c w))
theorem K17 (r : Ref sig .tc) (h : r ∉ hostOps6_W) : B17 m ρ c r = B16 m ρ c r :=
  StableHlo.after_of_writes_sub hostOps6 _ hostOps6_writes h

/-! ## A buffer that nothing writes and that is no region's array -/

/-- No host stretch writes `r` and `r` is no array of any region. -/
structure Untouched (r : Ref sig .tc) : Prop where
  h0 : r ∉ hostOps0_W
  r0 : ∀ w, Pipeline.arrRef spec0 w ≠ r
  h1 : r ∉ hostOps1_W
  h1a : r ∉ hostOps1_1_W
  h1b : r ∉ hostOps1_2_W
  r1 : ∀ w, Pipeline.arrRef spec1 w ≠ r
  h2 : r ∉ hostOps2_W
  h2a : r ∉ hostOps2_1_W
  h2b : r ∉ hostOps2_2_W
  r2 : ∀ w, Pipeline.arrRef spec2 w ≠ r
  h3 : r ∉ hostOps3_W
  r3 : ∀ w, Pipeline.arrRef spec3 w ≠ r
  h4 : r ∉ hostOps4_W
  r4 : ∀ w, Pipeline.arrRef spec4 w ≠ r
  h5 : r ∉ hostOps5_W
  r5 : ∀ w, Pipeline.arrRef spec5 w ≠ r
  h6 : r ∉ hostOps6_W

variable {r : Ref sig .tc}

theorem U1 (u : Untouched r) : B1 m ρ c r = B0 m ρ c r := K1 m ρ c r u.h0
theorem U2 (u : Untouched r) : B2 m ρ c r = B0 m ρ c r := (K2 m ρ c r u.r0).trans (U1 m ρ c u)
theorem U3 (u : Untouched r) : B3 m ρ c r = B0 m ρ c r := (K3 m ρ c r u.h1).trans (U2 m ρ c u)
theorem U4 (u : Untouched r) : B4 m ρ c r = B0 m ρ c r := (K4 m ρ c r u.h1a).trans (U3 m ρ c u)
theorem U5 (u : Untouched r) : B5 m ρ c r = B0 m ρ c r := (K5 m ρ c r u.h1b).trans (U4 m ρ c u)
theorem U6 (u : Untouched r) : B6 m ρ c r = B0 m ρ c r := (K6 m ρ c r u.r1).trans (U5 m ρ c u)
theorem U7 (u : Untouched r) : B7 m ρ c r = B0 m ρ c r := (K7 m ρ c r u.h2).trans (U6 m ρ c u)
theorem U8 (u : Untouched r) : B8 m ρ c r = B0 m ρ c r := (K8 m ρ c r u.h2a).trans (U7 m ρ c u)
theorem U9 (u : Untouched r) : B9 m ρ c r = B0 m ρ c r := (K9 m ρ c r u.h2b).trans (U8 m ρ c u)
theorem U10 (u : Untouched r) : B10 m ρ c r = B0 m ρ c r := (K10 m ρ c r u.r2).trans (U9 m ρ c u)
theorem U11 (u : Untouched r) : B11 m ρ c r = B0 m ρ c r := (K11 m ρ c r u.h3).trans (U10 m ρ c u)
theorem U12 (u : Untouched r) : B12 m ρ c r = B0 m ρ c r := (K12 m ρ c r u.r3).trans (U11 m ρ c u)
theorem U13 (u : Untouched r) : B13 m ρ c r = B0 m ρ c r := (K13 m ρ c r u.h4).trans (U12 m ρ c u)
theorem U14 (u : Untouched r) : B14 m ρ c r = B0 m ρ c r := (K14 m ρ c r u.r4).trans (U13 m ρ c u)
theorem U15 (u : Untouched r) : B15 m ρ c r = B0 m ρ c r := (K15 m ρ c r u.h5).trans (U14 m ρ c u)
theorem U16 (u : Untouched r) : B16 m ρ c r = B0 m ρ c r := (K16 m ρ c r u.r5).trans (U15 m ρ c u)
theorem U17 (u : Untouched r) : B17 m ρ c r = B0 m ρ c r := (K17 m ρ c r u.h6).trans (U16 m ρ c u)

/-! ## The argument arrays -/

theorem ut1 : Untouched main_arg1 := ⟨by decide, by decide, by decide, by decide, by decide, by decide, by decide, by decide, by decide, by decide, by decide, by decide, by decide, by decide, by decide, by decide, by decide⟩
theorem ut2 : Untouched main_arg2 := ⟨by decide, by decide, by decide, by decide, by decide, by decide, by decide, by decide, by decide, by decide, by decide, by decide, by decide, by decide, by decide, by decide, by decide⟩
theorem ut3 : Untouched main_arg3 := ⟨by decide, by decide, by decide, by decide, by decide, by decide, by decide, by decide, by decide, by decide, by decide, by decide, by decide, by decide, by decide, by decide, by decide⟩
theorem ut4 : Untouched main_arg4 := ⟨by decide, by decide, by decide, by decide, by decide, by decide, by decide, by decide, by decide, by decide, by decide, by decide, by decide, by decide, by decide, by decide, by decide⟩
theorem ut5 : Untouched main_arg5 := ⟨by decide, by decide, by decide, by decide, by decide, by decide, by decide, by decide, by decide, by decide, by decide, by decide, by decide, by decide, by decide, by decide, by decide⟩
theorem ut7 : Untouched main_arg7 := ⟨by decide, by decide, by decide, by decide, by decide, by decide, by decide, by decide, by decide, by decide, by decide, by decide, by decide, by decide, by decide, by decide, by decide⟩
theorem ut8 : Untouched main_arg8 := ⟨by decide, by decide, by decide, by decide, by decide, by decide, by decide, by decide, by decide, by decide, by decide, by decide, by decide, by decide, by decide, by decide, by decide⟩
theorem ut9 : Untouched main_arg9 := ⟨by decide, by decide, by decide, by decide, by decide, by decide, by decide, by decide, by decide, by decide, by decide, by decide, by decide, by decide, by decide, by decide, by decide⟩
theorem ut10 : Untouched main_arg10 := ⟨by decide, by decide, by decide, by decide, by decide, by decide, by decide, by decide, by decide, by decide, by decide, by decide, by decide, by decide, by decide, by decide, by decide⟩
theorem ut11 : Untouched main_arg11 := ⟨by decide, by decide, by decide, by decide, by decide, by decide, by decide, by decide, by decide, by decide, by decide, by decide, by decide, by decide, by decide, by decide, by decide⟩
theorem ut12 : Untouched main_arg12 := ⟨by decide, by decide, by decide, by decide, by decide, by decide, by decide, by decide, by decide, by decide, by decide, by decide, by decide, by decide, by decide, by decide, by decide⟩
theorem ut13 : Untouched main_arg13 := ⟨by decide, by decide, by decide, by decide, by decide, by decide, by decide, by decide, by decide, by decide, by decide, by decide, by decide, by decide, by decide, by decide, by decide⟩
theorem ut14 : Untouched main_arg14 := ⟨by decide, by decide, by decide, by decide, by decide, by decide, by decide, by decide, by decide, by decide, by decide, by decide, by decide, by decide, by decide, by decide, by decide⟩
theorem ut15 : Untouched main_arg15 := ⟨by decide, by decide, by decide, by decide, by decide, by decide, by decide, by decide, by decide, by decide, by decide, by decide, by decide, by decide, by decide, by decide, by decide⟩
theorem ut16 : Untouched main_arg16 := ⟨by decide, by decide, by decide, by decide, by decide, by decide, by decide, by decide, by decide, by decide, by decide, by decide, by decide, by decide, by decide, by decide, by decide⟩
theorem ut17 : Untouched main_arg17 := ⟨by decide, by decide, by decide, by decide, by decide, by decide, by decide, by decide, by decide, by decide, by decide, by decide, by decide, by decide, by decide, by decide, by decide⟩
theorem ut18 : Untouched main_arg18 := ⟨by decide, by decide, by decide, by decide, by decide, by decide, by decide, by decide, by decide, by decide, by decide, by decide, by decide, by decide, by decide, by decide, by decide⟩
theorem ut19 : Untouched main_arg19 := ⟨by decide, by decide, by decide, by decide, by decide, by decide, by decide, by decide, by decide, by decide, by decide, by decide, by decide, by decide, by decide, by decide, by decide⟩

/-! ## The node features and PPMI: input arrays of two regions each -/

theorem A0_1 : B1 m ρ c main_arg0 = B0 m ρ c main_arg0 := K1 m ρ c _ (by decide)
theorem A0_2 : B2 m ρ c main_arg0 = B0 m ρ c main_arg0 := (K2in m ρ c 0 rfl).trans (A0_1 m ρ c)
theorem A0_9 : B9 m ρ c main_arg0 = B0 m ρ c main_arg0 :=
  (K9 m ρ c _ (by decide)).trans <| (K8 m ρ c _ (by decide)).trans <| (K7 m ρ c _ (by decide)).trans <| (K6 m ρ c _ (by decide)).trans <|
  (K5 m ρ c _ (by decide)).trans <| (K4 m ρ c _ (by decide)).trans <| (K3 m ρ c _ (by decide)).trans <| A0_2 m ρ c
theorem A0_17 : B17 m ρ c main_arg0 = B0 m ρ c main_arg0 :=
  (K17 m ρ c _ (by decide)).trans <| (K16 m ρ c _ (by decide)).trans <| (K15 m ρ c _ (by decide)).trans <| (K14 m ρ c _ (by decide)).trans <|
  (K13 m ρ c _ (by decide)).trans <| (K12 m ρ c _ (by decide)).trans <| (K11 m ρ c _ (by decide)).trans <| (K10in m ρ c 0 rfl).trans <| A0_9 m ρ c

theorem A6_11 : B11 m ρ c main_arg6 = B0 m ρ c main_arg6 :=
  (K11 m ρ c _ (by decide)).trans <| (K10 m ρ c _ (by decide)).trans <| (K9 m ρ c _ (by decide)).trans <| (K8 m ρ c _ (by decide)).trans <|
  (K7 m ρ c _ (by decide)).trans <| (K6 m ρ c _ (by decide)).trans <| (K5 m ρ c _ (by decide)).trans <| (K4 m ρ c _ (by decide)).trans <|
  (K3 m ρ c _ (by decide)).trans <| (K2 m ρ c _ (by decide)).trans <| K1 m ρ c _ (by decide)
theorem A6_15 : B15 m ρ c main_arg6 = B0 m ρ c main_arg6 :=
  (K15 m ρ c _ (by decide)).trans <| (K14 m ρ c _ (by decide)).trans <| (K13 m ρ c _ (by decide)).trans <| (K12in m ρ c 0 rfl).trans <| A6_11 m ρ c
theorem A6_17 : B17 m ρ c main_arg6 = B0 m ρ c main_arg6 :=
  (K17 m ρ c _ (by decide)).trans <| (K16in m ρ c 0 rfl).trans <| A6_15 m ρ c

end Cert.Kernel.Acc

end
-- ==== Proof.FrameK.lean ====
/-
  The frame claim: every weakly fair execution of @main terminates without a fault and leaves each of the twenty
  argument arrays as launched. Read off the whole run: the final state holds every unscoped buffer at the last
  valuation, and no item of @main changes an argument array (no host operation writes one; a region changes only its
  output array, which is never an argument).
-/
import proofs.«157716_j2267742732442_1_alg».proof.Proof.KeepK

set_option maxRecDepth 16384

noncomputable section

namespace Cert.Kernel.Acc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]
variable (m : (ℓ : Loc nD τ sig) → Buf (Elt F) ℓ) (ρ : Dev nD → PrngReg)

/-- From "every unscoped buffer is at the last valuation": each argument array is as launched. -/
theorem args_of_all (c : Dev nD) (mem : (ℓ : Loc nD τ sig) → Buf (Elt F) ℓ)
    (h : ∀ b ∈ Pipeline.ucRefs τ sig, mem (((c : Thread nD τ)).1, b) = B17 m ρ c b) :
      mem ((c.tc : Thread nD τ).loc main_arg0) = m ((c.tc : Thread nD τ).loc main_arg0)
      ∧ mem ((c.tc : Thread nD τ).loc main_arg1) = m ((c.tc : Thread nD τ).loc main_arg1)
      ∧ mem ((c.tc : Thread nD τ).loc main_arg2) = m ((c.tc : Thread nD τ).loc main_arg2)
      ∧ mem ((c.tc : Thread nD τ).loc main_arg3) = m ((c.tc : Thread nD τ).loc main_arg3)
      ∧ mem ((c.tc : Thread nD τ).loc main_arg4) = m ((c.tc : Thread nD τ).loc main_arg4)
      ∧ mem ((c.tc : Thread nD τ).loc main_arg5) = m ((c.tc : Thread nD τ).loc main_arg5)
      ∧ mem ((c.tc : Thread nD τ).loc main_arg6) = m ((c.tc : Thread nD τ).loc main_arg6)
      ∧ mem ((c.tc : Thread nD τ).loc main_arg7) = m ((c.tc : Thread nD τ).loc main_arg7)
      ∧ mem ((c.tc : Thread nD τ).loc main_arg8) = m ((c.tc : Thread nD τ).loc main_arg8)
      ∧ mem ((c.tc : Thread nD τ).loc main_arg9) = m ((c.tc : Thread nD τ).loc main_arg9)
      ∧ mem ((c.tc : Thread nD τ).loc main_arg10) = m ((c.tc : Thread nD τ).loc main_arg10)
      ∧ mem ((c.tc : Thread nD τ).loc main_arg11) = m ((c.tc : Thread nD τ).loc main_arg11)
      ∧ mem ((c.tc : Thread nD τ).loc main_arg12) = m ((c.tc : Thread nD τ).loc main_arg12)
      ∧ mem ((c.tc : Thread nD τ).loc main_arg13) = m ((c.tc : Thread nD τ).loc main_arg13)
      ∧ mem ((c.tc : Thread nD τ).loc main_arg14) = m ((c.tc : Thread nD τ).loc main_arg14)
      ∧ mem ((c.tc : Thread nD τ).loc main_arg15) = m ((c.tc : Thread nD τ).loc main_arg15)
      ∧ mem ((c.tc : Thread nD τ).loc main_arg16) = m ((c.tc : Thread nD τ).loc main_arg16)
      ∧ mem ((c.tc : Thread nD τ).loc main_arg17) = m ((c.tc : Thread nD τ).loc main_arg17)
      ∧ mem ((c.tc : Thread nD τ).loc main_arg18) = m ((c.tc : Thread nD τ).loc main_arg18)
      ∧ mem ((c.tc : Thread nD τ).loc main_arg19) = m ((c.tc : Thread nD τ).loc main_arg19) :=
  ⟨(h _ (mem_ucA main_arg0 (by decide))).trans (A0_17 m ρ c),
      (h _ (mem_ucA main_arg1 (by decide))).trans (U17 m ρ c ut1),
      (h _ (mem_ucA main_arg2 (by decide))).trans (U17 m ρ c ut2),
      (h _ (mem_ucA main_arg3 (by decide))).trans (U17 m ρ c ut3),
      (h _ (mem_ucA main_arg4 (by decide))).trans (U17 m ρ c ut4),
      (h _ (mem_ucA main_arg5 (by decide))).trans (U17 m ρ c ut5),
      (h _ (mem_ucA main_arg6 (by decide))).trans (A6_17 m ρ c),
      (h _ (mem_ucA main_arg7 (by decide))).trans (U17 m ρ c ut7),
      (h _ (mem_ucA main_arg8 (by decide))).trans (U17 m ρ c ut8),
      (h _ (mem_ucA main_arg9 (by decide))).trans (U17 m ρ c ut9),
      (h _ (mem_ucA main_arg10 (by decide))).trans (U17 m ρ c ut10),
      (h _ (mem_ucA main_arg11 (by decide))).trans (U17 m ρ c ut11),
      (h _ (mem_ucA main_arg12 (by decide))).trans (U17 m ρ c ut12),
      (h _ (mem_ucA main_arg13 (by decide))).trans (U17 m ρ c ut13),
      (h _ (mem_ucA main_arg14 (by decide))).trans (U17 m ρ c ut14),
      (h _ (mem_ucA main_arg15 (by decide))).trans (U17 m ρ c ut15),
      (h _ (mem_ucA main_arg16 (by decide))).trans (U17 m ρ c ut16),
      (h _ (mem_ucA main_arg17 (by decide))).trans (U17 m ρ c ut17),
      (h _ (mem_ucA main_arg18 (by decide))).trans (U17 m ρ c ut18),
      (h _ (mem_ucA main_arg19 (by decide))).trans (U17 m ρ c ut19)⟩

theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs _ _).mono (fun r h c => args_of_all m ρ c r.2.mem (h c))
    (run_all m ρ)

end Cert.Kernel.Acc

end
-- ==== Proof.AccI0.lean ====
/-
  Region 0: the first feature projection of the local branch, feats · (w1 · tao_1_L), computed in four row blocks of
  2048 rows with the whole contraction (512) in one step. The grid's last axis has a single step, so at every grid
  point the body zeroes its accumulator, adds the block product feats[rows] · W into it, and copies the accumulator to
  the output block. Nothing is carried from one point to the next: the accumulator is owned at arbitrary contents
  between points.

  This module runs the body symbolically on whole staging memrefs, records what it leaves in the output block and in
  the accumulator as the stores the run finds, and discharges the pipeline's body obligation at every point for the
  proof data "inputs keep their blocks, the output block holds those stores read back".
-/
import proofs.«157716_j2267742732442_1_alg».proof.Proof.Gen.KernelIdeal.Launch
import proofs.«157716_j2267742732442_1_alg».proof.Proof.Gen.KernelIdeal.Skeleton
import proofs.«157716_j2267742732442_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Acc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

/-! ## The two conditions of the body -/

/-- The accumulator is zeroed when the last grid coordinate is 0. -/
abbrev first0 (i : grid0.Coords) : Prop := (Scalar.cmpi .ne (Scalar.extui (Scalar.cmpi .eq (BitVec.ofNat 32 (i 2).val) 0#32)) 0#32) = 1#1
/-- The output block is written at the last contraction step, which here is also step 0. -/
abbrev last0 (i : grid0.Coords) : Prop := k0_cond2 i = 1#1

/-- Both hold at every grid point: the contraction axis has one step. -/
theorem first0_all : ∀ t : Fin cfg0.N, first0 (grid0.coords t) :=
  (by decide +kernel : ∀ t : Fin grid0.N, first0 (grid0.coords t))
theorem last0_all : ∀ t : Fin cfg0.N, last0 (grid0.coords t) :=
  (by decide +kernel : ∀ t : Fin grid0.N, last0 (grid0.coords t))

/-! ## The body on whole memrefs -/

set_option maxHeartbeats 1000000 in
/-- The body on whole memrefs: the three inputs at their contents, the output block and the accumulator at anything.
    It runs to the continuation with the inputs as they were and with the output block and the accumulator each
    overwritten by a list of stores (last first), which the symbolic run finds. -/
noncomputable def bodyRun0 (c : Dev nD) (i : grid0.Coords)
    (arg3 : Memref sig .tc .vmem S2048x512 .f32) (harg3 : arg3.IsWhole) (arg4 : Memref sig .tc .vmem S512x256 .f32) (harg4 : arg4.IsWhole)
    (arg5 : Memref sig .tc .vmem S1x256 .f32) (harg5 : arg5.IsWhole) (arg6 : Memref sig .tc .vmem S2048x256 .f32) (harg6 : arg6.IsWhole)
    (arg7 : Memref sig .tc .vmem S2048x256 .f32) (harg7 : arg7.IsWhole) (hf : first0 i) (hl : last0 i)
    (x0 : Vec F S2048x512 .f32) (x1 : Vec F S512x256 .f32) (x2 : Vec F S1x256 .f32) :
    Σ' (LO : List (View.Piece (Elt F) S2048x256 .f32)), { LS : List (View.Piece (Elt F) S2048x256 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg6 fullShare d) ∗ (∃ d, owns (c : Thread nD τ) arg7 fullShare d)
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f LO)
                ∗ (∃ f, arg7.view.loc (c : Thread nD τ) ↦[arg7.view.set]{fullShare} arg7.view.writes (Elt F) f LS)) -∗ K ⟨⟩))
          ⊢ wp frame (wpE (defs₀ (F := F)) Variants.none c none) E (cc0_kernel i arg3 harg3 arg4 harg4 arg5 harg5 arg6 harg6 arg7 harg7) K } := by
  refine ⟨?_, ?_, fun E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%d3, %f3, -, H3⟩, ⟨%ds, %fs, -, HS⟩, Hk⟩
    obtain rfl := harg3.eq_unread hf0; obtain rfl := harg4.eq_unread hf1; obtain rfl := harg5.eq_unread hf2
    sl_exec (disch := first | exact hf | exact hl)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS

/-- The stores into the output block cover it (one store of the whole block). -/
theorem ocover0 (c : Dev nD) (i : grid0.Coords)
    (arg3 : Memref sig .tc .vmem S2048x512 .f32) (harg3 : arg3.IsWhole) (arg4 : Memref sig .tc .vmem S512x256 .f32) (harg4 : arg4.IsWhole)
    (arg5 : Memref sig .tc .vmem S1x256 .f32) (harg5 : arg5.IsWhole) (arg6 : Memref sig .tc .vmem S2048x256 .f32) (harg6 : arg6.IsWhole)
    (arg7 : Memref sig .tc .vmem S2048x256 .f32) (harg7 : arg7.IsWhole) (hf : first0 i) (hl : last0 i)
    (x0 : Vec F S2048x512 .f32) (x1 : Vec F S512x256 .f32) (x2 : Vec F S1x256 .f32) (y : S2048x256.Idx) :
    ∃ pc ∈ (bodyRun0 c i arg3 harg3 arg4 harg4 arg5 harg5 arg6 harg6 arg7 harg7 hf hl x0 x1 x2).1, y ∈ pc.1.set :=
  View.cover_of_tiledL (bodyRun0 c i arg3 harg3 arg4 harg4 arg5 harg5 arg6 harg6 arg7 harg7 hf hl x0 x1 x2).1 S2048x256.size (by sl_kernel_rfl) y

/-- What the body leaves in the output block: its stores read back. -/
def out0 (c : Dev nD) (i : grid0.Coords)
    (arg3 : Memref sig .tc .vmem S2048x512 .f32) (harg3 : arg3.IsWhole) (arg4 : Memref sig .tc .vmem S512x256 .f32) (harg4 : arg4.IsWhole)
    (arg5 : Memref sig .tc .vmem S1x256 .f32) (harg5 : arg5.IsWhole) (arg6 : Memref sig .tc .vmem S2048x256 .f32) (harg6 : arg6.IsWhole)
    (arg7 : Memref sig .tc .vmem S2048x256 .f32) (harg7 : arg7.IsWhole) (hf : first0 i) (hl : last0 i)
    (x0 : Vec F S2048x512 .f32) (x1 : Vec F S512x256 .f32) (x2 : Vec F S1x256 .f32) : Vec F S2048x256 .f32 :=
  View.canon (bodyRun0 c i arg3 harg3 arg4 harg4 arg5 harg5 arg6 harg6 arg7 harg7 hf hl x0 x1 x2).1

/-! ## The memrefs the pipeline passes at a point -/

abbrev ms0_0 (t : Fin cfg0.N) : Memref sig .tc .vmem S2048x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x256 .f32 := win0_3.stage (cfg0.slots t 3)
abbrev hs0_3 (t : Fin cfg0.N) : (ms0_3 t).IsWhole := hstage0_3 ((cfg0.slots t 3).cast nbuf0_3)
/-- The accumulator: a whole scoped buffer of the kernel's own. -/
abbrev scM0 : Memref sig .tc .vmem S2048x256 .f32 := Memref.whole cc0_scratch0

/-! ## No window is idle at any point -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel

/-! ## The invariant between points -/

/-- Between points: the accumulator at anything, every other scoped buffer that is no staging buffer of this call
    untouched, and the generator register at some state. -/
def Phi0 (c : Dev nD) : sProp 𝕄 :=
  iprop(iprop(iprop(∃ d, owns (c : Thread nD τ) scM0 fullShare d)
      ∗ Pipeline.scopedRestBut (Ix := Unit) (Name := ℕ) (U := UR sig nD τ) (Lvl := ℕ) (Val := Elt F) spec0 c [cc0_scratch0])
    ∗ (∃ r, prngReg c r))

/-- It is the scoped rest of this call with the generator register, the accumulator named. -/
theorem PhiA0_eq (c : Dev nD) : (Pipeline.ΦA spec0 c : sProp 𝕄) = Phi0 c := by
  unfold Pipeline.ΦA Phi0; rw [scopedRest0_split]; simp only [scM0, owns_whole]; try rfl

section Data

-- the contents of the TensorCore's buffers when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (when it is not
    fetched its block index has not moved). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- What the output block holds after point `t`: the body's stores there, read back, on the point's input blocks. -/
def outAt0 (c : Dev nD) (t : Fin cfg0.N) : Vec F S2048x256 .f32 :=
  out0 c (grid0.coords t) (ms0_0 t) (hs0_0 t) (ms0_1 t) (hs0_1 t) (ms0_2 t) (hs0_2 t) (ms0_3 t) (hs0_3 t) scM0 (Memref.isWhole_whole _)
    (first0_all t) (last0_all t) (iblk0 V c 0 t) (iblk0 V c 1 t) (iblk0 V c 2 t)

/-- The proof data of this pipeline on core `c`: the arrays as the region finds them; after the body at point `t`
    each input's buffer at its block and the output's at `outAt0`; the invariant `Phi0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => outAt0 V c t
  Φ _ := Phi0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = outAt0 V c t := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 1600000 in
/-- The body at any point: the inputs' memrefs hold their blocks, the invariant lends the accumulator at anything and
    takes it back at anything, the output block ends at the stores read back. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = Phi0 c from rfl, show (dat0 V c).Φ t.castSucc = Phi0 c from rfl,
    show (dat0 V c).owesAt () t.succ = (dat0 V c).owesAt () t.castSucc from rfl]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  unfold Phi0 outAt0 out0
  iintro ⟨⟨⟨HS, Hb⟩, Hg⟩, Ho, ⟨%d0, H0⟩, ⟨%d1, H1⟩, ⟨%d2, H2⟩, ⟨%d3, H3⟩⟩
  iapply ((bodyRun0 c (grid0.coords t) _ _ _ _ _ _ _ _ _ _ (first0_all t) (last0_all t) (iblk0 V c 0 t) (iblk0 V c 1 t) (iblk0 V c 2 t)).2.2 Set.univ _)
  isplitl [H0]; · iexact H0
  isplitl [H1]; · iexact H1
  isplitl [H2]; · iexact H2
  isplitl [H3]; · iexists _; iexact H3
  isplitl [HS]; · iexact HS
  iintro ⟨H0, H1, H2, ⟨%e3, H3⟩, ⟨%es, HS⟩⟩
  isplitl [HS Hb Hg]
  · isplitl [HS Hb]
    · isplitl [HS]
      · iexists _; unfold owns; iexists _; isplitr
        swap; · iexact HS
        ipureintro; rfl
      iexact Hb
    iexact Hg
  isplitl [Ho]; · iexact Ho
  isplitl [H0]; · iexact H0
  isplitl [H1]; · iexact H1
  isplitl [H2]; · iexact H2
  unfold owns; iexists _; isplitr
  swap; · iexact H3
  ipureintro; exact View.read_writes_eq_canon _ _ _ (ocover0 c _ _ _ _ _ _ _ _ _ _ _ _ _ _ _ _)

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Data

end Cert.KernelIdeal.Acc

end
-- ==== Proof.AccI1.lean ====
/-
  Region 1: the second projection of the local branch, h · (w2 · tao_2_L), where h is the first layer's output after
  the edge aggregation, bias and positive part. Four row blocks of 2048 rows, the whole contraction (256) in one step:
  at every grid point the body zeroes its accumulator, adds the block product into it, and copies it to the output
  block. Nothing is carried between points.

  The body is run symbolically on whole staging memrefs; what it leaves in the output block and the accumulator is the
  list of stores the run finds; the pipeline's body obligation follows at every point.
-/
import proofs.«157716_j2267742732442_1_alg».proof.Proof.Gen.KernelIdeal.Launch
import proofs.«157716_j2267742732442_1_alg».proof.Proof.Gen.KernelIdeal.Skeleton
import proofs.«157716_j2267742732442_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Acc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

/-! ## The two conditions of the body -/

/-- The accumulator is zeroed when the last grid coordinate is 0. -/
abbrev first1 (i : grid1.Coords) : Prop := (Scalar.cmpi .ne (Scalar.extui (Scalar.cmpi .eq (BitVec.ofNat 32 (i 2).val) 0#32)) 0#32) = 1#1
/-- The output block is written at the last contraction step, which here is also step 0. -/
abbrev last1 (i : grid1.Coords) : Prop := k1_cond2 i = 1#1

theorem first1_all : ∀ t : Fin cfg1.N, first1 (grid1.coords t) :=
  (by decide +kernel : ∀ t : Fin grid1.N, first1 (grid1.coords t))
theorem last1_all : ∀ t : Fin cfg1.N, last1 (grid1.coords t) :=
  (by decide +kernel : ∀ t : Fin grid1.N, last1 (grid1.coords t))

/-! ## The body on whole memrefs -/

set_option maxHeartbeats 1000000 in
/-- The body on whole memrefs: the three inputs at their contents, the output block and the accumulator at anything.
    It runs to the continuation with the inputs as they were and with the output block and the accumulator each
    overwritten by a list of stores (last first), which the symbolic run finds. -/
noncomputable def bodyRun1 (c : Dev nD) (i : grid1.Coords)
    (arg3 : Memref sig .tc .vmem S2048x256 .f32) (harg3 : arg3.IsWhole) (arg4 : Memref sig .tc .vmem S256x128 .f32) (harg4 : arg4.IsWhole)
    (arg5 : Memref sig .tc .vmem S1x128 .f32) (harg5 : arg5.IsWhole) (arg6 : Memref sig .tc .vmem S2048x128 .f32) (harg6 : arg6.IsWhole)
    (arg7 : Memref sig .tc .vmem S2048x128 .f32) (harg7 : arg7.IsWhole) (hf : first1 i) (hl : last1 i)
    (x0 : Vec F S2048x256 .f32) (x1 : Vec F S256x128 .f32) (x2 : Vec F S1x128 .f32) :
    Σ' (LO : List (View.Piece (Elt F) S2048x128 .f32)), { LS : List (View.Piece (Elt F) S2048x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg6 fullShare d) ∗ (∃ d, owns (c : Thread nD τ) arg7 fullShare d)
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f LO)
                ∗ (∃ f, arg7.view.loc (c : Thread nD τ) ↦[arg7.view.set]{fullShare} arg7.view.writes (Elt F) f LS)) -∗ K ⟨⟩))
          ⊢ wp frame (wpE (defs₀ (F := F)) Variants.none c none) E (cc1_kernel i arg3 harg3 arg4 harg4 arg5 harg5 arg6 harg6 arg7 harg7) K } := by
  refine ⟨?_, ?_, fun E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%d3, %f3, -, H3⟩, ⟨%ds, %fs, -, HS⟩, Hk⟩
    obtain rfl := harg3.eq_unread hf0; obtain rfl := harg4.eq_unread hf1; obtain rfl := harg5.eq_unread hf2
    sl_exec (disch := first | exact hf | exact hl)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS

/-- The stores into the output block cover it (one store of the whole block). -/
theorem ocover1 (c : Dev nD) (i : grid1.Coords)
    (arg3 : Memref sig .tc .vmem S2048x256 .f32) (harg3 : arg3.IsWhole) (arg4 : Memref sig .tc .vmem S256x128 .f32) (harg4 : arg4.IsWhole)
    (arg5 : Memref sig .tc .vmem S1x128 .f32) (harg5 : arg5.IsWhole) (arg6 : Memref sig .tc .vmem S2048x128 .f32) (harg6 : arg6.IsWhole)
    (arg7 : Memref sig .tc .vmem S2048x128 .f32) (harg7 : arg7.IsWhole) (hf : first1 i) (hl : last1 i)
    (x0 : Vec F S2048x256 .f32) (x1 : Vec F S256x128 .f32) (x2 : Vec F S1x128 .f32) (y : S2048x128.Idx) :
    ∃ pc ∈ (bodyRun1 c i arg3 harg3 arg4 harg4 arg5 harg5 arg6 harg6 arg7 harg7 hf hl x0 x1 x2).1, y ∈ pc.1.set :=
  View.cover_of_tiledL (bodyRun1 c i arg3 harg3 arg4 harg4 arg5 harg5 arg6 harg6 arg7 harg7 hf hl x0 x1 x2).1 S2048x128.size (by sl_kernel_rfl) y

/-- What the body leaves in the output block: its stores read back. -/
def out1 (c : Dev nD) (i : grid1.Coords)
    (arg3 : Memref sig .tc .vmem S2048x256 .f32) (harg3 : arg3.IsWhole) (arg4 : Memref sig .tc .vmem S256x128 .f32) (harg4 : arg4.IsWhole)
    (arg5 : Memref sig .tc .vmem S1x128 .f32) (harg5 : arg5.IsWhole) (arg6 : Memref sig .tc .vmem S2048x128 .f32) (harg6 : arg6.IsWhole)
    (arg7 : Memref sig .tc .vmem S2048x128 .f32) (harg7 : arg7.IsWhole) (hf : first1 i) (hl : last1 i)
    (x0 : Vec F S2048x256 .f32) (x1 : Vec F S256x128 .f32) (x2 : Vec F S1x128 .f32) : Vec F S2048x128 .f32 :=
  View.canon (bodyRun1 c i arg3 harg3 arg4 harg4 arg5 harg5 arg6 harg6 arg7 harg7 hf hl x0 x1 x2).1

/-! ## The memrefs the pipeline passes at a point -/

abbrev ms1_0 (t : Fin cfg1.N) : Memref sig .tc .vmem S2048x256 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S256x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2048x128 .f32 := win1_3.stage (cfg1.slots t 3)
abbrev hs1_3 (t : Fin cfg1.N) : (ms1_3 t).IsWhole := hstage1_3 ((cfg1.slots t 3).cast nbuf1_3)
/-- The accumulator: a whole scoped buffer of the kernel's own. -/
abbrev scM1 : Memref sig .tc .vmem S2048x128 .f32 := Memref.whole cc1_scratch0

/-! ## No window is idle at any point -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel

/-! ## The invariant between points -/

/-- Between points: the accumulator at anything, every other scoped buffer that is no staging buffer of this call
    untouched, and the generator register at some state. -/
def Phi1 (c : Dev nD) : sProp 𝕄 :=
  iprop(iprop(iprop(∃ d, owns (c : Thread nD τ) scM1 fullShare d)
      ∗ Pipeline.scopedRestBut (Ix := Unit) (Name := ℕ) (U := UR sig nD τ) (Lvl := ℕ) (Val := Elt F) spec1 c [cc1_scratch0])
    ∗ (∃ r, prngReg c r))

/-- It is the scoped rest of this call with the generator register, the accumulator named. -/
theorem PhiA1_eq (c : Dev nD) : (Pipeline.ΦA spec1 c : sProp 𝕄) = Phi1 c := by
  unfold Pipeline.ΦA Phi1; rw [scopedRest1_split]; simp only [scM1, owns_whole]; try rfl

section Data

-- the contents of the TensorCore's buffers when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (when it is not
    fetched its block index has not moved). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- What the output block holds after point `t`: the body's stores there, read back, on the point's input blocks. -/
def outAt1 (c : Dev nD) (t : Fin cfg1.N) : Vec F S2048x128 .f32 :=
  out1 c (grid1.coords t) (ms1_0 t) (hs1_0 t) (ms1_1 t) (hs1_1 t) (ms1_2 t) (hs1_2 t) (ms1_3 t) (hs1_3 t) scM1 (Memref.isWhole_whole _)
    (first1_all t) (last1_all t) (iblk1 V c 0 t) (iblk1 V c 1 t) (iblk1 V c 2 t)

/-- The proof data of this pipeline on core `c`: the arrays as the region finds them; after the body at point `t`
    each input's buffer at its block and the output's at `outAt1`; the invariant `Phi1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outAt1 V c t
  Φ _ := Phi1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = outAt1 V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 1600000 in
/-- The body at any point: the inputs' memrefs hold their blocks, the invariant lends the accumulator at anything and
    takes it back at anything, the output block ends at the stores read back. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = Phi1 c from rfl, show (dat1 V c).Φ t.castSucc = Phi1 c from rfl,
    show (dat1 V c).owesAt () t.succ = (dat1 V c).owesAt () t.castSucc from rfl]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  unfold Phi1 outAt1 out1
  iintro ⟨⟨⟨HS, Hb⟩, Hg⟩, Ho, ⟨%d0, H0⟩, ⟨%d1, H1⟩, ⟨%d2, H2⟩, ⟨%d3, H3⟩⟩
  iapply ((bodyRun1 c (grid1.coords t) _ _ _ _ _ _ _ _ _ _ (first1_all t) (last1_all t) (iblk1 V c 0 t) (iblk1 V c 1 t) (iblk1 V c 2 t)).2.2 Set.univ _)
  isplitl [H0]; · iexact H0
  isplitl [H1]; · iexact H1
  isplitl [H2]; · iexact H2
  isplitl [H3]; · iexists _; iexact H3
  isplitl [HS]; · iexact HS
  iintro ⟨H0, H1, H2, ⟨%e3, H3⟩, ⟨%es, HS⟩⟩
  isplitl [HS Hb Hg]
  · isplitl [HS Hb]
    · isplitl [HS]
      · iexists _; unfold owns; iexists _; isplitr
        swap; · iexact HS
        ipureintro; rfl
      iexact Hb
    iexact Hg
  isplitl [Ho]; · iexact Ho
  isplitl [H0]; · iexact H0
  isplitl [H1]; · iexact H1
  isplitl [H2]; · iexact H2
  unfold owns; iexists _; isplitr
  swap; · iexact H3
  ipureintro; exact View.read_writes_eq_canon _ _ _ (ocover1 c _ _ _ _ _ _ _ _ _ _ _ _ _ _ _ _)

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Data

end Cert.KernelIdeal.Acc

end
-- ==== Proof.AccI2.lean ====
/-
  Region 2: the first projection of the global branch, feats · (w1g · tao_1_G). Four row blocks of 2048 rows, the whole
  contraction (512) in one step: at every grid point the body zeroes its accumulator, adds the block product into it,
  and copies it to the output block. Nothing is carried between points.

  The body is run symbolically on whole staging memrefs; what it leaves in the output block and the accumulator is the
  list of stores the run finds; the pipeline's body obligation follows at every point.
-/
import proofs.«157716_j2267742732442_1_alg».proof.Proof.Gen.KernelIdeal.Launch
import proofs.«157716_j2267742732442_1_alg».proof.Proof.Gen.KernelIdeal.Skeleton
import proofs.«157716_j2267742732442_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Acc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

/-! ## The two conditions of the body -/

/-- The accumulator is zeroed when the last grid coordinate is 0. -/
abbrev first2 (i : grid2.Coords) : Prop := (Scalar.cmpi .ne (Scalar.extui (Scalar.cmpi .eq (BitVec.ofNat 32 (i 2).val) 0#32)) 0#32) = 1#1
/-- The output block is written at the last contraction step, which here is also step 0. -/
abbrev last2 (i : grid2.Coords) : Prop := k2_cond2 i = 1#1

theorem first2_all : ∀ t : Fin cfg2.N, first2 (grid2.coords t) :=
  (by decide +kernel : ∀ t : Fin grid2.N, first2 (grid2.coords t))
theorem last2_all : ∀ t : Fin cfg2.N, last2 (grid2.coords t) :=
  (by decide +kernel : ∀ t : Fin grid2.N, last2 (grid2.coords t))

/-! ## The body on whole memrefs -/

set_option maxHeartbeats 1000000 in
/-- The body on whole memrefs: the three inputs at their contents, the output block and the accumulator at anything.
    It runs to the continuation with the inputs as they were and with the output block and the accumulator each
    overwritten by a list of stores (last first), which the symbolic run finds. -/
noncomputable def bodyRun2 (c : Dev nD) (i : grid2.Coords)
    (arg3 : Memref sig .tc .vmem S2048x512 .f32) (harg3 : arg3.IsWhole) (arg4 : Memref sig .tc .vmem S512x256 .f32) (harg4 : arg4.IsWhole)
    (arg5 : Memref sig .tc .vmem S1x256 .f32) (harg5 : arg5.IsWhole) (arg6 : Memref sig .tc .vmem S2048x256 .f32) (harg6 : arg6.IsWhole)
    (arg7 : Memref sig .tc .vmem S2048x256 .f32) (harg7 : arg7.IsWhole) (hf : first2 i) (hl : last2 i)
    (x0 : Vec F S2048x512 .f32) (x1 : Vec F S512x256 .f32) (x2 : Vec F S1x256 .f32) :
    Σ' (LO : List (View.Piece (Elt F) S2048x256 .f32)), { LS : List (View.Piece (Elt F) S2048x256 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg6 fullShare d) ∗ (∃ d, owns (c : Thread nD τ) arg7 fullShare d)
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f LO)
                ∗ (∃ f, arg7.view.loc (c : Thread nD τ) ↦[arg7.view.set]{fullShare} arg7.view.writes (Elt F) f LS)) -∗ K ⟨⟩))
          ⊢ wp frame (wpE (defs₀ (F := F)) Variants.none c none) E (cc2_kernel i arg3 harg3 arg4 harg4 arg5 harg5 arg6 harg6 arg7 harg7) K } := by
  refine ⟨?_, ?_, fun E K => ?run⟩
  case run =>
    simp only [cc2_kernel_eq_skeleton]; unfold cc2_kernel_skel
    unfold owns
    iintro ⟨⟨%f0, %hf0, H0⟩, ⟨%f1, %hf1, H1⟩, ⟨%f2, %hf2, H2⟩, ⟨%d3, %f3, -, H3⟩, ⟨%ds, %fs, -, HS⟩, Hk⟩
    obtain rfl := harg3.eq_unread hf0; obtain rfl := harg4.eq_unread hf1; obtain rfl := harg5.eq_unread hf2
    sl_exec (disch := first | exact hf | exact hl)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS

/-- The stores into the output block cover it (one store of the whole block). -/
theorem ocover2 (c : Dev nD) (i : grid2.Coords)
    (arg3 : Memref sig .tc .vmem S2048x512 .f32) (harg3 : arg3.IsWhole) (arg4 : Memref sig .tc .vmem S512x256 .f32) (harg4 : arg4.IsWhole)
    (arg5 : Memref sig .tc .vmem S1x256 .f32) (harg5 : arg5.IsWhole) (arg6 : Memref sig .tc .vmem S2048x256 .f32) (harg6 : arg6.IsWhole)
    (arg7 : Memref sig .tc .vmem S2048x256 .f32) (harg7 : arg7.IsWhole) (hf : first2 i) (hl : last2 i)
    (x0 : Vec F S2048x512 .f32) (x1 : Vec F S512x256 .f32) (x2 : Vec F S1x256 .f32) (y : S2048x256.Idx) :
    ∃ pc ∈ (bodyRun2 c i arg3 harg3 arg4 harg4 arg5 harg5 arg6 harg6 arg7 harg7 hf hl x0 x1 x2).1, y ∈ pc.1.set :=
  View.cover_of_tiledL (bodyRun2 c i arg3 harg3 arg4 harg4 arg5 harg5 arg6 harg6 arg7 harg7 hf hl x0 x1 x2).1 S2048x256.size (by sl_kernel_rfl) y

/-- What the body leaves in the output block: its stores read back. -/
def out2 (c : Dev nD) (i : grid2.Coords)
    (arg3 : Memref sig .tc .vmem S2048x512 .f32) (harg3 : arg3.IsWhole) (arg4 : Memref sig .tc .vmem S512x256 .f32) (harg4 : arg4.IsWhole)
    (arg5 : Memref sig .tc .vmem S1x256 .f32) (harg5 : arg5.IsWhole) (arg6 : Memref sig .tc .vmem S2048x256 .f32) (harg6 : arg6.IsWhole)
    (arg7 : Memref sig .tc .vmem S2048x256 .f32) (harg7 : arg7.IsWhole) (hf : first2 i) (hl : last2 i)
    (x0 : Vec F S2048x512 .f32) (x1 : Vec F S512x256 .f32) (x2 : Vec F S1x256 .f32) : Vec F S2048x256 .f32 :=
  View.canon (bodyRun2 c i arg3 harg3 arg4 harg4 arg5 harg5 arg6 harg6 arg7 harg7 hf hl x0 x1 x2).1

/-! ## The memrefs the pipeline passes at a point -/

abbrev ms2_0 (t : Fin cfg2.N) : Memref sig .tc .vmem S2048x512 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S512x256 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x256 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S2048x256 .f32 := win2_3.stage (cfg2.slots t 3)
abbrev hs2_3 (t : Fin cfg2.N) : (ms2_3 t).IsWhole := hstage2_3 ((cfg2.slots t 3).cast nbuf2_3)
/-- The accumulator: a whole scoped buffer of the kernel's own. -/
abbrev scM2 : Memref sig .tc .vmem S2048x256 .f32 := Memref.whole cc2_scratch0

/-! ## No window is idle at any point -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel

/-! ## The invariant between points -/

/-- Between points: the accumulator at anything, every other scoped buffer that is no staging buffer of this call
    untouched, and the generator register at some state. -/
def Phi2 (c : Dev nD) : sProp 𝕄 :=
  iprop(iprop(iprop(∃ d, owns (c : Thread nD τ) scM2 fullShare d)
      ∗ Pipeline.scopedRestBut (Ix := Unit) (Name := ℕ) (U := UR sig nD τ) (Lvl := ℕ) (Val := Elt F) spec2 c [cc2_scratch0])
    ∗ (∃ r, prngReg c r))

/-- It is the scoped rest of this call with the generator register, the accumulator named. -/
theorem PhiA2_eq (c : Dev nD) : (Pipeline.ΦA spec2 c : sProp 𝕄) = Phi2 c := by
  unfold Pipeline.ΦA Phi2; rw [scopedRest2_split]; simp only [scM2, owns_whole]; try rfl

section Data

-- the contents of the TensorCore's buffers when the region is entered
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not (when it is not
    fetched its block index has not moved). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- What the output block holds after point `t`: the body's stores there, read back, on the point's input blocks. -/
def outAt2 (c : Dev nD) (t : Fin cfg2.N) : Vec F S2048x256 .f32 :=
  out2 c (grid2.coords t) (ms2_0 t) (hs2_0 t) (ms2_1 t) (hs2_1 t) (ms2_2 t) (hs2_2 t) (ms2_3 t) (hs2_3 t) scM2 (Memref.isWhole_whole _)
    (first2_all t) (last2_all t) (iblk2 V c 0 t) (iblk2 V c 1 t) (iblk2 V c 2 t)

/-- The proof data of this pipeline on core `c`: the arrays as the region finds them; after the body at point `t`
    each input's buffer at its block and the output's at `outAt2`; the invariant `Phi2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => outAt2 V c t
  Φ _ := Phi2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = outAt2 V c t := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 1600000 in
/-- The body at any point: the inputs' memrefs hold their blocks, the invariant lends the accumulator at anything and
    takes it back at anything, the output block ends at the stores read back. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = Phi2 c from rfl, show (dat2 V c).Φ t.castSucc = Phi2 c from rfl,
    show (dat2 V c).owesAt () t.succ = (dat2 V c).owesAt () t.castSucc from rfl]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  unfold Phi2 outAt2 out2
  iintro ⟨⟨⟨HS, Hb⟩, Hg⟩, Ho, ⟨%d0, H0⟩, ⟨%d1, H1⟩, ⟨%d2, H2⟩, ⟨%d3, H3⟩⟩
  iapply ((bodyRun2 c (grid2.coords t) _ _ _ _ _ _ _ _ _ _ (first2_all t) (last2_all t) (iblk2 V c 0 t) (iblk2 V c 1 t) (iblk2 V c 2 t)).2.2 Set.univ _)
  isplitl [H0]; · iexact H0
  isplitl [H1]; · iexact H1
  isplitl [H2]; · iexact H2
  isplitl [H3]; · iexists _; iexact H3
  isplitl [HS]; · iexact HS
  iintro ⟨H0, H1, H2, ⟨%e3, H3⟩, ⟨%es, HS⟩⟩
  isplitl [HS Hb Hg]
  · isplitl [HS Hb]
    · isplitl [HS]
      · iexists _; unfold owns; iexists _; isplitr
        swap; · iexact HS
        ipureintro; rfl
      iexact Hb
    iexact Hg
  isplitl [Ho]; · iexact Ho
  isplitl [H0]; · iexact H0
  isplitl [H1]; · iexact H1
  isplitl [H2]; · iexact H2
  unfold owns; iexists _; isplitr
  swap; · iexact H3
  ipureintro; exact View.read_writes_eq_canon _ _ _ (ocover2 c _ _ _ _ _ _ _ _ _ _ _ _ _ _ _ _)

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

end Data

end Cert.KernelIdeal.Acc

end
-- ==== Proof.AccI3.lean ====
/-
  Region 3: the first dense propagation of the global branch, max(PPMI · t1 + b1g, 0), where t1 is region 2's result.
  The 8192 rows are cut into eight blocks of 1024 and the contraction (8192) into four steps of 2048; the grid's last
  axis walks the contraction steps. The body keeps an accumulator of one output block across the four steps:
    * at the first step (case A) it zeroes the accumulator and adds the step's product PPMI[rows, cols] · t1[cols, :];
    * at the two middle steps (case B) it adds the step's product to what the previous step left;
    * at the last step (case C) it adds the step's product, then writes max(accumulator + bias, 0) to the output block.
  The output block is written back only after the last step; at the other steps its staging buffer is left as found.

  This module runs the body symbolically in each case on whole staging memrefs, records what each case leaves in the
  accumulator (and, in case C, in the output block) as the stores the run finds, defines point by point what the
  accumulator and the output block hold, and discharges the pipeline's body obligation at every point.
-/
import proofs.«157716_j2267742732442_1_alg».proof.Proof.Gen.KernelIdeal.Launch
import proofs.«157716_j2267742732442_1_alg».proof.Proof.Gen.KernelIdeal.Skeleton
import proofs.«157716_j2267742732442_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Acc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

/-! ## The two conditions of the body, in closed form over the grid -/

/-- The accumulator is zeroed when the last grid coordinate is 0. -/
abbrev first3 (i : grid3.Coords) : Prop := (Scalar.cmpi .ne (Scalar.extui (Scalar.cmpi .eq (BitVec.ofNat 32 (i 2).val) 0#32)) 0#32) = 1#1
/-- The output block is written when the last grid coordinate is 3, the last contraction step. -/
abbrev last3 (i : grid3.Coords) : Prop := k3_cond2 i = 1#1

/-- The grid is walked with the contraction step fastest: the first step is at the points ≡ 0 (mod 4), -/
theorem hfirst3 : ∀ t : Fin cfg3.N, first3 (grid3.coords t) ↔ t.val % 4 = 0 :=
  (by decide +kernel : ∀ t : Fin grid3.N, first3 (grid3.coords t) ↔ t.val % 4 = 0)
/-- the last at the points ≡ 3 (mod 4). -/
theorem hlast3 : ∀ t : Fin cfg3.N, last3 (grid3.coords t) ↔ t.val % 4 = 3 :=
  (by decide +kernel : ∀ t : Fin grid3.N, last3 (grid3.coords t) ↔ t.val % 4 = 3)

/-! ## Where the output window is idle -/

theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
/-- Away from the last step the output window is idle and is not written back; -/
theorem idleAt3 : ∀ t : Fin cfg3.N, ¬last3 (grid3.coords t) → cfg3.idle 3 (grid3.coords t) = true := by decide +kernel
theorem noFlush3 : ∀ t : Fin cfg3.N, ¬last3 (grid3.coords t) → (cfg3.win 3).flush t = false := by decide +kernel
/-- at the last step it is live. -/
theorem liveAt3_3 : ∀ t : Fin cfg3.N, last3 (grid3.coords t) → cfg3.idle 3 (grid3.coords t) = false := by decide +kernel

/-! ## The body on whole memrefs, case by case -/

set_option maxHeartbeats 1000000 in
/-- CASE A (first step): inputs at their contents, the output block at any contents `xo` (untouched), the accumulator
    at anything. The accumulator ends overwritten by the found stores. -/
noncomputable def bodyRun3_A (c : Dev nD) (i : grid3.Coords)
    (arg3 : Memref sig .tc .vmem S1024x2048 .f32) (harg3 : arg3.IsWhole) (arg4 : Memref sig .tc .vmem S2048x256 .f32) (harg4 : arg4.IsWhole)
    (arg5 : Memref sig .tc .vmem S1x256 .f32) (harg5 : arg5.IsWhole) (arg6 : Memref sig .tc .vmem S1024x256 .f32) (harg6 : arg6.IsWhole)
    (arg7 : Memref sig .tc .vmem S1024x256 .f32) (harg7 : arg7.IsWhole) (hf : first3 i) (hl : ¬last3 i)
    (x0 : Vec F S1024x2048 .f32) (x1 : Vec F S2048x256 .f32) (x2 : Vec F S1x256 .f32) :
    { LS : List (View.Piece (Elt F) S1024x256 .f32) //
      ∀ (xo : Vec F S1024x256 .f32) (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare xo ∗ (∃ d, owns (c : Thread nD τ) arg7 fullShare d)
            ∗ (iprop(owns (c : Thread nD τ) arg3 fullShare x0 ∗ owns (c : Thread nD τ) arg4 fullShare x1 ∗ owns (c : Thread nD τ) arg5 fullShare x2
                ∗ owns (c : Thread nD τ) arg6 fullShare xo
                ∗ (∃ f, arg7.view.loc (c : Thread nD τ) ↦[arg7.view.set]{fullShare} arg7.view.writes (Elt F) f LS)) -∗ K ⟨⟩))
          ⊢ wp frame (wpE (defs₀ (F := F)) Variants.none c none) E (cc3_kernel i arg3 harg3 arg4 harg4 arg5 harg5 arg6 harg6 arg7 harg7) K } := by
  refine ⟨?_, fun xo E K => ?run⟩
  case run =>
    simp only [cc3_kernel_eq_skeleton]; unfold cc3_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg3.eq_unread hf0; obtain rfl := harg4.eq_unread hf1; obtain rfl := harg5.eq_unread hf2; obtain rfl := harg6.eq_unread hf3
    sl_exec (disch := first | exact hf | exact hl)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

set_option maxHeartbeats 1000000 in
/-- CASE B (a middle step): as case A, the accumulator at the contents `xs` the previous step left. -/
noncomputable def bodyRun3_B (c : Dev nD) (i : grid3.Coords)
    (arg3 : Memref sig .tc .vmem S1024x2048 .f32) (harg3 : arg3.IsWhole) (arg4 : Memref sig .tc .vmem S2048x256 .f32) (harg4 : arg4.IsWhole)
    (arg5 : Memref sig .tc .vmem S1x256 .f32) (harg5 : arg5.IsWhole) (arg6 : Memref sig .tc .vmem S1024x256 .f32) (harg6 : arg6.IsWhole)
    (arg7 : Memref sig .tc .vmem S1024x256 .f32) (harg7 : arg7.IsWhole) (hf : ¬first3 i) (hl : ¬last3 i)
    (x0 : Vec F S1024x2048 .f32) (x1 : Vec F S2048x256 .f32) (x2 : Vec F S1x256 .f32) (xs : Vec F S1024x256 .f32) :
    { LS : List (View.Piece (Elt F) S1024x256 .f32) //
      ∀ (xo : Vec F S1024x256 .f32) (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare xo ∗ owns (c : Thread nD τ) arg7 fullShare xs
            ∗ (iprop(owns (c : Thread nD τ) arg3 fullShare x0 ∗ owns (c : Thread nD τ) arg4 fullShare x1 ∗ owns (c : Thread nD τ) arg5 fullShare x2
                ∗ owns (c : Thread nD τ) arg6 fullShare xo
                ∗ (∃ f, arg7.view.loc (c : Thread nD τ) ↦[arg7.view.set]{fullShare} arg7.view.writes (Elt F) f LS)) -∗ K ⟨⟩))
          ⊢ wp frame (wpE (defs₀ (F := F)) Variants.none c none) E (cc3_kernel i arg3 harg3 arg4 harg4 arg5 harg5 arg6 harg6 arg7 harg7) K } := by
  refine ⟨?_, fun xo E K => ?run⟩
  case run =>
    simp only [cc3_kernel_eq_skeleton]; unfold cc3_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg3.eq_unread hf0; obtain rfl := harg4.eq_unread hf1; obtain rfl := harg5.eq_unread hf2; obtain rfl := harg6.eq_unread hf3
    obtain rfl := harg7.eq_unread hfs
    sl_exec (disch := first | exact hf | exact hl)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

set_option maxHeartbeats 1000000 in
/-- CASE C (last step): the accumulator at the contents `xs` the previous step left, the output block at anything;
    both end overwritten by the found stores. -/
noncomputable def bodyRun3_C (c : Dev nD) (i : grid3.Coords)
    (arg3 : Memref sig .tc .vmem S1024x2048 .f32) (harg3 : arg3.IsWhole) (arg4 : Memref sig .tc .vmem S2048x256 .f32) (harg4 : arg4.IsWhole)
    (arg5 : Memref sig .tc .vmem S1x256 .f32) (harg5 : arg5.IsWhole) (arg6 : Memref sig .tc .vmem S1024x256 .f32) (harg6 : arg6.IsWhole)
    (arg7 : Memref sig .tc .vmem S1024x256 .f32) (harg7 : arg7.IsWhole) (hf : ¬first3 i) (hl : last3 i)
    (x0 : Vec F S1024x2048 .f32) (x1 : Vec F S2048x256 .f32) (x2 : Vec F S1x256 .f32) (xs : Vec F S1024x256 .f32) :
    Σ' (LO : List (View.Piece (Elt F) S1024x256 .f32)), { LS : List (View.Piece (Elt F) S1024x256 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg6 fullShare d) ∗ owns (c : Thread nD τ) arg7 fullShare xs
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f LO)
                ∗ (∃ f, arg7.view.loc (c : Thread nD τ) ↦[arg7.view.set]{fullShare} arg7.view.writes (Elt F) f LS)) -∗ K ⟨⟩))
          ⊢ wp frame (wpE (defs₀ (F := F)) Variants.none c none) E (cc3_kernel i arg3 harg3 arg4 harg4 arg5 harg5 arg6 harg6 arg7 harg7) K } := by
  refine ⟨?_, ?_, fun E K => ?run⟩
  case run =>
    simp only [cc3_kernel_eq_skeleton]; unfold cc3_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg3.eq_unread hf0; obtain rfl := harg4.eq_unread hf1; obtain rfl := harg5.eq_unread hf2
    obtain rfl := harg7.eq_unread hfs
    sl_exec (disch := first | exact hf | exact hl)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS

/-! ## The stores cover what they overwrite -/

theorem scover3_A (c : Dev nD) (i : grid3.Coords)
    (arg3 : Memref sig .tc .vmem S1024x2048 .f32) (harg3 : arg3.IsWhole) (arg4 : Memref sig .tc .vmem S2048x256 .f32) (harg4 : arg4.IsWhole)
    (arg5 : Memref sig .tc .vmem S1x256 .f32) (harg5 : arg5.IsWhole) (arg6 : Memref sig .tc .vmem S1024x256 .f32) (harg6 : arg6.IsWhole)
    (arg7 : Memref sig .tc .vmem S1024x256 .f32) (harg7 : arg7.IsWhole) (hf : first3 i) (hl : ¬last3 i)
    (x0 : Vec F S1024x2048 .f32) (x1 : Vec F S2048x256 .f32) (x2 : Vec F S1x256 .f32) (y : S1024x256.Idx) :
    ∃ pc ∈ (bodyRun3_A c i arg3 harg3 arg4 harg4 arg5 harg5 arg6 harg6 arg7 harg7 hf hl x0 x1 x2).1, y ∈ pc.1.set :=
  View.cover_of_tiledL (bodyRun3_A c i arg3 harg3 arg4 harg4 arg5 harg5 arg6 harg6 arg7 harg7 hf hl x0 x1 x2).1 S1024x256.size (by sl_kernel_rfl) y
theorem scover3_B (c : Dev nD) (i : grid3.Coords)
    (arg3 : Memref sig .tc .vmem S1024x2048 .f32) (harg3 : arg3.IsWhole) (arg4 : Memref sig .tc .vmem S2048x256 .f32) (harg4 : arg4.IsWhole)
    (arg5 : Memref sig .tc .vmem S1x256 .f32) (harg5 : arg5.IsWhole) (arg6 : Memref sig .tc .vmem S1024x256 .f32) (harg6 : arg6.IsWhole)
    (arg7 : Memref sig .tc .vmem S1024x256 .f32) (harg7 : arg7.IsWhole) (hf : ¬first3 i) (hl : ¬last3 i)
    (x0 : Vec F S1024x2048 .f32) (x1 : Vec F S2048x256 .f32) (x2 : Vec F S1x256 .f32) (xs : Vec F S1024x256 .f32) (y : S1024x256.Idx) :
    ∃ pc ∈ (bodyRun3_B c i arg3 harg3 arg4 harg4 arg5 harg5 arg6 harg6 arg7 harg7 hf hl x0 x1 x2 xs).1, y ∈ pc.1.set :=
  View.cover_of_tiledL (bodyRun3_B c i arg3 harg3 arg4 harg4 arg5 harg5 arg6 harg6 arg7 harg7 hf hl x0 x1 x2 xs).1 S1024x256.size (by sl_kernel_rfl) y
theorem scover3_C (c : Dev nD) (i : grid3.Coords)
    (arg3 : Memref sig .tc .vmem S1024x2048 .f32) (harg3 : arg3.IsWhole) (arg4 : Memref sig .tc .vmem S2048x256 .f32) (harg4 : arg4.IsWhole)
    (arg5 : Memref sig .tc .vmem S1x256 .f32) (harg5 : arg5.IsWhole) (arg6 : Memref sig .tc .vmem S1024x256 .f32) (harg6 : arg6.IsWhole)
    (arg7 : Memref sig .tc .vmem S1024x256 .f32) (harg7 : arg7.IsWhole) (hf : ¬first3 i) (hl : last3 i)
    (x0 : Vec F S1024x2048 .f32) (x1 : Vec F S2048x256 .f32) (x2 : Vec F S1x256 .f32) (xs : Vec F S1024x256 .f32) (y : S1024x256.Idx) :
    ∃ pc ∈ (bodyRun3_C c i arg3 harg3 arg4 harg4 arg5 harg5 arg6 harg6 arg7 harg7 hf hl x0 x1 x2 xs).2.1, y ∈ pc.1.set :=
  View.cover_of_tiledL (bodyRun3_C c i arg3 harg3 arg4 harg4 arg5 harg5 arg6 harg6 arg7 harg7 hf hl x0 x1 x2 xs).2.1 S1024x256.size (by sl_kernel_rfl) y
theorem ocover3_C (c : Dev nD) (i : grid3.Coords)
    (arg3 : Memref sig .tc .vmem S1024x2048 .f32) (harg3 : arg3.IsWhole) (arg4 : Memref sig .tc .vmem S2048x256 .f32) (harg4 : arg4.IsWhole)
    (arg5 : Memref sig .tc .vmem S1x256 .f32) (harg5 : arg5.IsWhole) (arg6 : Memref sig .tc .vmem S1024x256 .f32) (harg6 : arg6.IsWhole)
    (arg7 : Memref sig .tc .vmem S1024x256 .f32) (harg7 : arg7.IsWhole) (hf : ¬first3 i) (hl : last3 i)
    (x0 : Vec F S1024x2048 .f32) (x1 : Vec F S2048x256 .f32) (x2 : Vec F S1x256 .f32) (xs : Vec F S1024x256 .f32) (y : S1024x256.Idx) :
    ∃ pc ∈ (bodyRun3_C c i arg3 harg3 arg4 harg4 arg5 harg5 arg6 harg6 arg7 harg7 hf hl x0 x1 x2 xs).1, y ∈ pc.1.set :=
  View.cover_of_tiledL (bodyRun3_C c i arg3 harg3 arg4 harg4 arg5 harg5 arg6 harg6 arg7 harg7 hf hl x0 x1 x2 xs).1 S1024x256.size (by sl_kernel_rfl) y

/-! ## What each case leaves -/

/-- The accumulator after case A. -/
def sA3 (c : Dev nD) (i : grid3.Coords)
    (arg3 : Memref sig .tc .vmem S1024x2048 .f32) (harg3 : arg3.IsWhole) (arg4 : Memref sig .tc .vmem S2048x256 .f32) (harg4 : arg4.IsWhole)
    (arg5 : Memref sig .tc .vmem S1x256 .f32) (harg5 : arg5.IsWhole) (arg6 : Memref sig .tc .vmem S1024x256 .f32) (harg6 : arg6.IsWhole)
    (arg7 : Memref sig .tc .vmem S1024x256 .f32) (harg7 : arg7.IsWhole) (hf : first3 i) (hl : ¬last3 i)
    (x0 : Vec F S1024x2048 .f32) (x1 : Vec F S2048x256 .f32) (x2 : Vec F S1x256 .f32) : Vec F S1024x256 .f32 :=
  View.canon (bodyRun3_A c i arg3 harg3 arg4 harg4 arg5 harg5 arg6 harg6 arg7 harg7 hf hl x0 x1 x2).1
/-- The accumulator after case B. -/
def sB3 (c : Dev nD) (i : grid3.Coords)
    (arg3 : Memref sig .tc .vmem S1024x2048 .f32) (harg3 : arg3.IsWhole) (arg4 : Memref sig .tc .vmem S2048x256 .f32) (harg4 : arg4.IsWhole)
    (arg5 : Memref sig .tc .vmem S1x256 .f32) (harg5 : arg5.IsWhole) (arg6 : Memref sig .tc .vmem S1024x256 .f32) (harg6 : arg6.IsWhole)
    (arg7 : Memref sig .tc .vmem S1024x256 .f32) (harg7 : arg7.IsWhole) (hf : ¬first3 i) (hl : ¬last3 i)
    (x0 : Vec F S1024x2048 .f32) (x1 : Vec F S2048x256 .f32) (x2 : Vec F S1x256 .f32) (xs : Vec F S1024x256 .f32) : Vec F S1024x256 .f32 :=
  View.canon (bodyRun3_B c i arg3 harg3 arg4 harg4 arg5 harg5 arg6 harg6 arg7 harg7 hf hl x0 x1 x2 xs).1
/-- The accumulator after case C. -/
def sC3 (c : Dev nD) (i : grid3.Coords)
    (arg3 : Memref sig .tc .vmem S1024x2048 .f32) (harg3 : arg3.IsWhole) (arg4 : Memref sig .tc .vmem S2048x256 .f32) (harg4 : arg4.IsWhole)
    (arg5 : Memref sig .tc .vmem S1x256 .f32) (harg5 : arg5.IsWhole) (arg6 : Memref sig .tc .vmem S1024x256 .f32) (harg6 : arg6.IsWhole)
    (arg7 : Memref sig .tc .vmem S1024x256 .f32) (harg7 : arg7.IsWhole) (hf : ¬first3 i) (hl : last3 i)
    (x0 : Vec F S1024x2048 .f32) (x1 : Vec F S2048x256 .f32) (x2 : Vec F S1x256 .f32) (xs : Vec F S1024x256 .f32) : Vec F S1024x256 .f32 :=
  View.canon (bodyRun3_C c i arg3 harg3 arg4 harg4 arg5 harg5 arg6 harg6 arg7 harg7 hf hl x0 x1 x2 xs).2.1
/-- The output block after case C. -/
def oC3 (c : Dev nD) (i : grid3.Coords)
    (arg3 : Memref sig .tc .vmem S1024x2048 .f32) (harg3 : arg3.IsWhole) (arg4 : Memref sig .tc .vmem S2048x256 .f32) (harg4 : arg4.IsWhole)
    (arg5 : Memref sig .tc .vmem S1x256 .f32) (harg5 : arg5.IsWhole) (arg6 : Memref sig .tc .vmem S1024x256 .f32) (harg6 : arg6.IsWhole)
    (arg7 : Memref sig .tc .vmem S1024x256 .f32) (harg7 : arg7.IsWhole) (hf : ¬first3 i) (hl : last3 i)
    (x0 : Vec F S1024x2048 .f32) (x1 : Vec F S2048x256 .f32) (x2 : Vec F S1x256 .f32) (xs : Vec F S1024x256 .f32) : Vec F S1024x256 .f32 :=
  View.canon (bodyRun3_C c i arg3 harg3 arg4 harg4 arg5 harg5 arg6 harg6 arg7 harg7 hf hl x0 x1 x2 xs).1

/-! ## The memrefs the pipeline passes at a point -/

abbrev ms3_0 (t : Fin cfg3.N) : Memref sig .tc .vmem S1024x2048 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S2048x256 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x256 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1024x256 .f32 := win3_3.stage (cfg3.slots t 3)
abbrev hs3_3 (t : Fin cfg3.N) : (ms3_3 t).IsWhole := hstage3_3 ((cfg3.slots t 3).cast nbuf3_3)
/-- The accumulator: a whole scoped buffer of the kernel's own. -/
abbrev scM3 : Memref sig .tc .vmem S1024x256 .f32 := Memref.whole cc3_scratch0

/-! ## The invariant before the first point -/

/-- Before the first point: the accumulator at anything, every other scoped buffer that is no staging buffer of this
    call untouched, and the generator register at some state. -/
def Phi3any (c : Dev nD) : sProp 𝕄 :=
  iprop(iprop(iprop(∃ d, owns (c : Thread nD τ) scM3 fullShare d)
      ∗ Pipeline.scopedRestBut (Ix := Unit) (Name := ℕ) (U := UR sig nD τ) (Lvl := ℕ) (Val := Elt F) spec3 c [cc3_scratch0])
    ∗ (∃ r, prngReg c r))

/-- It is the scoped rest of this call with the generator register, the accumulator named. -/
theorem PhiA3_eq (c : Dev nD) : (Pipeline.ΦA spec3 c : sProp 𝕄) = Phi3any c := by
  unfold Pipeline.ΦA Phi3any; rw [scopedRest3_split]; simp only [scM3, owns_whole]; try rfl

section Data

-- the contents of the TensorCore's buffers when the region is entered
variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, fetched there or not (when it is not
    fetched its block index has not moved). -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## What the output block and the accumulator hold after each point -/

/-- THE ACCUMULATION. After the body at position `n`: (the output block's staging buffer, the accumulator). The case
    is the one the closed forms select at `n`; cases B and C start from what position `n - 1` left in the accumulator.
    Away from the last step the first component is a placeholder nothing reads (the window is idle there). -/
def outsAt3 (c : Dev nD) : (n : ℕ) → n < cfg3.N → Vec F S1024x256 .f32 × Vec F S1024x256 .f32
  | 0, hn => (View.canon [], sA3 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) scM3 (Memref.isWhole_whole _)
      ((hfirst3 ⟨0, hn⟩).mpr (Nat.zero_mod _)) (fun h => absurd ((hlast3 ⟨0, hn⟩).mp h) (by show ¬ (0 % 4 = 3); omega))
      (iblk3 V c 0 ⟨0, hn⟩) (iblk3 V c 1 ⟨0, hn⟩) (iblk3 V c 2 ⟨0, hn⟩))
  | n + 1, hn =>
    if h0 : (n + 1) % 4 = 0 then
      (View.canon [], sA3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3 (Memref.isWhole_whole _)
        ((hfirst3 ⟨n + 1, hn⟩).mpr h0) (fun h => absurd ((hlast3 ⟨n + 1, hn⟩).mp h) (by dsimp only; omega))
        (iblk3 V c 0 ⟨n + 1, hn⟩) (iblk3 V c 1 ⟨n + 1, hn⟩) (iblk3 V c 2 ⟨n + 1, hn⟩))
    else if h1 : (n + 1) % 4 = 3 then
      (oC3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3 (Memref.isWhole_whole _)
          (fun h => h0 ((hfirst3 ⟨n + 1, hn⟩).mp h)) ((hlast3 ⟨n + 1, hn⟩).mpr h1)
          (iblk3 V c 0 ⟨n + 1, hn⟩) (iblk3 V c 1 ⟨n + 1, hn⟩) (iblk3 V c 2 ⟨n + 1, hn⟩) (outsAt3 c n (Nat.lt_of_succ_lt hn)).2,
       sC3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3 (Memref.isWhole_whole _)
          (fun h => h0 ((hfirst3 ⟨n + 1, hn⟩).mp h)) ((hlast3 ⟨n + 1, hn⟩).mpr h1)
          (iblk3 V c 0 ⟨n + 1, hn⟩) (iblk3 V c 1 ⟨n + 1, hn⟩) (iblk3 V c 2 ⟨n + 1, hn⟩) (outsAt3 c n (Nat.lt_of_succ_lt hn)).2)
    else
      (View.canon [], sB3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3 (Memref.isWhole_whole _)
          (fun h => h0 ((hfirst3 ⟨n + 1, hn⟩).mp h)) (fun h => h1 ((hlast3 ⟨n + 1, hn⟩).mp h))
          (iblk3 V c 0 ⟨n + 1, hn⟩) (iblk3 V c 1 ⟨n + 1, hn⟩) (iblk3 V c 2 ⟨n + 1, hn⟩) (outsAt3 c n (Nat.lt_of_succ_lt hn)).2)

/-- `outsAt3` at a first step: case A's contents. -/
theorem outsAt3_A (c : Dev nD) (t : Fin cfg3.N) (h0 : t.val % 4 = 0) :
    outsAt3 V c t.val t.isLt = (View.canon [], sA3 c (grid3.coords t) (ms3_0 t) (hs3_0 t) (ms3_1 t) (hs3_1 t) (ms3_2 t) (hs3_2 t) (ms3_3 t) (hs3_3 t) scM3 (Memref.isWhole_whole _)
      ((hfirst3 t).mpr h0) (fun h => absurd ((hlast3 t).mp h) (by omega))
      (iblk3 V c 0 t) (iblk3 V c 1 t) (iblk3 V c 2 t)) := by
  obtain ⟨n, hn⟩ := t
  cases n with
  | zero => exact rfl
  | succ n => exact (dif_pos h0).trans rfl

/-- `outsAt3` at a middle step: case B's contents, over what the point before left. -/
theorem outsAt3_B (c : Dev nD) (t : Fin cfg3.N) (h0 : ¬t.val % 4 = 0) (h1 : ¬t.val % 4 = 3) :
    outsAt3 V c t.val t.isLt = (View.canon [], sB3 c (grid3.coords t) (ms3_0 t) (hs3_0 t) (ms3_1 t) (hs3_1 t) (ms3_2 t) (hs3_2 t) (ms3_3 t) (hs3_3 t) scM3 (Memref.isWhole_whole _)
      (fun h => h0 ((hfirst3 t).mp h)) (fun h => h1 ((hlast3 t).mp h))
      (iblk3 V c 0 t) (iblk3 V c 1 t) (iblk3 V c 2 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt3` at a last step: case C's contents, over what the point before left. -/
theorem outsAt3_C (c : Dev nD) (t : Fin cfg3.N) (h0 : ¬t.val % 4 = 0) (h1 : t.val % 4 = 3) :
    outsAt3 V c t.val t.isLt = (oC3 c (grid3.coords t) (ms3_0 t) (hs3_0 t) (ms3_1 t) (hs3_1 t) (ms3_2 t) (hs3_2 t) (ms3_3 t) (hs3_3 t) scM3 (Memref.isWhole_whole _)
      (fun h => h0 ((hfirst3 t).mp h)) ((hlast3 t).mpr h1)
      (iblk3 V c 0 t) (iblk3 V c 1 t) (iblk3 V c 2 t) (outsAt3 V c (t.val - 1) (Nat.lt_of_le_of_lt (Nat.sub_le _ _) t.isLt)).2,
     sC3 c (grid3.coords t) (ms3_0 t) (hs3_0 t) (ms3_1 t) (hs3_1 t) (ms3_2 t) (hs3_2 t) (ms3_3 t) (hs3_3 t) scM3 (Memref.isWhole_whole _)
      (fun h => h0 ((hfirst3 t).mp h)) ((hlast3 t).mpr h1)
      (iblk3 V c 0 t) (iblk3 V c 1 t) (iblk3 V c 2 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- Before position `n`: before the first point the accumulator at anything; afterwards the accumulator at what the
    point before left in it; beside it the other scoped buffers untouched and the generator register at some state. -/
def PhiS3 (c : Dev nD) : (n : ℕ) → n ≤ cfg3.N → sProp 𝕄
  | 0, _ => Phi3any c
  | n + 1, hn => iprop(iprop(owns (c : Thread nD τ) scM3 fullShare ((outsAt3 V c n hn).2)
      ∗ Pipeline.scopedRestBut (Ix := Unit) (Name := ℕ) (U := UR sig nD τ) (Lvl := ℕ) (Val := Elt F) spec3 c [cc3_scratch0])
    ∗ (∃ r, prngReg c r))

theorem PhiS3_zero (c : Dev nD) (n : ℕ) (h : n ≤ cfg3.N) (hz : n = 0) : PhiS3 V c n h = Phi3any c := by
  subst hz; rfl

theorem PhiS3_succ (c : Dev nD) (n : ℕ) (hn : n < cfg3.N) :
    PhiS3 V c (n + 1) hn = iprop(iprop(owns (c : Thread nD τ) scM3 fullShare ((outsAt3 V c n hn).2)
      ∗ Pipeline.scopedRestBut (Ix := Unit) (Name := ℕ) (U := UR sig nD τ) (Lvl := ℕ) (Val := Elt F) spec3 c [cc3_scratch0])
    ∗ (∃ r, prngReg c r)) := rfl

theorem PhiS3_pos (c : Dev nD) (n : ℕ) (h : n ≤ cfg3.N) (hz : n ≠ 0) :
    PhiS3 V c n h = iprop(iprop(owns (c : Thread nD τ) scM3 fullShare ((outsAt3 V c (n - 1) (by omega)).2)
      ∗ Pipeline.scopedRestBut (Ix := Unit) (Name := ℕ) (U := UR sig nD τ) (Lvl := ℕ) (Val := Elt F) spec3 c [cc3_scratch0])
    ∗ (∃ r, prngReg c r)) := by
  cases n with
  | zero => exact absurd rfl hz
  | succ n => rfl

/-! ## The pipeline's proof data -/

/-- The proof data of this pipeline on core `c`: the arrays as the region finds them; after the body at point `t`
    each input's buffer at its block and the output's at `outsAt3`'s first component; the invariant `PhiS3`; nothing
    owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = (outsAt3 V c t.val t.isLt).1 := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

set_option maxHeartbeats 4800000 in
/-- The body at any point. The closed forms say which case the point is in. The invariant hands the body the
    accumulator at what the point before left (at anything before the first point) and takes it back at this point's
    contents; away from the last step the output block's buffer passes through untouched, at the last step it ends at
    the stores read back. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl]
  rw [show (dat3 V c).Φ t.succ = PhiS3 V c (t.val + 1) t.isLt from rfl, PhiS3_succ]
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  rw [show (dat3 V c).leavesExact 2 t = owns (c : Thread nD τ) (ms3_2 t) fullShare ((dat3 V c).after 2 t) from by
    unfold Dat.leavesExact; rw [liveAt3_2 t], after3_2]
  have hN : t.val < 32 := lt_of_lt_of_eq t.isLt (show cfg3.N = 32 from N_3)
  by_cases h0 : t.val % 4 = 0
  · have hf : first3 (grid3.coords t) := (hfirst3 t).mpr h0
    have hl : ¬last3 (grid3.coords t) := fun h => absurd ((hlast3 t).mp h) (by omega)
    rw [Dat.leavesExact_idle (dat3 V c) 3 t (idleAt3 t hl) (noFlush3 t hl)]
    rw [outsAt3_A V c t h0]
    unfold sA3; (try dsimp only)
    by_cases hz : t.val = 0
    · rw [PhiS3_castSucc V c t, PhiS3_zero V c _ _ hz]; unfold Phi3any
      iintro ⟨⟨⟨HS, Hb⟩, Hg⟩, Ho, ⟨%d0, H0⟩, ⟨%d1, H1⟩, ⟨%d2, H2⟩, ⟨%d3, H3⟩⟩
      iapply ((bodyRun3_A c (grid3.coords t) _ _ _ _ _ _ _ _ _ _ hf hl (iblk3 V c 0 t) (iblk3 V c 1 t) (iblk3 V c 2 t)).2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hb Hg]
      · isplitl [HS Hb]
        · isplitl [HS]
          · unfold owns; iexists _; isplitr
            swap; · iexact HS
            ipureintro; exact View.read_writes_eq_canon _ _ _ (scover3_A c _ _ _ _ _ _ _ _ _ _ _ _ _ _ _ _)
          iexact Hb
        iexact Hg
      isplitl [Ho]; · iexact Ho
      isplitl [H0]; · iexact H0
      isplitl [H1]; · iexact H1
      isplitl [H2]; · iexact H2
      iexists _; iexact H3
    · rw [PhiS3_castSucc V c t, PhiS3_pos V c _ _ hz]
      iintro ⟨⟨⟨HS, Hb⟩, Hg⟩, Ho, ⟨%d0, H0⟩, ⟨%d1, H1⟩, ⟨%d2, H2⟩, ⟨%d3, H3⟩⟩
      iapply ((bodyRun3_A c (grid3.coords t) _ _ _ _ _ _ _ _ _ _ hf hl (iblk3 V c 0 t) (iblk3 V c 1 t) (iblk3 V c 2 t)).2 _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [HS Hb Hg]
      · isplitl [HS Hb]
        · isplitl [HS]
          · unfold owns; iexists _; isplitr
            swap; · iexact HS
            ipureintro; exact View.read_writes_eq_canon _ _ _ (scover3_A c _ _ _ _ _ _ _ _ _ _ _ _ _ _ _ _)
          iexact Hb
        iexact Hg
      isplitl [Ho]; · iexact Ho
      isplitl [H0]; · iexact H0
      isplitl [H1]; · iexact H1
      isplitl [H2]; · iexact H2
      iexists _; iexact H3
  · have hz : t.val ≠ 0 := fun e => h0 (by rw [e])
    have hf : ¬first3 (grid3.coords t) := fun h => h0 ((hfirst3 t).mp h)
    by_cases h1 : t.val % 4 = 3
    · have hl : last3 (grid3.coords t) := (hlast3 t).mpr h1
      rw [show (dat3 V c).leavesExact 3 t = owns (c : Thread nD τ) (ms3_3 t) fullShare ((dat3 V c).after 3 t) from by
        unfold Dat.leavesExact; rw [liveAt3_3 t hl], after3_3]
      rw [outsAt3_C V c t h0 h1]
      unfold oC3 sC3; (try dsimp only)
      rw [PhiS3_castSucc V c t, PhiS3_pos V c _ _ hz]
      iintro ⟨⟨⟨HS, Hb⟩, Hg⟩, Ho, ⟨%d0, H0⟩, ⟨%d1, H1⟩, ⟨%d2, H2⟩, ⟨%d3, H3⟩⟩
      iapply ((bodyRun3_C c (grid3.coords t) _ _ _ _ _ _ _ _ _ _ hf hl (iblk3 V c 0 t) (iblk3 V c 1 t) (iblk3 V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hb Hg]
      · isplitl [HS Hb]
        · isplitl [HS]
          · unfold owns; iexists _; isplitr
            swap; · iexact HS
            ipureintro; exact View.read_writes_eq_canon _ _ _ (scover3_C c _ _ _ _ _ _ _ _ _ _ _ _ _ _ _ _ _)
          iexact Hb
        iexact Hg
      isplitl [Ho]; · iexact Ho
      isplitl [H0]; · iexact H0
      isplitl [H1]; · iexact H1
      isplitl [H2]; · iexact H2
      unfold owns; iexists _; isplitr
      swap; · iexact H3
      ipureintro; exact View.read_writes_eq_canon _ _ _ (ocover3_C c _ _ _ _ _ _ _ _ _ _ _ _ _ _ _ _ _)
    · have hl : ¬last3 (grid3.coords t) := fun h => h1 ((hlast3 t).mp h)
      rw [Dat.leavesExact_idle (dat3 V c) 3 t (idleAt3 t hl) (noFlush3 t hl)]
      rw [outsAt3_B V c t h0 h1]
      unfold sB3; (try dsimp only)
      rw [PhiS3_castSucc V c t, PhiS3_pos V c _ _ hz]
      iintro ⟨⟨⟨HS, Hb⟩, Hg⟩, Ho, ⟨%d0, H0⟩, ⟨%d1, H1⟩, ⟨%d2, H2⟩, ⟨%d3, H3⟩⟩
      iapply ((bodyRun3_B c (grid3.coords t) _ _ _ _ _ _ _ _ _ _ hf hl (iblk3 V c 0 t) (iblk3 V c 1 t) (iblk3 V c 2 t) _).2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hb Hg]
      · isplitl [HS Hb]
        · isplitl [HS]
          · unfold owns; iexists _; isplitr
            swap; · iexact HS
            ipureintro; exact View.read_writes_eq_canon _ _ _ (scover3_B c _ _ _ _ _ _ _ _ _ _ _ _ _ _ _ _ _)
          iexact Hb
        iexact Hg
      isplitl [Ho]; · iexact Ho
      isplitl [H0]; · iexact H0
      isplitl [H1]; · iexact H1
      isplitl [H2]; · iexact H2
      iexists _; iexact H3

/-- The pipeline's body obligation, at every point. -/
theorem body_obligation3 (c : Dev nD) : BodyObligation (dat3 (F := F) V c) (defs₀ (F := F)) Variants.none () Set.univ := fun t => by
  rw [bigSep_W3, bigSep_W3]
  exact sound_body3 V c t

/-- After any point the invariant gives back the form it had before the first: the accumulator's contents forgotten. -/
theorem Phi3_out (c : Dev nD) (t : Fin (cfg3.N + 1)) (ht : t.val ≠ 0) : (dat3 V c).Φ t ⊢ Phi3any c := by
  rw [show (dat3 V c).Φ t = PhiS3 V c t.val (Nat.le_of_lt_succ t.isLt) from rfl, PhiS3_pos V c _ _ ht]; unfold Phi3any
  iintro ⟨⟨HS, Hb⟩, Hg⟩
  isplitl [HS Hb]
  · isplitl [HS]
    · iexists _; iexact HS
    iexact Hb
  iexact Hg

end Data

end Cert.KernelIdeal.Acc

end
-- ==== Proof.AccI4.lean ====
/-
  Region 4: the second projection of the global branch, hg · (w2g · tao_2_G), where hg is the first global layer's
  output. Four row blocks of 2048 rows, the whole contraction (256) in one step: at every grid point the body zeroes
  its accumulator, adds the block product into it, and copies it to the output block. Nothing is carried between points.

  The body is run symbolically on whole staging memrefs; what it leaves in the output block and the accumulator is the
  list of stores the run finds; the pipeline's body obligation follows at every point.
-/
import proofs.«157716_j2267742732442_1_alg».proof.Proof.Gen.KernelIdeal.Launch
import proofs.«157716_j2267742732442_1_alg».proof.Proof.Gen.KernelIdeal.Skeleton
import proofs.«157716_j2267742732442_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Acc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

/-! ## The two conditions of the body -/

/-- The accumulator is zeroed when the last grid coordinate is 0. -/
abbrev first4 (i : grid4.Coords) : Prop := (Scalar.cmpi .ne (Scalar.extui (Scalar.cmpi .eq (BitVec.ofNat 32 (i 2).val) 0#32)) 0#32) = 1#1
/-- The output block is written at the last contraction step, which here is also step 0. -/
abbrev last4 (i : grid4.Coords) : Prop := k4_cond2 i = 1#1

theorem first4_all : ∀ t : Fin cfg4.N, first4 (grid4.coords t) :=
  (by decide +kernel : ∀ t : Fin grid4.N, first4 (grid4.coords t))
theorem last4_all : ∀ t : Fin cfg4.N, last4 (grid4.coords t) :=
  (by decide +kernel : ∀ t : Fin grid4.N, last4 (grid4.coords t))

/-! ## The body on whole memrefs -/

set_option maxHeartbeats 1000000 in
/-- The body on whole memrefs: the three inputs at their contents, the output block and the accumulator at anything.
    It runs to the continuation with the inputs as they were and with the output block and the accumulator each
    overwritten by a list of stores (last first), which the symbolic run finds. -/
noncomputable def bodyRun4 (c : Dev nD) (i : grid4.Coords)
    (arg3 : Memref sig .tc .vmem S2048x256 .f32) (harg3 : arg3.IsWhole) (arg4 : Memref sig .tc .vmem S256x128 .f32) (harg4 : arg4.IsWhole)
    (arg5 : Memref sig .tc .vmem S1x128 .f32) (harg5 : arg5.IsWhole) (arg6 : Memref sig .tc .vmem S2048x128 .f32) (harg6 : arg6.IsWhole)
    (arg7 : Memref sig .tc .vmem S2048x128 .f32) (harg7 : arg7.IsWhole) (hf : first4 i) (hl : last4 i)
    (x0 : Vec F S2048x256 .f32) (x1 : Vec F S256x128 .f32) (x2 : Vec F S1x128 .f32) :
    Σ' (LO : List (View.Piece (Elt F) S2048x128 .f32)), { LS : List (View.Piece (Elt F) S2048x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg6 fullShare d) ∗ (∃ d, owns (c : Thread nD τ) arg7 fullShare d)
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f LO)
                ∗ (∃ f, arg7.view.loc (c : Thread nD τ) ↦[arg7.view.set]{fullShare} arg7.view.writes (Elt F) f LS)) -∗ K ⟨⟩))
          ⊢ wp frame (wpE (defs₀ (F := F)) Variants.none c none) E (cc4_kernel i arg3 harg3 arg4 harg4 arg5 harg5 arg6 harg6 arg7 harg7) K } := by
  refine ⟨?_, ?_, fun E K => ?run⟩
  case run =>
    simp only [cc4_kernel_eq_skeleton]; unfold cc4_kernel_skel
    unfold owns
    iintro ⟨⟨%f0, %hf0, H0⟩, ⟨%f1, %hf1, H1⟩, ⟨%f2, %hf2, H2⟩, ⟨%d3, %f3, -, H3⟩, ⟨%ds, %fs, -, HS⟩, Hk⟩
    obtain rfl := harg3.eq_unread hf0; obtain rfl := harg4.eq_unread hf1; obtain rfl := harg5.eq_unread hf2
    sl_exec (disch := first | exact hf | exact hl)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS

/-- The stores into the output block cover it (one store of the whole block). -/
theorem ocover4 (c : Dev nD) (i : grid4.Coords)
    (arg3 : Memref sig .tc .vmem S2048x256 .f32) (harg3 : arg3.IsWhole) (arg4 : Memref sig .tc .vmem S256x128 .f32) (harg4 : arg4.IsWhole)
    (arg5 : Memref sig .tc .vmem S1x128 .f32) (harg5 : arg5.IsWhole) (arg6 : Memref sig .tc .vmem S2048x128 .f32) (harg6 : arg6.IsWhole)
    (arg7 : Memref sig .tc .vmem S2048x128 .f32) (harg7 : arg7.IsWhole) (hf : first4 i) (hl : last4 i)
    (x0 : Vec F S2048x256 .f32) (x1 : Vec F S256x128 .f32) (x2 : Vec F S1x128 .f32) (y : S2048x128.Idx) :
    ∃ pc ∈ (bodyRun4 c i arg3 harg3 arg4 harg4 arg5 harg5 arg6 harg6 arg7 harg7 hf hl x0 x1 x2).1, y ∈ pc.1.set :=
  View.cover_of_tiledL (bodyRun4 c i arg3 harg3 arg4 harg4 arg5 harg5 arg6 harg6 arg7 harg7 hf hl x0 x1 x2).1 S2048x128.size (by sl_kernel_rfl) y

/-- What the body leaves in the output block: its stores read back. -/
def out4 (c : Dev nD) (i : grid4.Coords)
    (arg3 : Memref sig .tc .vmem S2048x256 .f32) (harg3 : arg3.IsWhole) (arg4 : Memref sig .tc .vmem S256x128 .f32) (harg4 : arg4.IsWhole)
    (arg5 : Memref sig .tc .vmem S1x128 .f32) (harg5 : arg5.IsWhole) (arg6 : Memref sig .tc .vmem S2048x128 .f32) (harg6 : arg6.IsWhole)
    (arg7 : Memref sig .tc .vmem S2048x128 .f32) (harg7 : arg7.IsWhole) (hf : first4 i) (hl : last4 i)
    (x0 : Vec F S2048x256 .f32) (x1 : Vec F S256x128 .f32) (x2 : Vec F S1x128 .f32) : Vec F S2048x128 .f32 :=
  View.canon (bodyRun4 c i arg3 harg3 arg4 harg4 arg5 harg5 arg6 harg6 arg7 harg7 hf hl x0 x1 x2).1

/-! ## The memrefs the pipeline passes at a point -/

abbrev ms4_0 (t : Fin cfg4.N) : Memref sig .tc .vmem S2048x256 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S256x128 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1x128 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S2048x128 .f32 := win4_3.stage (cfg4.slots t 3)
abbrev hs4_3 (t : Fin cfg4.N) : (ms4_3 t).IsWhole := hstage4_3 ((cfg4.slots t 3).cast nbuf4_3)
/-- The accumulator: a whole scoped buffer of the kernel's own. -/
abbrev scM4 : Memref sig .tc .vmem S2048x128 .f32 := Memref.whole cc4_scratch0

/-! ## No window is idle at any point -/

theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel
theorem liveAt4_3 : ∀ t : Fin cfg4.N, cfg4.idle 3 (grid4.coords t) = false := by decide +kernel

/-! ## The invariant between points -/

/-- Between points: the accumulator at anything, every other scoped buffer that is no staging buffer of this call
    untouched, and the generator register at some state. -/
def Phi4 (c : Dev nD) : sProp 𝕄 :=
  iprop(iprop(iprop(∃ d, owns (c : Thread nD τ) scM4 fullShare d)
      ∗ Pipeline.scopedRestBut (Ix := Unit) (Name := ℕ) (U := UR sig nD τ) (Lvl := ℕ) (Val := Elt F) spec4 c [cc4_scratch0])
    ∗ (∃ r, prngReg c r))

/-- It is the scoped rest of this call with the generator register, the accumulator named. -/
theorem PhiA4_eq (c : Dev nD) : (Pipeline.ΦA spec4 c : sProp 𝕄) = Phi4 c := by
  unfold Pipeline.ΦA Phi4; rw [scopedRest4_split]; simp only [scM4, owns_whole]; try rfl

section Data

-- the contents of the TensorCore's buffers when the region is entered
variable (V : (c : Dev nD) → (b : Ref sig .tc) → Buf (Elt F) ((c : Thread nD τ).loc b))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's current staging buffer holds its block at every point, fetched there or not (when it is not
    fetched its block index has not moved). -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- What the output block holds after point `t`: the body's stores there, read back, on the point's input blocks. -/
def outAt4 (c : Dev nD) (t : Fin cfg4.N) : Vec F S2048x128 .f32 :=
  out4 c (grid4.coords t) (ms4_0 t) (hs4_0 t) (ms4_1 t) (hs4_1 t) (ms4_2 t) (hs4_2 t) (ms4_3 t) (hs4_3 t) scM4 (Memref.isWhole_whole _)
    (first4_all t) (last4_all t) (iblk4 V c 0 t) (iblk4 V c 1 t) (iblk4 V c 2 t)

/-- The proof data of this pipeline on core `c`: the arrays as the region finds them; after the body at point `t`
    each input's buffer at its block and the output's at `outAt4`; the invariant `Phi4`; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => outAt4 V c t
  Φ _ := Phi4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = outAt4 V c t := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-! ## The body obligation -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t)

set_option maxHeartbeats 1600000 in
/-- The body at any point: the inputs' memrefs hold their blocks, the invariant lends the accumulator at anything and
    takes it back at anything, the output block ends at the stores read back. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = Phi4 c from rfl, show (dat4 V c).Φ t.castSucc = Phi4 c from rfl,
    show (dat4 V c).owesAt () t.succ = (dat4 V c).owesAt () t.castSucc from rfl]
  rw [show (dat4 V c).leavesExact 0 t = owns (c : Thread nD τ) (ms4_0 t) fullShare ((dat4 V c).after 0 t) from by
    unfold Dat.leavesExact; rw [liveAt4_0 t], after4_0]
  rw [show (dat4 V c).leavesExact 1 t = owns (c : Thread nD τ) (ms4_1 t) fullShare ((dat4 V c).after 1 t) from by
    unfold Dat.leavesExact; rw [liveAt4_1 t], after4_1]
  rw [show (dat4 V c).leavesExact 2 t = owns (c : Thread nD τ) (ms4_2 t) fullShare ((dat4 V c).after 2 t) from by
    unfold Dat.leavesExact; rw [liveAt4_2 t], after4_2]
  rw [show (dat4 V c).leavesExact 3 t = owns (c : Thread nD τ) (ms4_3 t) fullShare ((dat4 V c).after 3 t) from by
    unfold Dat.leavesExact; rw [liveAt4_3 t], after4_3]
  unfold Phi4 outAt4 out4
  iintro ⟨⟨⟨HS, Hb⟩, Hg⟩, Ho, ⟨%d0, H0⟩, ⟨%d1, H1⟩, ⟨%d2, H2⟩, ⟨%d3, H3⟩⟩
  iapply ((bodyRun4 c (grid4.coords t) _ _ _ _ _ _ _ _ _ _ (first4_all t) (last4_all t) (iblk4 V c 0 t) (iblk4 V c 1 t) (iblk4 V c 2 t)).2.2 Set.univ _)
  isplitl [H0]; · iexact H0
  isplitl [H1]; · iexact H1
  isplitl [H2]; · iexact H2
  isplitl [H3]; · iexists _; iexact H3
  isplitl [HS]; · iexact HS
  iintro ⟨H0, H1, H2, ⟨%e3, H3⟩, ⟨%es, HS⟩⟩
  isplitl [HS Hb Hg]
  · isplitl [HS Hb]
    · isplitl [HS]
      · iexists _; unfold owns; iexists _; isplitr
        swap; · iexact HS
        ipureintro; rfl
      iexact Hb
    iexact Hg
  isplitl [Ho]; · iexact Ho
  isplitl [H0]; · iexact H0
  isplitl [H1]; · iexact H1
  isplitl [H2]; · iexact H2
  unfold owns; iexists _; isplitr
  swap; · iexact H3
  ipureintro; exact View.read_writes_eq_canon _ _ _ (ocover4 c _ _ _ _ _ _ _ _ _ _ _ _ _ _ _ _)

/-- The pipeline's body obligation, at every point. -/
theorem body_obligation4 (c : Dev nD) : BodyObligation (dat4 (F := F) V c) (defs₀ (F := F)) Variants.none () Set.univ := fun t => by
  rw [bigSep_W4, bigSep_W4]
  exact sound_body4 V c t

end Data

end Cert.KernelIdeal.Acc

end
-- ==== Proof.AccI5.lean ====
/-
  Region 5: the second dense propagation of the global branch, max(PPMI · t2 + b2g, 0), where t2 is region 4's result.
  Eight row blocks of 1024 rows; the contraction (8192) in four steps of 2048 along the grid's last axis. The body keeps
  an accumulator of one output block across the four steps:
    * at the first step (case A) it zeroes the accumulator and adds the step's product PPMI[rows, cols] · t2[cols, :];
    * at the two middle steps (case B) it adds the step's product to what the previous step left;
    * at the last step (case C) it adds the step's product, then writes max(accumulator + bias, 0) to the output block.
  The output block is written back only after the last step; at the other steps its staging buffer is left as found.

  This module runs the body symbolically in each case on whole staging memrefs, records what each case leaves in the
  accumulator (and, in case C, in the output block) as the stores the run finds, defines point by point what the
  accumulator and the output block hold, and discharges the pipeline's body obligation at every point.
-/
import proofs.«157716_j2267742732442_1_alg».proof.Proof.Gen.KernelIdeal.Launch
import proofs.«157716_j2267742732442_1_alg».proof.Proof.Gen.KernelIdeal.Skeleton
import proofs.«157716_j2267742732442_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Acc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

/-! ## The two conditions of the body, in closed form over the grid -/

/-- The accumulator is zeroed when the last grid coordinate is 0. -/
abbrev first5 (i : grid5.Coords) : Prop := (Scalar.cmpi .ne (Scalar.extui (Scalar.cmpi .eq (BitVec.ofNat 32 (i 2).val) 0#32)) 0#32) = 1#1
/-- The output block is written when the last grid coordinate is 3, the last contraction step. -/
abbrev last5 (i : grid5.Coords) : Prop := k5_cond2 i = 1#1

/-- The grid is walked with the contraction step fastest: the first step is at the points ≡ 0 (mod 4), -/
theorem hfirst5 : ∀ t : Fin cfg5.N, first5 (grid5.coords t) ↔ t.val % 4 = 0 :=
  (by decide +kernel : ∀ t : Fin grid5.N, first5 (grid5.coords t) ↔ t.val % 4 = 0)
/-- the last at the points ≡ 3 (mod 4). -/
theorem hlast5 : ∀ t : Fin cfg5.N, last5 (grid5.coords t) ↔ t.val % 4 = 3 :=
  (by decide +kernel : ∀ t : Fin grid5.N, last5 (grid5.coords t) ↔ t.val % 4 = 3)

/-! ## Where the output window is idle -/

theorem liveAt5_0 : ∀ t : Fin cfg5.N, cfg5.idle 0 (grid5.coords t) = false := by decide +kernel
theorem liveAt5_1 : ∀ t : Fin cfg5.N, cfg5.idle 1 (grid5.coords t) = false := by decide +kernel
theorem liveAt5_2 : ∀ t : Fin cfg5.N, cfg5.idle 2 (grid5.coords t) = false := by decide +kernel
/-- Away from the last step the output window is idle and is not written back; -/
theorem idleAt5 : ∀ t : Fin cfg5.N, ¬last5 (grid5.coords t) → cfg5.idle 3 (grid5.coords t) = true := by decide +kernel
theorem noFlush5 : ∀ t : Fin cfg5.N, ¬last5 (grid5.coords t) → (cfg5.win 3).flush t = false := by decide +kernel
/-- at the last step it is live. -/
theorem liveAt5_3 : ∀ t : Fin cfg5.N, last5 (grid5.coords t) → cfg5.idle 3 (grid5.coords t) = false := by decide +kernel

/-! ## The body on whole memrefs, case by case -/

set_option maxHeartbeats 1000000 in
/-- CASE A (first step): inputs at their contents, the output block at any contents `xo` (untouched), the accumulator
    at anything. The accumulator ends overwritten by the found stores. -/
noncomputable def bodyRun5_A (c : Dev nD) (i : grid5.Coords)
    (arg3 : Memref sig .tc .vmem S1024x2048 .f32) (harg3 : arg3.IsWhole) (arg4 : Memref sig .tc .vmem S2048x128 .f32) (harg4 : arg4.IsWhole)
    (arg5 : Memref sig .tc .vmem S1x128 .f32) (harg5 : arg5.IsWhole) (arg6 : Memref sig .tc .vmem S1024x128 .f32) (harg6 : arg6.IsWhole)
    (arg7 : Memref sig .tc .vmem S1024x128 .f32) (harg7 : arg7.IsWhole) (hf : first5 i) (hl : ¬last5 i)
    (x0 : Vec F S1024x2048 .f32) (x1 : Vec F S2048x128 .f32) (x2 : Vec F S1x128 .f32) :
    { LS : List (View.Piece (Elt F) S1024x128 .f32) //
      ∀ (xo : Vec F S1024x128 .f32) (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare xo ∗ (∃ d, owns (c : Thread nD τ) arg7 fullShare d)
            ∗ (iprop(owns (c : Thread nD τ) arg3 fullShare x0 ∗ owns (c : Thread nD τ) arg4 fullShare x1 ∗ owns (c : Thread nD τ) arg5 fullShare x2
                ∗ owns (c : Thread nD τ) arg6 fullShare xo
                ∗ (∃ f, arg7.view.loc (c : Thread nD τ) ↦[arg7.view.set]{fullShare} arg7.view.writes (Elt F) f LS)) -∗ K ⟨⟩))
          ⊢ wp frame (wpE (defs₀ (F := F)) Variants.none c none) E (cc5_kernel i arg3 harg3 arg4 harg4 arg5 harg5 arg6 harg6 arg7 harg7) K } := by
  refine ⟨?_, fun xo E K => ?run⟩
  case run =>
    simp only [cc5_kernel_eq_skeleton]; unfold cc5_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg3.eq_unread hf0; obtain rfl := harg4.eq_unread hf1; obtain rfl := harg5.eq_unread hf2; obtain rfl := harg6.eq_unread hf3
    sl_exec (disch := first | exact hf | exact hl)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

set_option maxHeartbeats 1000000 in
/-- CASE B (a middle step): as case A, the accumulator at the contents `xs` the previous step left. -/
noncomputable def bodyRun5_B (c : Dev nD) (i : grid5.Coords)
    (arg3 : Memref sig .tc .vmem S1024x2048 .f32) (harg3 : arg3.IsWhole) (arg4 : Memref sig .tc .vmem S2048x128 .f32) (harg4 : arg4.IsWhole)
    (arg5 : Memref sig .tc .vmem S1x128 .f32) (harg5 : arg5.IsWhole) (arg6 : Memref sig .tc .vmem S1024x128 .f32) (harg6 : arg6.IsWhole)
    (arg7 : Memref sig .tc .vmem S1024x128 .f32) (harg7 : arg7.IsWhole) (hf : ¬first5 i) (hl : ¬last5 i)
    (x0 : Vec F S1024x2048 .f32) (x1 : Vec F S2048x128 .f32) (x2 : Vec F S1x128 .f32) (xs : Vec F S1024x128 .f32) :
    { LS : List (View.Piece (Elt F) S1024x128 .f32) //
      ∀ (xo : Vec F S1024x128 .f32) (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare xo ∗ owns (c : Thread nD τ) arg7 fullShare xs
            ∗ (iprop(owns (c : Thread nD τ) arg3 fullShare x0 ∗ owns (c : Thread nD τ) arg4 fullShare x1 ∗ owns (c : Thread nD τ) arg5 fullShare x2
                ∗ owns (c : Thread nD τ) arg6 fullShare xo
                ∗ (∃ f, arg7.view.loc (c : Thread nD τ) ↦[arg7.view.set]{fullShare} arg7.view.writes (Elt F) f LS)) -∗ K ⟨⟩))
          ⊢ wp frame (wpE (defs₀ (F := F)) Variants.none c none) E (cc5_kernel i arg3 harg3 arg4 harg4 arg5 harg5 arg6 harg6 arg7 harg7) K } := by
  refine ⟨?_, fun xo E K => ?run⟩
  case run =>
    simp only [cc5_kernel_eq_skeleton]; unfold cc5_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg3.eq_unread hf0; obtain rfl := harg4.eq_unread hf1; obtain rfl := harg5.eq_unread hf2; obtain rfl := harg6.eq_unread hf3
    obtain rfl := harg7.eq_unread hfs
    sl_exec (disch := first | exact hf | exact hl)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

set_option maxHeartbeats 1000000 in
/-- CASE C (last step): the accumulator at the contents `xs` the previous step left, the output block at anything;
    both end overwritten by the found stores. -/
noncomputable def bodyRun5_C (c : Dev nD) (i : grid5.Coords)
    (arg3 : Memref sig .tc .vmem S1024x2048 .f32) (harg3 : arg3.IsWhole) (arg4 : Memref sig .tc .vmem S2048x128 .f32) (harg4 : arg4.IsWhole)
    (arg5 : Memref sig .tc .vmem S1x128 .f32) (harg5 : arg5.IsWhole) (arg6 : Memref sig .tc .vmem S1024x128 .f32) (harg6 : arg6.IsWhole)
    (arg7 : Memref sig .tc .vmem S1024x128 .f32) (harg7 : arg7.IsWhole) (hf : ¬first5 i) (hl : last5 i)
    (x0 : Vec F S1024x2048 .f32) (x1 : Vec F S2048x128 .f32) (x2 : Vec F S1x128 .f32) (xs : Vec F S1024x128 .f32) :
    Σ' (LO : List (View.Piece (Elt F) S1024x128 .f32)), { LS : List (View.Piece (Elt F) S1024x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg6 fullShare d) ∗ owns (c : Thread nD τ) arg7 fullShare xs
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f LO)
                ∗ (∃ f, arg7.view.loc (c : Thread nD τ) ↦[arg7.view.set]{fullShare} arg7.view.writes (Elt F) f LS)) -∗ K ⟨⟩))
          ⊢ wp frame (wpE (defs₀ (F := F)) Variants.none c none) E (cc5_kernel i arg3 harg3 arg4 harg4 arg5 harg5 arg6 harg6 arg7 harg7) K } := by
  refine ⟨?_, ?_, fun E K => ?run⟩
  case run =>
    simp only [cc5_kernel_eq_skeleton]; unfold cc5_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg3.eq_unread hf0; obtain rfl := harg4.eq_unread hf1; obtain rfl := harg5.eq_unread hf2
    obtain rfl := harg7.eq_unread hfs
    sl_exec (disch := first | exact hf | exact hl)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS

/-! ## The stores cover what they overwrite -/

theorem scover5_A (c : Dev nD) (i : grid5.Coords)
    (arg3 : Memref sig .tc .vmem S1024x2048 .f32) (harg3 : arg3.IsWhole) (arg4 : Memref sig .tc .vmem S2048x128 .f32) (harg4 : arg4.IsWhole)
    (arg5 : Memref sig .tc .vmem S1x128 .f32) (harg5 : arg5.IsWhole) (arg6 : Memref sig .tc .vmem S1024x128 .f32) (harg6 : arg6.IsWhole)
    (arg7 : Memref sig .tc .vmem S1024x128 .f32) (harg7 : arg7.IsWhole) (hf : first5 i) (hl : ¬last5 i)
    (x0 : Vec F S1024x2048 .f32) (x1 : Vec F S2048x128 .f32) (x2 : Vec F S1x128 .f32) (y : S1024x128.Idx) :
    ∃ pc ∈ (bodyRun5_A c i arg3 harg3 arg4 harg4 arg5 harg5 arg6 harg6 arg7 harg7 hf hl x0 x1 x2).1, y ∈ pc.1.set :=
  View.cover_of_tiledL (bodyRun5_A c i arg3 harg3 arg4 harg4 arg5 harg5 arg6 harg6 arg7 harg7 hf hl x0 x1 x2).1 S1024x128.size (by sl_kernel_rfl) y
theorem scover5_B (c : Dev nD) (i : grid5.Coords)
    (arg3 : Memref sig .tc .vmem S1024x2048 .f32) (harg3 : arg3.IsWhole) (arg4 : Memref sig .tc .vmem S2048x128 .f32) (harg4 : arg4.IsWhole)
    (arg5 : Memref sig .tc .vmem S1x128 .f32) (harg5 : arg5.IsWhole) (arg6 : Memref sig .tc .vmem S1024x128 .f32) (harg6 : arg6.IsWhole)
    (arg7 : Memref sig .tc .vmem S1024x128 .f32) (harg7 : arg7.IsWhole) (hf : ¬first5 i) (hl : ¬last5 i)
    (x0 : Vec F S1024x2048 .f32) (x1 : Vec F S2048x128 .f32) (x2 : Vec F S1x128 .f32) (xs : Vec F S1024x128 .f32) (y : S1024x128.Idx) :
    ∃ pc ∈ (bodyRun5_B c i arg3 harg3 arg4 harg4 arg5 harg5 arg6 harg6 arg7 harg7 hf hl x0 x1 x2 xs).1, y ∈ pc.1.set :=
  View.cover_of_tiledL (bodyRun5_B c i arg3 harg3 arg4 harg4 arg5 harg5 arg6 harg6 arg7 harg7 hf hl x0 x1 x2 xs).1 S1024x128.size (by sl_kernel_rfl) y
theorem scover5_C (c : Dev nD) (i : grid5.Coords)
    (arg3 : Memref sig .tc .vmem S1024x2048 .f32) (harg3 : arg3.IsWhole) (arg4 : Memref sig .tc .vmem S2048x128 .f32) (harg4 : arg4.IsWhole)
    (arg5 : Memref sig .tc .vmem S1x128 .f32) (harg5 : arg5.IsWhole) (arg6 : Memref sig .tc .vmem S1024x128 .f32) (harg6 : arg6.IsWhole)
    (arg7 : Memref sig .tc .vmem S1024x128 .f32) (harg7 : arg7.IsWhole) (hf : ¬first5 i) (hl : last5 i)
    (x0 : Vec F S1024x2048 .f32) (x1 : Vec F S2048x128 .f32) (x2 : Vec F S1x128 .f32) (xs : Vec F S1024x128 .f32) (y : S1024x128.Idx) :
    ∃ pc ∈ (bodyRun5_C c i arg3 harg3 arg4 harg4 arg5 harg5 arg6 harg6 arg7 harg7 hf hl x0 x1 x2 xs).2.1, y ∈ pc.1.set :=
  View.cover_of_tiledL (bodyRun5_C c i arg3 harg3 arg4 harg4 arg5 harg5 arg6 harg6 arg7 harg7 hf hl x0 x1 x2 xs).2.1 S1024x128.size (by sl_kernel_rfl) y
theorem ocover5_C (c : Dev nD) (i : grid5.Coords)
    (arg3 : Memref sig .tc .vmem S1024x2048 .f32) (harg3 : arg3.IsWhole) (arg4 : Memref sig .tc .vmem S2048x128 .f32) (harg4 : arg4.IsWhole)
    (arg5 : Memref sig .tc .vmem S1x128 .f32) (harg5 : arg5.IsWhole) (arg6 : Memref sig .tc .vmem S1024x128 .f32) (harg6 : arg6.IsWhole)
    (arg7 : Memref sig .tc .vmem S1024x128 .f32) (harg7 : arg7.IsWhole) (hf : ¬first5 i) (hl : last5 i)
    (x0 : Vec F S1024x2048 .f32) (x1 : Vec F S2048x128 .f32) (x2 : Vec F S1x128 .f32) (xs : Vec F S1024x128 .f32) (y : S1024x128.Idx) :
    ∃ pc ∈ (bodyRun5_C c i arg3 harg3 arg4 harg4 arg5 harg5 arg6 harg6 arg7 harg7 hf hl x0 x1 x2 xs).1, y ∈ pc.1.set :=
  View.cover_of_tiledL (bodyRun5_C c i arg3 harg3 arg4 harg4 arg5 harg5 arg6 harg6 arg7 harg7 hf hl x0 x1 x2 xs).1 S1024x128.size (by sl_kernel_rfl) y

/-! ## What each case leaves -/

/-- The accumulator after case A. -/
def sA5 (c : Dev nD) (i : grid5.Coords)
    (arg3 : Memref sig .tc .vmem S1024x2048 .f32) (harg3 : arg3.IsWhole) (arg4 : Memref sig .tc .vmem S2048x128 .f32) (harg4 : arg4.IsWhole)
    (arg5 : Memref sig .tc .vmem S1x128 .f32) (harg5 : arg5.IsWhole) (arg6 : Memref sig .tc .vmem S1024x128 .f32) (harg6 : arg6.IsWhole)
    (arg7 : Memref sig .tc .vmem S1024x128 .f32) (harg7 : arg7.IsWhole) (hf : first5 i) (hl : ¬last5 i)
    (x0 : Vec F S1024x2048 .f32) (x1 : Vec F S2048x128 .f32) (x2 : Vec F S1x128 .f32) : Vec F S1024x128 .f32 :=
  View.canon (bodyRun5_A c i arg3 harg3 arg4 harg4 arg5 harg5 arg6 harg6 arg7 harg7 hf hl x0 x1 x2).1
/-- The accumulator after case B. -/
def sB5 (c : Dev nD) (i : grid5.Coords)
    (arg3 : Memref sig .tc .vmem S1024x2048 .f32) (harg3 : arg3.IsWhole) (arg4 : Memref sig .tc .vmem S2048x128 .f32) (harg4 : arg4.IsWhole)
    (arg5 : Memref sig .tc .vmem S1x128 .f32) (harg5 : arg5.IsWhole) (arg6 : Memref sig .tc .vmem S1024x128 .f32) (harg6 : arg6.IsWhole)
    (arg7 : Memref sig .tc .vmem S1024x128 .f32) (harg7 : arg7.IsWhole) (hf : ¬first5 i) (hl : ¬last5 i)
    (x0 : Vec F S1024x2048 .f32) (x1 : Vec F S2048x128 .f32) (x2 : Vec F S1x128 .f32) (xs : Vec F S1024x128 .f32) : Vec F S1024x128 .f32 :=
  View.canon (bodyRun5_B c i arg3 harg3 arg4 harg4 arg5 harg5 arg6 harg6 arg7 harg7 hf hl x0 x1 x2 xs).1
/-- The accumulator after case C. -/
def sC5 (c : Dev nD) (i : grid5.Coords)
    (arg3 : Memref sig .tc .vmem S1024x2048 .f32) (harg3 : arg3.IsWhole) (arg4 : Memref sig .tc .vmem S2048x128 .f32) (harg4 : arg4.IsWhole)
    (arg5 : Memref sig .tc .vmem S1x128 .f32) (harg5 : arg5.IsWhole) (arg6 : Memref sig .tc .vmem S1024x128 .f32) (harg6 : arg6.IsWhole)
    (arg7 : Memref sig .tc .vmem S1024x128 .f32) (harg7 : arg7.IsWhole) (hf : ¬first5 i) (hl : last5 i)
    (x0 : Vec F S1024x2048 .f32) (x1 : Vec F S2048x128 .f32) (x2 : Vec F S1x128 .f32) (xs : Vec F S1024x128 .f32) : Vec F S1024x128 .f32 :=
  View.canon (bodyRun5_C c i arg3 harg3 arg4 harg4 arg5 harg5 arg6 harg6 arg7 harg7 hf hl x0 x1 x2 xs).2.1
/-- The output block after case C. -/
def oC5 (c : Dev nD) (i : grid5.Coords)
    (arg3 : Memref sig .tc .vmem S1024x2048 .f32) (harg3 : arg3.IsWhole) (arg4 : Memref sig .tc .vmem S2048x128 .f32) (harg4 : arg4.IsWhole)
    (arg5 : Memref sig .tc .vmem S1x128 .f32) (harg5 : arg5.IsWhole) (arg6 : Memref sig .tc .vmem S1024x128 .f32) (harg6 : arg6.IsWhole)
    (arg7 : Memref sig .tc .vmem S1024x128 .f32) (harg7 : arg7.IsWhole) (hf : ¬first5 i) (hl : last5 i)
    (x0 : Vec F S1024x2048 .f32) (x1 : Vec F S2048x128 .f32) (x2 : Vec F S1x128 .f32) (xs : Vec F S1024x128 .f32) : Vec F S1024x128 .f32 :=
  View.canon (bodyRun5_C c i arg3 harg3 arg4 harg4 arg5 harg5 arg6 harg6 arg7 harg7 hf hl x0 x1 x2 xs).1

/-! ## The memrefs the pipeline passes at a point -/

abbrev ms5_0 (t : Fin cfg5.N) : Memref sig .tc .vmem S1024x2048 .f32 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S2048x128 .f32 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S1x128 .f32 := win5_2.stage (cfg5.slots t 2)
abbrev hs5_2 (t : Fin cfg5.N) : (ms5_2 t).IsWhole := hstage5_2 ((cfg5.slots t 2).cast nbuf5_2)
abbrev ms5_3 (t : Fin cfg5.N) : Memref sig .tc .vmem S1024x128 .f32 := win5_3.stage (cfg5.slots t 3)
abbrev hs5_3 (t : Fin cfg5.N) : (ms5_3 t).IsWhole := hstage5_3 ((cfg5.slots t 3).cast nbuf5_3)
/-- The accumulator: a whole scoped buffer of the kernel's own. -/
abbrev scM5 : Memref sig .tc .vmem S1024x128 .f32 := Memref.whole cc5_scratch0

/-! ## The invariant before the first point -/

/-- Before the first point: the accumulator at anything, every other scoped buffer that is no staging buffer of this
    call untouched, and the generator register at some state. -/
def Phi5any (c : Dev nD) : sProp 𝕄 :=
  iprop(iprop(iprop(∃ d, owns (c : Thread nD τ) scM5 fullShare d)
      ∗ Pipeline.scopedRestBut (Ix := Unit) (Name := ℕ) (U := UR sig nD τ) (Lvl := ℕ) (Val := Elt F) spec5 c [cc5_scratch0])
    ∗ (∃ r, prngReg c r))

/-- It is the scoped rest of this call with the generator register, the accumulator named. -/
theorem PhiA5_eq (c : Dev nD) : (Pipeline.ΦA spec5 c : sProp 𝕄) = Phi5any c := by
  unfold Pipeline.ΦA Phi5any; rw [scopedRest5_split]; simp only [scM5, owns_whole]; try rfl

section Data

-- the contents of the TensorCore's buffers when the region is entered
variable (V : (c : Dev nD) → (b : Ref sig .tc) → Buf (Elt F) ((c : Thread nD τ).loc b))

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- An input window's current staging buffer holds its block at every point, fetched there or not (when it is not
    fetched its block index has not moved). -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-! ## What the output block and the accumulator hold after each point -/

/-- THE ACCUMULATION. After the body at position `n`: (the output block's staging buffer, the accumulator). The case
    is the one the closed forms select at `n`; cases B and C start from what position `n - 1` left in the accumulator.
    Away from the last step the first component is a placeholder nothing reads (the window is idle there). -/
def outsAt5 (c : Dev nD) : (n : ℕ) → n < cfg5.N → Vec F S1024x128 .f32 × Vec F S1024x128 .f32
  | 0, hn => (View.canon [], sA5 c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) (ms5_3 ⟨0, hn⟩) (hs5_3 ⟨0, hn⟩) scM5 (Memref.isWhole_whole _)
      ((hfirst5 ⟨0, hn⟩).mpr (Nat.zero_mod _)) (fun h => absurd ((hlast5 ⟨0, hn⟩).mp h) (by show ¬ (0 % 4 = 3); omega))
      (iblk5 V c 0 ⟨0, hn⟩) (iblk5 V c 1 ⟨0, hn⟩) (iblk5 V c 2 ⟨0, hn⟩))
  | n + 1, hn =>
    if h0 : (n + 1) % 4 = 0 then
      (View.canon [], sA5 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) scM5 (Memref.isWhole_whole _)
        ((hfirst5 ⟨n + 1, hn⟩).mpr h0) (fun h => absurd ((hlast5 ⟨n + 1, hn⟩).mp h) (by dsimp only; omega))
        (iblk5 V c 0 ⟨n + 1, hn⟩) (iblk5 V c 1 ⟨n + 1, hn⟩) (iblk5 V c 2 ⟨n + 1, hn⟩))
    else if h1 : (n + 1) % 4 = 3 then
      (oC5 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) scM5 (Memref.isWhole_whole _)
          (fun h => h0 ((hfirst5 ⟨n + 1, hn⟩).mp h)) ((hlast5 ⟨n + 1, hn⟩).mpr h1)
          (iblk5 V c 0 ⟨n + 1, hn⟩) (iblk5 V c 1 ⟨n + 1, hn⟩) (iblk5 V c 2 ⟨n + 1, hn⟩) (outsAt5 c n (Nat.lt_of_succ_lt hn)).2,
       sC5 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) scM5 (Memref.isWhole_whole _)
          (fun h => h0 ((hfirst5 ⟨n + 1, hn⟩).mp h)) ((hlast5 ⟨n + 1, hn⟩).mpr h1)
          (iblk5 V c 0 ⟨n + 1, hn⟩) (iblk5 V c 1 ⟨n + 1, hn⟩) (iblk5 V c 2 ⟨n + 1, hn⟩) (outsAt5 c n (Nat.lt_of_succ_lt hn)).2)
    else
      (View.canon [], sB5 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) scM5 (Memref.isWhole_whole _)
          (fun h => h0 ((hfirst5 ⟨n + 1, hn⟩).mp h)) (fun h => h1 ((hlast5 ⟨n + 1, hn⟩).mp h))
          (iblk5 V c 0 ⟨n + 1, hn⟩) (iblk5 V c 1 ⟨n + 1, hn⟩) (iblk5 V c 2 ⟨n + 1, hn⟩) (outsAt5 c n (Nat.lt_of_succ_lt hn)).2)

/-- `outsAt5` at a first step: case A's contents. -/
theorem outsAt5_A (c : Dev nD) (t : Fin cfg5.N) (h0 : t.val % 4 = 0) :
    outsAt5 V c t.val t.isLt = (View.canon [], sA5 c (grid5.coords t) (ms5_0 t) (hs5_0 t) (ms5_1 t) (hs5_1 t) (ms5_2 t) (hs5_2 t) (ms5_3 t) (hs5_3 t) scM5 (Memref.isWhole_whole _)
      ((hfirst5 t).mpr h0) (fun h => absurd ((hlast5 t).mp h) (by omega))
      (iblk5 V c 0 t) (iblk5 V c 1 t) (iblk5 V c 2 t)) := by
  obtain ⟨n, hn⟩ := t
  cases n with
  | zero => exact rfl
  | succ n => exact (dif_pos h0).trans rfl

/-- `outsAt5` at a middle step: case B's contents, over what the point before left. -/
theorem outsAt5_B (c : Dev nD) (t : Fin cfg5.N) (h0 : ¬t.val % 4 = 0) (h1 : ¬t.val % 4 = 3) :
    outsAt5 V c t.val t.isLt = (View.canon [], sB5 c (grid5.coords t) (ms5_0 t) (hs5_0 t) (ms5_1 t) (hs5_1 t) (ms5_2 t) (hs5_2 t) (ms5_3 t) (hs5_3 t) scM5 (Memref.isWhole_whole _)
      (fun h => h0 ((hfirst5 t).mp h)) (fun h => h1 ((hlast5 t).mp h))
      (iblk5 V c 0 t) (iblk5 V c 1 t) (iblk5 V c 2 t) (outsAt5 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt5` at a last step: case C's contents, over what the point before left. -/
theorem outsAt5_C (c : Dev nD) (t : Fin cfg5.N) (h0 : ¬t.val % 4 = 0) (h1 : t.val % 4 = 3) :
    outsAt5 V c t.val t.isLt = (oC5 c (grid5.coords t) (ms5_0 t) (hs5_0 t) (ms5_1 t) (hs5_1 t) (ms5_2 t) (hs5_2 t) (ms5_3 t) (hs5_3 t) scM5 (Memref.isWhole_whole _)
      (fun h => h0 ((hfirst5 t).mp h)) ((hlast5 t).mpr h1)
      (iblk5 V c 0 t) (iblk5 V c 1 t) (iblk5 V c 2 t) (outsAt5 V c (t.val - 1) (Nat.lt_of_le_of_lt (Nat.sub_le _ _) t.isLt)).2,
     sC5 c (grid5.coords t) (ms5_0 t) (hs5_0 t) (ms5_1 t) (hs5_1 t) (ms5_2 t) (hs5_2 t) (ms5_3 t) (hs5_3 t) scM5 (Memref.isWhole_whole _)
      (fun h => h0 ((hfirst5 t).mp h)) ((hlast5 t).mpr h1)
      (iblk5 V c 0 t) (iblk5 V c 1 t) (iblk5 V c 2 t) (outsAt5 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- Before position `n`: before the first point the accumulator at anything; afterwards the accumulator at what the
    point before left in it; beside it the other scoped buffers untouched and the generator register at some state. -/
def PhiS5 (c : Dev nD) : (n : ℕ) → n ≤ cfg5.N → sProp 𝕄
  | 0, _ => Phi5any c
  | n + 1, hn => iprop(iprop(owns (c : Thread nD τ) scM5 fullShare ((outsAt5 V c n hn).2)
      ∗ Pipeline.scopedRestBut (Ix := Unit) (Name := ℕ) (U := UR sig nD τ) (Lvl := ℕ) (Val := Elt F) spec5 c [cc5_scratch0])
    ∗ (∃ r, prngReg c r))

theorem PhiS5_zero (c : Dev nD) (n : ℕ) (h : n ≤ cfg5.N) (hz : n = 0) : PhiS5 V c n h = Phi5any c := by
  subst hz; rfl

theorem PhiS5_succ (c : Dev nD) (n : ℕ) (hn : n < cfg5.N) :
    PhiS5 V c (n + 1) hn = iprop(iprop(owns (c : Thread nD τ) scM5 fullShare ((outsAt5 V c n hn).2)
      ∗ Pipeline.scopedRestBut (Ix := Unit) (Name := ℕ) (U := UR sig nD τ) (Lvl := ℕ) (Val := Elt F) spec5 c [cc5_scratch0])
    ∗ (∃ r, prngReg c r)) := rfl

theorem PhiS5_pos (c : Dev nD) (n : ℕ) (h : n ≤ cfg5.N) (hz : n ≠ 0) :
    PhiS5 V c n h = iprop(iprop(owns (c : Thread nD τ) scM5 fullShare ((outsAt5 V c (n - 1) (by omega)).2)
      ∗ Pipeline.scopedRestBut (Ix := Unit) (Name := ℕ) (U := UR sig nD τ) (Lvl := ℕ) (Val := Elt F) spec5 c [cc5_scratch0])
    ∗ (∃ r, prngReg c r)) := by
  cases n with
  | zero => exact absurd rfl hz
  | succ n => rfl

/-! ## The pipeline's proof data -/

/-- The proof data of this pipeline on core `c`: the arrays as the region finds them; after the body at point `t`
    each input's buffer at its block and the output's at `outsAt5`'s first component; the invariant `PhiS5`; nothing
    owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => (outsAt5 V c t.val t.isLt).1
  Φ t := PhiS5 V c t.val (Nat.le_of_lt_succ t.isLt)
  q _ := fullShare
  owed _ := 0

theorem A_eq5 (c : Dev nD) (w : Fin cfg5.W) : (dat5 V c).A w = V c (Pipeline.arrRef spec5 w) := by
  dsimp only [dat5]

theorem PhiS5_castSucc (c : Dev nD) (t : Fin cfg5.N) :
    (dat5 V c).Φ t.castSucc = PhiS5 V c t.val (Nat.le_of_lt t.isLt) := by
  dsimp only [dat5]; simp only [Fin.coe_castSucc]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = (outsAt5 V c t.val t.isLt).1 := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

/-! ## The body obligation -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))

/-- and what it returns. -/
def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t
    ∗ (dat5 V c).leavesExact 3 t)

set_option maxHeartbeats 4800000 in
/-- The body at any point. The closed forms say which case the point is in. The invariant hands the body the
    accumulator at what the point before left (at anything before the first point) and takes it back at this point's
    contents; away from the last step the output block's buffer passes through untouched, at the last step it ends at
    the stores read back. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).owesAt () t.succ = (dat5 V c).owesAt () t.castSucc from rfl]
  rw [show (dat5 V c).Φ t.succ = PhiS5 V c (t.val + 1) t.isLt from rfl, PhiS5_succ]
  rw [show (dat5 V c).leavesExact 0 t = owns (c : Thread nD τ) (ms5_0 t) fullShare ((dat5 V c).after 0 t) from by
    unfold Dat.leavesExact; rw [liveAt5_0 t], after5_0]
  rw [show (dat5 V c).leavesExact 1 t = owns (c : Thread nD τ) (ms5_1 t) fullShare ((dat5 V c).after 1 t) from by
    unfold Dat.leavesExact; rw [liveAt5_1 t], after5_1]
  rw [show (dat5 V c).leavesExact 2 t = owns (c : Thread nD τ) (ms5_2 t) fullShare ((dat5 V c).after 2 t) from by
    unfold Dat.leavesExact; rw [liveAt5_2 t], after5_2]
  have hN : t.val < 32 := lt_of_lt_of_eq t.isLt (show cfg5.N = 32 from N_5)
  by_cases h0 : t.val % 4 = 0
  · have hf : first5 (grid5.coords t) := (hfirst5 t).mpr h0
    have hl : ¬last5 (grid5.coords t) := fun h => absurd ((hlast5 t).mp h) (by omega)
    rw [Dat.leavesExact_idle (dat5 V c) 3 t (idleAt5 t hl) (noFlush5 t hl)]
    rw [outsAt5_A V c t h0]
    unfold sA5; (try dsimp only)
    by_cases hz : t.val = 0
    · rw [PhiS5_castSucc V c t, PhiS5_zero V c _ _ hz]; unfold Phi5any
      iintro ⟨⟨⟨HS, Hb⟩, Hg⟩, Ho, ⟨%d0, H0⟩, ⟨%d1, H1⟩, ⟨%d2, H2⟩, ⟨%d3, H3⟩⟩
      iapply ((bodyRun5_A c (grid5.coords t) _ _ _ _ _ _ _ _ _ _ hf hl (iblk5 V c 0 t) (iblk5 V c 1 t) (iblk5 V c 2 t)).2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hb Hg]
      · isplitl [HS Hb]
        · isplitl [HS]
          · unfold owns; iexists _; isplitr
            swap; · iexact HS
            ipureintro; exact View.read_writes_eq_canon _ _ _ (scover5_A c _ _ _ _ _ _ _ _ _ _ _ _ _ _ _ _)
          iexact Hb
        iexact Hg
      isplitl [Ho]; · iexact Ho
      isplitl [H0]; · iexact H0
      isplitl [H1]; · iexact H1
      isplitl [H2]; · iexact H2
      iexists _; iexact H3
    · rw [PhiS5_castSucc V c t, PhiS5_pos V c _ _ hz]
      iintro ⟨⟨⟨HS, Hb⟩, Hg⟩, Ho, ⟨%d0, H0⟩, ⟨%d1, H1⟩, ⟨%d2, H2⟩, ⟨%d3, H3⟩⟩
      iapply ((bodyRun5_A c (grid5.coords t) _ _ _ _ _ _ _ _ _ _ hf hl (iblk5 V c 0 t) (iblk5 V c 1 t) (iblk5 V c 2 t)).2 _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [HS Hb Hg]
      · isplitl [HS Hb]
        · isplitl [HS]
          · unfold owns; iexists _; isplitr
            swap; · iexact HS
            ipureintro; exact View.read_writes_eq_canon _ _ _ (scover5_A c _ _ _ _ _ _ _ _ _ _ _ _ _ _ _ _)
          iexact Hb
        iexact Hg
      isplitl [Ho]; · iexact Ho
      isplitl [H0]; · iexact H0
      isplitl [H1]; · iexact H1
      isplitl [H2]; · iexact H2
      iexists _; iexact H3
  · have hz : t.val ≠ 0 := fun e => h0 (by rw [e])
    have hf : ¬first5 (grid5.coords t) := fun h => h0 ((hfirst5 t).mp h)
    by_cases h1 : t.val % 4 = 3
    · have hl : last5 (grid5.coords t) := (hlast5 t).mpr h1
      rw [show (dat5 V c).leavesExact 3 t = owns (c : Thread nD τ) (ms5_3 t) fullShare ((dat5 V c).after 3 t) from by
        unfold Dat.leavesExact; rw [liveAt5_3 t hl], after5_3]
      rw [outsAt5_C V c t h0 h1]
      unfold oC5 sC5; (try dsimp only)
      rw [PhiS5_castSucc V c t, PhiS5_pos V c _ _ hz]
      iintro ⟨⟨⟨HS, Hb⟩, Hg⟩, Ho, ⟨%d0, H0⟩, ⟨%d1, H1⟩, ⟨%d2, H2⟩, ⟨%d3, H3⟩⟩
      iapply ((bodyRun5_C c (grid5.coords t) _ _ _ _ _ _ _ _ _ _ hf hl (iblk5 V c 0 t) (iblk5 V c 1 t) (iblk5 V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hb Hg]
      · isplitl [HS Hb]
        · isplitl [HS]
          · unfold owns; iexists _; isplitr
            swap; · iexact HS
            ipureintro; exact View.read_writes_eq_canon _ _ _ (scover5_C c _ _ _ _ _ _ _ _ _ _ _ _ _ _ _ _ _)
          iexact Hb
        iexact Hg
      isplitl [Ho]; · iexact Ho
      isplitl [H0]; · iexact H0
      isplitl [H1]; · iexact H1
      isplitl [H2]; · iexact H2
      unfold owns; iexists _; isplitr
      swap; · iexact H3
      ipureintro; exact View.read_writes_eq_canon _ _ _ (ocover5_C c _ _ _ _ _ _ _ _ _ _ _ _ _ _ _ _ _)
    · have hl : ¬last5 (grid5.coords t) := fun h => h1 ((hlast5 t).mp h)
      rw [Dat.leavesExact_idle (dat5 V c) 3 t (idleAt5 t hl) (noFlush5 t hl)]
      rw [outsAt5_B V c t h0 h1]
      unfold sB5; (try dsimp only)
      rw [PhiS5_castSucc V c t, PhiS5_pos V c _ _ hz]
      iintro ⟨⟨⟨HS, Hb⟩, Hg⟩, Ho, ⟨%d0, H0⟩, ⟨%d1, H1⟩, ⟨%d2, H2⟩, ⟨%d3, H3⟩⟩
      iapply ((bodyRun5_B c (grid5.coords t) _ _ _ _ _ _ _ _ _ _ hf hl (iblk5 V c 0 t) (iblk5 V c 1 t) (iblk5 V c 2 t) _).2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hb Hg]
      · isplitl [HS Hb]
        · isplitl [HS]
          · unfold owns; iexists _; isplitr
            swap; · iexact HS
            ipureintro; exact View.read_writes_eq_canon _ _ _ (scover5_B c _ _ _ _ _ _ _ _ _ _ _ _ _ _ _ _ _)
          iexact Hb
        iexact Hg
      isplitl [Ho]; · iexact Ho
      isplitl [H0]; · iexact H0
      isplitl [H1]; · iexact H1
      isplitl [H2]; · iexact H2
      iexists _; iexact H3

/-- The pipeline's body obligation, at every point. -/
theorem body_obligation5 (c : Dev nD) : BodyObligation (dat5 (F := F) V c) (defs₀ (F := F)) Variants.none () Set.univ := fun t => by
  rw [bigSep_W5, bigSep_W5]
  exact sound_body5 V c t

/-- After any point the invariant gives back the form it had before the first: the accumulator's contents forgotten. -/
theorem Phi5_out (c : Dev nD) (t : Fin (cfg5.N + 1)) (ht : t.val ≠ 0) : (dat5 V c).Φ t ⊢ Phi5any c := by
  rw [show (dat5 V c).Φ t = PhiS5 V c t.val (Nat.le_of_lt_succ t.isLt) from rfl, PhiS5_pos V c _ _ ht]; unfold Phi5any
  iintro ⟨⟨HS, Hb⟩, Hg⟩
  isplitl [HS Hb]
  · isplitl [HS]
    · iexists _; iexact HS
    iexact Hb
  iexact Hg

end Data

end Cert.KernelIdeal.Acc

end
-- ==== Proof.RunI.lean ====
/-
  The whole run of @main: six kernel regions among stretches of host operations.

  Between two items every unscoped buffer of a core is held whole at a named valuation: the launch contents, then
  each host stretch applied in order, and after a region the region's arrays at what its write-backs leave (the three
  input arrays unchanged, the output array block by block what the body stored) with every other buffer as before.
  Beside the buffers ride the generator register at some state and the core owing nothing.

  Each region is a segment record over these thread states: on entry its arrays are split out of the unscoped buffers
  and the scoped rest (which contains the kernel's accumulator) goes into the region's invariant; on exit the arrays
  are put back at their final contents and the scoped rest is returned with the accumulator's contents forgotten.
  The run theorem reads every unscoped buffer at the last valuation off the final state; the frame claim (the
  argument arrays end as launched) and the value of the result buffer are read from it.
-/
import proofs.«157716_j2267742732442_1_alg».proof.Proof.AccI0
import proofs.«157716_j2267742732442_1_alg».proof.Proof.AccI1
import proofs.«157716_j2267742732442_1_alg».proof.Proof.AccI2
import proofs.«157716_j2267742732442_1_alg».proof.Proof.AccI3
import proofs.«157716_j2267742732442_1_alg».proof.Proof.AccI4
import proofs.«157716_j2267742732442_1_alg».proof.Proof.AccI5
import proofs.«157716_j2267742732442_1_alg».proof.Proof.Gen.KernelIdeal.Regions

set_option maxRecDepth 16384

noncomputable section

namespace Cert.KernelIdeal.Acc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev B0 : Dev nD → Valuation τ sig (Elt F) := fun c b => (s₀ m ρ).mem ((c : Dev nD), b)
/-- After the first host stretch (the four parameter products and the zero bias row): region 0's entry. -/
abbrev B1 : Dev nD → Valuation τ sig (Elt F) := fun c => StableHlo.after hostOps0 (B0 m ρ c)
abbrev T1 : (c : Dev nD) → (b : Ref sig .tc) → Buf (Elt F) ((c : Thread nD τ).loc b) := fun c b => B1 m ρ c b
/-- At region 0's exit: its arrays at what the pipeline leaves, every other buffer as entered. -/
def B2 (c : Dev nD) : Valuation τ sig (Elt F) :=
  Pipeline.withArrays spec0 c (B1 m ρ c) fun w => (dat0 (T1 m ρ) c).arrAt w cfg0.N
theorem B2_arr (c : Dev nD) (w : Fin cfg0.W) :
    B2 m ρ c (Proc.devRef .tc (Pipeline.arrRef spec0 w)) = (dat0 (T1 m ρ) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
abbrev T2 : (c : Dev nD) → (b : Ref sig .tc) → Buf (Elt F) ((c : Thread nD τ).loc b) := fun c b => B2 m ρ c b
theorem hF0 (c : Dev nD) (w : Fin cfg0.W) : (dat0 (T1 m ρ) c).arrAt w cfg0.N = T2 m ρ c (Pipeline.arrRef spec0 w) :=
  (B2_arr m ρ c w).symm
theorem hrest0 (c : Dev nD) : ∀ b, b ∉ Finset.univ.image (Pipeline.arrRef spec0) → T2 m ρ c b = T1 m ρ c b :=
  fun b hb => B2_of_ne m ρ c b fun w e => hb (Finset.mem_image.mpr ⟨w, Finset.mem_univ _, e⟩)

/-- The first layer's edge aggregation, bias and positive part on the host; then region 1's zero bias row. -/
abbrev B3 : Dev nD → Valuation τ sig (Elt F) := fun c => StableHlo.after hostOps1 (B2 m ρ c)
abbrev B4 : Dev nD → Valuation τ sig (Elt F) := fun c => StableHlo.after hostOps1_1 (B3 m ρ c)
abbrev B5 : Dev nD → Valuation τ sig (Elt F) := fun c => StableHlo.after hostOps1_2 (B4 m ρ c)
abbrev T5 : (c : Dev nD) → (b : Ref sig .tc) → Buf (Elt F) ((c : Thread nD τ).loc b) := fun c b => B5 m ρ c b
/-- At region 1's exit. -/
def B6 (c : Dev nD) : Valuation τ sig (Elt F) :=
  Pipeline.withArrays spec1 c (B5 m ρ c) fun w => (dat1 (T5 m ρ) c).arrAt w cfg1.N
theorem B6_arr (c : Dev nD) (w : Fin cfg1.W) :
    B6 m ρ c (Proc.devRef .tc (Pipeline.arrRef spec1 w)) = (dat1 (T5 m ρ) c).arrAt w cfg1.N := by
  unfold B6; exact Pipeline.withArrays_arr spec1 launch1.win.arr_inj c _ _ w
theorem B6_of_ne (c : Dev nD) (b : Ref sig .tc) (hb : ∀ w, Pipeline.arrRef spec1 w ≠ b) :
    B6 m ρ c (Proc.devRef .tc b) = B5 m ρ c (Proc.devRef .tc b) := by
  unfold B6; exact Pipeline.withArrays_of_ne spec1 c _ _ b hb
abbrev T6 : (c : Dev nD) → (b : Ref sig .tc) → Buf (Elt F) ((c : Thread nD τ).loc b) := fun c b => B6 m ρ c b
theorem hF1 (c : Dev nD) (w : Fin cfg1.W) : (dat1 (T5 m ρ) c).arrAt w cfg1.N = T6 m ρ c (Pipeline.arrRef spec1 w) :=
  (B6_arr m ρ c w).symm
theorem hrest1 (c : Dev nD) : ∀ b, b ∉ Finset.univ.image (Pipeline.arrRef spec1) → T6 m ρ c b = T5 m ρ c b :=
  fun b hb => B6_of_ne m ρ c b fun w e => hb (Finset.mem_image.mpr ⟨w, Finset.mem_univ _, e⟩)

/-- The second layer's edge aggregation, bias and positive part; then region 2's zero bias row. -/
abbrev B7 : Dev nD → Valuation τ sig (Elt F) := fun c => StableHlo.after hostOps2 (B6 m ρ c)
abbrev B8 : Dev nD → Valuation τ sig (Elt F) := fun c => StableHlo.after hostOps2_1 (B7 m ρ c)
abbrev B9 : Dev nD → Valuation τ sig (Elt F) := fun c => StableHlo.after hostOps2_2 (B8 m ρ c)
abbrev T9 : (c : Dev nD) → (b : Ref sig .tc) → Buf (Elt F) ((c : Thread nD τ).loc b) := fun c b => B9 m ρ c b
/-- At region 2's exit. -/
def B10 (c : Dev nD) : Valuation τ sig (Elt F) :=
  Pipeline.withArrays spec2 c (B9 m ρ c) fun w => (dat2 (T9 m ρ) c).arrAt w cfg2.N
theorem B10_arr (c : Dev nD) (w : Fin cfg2.W) :
    B10 m ρ c (Proc.devRef .tc (Pipeline.arrRef spec2 w)) = (dat2 (T9 m ρ) c).arrAt w cfg2.N := by
  unfold B10; exact Pipeline.withArrays_arr spec2 launch2.win.arr_inj c _ _ w
theorem B10_of_ne (c : Dev nD) (b : Ref sig .tc) (hb : ∀ w, Pipeline.arrRef spec2 w ≠ b) :
    B10 m ρ c (Proc.devRef .tc b) = B9 m ρ c (Proc.devRef .tc b) := by
  unfold B10; exact Pipeline.withArrays_of_ne spec2 c _ _ b hb
abbrev T10 : (c : Dev nD) → (b : Ref sig .tc) → Buf (Elt F) ((c : Thread nD τ).loc b) := fun c b => B10 m ρ c b
theorem hF2 (c : Dev nD) (w : Fin cfg2.W) : (dat2 (T9 m ρ) c).arrAt w cfg2.N = T10 m ρ c (Pipeline.arrRef spec2 w) :=
  (B10_arr m ρ c w).symm
theorem hrest2 (c : Dev nD) : ∀ b, b ∉ Finset.univ.image (Pipeline.arrRef spec2) → T10 m ρ c b = T9 m ρ c b :=
  fun b hb => B10_of_ne m ρ c b fun w e => hb (Finset.mem_image.mpr ⟨w, Finset.mem_univ _, e⟩)

/-- The first global bias as a row. -/
abbrev B11 : Dev nD → Valuation τ sig (Elt F) := fun c => StableHlo.after hostOps3 (B10 m ρ c)
abbrev T11 : (c : Dev nD) → (b : Ref sig .tc) → Buf (Elt F) ((c : Thread nD τ).loc b) := fun c b => B11 m ρ c b
/-- At region 3's exit. -/
def B12 (c : Dev nD) : Valuation τ sig (Elt F) :=
  Pipeline.withArrays spec3 c (B11 m ρ c) fun w => (dat3 (T11 m ρ) c).arrAt w cfg3.N
theorem B12_arr (c : Dev nD) (w : Fin cfg3.W) :
    B12 m ρ c (Proc.devRef .tc (Pipeline.arrRef spec3 w)) = (dat3 (T11 m ρ) c).arrAt w cfg3.N := by
  unfold B12; exact Pipeline.withArrays_arr spec3 launch3.win.arr_inj c _ _ w
theorem B12_of_ne (c : Dev nD) (b : Ref sig .tc) (hb : ∀ w, Pipeline.arrRef spec3 w ≠ b) :
    B12 m ρ c (Proc.devRef .tc b) = B11 m ρ c (Proc.devRef .tc b) := by
  unfold B12; exact Pipeline.withArrays_of_ne spec3 c _ _ b hb
abbrev T12 : (c : Dev nD) → (b : Ref sig .tc) → Buf (Elt F) ((c : Thread nD τ).loc b) := fun c b => B12 m ρ c b
theorem hF3 (c : Dev nD) (w : Fin cfg3.W) : (dat3 (T11 m ρ) c).arrAt w cfg3.N = T12 m ρ c (Pipeline.arrRef spec3 w) :=
  (B12_arr m ρ c w).symm
theorem hrest3 (c : Dev nD) : ∀ b, b ∉ Finset.univ.image (Pipeline.arrRef spec3) → T12 m ρ c b = T11 m ρ c b :=
  fun b hb => B12_of_ne m ρ c b fun w e => hb (Finset.mem_image.mpr ⟨w, Finset.mem_univ _, e⟩)

/-- Region 4's zero bias row. -/
abbrev B13 : Dev nD → Valuation τ sig (Elt F) := fun c => StableHlo.after hostOps4 (B12 m ρ c)
abbrev T13 : (c : Dev nD) → (b : Ref sig .tc) → Buf (Elt F) ((c : Thread nD τ).loc b) := fun c b => B13 m ρ c b
/-- At region 4's exit. -/
def B14 (c : Dev nD) : Valuation τ sig (Elt F) :=
  Pipeline.withArrays spec4 c (B13 m ρ c) fun w => (dat4 (T13 m ρ) c).arrAt w cfg4.N
theorem B14_arr (c : Dev nD) (w : Fin cfg4.W) :
    B14 m ρ c (Proc.devRef .tc (Pipeline.arrRef spec4 w)) = (dat4 (T13 m ρ) c).arrAt w cfg4.N := by
  unfold B14; exact Pipeline.withArrays_arr spec4 launch4.win.arr_inj c _ _ w
theorem B14_of_ne (c : Dev nD) (b : Ref sig .tc) (hb : ∀ w, Pipeline.arrRef spec4 w ≠ b) :
    B14 m ρ c (Proc.devRef .tc b) = B13 m ρ c (Proc.devRef .tc b) := by
  unfold B14; exact Pipeline.withArrays_of_ne spec4 c _ _ b hb
abbrev T14 : (c : Dev nD) → (b : Ref sig .tc) → Buf (Elt F) ((c : Thread nD τ).loc b) := fun c b => B14 m ρ c b
theorem hF4 (c : Dev nD) (w : Fin cfg4.W) : (dat4 (T13 m ρ) c).arrAt w cfg4.N = T14 m ρ c (Pipeline.arrRef spec4 w) :=
  (B14_arr m ρ c w).symm
theorem hrest4 (c : Dev nD) : ∀ b, b ∉ Finset.univ.image (Pipeline.arrRef spec4) → T14 m ρ c b = T13 m ρ c b :=
  fun b hb => B14_of_ne m ρ c b fun w e => hb (Finset.mem_image.mpr ⟨w, Finset.mem_univ _, e⟩)

/-- The second global bias as a row. -/
abbrev B15 : Dev nD → Valuation τ sig (Elt F) := fun c => StableHlo.after hostOps5 (B14 m ρ c)
abbrev T15 : (c : Dev nD) → (b : Ref sig .tc) → Buf (Elt F) ((c : Thread nD τ).loc b) := fun c b => B15 m ρ c b
/-- At region 5's exit. -/
def B16 (c : Dev nD) : Valuation τ sig (Elt F) :=
  Pipeline.withArrays spec5 c (B15 m ρ c) fun w => (dat5 (T15 m ρ) c).arrAt w cfg5.N
theorem B16_arr (c : Dev nD) (w : Fin cfg5.W) :
    B16 m ρ c (Proc.devRef .tc (Pipeline.arrRef spec5 w)) = (dat5 (T15 m ρ) c).arrAt w cfg5.N := by
  unfold B16; exact Pipeline.withArrays_arr spec5 launch5.win.arr_inj c _ _ w
theorem B16_of_ne (c : Dev nD) (b : Ref sig .tc) (hb : ∀ w, Pipeline.arrRef spec5 w ≠ b) :
    B16 m ρ c (Proc.devRef .tc b) = B15 m ρ c (Proc.devRef .tc b) := by
  unfold B16; exact Pipeline.withArrays_of_ne spec5 c _ _ b hb
abbrev T16 : (c : Dev nD) → (b : Ref sig .tc) → Buf (Elt F) ((c : Thread nD τ).loc b) := fun c b => B16 m ρ c b
theorem hF5 (c : Dev nD) (w : Fin cfg5.W) : (dat5 (T15 m ρ) c).arrAt w cfg5.N = T16 m ρ c (Pipeline.arrRef spec5 w) :=
  (B16_arr m ρ c w).symm
theorem hrest5 (c : Dev nD) : ∀ b, b ∉ Finset.univ.image (Pipeline.arrRef spec5) → T16 m ρ c b = T15 m ρ c b :=
  fun b hb => B16_of_ne m ρ c b fun w e => hb (Finset.mem_image.mpr ⟨w, Finset.mem_univ _, e⟩)

/-- The attention fusion and the classifier on the host: the last valuation. -/
abbrev B17 : Dev nD → Valuation τ sig (Elt F) := fun c => StableHlo.after hostOps6 (B16 m ρ c)

/-! ## The proof data family and what rides beside the buffers -/

/-- Every pipeline's proof data, each at its region's entry contents. -/
def pdatsA : (p : Fin 6) → (c : Dev nD) → Dat τ (Elt F) Unit ℕ (UR sig nD τ) ℕ (Pipeline.pin (pcfgs (F := F)) adm p) c
  | ⟨0, _⟩ => fun c => dat0 (T1 m ρ) c
  | ⟨1, _⟩ => fun c => dat1 (T5 m ρ) c
  | ⟨2, _⟩ => fun c => dat2 (T9 m ρ) c
  | ⟨3, _⟩ => fun c => dat3 (T11 m ρ) c
  | ⟨4, _⟩ => fun c => dat4 (T13 m ρ) c
  | ⟨5, _⟩ => fun c => dat5 (T15 m ρ) c

abbrev 𝒱A : Variants := Variants.none
abbrev LA : GSem nD τ sig → Finset Unit := fun _ => ∅
abbrev lvA : GSem nD τ sig → Unit → ℕ := fun _ _ => 0
/-- The generator register at some state and the core owing nothing. -/
abbrev Rd (c : Dev nD) : sProp 𝕄 := iprop((∃ r, prngReg c r) ∗ ∃ W, owes (c : Thread nD τ) (0 : CellTallies nD τ sig Unit) W)

/-- A host stretch as a segment over the unscoped references from the contents `W`, `Rd` riding along. -/
abbrev hsegA (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱A LA lvA :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rd

theorem mem_ucA (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
/-- Region 0 over the thread state: entered from every unscoped buffer at `B1`, left at `B2`. -/
def regA0 : Pipeline.RegionSeg (pcfgs (F := F)) adm (pdatsA m ρ) () defs₀ 𝒱A LA lvA 0 where
  win := launch0.win.to₀
  block_pos := launch0.block_pos
  stage_whole := launch0.stage_whole
  K := PEmpty
  osem k := k.elim
  ho := Pipeline.OwnSemFacts.none _
  hbody c := (body_obligation0 (T1 m ρ) c).loose
  hwaits := Pipeline.hwaits_of_owed_zero _ _ _ _ LA lvA 0 fun _ _ => rfl
  pre c := iprop(StableHlo.held (c : Thread nD τ) (Pipeline.ucRefs τ sig) (B1 m ρ c) ∗ Rd c)
  post c := iprop(StableHlo.held (c : Thread nD τ) (Pipeline.ucRefs τ sig) (B2 m ρ c) ∗ Rd c)
  X c := iprop(∃ r, prngReg c r)
  Y c := iprop(∃ r, prngReg c r)
  Z c := Pipeline.unscopedRest (Ix := Unit) (Name := ℕ) (U := UR sig nD τ) (Lvl := ℕ) spec0 c (T1 m ρ c)
  hentry c := by
    rw [Pipeline.ownSems0_none]
    have hsplit := Pipeline.arrays_of_unscopedBufs (p := 0) (pcfgs (F := F)) adm (pdatsA m ρ) launch0.win launch0.arr_whole c
      ((pdatsA m ρ 0 c).share_full fun _ => rfl) (T1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsA m ρ 0 c).Φ 0 = Phi0 c from rfl, ← PhiA0_eq]; unfold Pipeline.ΦA
    iintro ⟨Hp, -, Hr⟩
    isplitl [Hr]; · iexact Hr
    iexact Hp
  hout c := by
    rw [Pipeline.ownSems0_none, show (pdatsA m ρ 0 c).Φ (Fin.last _) = Phi0 c from rfl, ← PhiA0_eq]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdatsA m ρ) ((pdatsA m ρ 0 c).share_full fun _ => rfl)
      (T1 m ρ c) (T2 m ρ c) ((pdatsA m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `B5`, left at `B6`. -/
def regA1 : Pipeline.RegionSeg (pcfgs (F := F)) adm (pdatsA m ρ) () defs₀ 𝒱A LA lvA 1 where
  win := launch1.win.to₀
  block_pos := launch1.block_pos
  stage_whole := launch1.stage_whole
  K := PEmpty
  osem k := k.elim
  ho := Pipeline.OwnSemFacts.none _
  hbody c := (body_obligation1 (T5 m ρ) c).loose
  hwaits := Pipeline.hwaits_of_owed_zero _ _ _ _ LA lvA 1 fun _ _ => rfl
  pre c := iprop(StableHlo.held (c : Thread nD τ) (Pipeline.ucRefs τ sig) (B5 m ρ c) ∗ Rd c)
  post c := iprop(StableHlo.held (c : Thread nD τ) (Pipeline.ucRefs τ sig) (B6 m ρ c) ∗ Rd c)
  X c := iprop(∃ r, prngReg c r)
  Y c := iprop(∃ r, prngReg c r)
  Z c := Pipeline.unscopedRest (Ix := Unit) (Name := ℕ) (U := UR sig nD τ) (Lvl := ℕ) spec1 c (T5 m ρ c)
  hentry c := by
    rw [Pipeline.ownSems0_none]
    have hsplit := Pipeline.arrays_of_unscopedBufs (p := 1) (pcfgs (F := F)) adm (pdatsA m ρ) launch1.win launch1.arr_whole c
      ((pdatsA m ρ 1 c).share_full fun _ => rfl) (T5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsA m ρ 1 c).Φ 0 = Phi1 c from rfl, ← PhiA1_eq]; unfold Pipeline.ΦA
    iintro ⟨Hp, -, Hr⟩
    isplitl [Hr]; · iexact Hr
    iexact Hp
  hout c := by
    rw [Pipeline.ownSems0_none, show (pdatsA m ρ 1 c).Φ (Fin.last _) = Phi1 c from rfl, ← PhiA1_eq]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdatsA m ρ) ((pdatsA m ρ 1 c).share_full fun _ => rfl)
      (T5 m ρ c) (T6 m ρ c) ((pdatsA m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `B9`, left at `B10`. -/
def regA2 : Pipeline.RegionSeg (pcfgs (F := F)) adm (pdatsA m ρ) () defs₀ 𝒱A LA lvA 2 where
  win := launch2.win.to₀
  block_pos := launch2.block_pos
  stage_whole := launch2.stage_whole
  K := PEmpty
  osem k := k.elim
  ho := Pipeline.OwnSemFacts.none _
  hbody c := (body_obligation2 (T9 m ρ) c).loose
  hwaits := Pipeline.hwaits_of_owed_zero _ _ _ _ LA lvA 2 fun _ _ => rfl
  pre c := iprop(StableHlo.held (c : Thread nD τ) (Pipeline.ucRefs τ sig) (B9 m ρ c) ∗ Rd c)
  post c := iprop(StableHlo.held (c : Thread nD τ) (Pipeline.ucRefs τ sig) (B10 m ρ c) ∗ Rd c)
  X c := iprop(∃ r, prngReg c r)
  Y c := iprop(∃ r, prngReg c r)
  Z c := Pipeline.unscopedRest (Ix := Unit) (Name := ℕ) (U := UR sig nD τ) (Lvl := ℕ) spec2 c (T9 m ρ c)
  hentry c := by
    rw [Pipeline.ownSems0_none]
    have hsplit := Pipeline.arrays_of_unscopedBufs (p := 2) (pcfgs (F := F)) adm (pdatsA m ρ) launch2.win launch2.arr_whole c
      ((pdatsA m ρ 2 c).share_full fun _ => rfl) (T9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsA m ρ 2 c).Φ 0 = Phi2 c from rfl, ← PhiA2_eq]; unfold Pipeline.ΦA
    iintro ⟨Hp, -, Hr⟩
    isplitl [Hr]; · iexact Hr
    iexact Hp
  hout c := by
    rw [Pipeline.ownSems0_none, show (pdatsA m ρ 2 c).Φ (Fin.last _) = Phi2 c from rfl, ← PhiA2_eq]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdatsA m ρ) ((pdatsA m ρ 2 c).share_full fun _ => rfl)
      (T9 m ρ c) (T10 m ρ c) ((pdatsA m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `B11`, left at `B12`. Its invariant starts
    with the accumulator at anything and ends with the accumulator's last contents forgotten. -/
def regA3 : Pipeline.RegionSeg (pcfgs (F := F)) adm (pdatsA m ρ) () defs₀ 𝒱A LA lvA 3 where
  win := launch3.win.to₀
  block_pos := launch3.block_pos
  stage_whole := launch3.stage_whole
  K := PEmpty
  osem k := k.elim
  ho := Pipeline.OwnSemFacts.none _
  hbody c := (body_obligation3 (T11 m ρ) c).loose
  hwaits := Pipeline.hwaits_of_owed_zero _ _ _ _ LA lvA 3 fun _ _ => rfl
  pre c := iprop(StableHlo.held (c : Thread nD τ) (Pipeline.ucRefs τ sig) (B11 m ρ c) ∗ Rd c)
  post c := iprop(StableHlo.held (c : Thread nD τ) (Pipeline.ucRefs τ sig) (B12 m ρ c) ∗ Rd c)
  X c := iprop(∃ r, prngReg c r)
  Y c := iprop(∃ r, prngReg c r)
  Z c := Pipeline.unscopedRest (Ix := Unit) (Name := ℕ) (U := UR sig nD τ) (Lvl := ℕ) spec3 c (T11 m ρ c)
  hentry c := by
    rw [Pipeline.ownSems0_none]
    have hsplit := Pipeline.arrays_of_unscopedBufs (p := 3) (pcfgs (F := F)) adm (pdatsA m ρ) launch3.win launch3.arr_whole c
      ((pdatsA m ρ 3 c).share_full fun _ => rfl) (T11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsA m ρ 3 c).Φ 0 = Phi3any c from rfl, ← PhiA3_eq]; unfold Pipeline.ΦA
    iintro ⟨Hp, -, Hr⟩
    isplitl [Hr]; · iexact Hr
    iexact Hp
  hout c := by
    rw [Pipeline.ownSems0_none]
    have h1 := Phi3_out (T11 m ρ) c (Fin.last _) (by rw [Fin.val_last]; have : cfg3.N = 32 := N_3; omega)
    have h2 : (Phi3any c : sProp 𝕄) ⊢ iprop((∃ r, prngReg c r) ∗ emp ∗ Pipeline.scopedRest (Ix := Unit) (Name := ℕ) (U := UR sig nD τ) (Lvl := ℕ) (Val := Elt F) spec3 c) := by
      rw [← PhiA3_eq]; unfold Pipeline.ΦA
      iintro ⟨Hr, Hp⟩
      isplitl [Hp]; · iexact Hp
      isplitr; · iempintro
      iexact Hr
    exact h1.trans h2
  hexit c := by
    have hjoin := Pipeline.unscopedBufs_of_arrays (p := 3) (pcfgs (F := F)) adm (Ix := Unit) (Name := ℕ) (U := UR sig nD τ) (Lvl := ℕ)
      launch3.win launch3.arr_whole c (pdatsA m ρ) ((pdatsA m ρ 3 c).share_full fun _ => rfl)
      (T11 m ρ c) (T12 m ρ c) ((pdatsA m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at `B13`, left at `B14`. -/
def regA4 : Pipeline.RegionSeg (pcfgs (F := F)) adm (pdatsA m ρ) () defs₀ 𝒱A LA lvA 4 where
  win := launch4.win.to₀
  block_pos := launch4.block_pos
  stage_whole := launch4.stage_whole
  K := PEmpty
  osem k := k.elim
  ho := Pipeline.OwnSemFacts.none _
  hbody c := (body_obligation4 (T13 m ρ) c).loose
  hwaits := Pipeline.hwaits_of_owed_zero _ _ _ _ LA lvA 4 fun _ _ => rfl
  pre c := iprop(StableHlo.held (c : Thread nD τ) (Pipeline.ucRefs τ sig) (B13 m ρ c) ∗ Rd c)
  post c := iprop(StableHlo.held (c : Thread nD τ) (Pipeline.ucRefs τ sig) (B14 m ρ c) ∗ Rd c)
  X c := iprop(∃ r, prngReg c r)
  Y c := iprop(∃ r, prngReg c r)
  Z c := Pipeline.unscopedRest (Ix := Unit) (Name := ℕ) (U := UR sig nD τ) (Lvl := ℕ) spec4 c (T13 m ρ c)
  hentry c := by
    rw [Pipeline.ownSems0_none]
    have hsplit := Pipeline.arrays_of_unscopedBufs (p := 4) (pcfgs (F := F)) adm (pdatsA m ρ) launch4.win launch4.arr_whole c
      ((pdatsA m ρ 4 c).share_full fun _ => rfl) (T13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsA m ρ 4 c).Φ 0 = Phi4 c from rfl, ← PhiA4_eq]; unfold Pipeline.ΦA
    iintro ⟨Hp, -, Hr⟩
    isplitl [Hr]; · iexact Hr
    iexact Hp
  hout c := by
    rw [Pipeline.ownSems0_none, show (pdatsA m ρ 4 c).Φ (Fin.last _) = Phi4 c from rfl, ← PhiA4_eq]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdatsA m ρ) ((pdatsA m ρ 4 c).share_full fun _ => rfl)
      (T13 m ρ c) (T14 m ρ c) ((pdatsA m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 over the thread state: entered from every unscoped buffer at `B15`, left at `B16`. Its invariant starts
    with the accumulator at anything and ends with the accumulator's last contents forgotten. -/
def regA5 : Pipeline.RegionSeg (pcfgs (F := F)) adm (pdatsA m ρ) () defs₀ 𝒱A LA lvA 5 where
  win := launch5.win.to₀
  block_pos := launch5.block_pos
  stage_whole := launch5.stage_whole
  K := PEmpty
  osem k := k.elim
  ho := Pipeline.OwnSemFacts.none _
  hbody c := (body_obligation5 (T15 m ρ) c).loose
  hwaits := Pipeline.hwaits_of_owed_zero _ _ _ _ LA lvA 5 fun _ _ => rfl
  pre c := iprop(StableHlo.held (c : Thread nD τ) (Pipeline.ucRefs τ sig) (B15 m ρ c) ∗ Rd c)
  post c := iprop(StableHlo.held (c : Thread nD τ) (Pipeline.ucRefs τ sig) (B16 m ρ c) ∗ Rd c)
  X c := iprop(∃ r, prngReg c r)
  Y c := iprop(∃ r, prngReg c r)
  Z c := Pipeline.unscopedRest (Ix := Unit) (Name := ℕ) (U := UR sig nD τ) (Lvl := ℕ) spec5 c (T15 m ρ c)
  hentry c := by
    rw [Pipeline.ownSems0_none]
    have hsplit := Pipeline.arrays_of_unscopedBufs (p := 5) (pcfgs (F := F)) adm (pdatsA m ρ) launch5.win launch5.arr_whole c
      ((pdatsA m ρ 5 c).share_full fun _ => rfl) (T15 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsA m ρ 5 c).Φ 0 = Phi5any c from rfl, ← PhiA5_eq]; unfold Pipeline.ΦA
    iintro ⟨Hp, -, Hr⟩
    isplitl [Hr]; · iexact Hr
    iexact Hp
  hout c := by
    rw [Pipeline.ownSems0_none]
    have h1 := Phi5_out (T15 m ρ) c (Fin.last _) (by rw [Fin.val_last]; have : cfg5.N = 32 := N_5; omega)
    have h2 : (Phi5any c : sProp 𝕄) ⊢ iprop((∃ r, prngReg c r) ∗ emp ∗ Pipeline.scopedRest (Ix := Unit) (Name := ℕ) (U := UR sig nD τ) (Lvl := ℕ) (Val := Elt F) spec5 c) := by
      rw [← PhiA5_eq]; unfold Pipeline.ΦA
      iintro ⟨Hr, Hp⟩
      isplitl [Hp]; · iexact Hp
      isplitr; · iempintro
      iexact Hr
    exact h1.trans h2
  hexit c := by
    have hjoin := Pipeline.unscopedBufs_of_arrays (p := 5) (pcfgs (F := F)) adm (Ix := Unit) (Name := ℕ) (U := UR sig nD τ) (Lvl := ℕ)
      launch5.win launch5.arr_whole c (pdatsA m ρ) ((pdatsA m ρ 5 c).share_full fun _ => rfl)
      (T15 m ρ c) (T16 m ρ c) ((pdatsA m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

/-- @main's 17 items in order: a host segment per stretch from its boundary's contents, a region per pallas_call. -/
abbrev segsA : List (Pipeline.Seg (pcfgs (F := F)) adm (pdatsA m ρ) () defs₀ 𝒱A LA lvA) :=
  [ .host (hsegA hostOps0 hostOps0_sub hostOps0_fresh (B0 m ρ)),
    .region (regA0 m ρ),
    .host (hsegA hostOps1 hostOps1_sub hostOps1_fresh (B2 m ρ)),
    .host (hsegA hostOps1_1 hostOps1_1_sub hostOps1_1_fresh (B3 m ρ)),
    .host (hsegA hostOps1_2 hostOps1_2_sub hostOps1_2_fresh (B4 m ρ)),
    .region (regA1 m ρ),
    .host (hsegA hostOps2 hostOps2_sub hostOps2_fresh (B6 m ρ)),
    .host (hsegA hostOps2_1 hostOps2_1_sub hostOps2_1_fresh (B7 m ρ)),
    .host (hsegA hostOps2_2 hostOps2_2_sub hostOps2_2_fresh (B8 m ρ)),
    .region (regA2 m ρ),
    .host (hsegA hostOps3 hostOps3_sub hostOps3_fresh (B10 m ρ)),
    .region (regA3 m ρ),
    .host (hsegA hostOps4 hostOps4_sub hostOps4_fresh (B12 m ρ)),
    .region (regA4 m ρ),
    .host (hsegA hostOps5 hostOps5_sub hostOps5_fresh (B14 m ρ)),
    .region (regA5 m ρ),
    .host (hsegA hostOps6 hostOps6_sub hostOps6_fresh (B16 m ρ)) ]

/-- @main is the run of the segments. -/
theorem main_runA (c : Dev nD) : main (F := F) c = Pipeline.Seg.run (segsA m ρ) := (main_chain c).trans (by chain_rfl)

set_option backward.isDefEq.respectTransparency.types false in
/-- THE RUN. From any memory with zero counters every weakly fair execution of @main terminates without a fault, and
    every final state holds each unscoped buffer of each core at the last valuation `B17`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B17 m ρ c b) :=
  Pipeline.θ_run_regions_kit (pcfgs (F := F)) adm (pdatsA m ρ) () cellOf_inj emb₁ defs₀ 𝒱A LA lvA m ρ main (segsA m ρ)
    (fun c Q => by rw [main_runA m ρ c])
    (by simp only [segsA, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ Rd c))
    (Tₙ := fun c => iprop(StableHlo.held (c : Thread nD τ) (Pipeline.ucRefs τ sig) (B17 m ρ c) ∗ ∃ r, prngReg c r))
    (hch := ⟨fun _ => .rfl, fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun _ => .rfl,
      fun c => by
        show (iprop(StableHlo.held (c : Thread nD τ) (Pipeline.ucRefs τ sig) (B17 m ρ c) ∗ Rd c) : sProp 𝕄) ⊢ _
        iintro ⟨Hh, Hp, Ho⟩
        isplitl [Hh Hp]
        · isplitl [Hh]; · iexact Hh
          iexact Hp
        iexact Ho⟩)
    (hinit := by
      refine Pipeline.initEach LA lvA fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B17 m ρ c b)
    (hfin := fun c s' => by
      iintro ⟨⟨Hh, -⟩, HSI⟩
      unfold StableHlo.held
      imodintro
      iapply (pointsTo_read_all (Pipeline.ucRefs τ sig) (fun b => (((c : Thread nD τ)).1, b)) (B17 m ρ c) s')
      isplitl [Hh] <;> iassumption)
    (hQ := fun s h c => h c)

end Cert.KernelIdeal.Acc

end
-- ==== Proof.KeepI.lean ====
/-
  What each item of @main leaves alone.

  A host stretch changes only the buffers its operations write; a region changes only its output array (its input
  arrays end as they were, and every buffer that is none of its arrays is untouched). From these, a buffer that is
  written once and read later is read unchanged, and the argument arrays are read everywhere as launched.
-/
import proofs.«157716_j2267742732442_1_alg».proof.Proof.RunI

set_option maxRecDepth 16384

noncomputable section

namespace Cert.KernelIdeal.Acc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]
variable (m : (ℓ : Loc nD τ sig) → Buf (Elt F) ℓ) (ρ : Dev nD → PrngReg) (c : Dev nD)

/-! ## One item at a time -/

theorem K1 (r : Ref sig .tc) (h : r ∉ hostOps0_W) : B1 m ρ c r = B0 m ρ c r :=
  StableHlo.after_of_writes_sub hostOps0 _ hostOps0_writes h
theorem K2 (r : Ref sig .tc) (h : ∀ w, Pipeline.arrRef spec0 w ≠ r) : B2 m ρ c r = B1 m ρ c r := B2_of_ne m ρ c r h
theorem K2in (w : Fin cfg0.W) (hw : (cfg0.win w).isOut = false) :
    B2 m ρ c (Pipeline.arrRef spec0 w) = B1 m ρ c (Pipeline.arrRef spec0 w) :=
  (B2_arr m ρ c w).trans (((dat0 (T1 m ρ) c).arrAt_in w hw _).trans (A_eq0 (T1 m ρ) c w))
theorem K3 (r : Ref sig .tc) (h : r ∉ hostOps1_W) : B3 m ρ c r = B2 m ρ c r :=
  StableHlo.after_of_writes_sub hostOps1 _ hostOps1_writes h
theorem K4 (r : Ref sig .tc) (h : r ∉ hostOps1_1_W) : B4 m ρ c r = B3 m ρ c r :=
  StableHlo.after_of_writes_sub hostOps1_1 _ hostOps1_1_writes h
theorem K5 (r : Ref sig .tc) (h : r ∉ hostOps1_2_W) : B5 m ρ c r = B4 m ρ c r :=
  StableHlo.after_of_writes_sub hostOps1_2 _ hostOps1_2_writes h
theorem K6 (r : Ref sig .tc) (h : ∀ w, Pipeline.arrRef spec1 w ≠ r) : B6 m ρ c r = B5 m ρ c r := B6_of_ne m ρ c r h
theorem K7 (r : Ref sig .tc) (h : r ∉ hostOps2_W) : B7 m ρ c r = B6 m ρ c r :=
  StableHlo.after_of_writes_sub hostOps2 _ hostOps2_writes h
theorem K8 (r : Ref sig .tc) (h : r ∉ hostOps2_1_W) : B8 m ρ c r = B7 m ρ c r :=
  StableHlo.after_of_writes_sub hostOps2_1 _ hostOps2_1_writes h
theorem K9 (r : Ref sig .tc) (h : r ∉ hostOps2_2_W) : B9 m ρ c r = B8 m ρ c r :=
  StableHlo.after_of_writes_sub hostOps2_2 _ hostOps2_2_writes h
theorem K10 (r : Ref sig .tc) (h : ∀ w, Pipeline.arrRef spec2 w ≠ r) : B10 m ρ c r = B9 m ρ c r := B10_of_ne m ρ c r h
theorem K10in (w : Fin cfg2.W) (hw : (cfg2.win w).isOut = false) :
    B10 m ρ c (Pipeline.arrRef spec2 w) = B9 m ρ c (Pipeline.arrRef spec2 w) :=
  (B10_arr m ρ c w).trans (((dat2 (T9 m ρ) c).arrAt_in w hw _).trans (A_eq2 (T9 m ρ) c w))
theorem K11 (r : Ref sig .tc) (h : r ∉ hostOps3_W) : B11 m ρ c r = B10 m ρ c r :=
  StableHlo.after_of_writes_sub hostOps3 _ hostOps3_writes h
theorem K12 (r : Ref sig .tc) (h : ∀ w, Pipeline.arrRef spec3 w ≠ r) : B12 m ρ c r = B11 m ρ c r := B12_of_ne m ρ c r h
theorem K12in (w : Fin cfg3.W) (hw : (cfg3.win w).isOut = false) :
    B12 m ρ c (Pipeline.arrRef spec3 w) = B11 m ρ c (Pipeline.arrRef spec3 w) :=
  (B12_arr m ρ c w).trans (((dat3 (T11 m ρ) c).arrAt_in w hw _).trans (A_eq3 (T11 m ρ) c w))
theorem K13 (r : Ref sig .tc) (h : r ∉ hostOps4_W) : B13 m ρ c r = B12 m ρ c r :=
  StableHlo.after_of_writes_sub hostOps4 _ hostOps4_writes h
theorem K14 (r : Ref sig .tc) (h : ∀ w, Pipeline.arrRef spec4 w ≠ r) : B14 m ρ c r = B13 m ρ c r := B14_of_ne m ρ c r h
theorem K15 (r : Ref sig .tc) (h : r ∉ hostOps5_W) : B15 m ρ c r = B14 m ρ c r :=
  StableHlo.after_of_writes_sub hostOps5 _ hostOps5_writes h
theorem K16 (r : Ref sig .tc) (h : ∀ w, Pipeline.arrRef spec5 w ≠ r) : B16 m ρ c r = B15 m ρ c r := B16_of_ne m ρ c r h
theorem K16in (w : Fin cfg5.W) (hw : (cfg5.win w).isOut = false) :
    B16 m ρ c (Pipeline.arrRef spec5 w) = B15 m ρ c (Pipeline.arrRef spec5 w) :=
  (B16_arr m ρ c w).trans (((dat5 (T15 m ρ) c).arrAt_in w hw _).trans (A_eq5 (T15 m ρ) c w))
theorem K17 (r : Ref sig .tc) (h : r ∉ hostOps6_W) : B17 m ρ c r = B16 m ρ c r :=
  StableHlo.after_of_writes_sub hostOps6 _ hostOps6_writes h

/-! ## A buffer that nothing writes and that is no region's array -/

/-- No host stretch writes `r` and `r` is no array of any region. -/
structure Untouched (r : Ref sig .tc) : Prop where
  h0 : r ∉ hostOps0_W
  r0 : ∀ w, Pipeline.arrRef spec0 w ≠ r
  h1 : r ∉ hostOps1_W
  h1a : r ∉ hostOps1_1_W
  h1b : r ∉ hostOps1_2_W
  r1 : ∀ w, Pipeline.arrRef spec1 w ≠ r
  h2 : r ∉ hostOps2_W
  h2a : r ∉ hostOps2_1_W
  h2b : r ∉ hostOps2_2_W
  r2 : ∀ w, Pipeline.arrRef spec2 w ≠ r
  h3 : r ∉ hostOps3_W
  r3 : ∀ w, Pipeline.arrRef spec3 w ≠ r
  h4 : r ∉ hostOps4_W
  r4 : ∀ w, Pipeline.arrRef spec4 w ≠ r
  h5 : r ∉ hostOps5_W
  r5 : ∀ w, Pipeline.arrRef spec5 w ≠ r
  h6 : r ∉ hostOps6_W

variable {r : Ref sig .tc}

theorem U1 (u : Untouched r) : B1 m ρ c r = B0 m ρ c r := K1 m ρ c r u.h0
theorem U2 (u : Untouched r) : B2 m ρ c r = B0 m ρ c r := (K2 m ρ c r u.r0).trans (U1 m ρ c u)
theorem U3 (u : Untouched r) : B3 m ρ c r = B0 m ρ c r := (K3 m ρ c r u.h1).trans (U2 m ρ c u)
theorem U4 (u : Untouched r) : B4 m ρ c r = B0 m ρ c r := (K4 m ρ c r u.h1a).trans (U3 m ρ c u)
theorem U5 (u : Untouched r) : B5 m ρ c r = B0 m ρ c r := (K5 m ρ c r u.h1b).trans (U4 m ρ c u)
theorem U6 (u : Untouched r) : B6 m ρ c r = B0 m ρ c r := (K6 m ρ c r u.r1).trans (U5 m ρ c u)
theorem U7 (u : Untouched r) : B7 m ρ c r = B0 m ρ c r := (K7 m ρ c r u.h2).trans (U6 m ρ c u)
theorem U8 (u : Untouched r) : B8 m ρ c r = B0 m ρ c r := (K8 m ρ c r u.h2a).trans (U7 m ρ c u)
theorem U9 (u : Untouched r) : B9 m ρ c r = B0 m ρ c r := (K9 m ρ c r u.h2b).trans (U8 m ρ c u)
theorem U10 (u : Untouched r) : B10 m ρ c r = B0 m ρ c r := (K10 m ρ c r u.r2).trans (U9 m ρ c u)
theorem U11 (u : Untouched r) : B11 m ρ c r = B0 m ρ c r := (K11 m ρ c r u.h3).trans (U10 m ρ c u)
theorem U12 (u : Untouched r) : B12 m ρ c r = B0 m ρ c r := (K12 m ρ c r u.r3).trans (U11 m ρ c u)
theorem U13 (u : Untouched r) : B13 m ρ c r = B0 m ρ c r := (K13 m ρ c r u.h4).trans (U12 m ρ c u)
theorem U14 (u : Untouched r) : B14 m ρ c r = B0 m ρ c r := (K14 m ρ c r u.r4).trans (U13 m ρ c u)
theorem U15 (u : Untouched r) : B15 m ρ c r = B0 m ρ c r := (K15 m ρ c r u.h5).trans (U14 m ρ c u)
theorem U16 (u : Untouched r) : B16 m ρ c r = B0 m ρ c r := (K16 m ρ c r u.r5).trans (U15 m ρ c u)
theorem U17 (u : Untouched r) : B17 m ρ c r = B0 m ρ c r := (K17 m ρ c r u.h6).trans (U16 m ρ c u)

/-! ## The argument arrays -/

theorem ut1 : Untouched main_arg1 := ⟨by decide, by decide, by decide, by decide, by decide, by decide, by decide, by decide, by decide, by decide, by decide, by decide, by decide, by decide, by decide, by decide, by decide⟩
theorem ut2 : Untouched main_arg2 := ⟨by decide, by decide, by decide, by decide, by decide, by decide, by decide, by decide, by decide, by decide, by decide, by decide, by decide, by decide, by decide, by decide, by decide⟩
theorem ut3 : Untouched main_arg3 := ⟨by decide, by decide, by decide, by decide, by decide, by decide, by decide, by decide, by decide, by decide, by decide, by decide, by decide, by decide, by decide, by decide, by decide⟩
theorem ut4 : Untouched main_arg4 := ⟨by decide, by decide, by decide, by decide, by decide, by decide, by decide, by decide, by decide, by decide, by decide, by decide, by decide, by decide, by decide, by decide, by decide⟩
theorem ut5 : Untouched main_arg5 := ⟨by decide, by decide, by decide, by decide, by decide, by decide, by decide, by decide, by decide, by decide, by decide, by decide, by decide, by decide, by decide, by decide, by decide⟩
theorem ut7 : Untouched main_arg7 := ⟨by decide, by decide, by decide, by decide, by decide, by decide, by decide, by decide, by decide, by decide, by decide, by decide, by decide, by decide, by decide, by decide, by decide⟩
theorem ut8 : Untouched main_arg8 := ⟨by decide, by decide, by decide, by decide, by decide, by decide, by decide, by decide, by decide, by decide, by decide, by decide, by decide, by decide, by decide, by decide, by decide⟩
theorem ut9 : Untouched main_arg9 := ⟨by decide, by decide, by decide, by decide, by decide, by decide, by decide, by decide, by decide, by decide, by decide, by decide, by decide, by decide, by decide, by decide, by decide⟩
theorem ut10 : Untouched main_arg10 := ⟨by decide, by decide, by decide, by decide, by decide, by decide, by decide, by decide, by decide, by decide, by decide, by decide, by decide, by decide, by decide, by decide, by decide⟩
theorem ut11 : Untouched main_arg11 := ⟨by decide, by decide, by decide, by decide, by decide, by decide, by decide, by decide, by decide, by decide, by decide, by decide, by decide, by decide, by decide, by decide, by decide⟩
theorem ut12 : Untouched main_arg12 := ⟨by decide, by decide, by decide, by decide, by decide, by decide, by decide, by decide, by decide, by decide, by decide, by decide, by decide, by decide, by decide, by decide, by decide⟩
theorem ut13 : Untouched main_arg13 := ⟨by decide, by decide, by decide, by decide, by decide, by decide, by decide, by decide, by decide, by decide, by decide, by decide, by decide, by decide, by decide, by decide, by decide⟩
theorem ut14 : Untouched main_arg14 := ⟨by decide, by decide, by decide, by decide, by decide, by decide, by decide, by decide, by decide, by decide, by decide, by decide, by decide, by decide, by decide, by decide, by decide⟩
theorem ut15 : Untouched main_arg15 := ⟨by decide, by decide, by decide, by decide, by decide, by decide, by decide, by decide, by decide, by decide, by decide, by decide, by decide, by decide, by decide, by decide, by decide⟩
theorem ut16 : Untouched main_arg16 := ⟨by decide, by decide, by decide, by decide, by decide, by decide, by decide, by decide, by decide, by decide, by decide, by decide, by decide, by decide, by decide, by decide, by decide⟩
theorem ut17 : Untouched main_arg17 := ⟨by decide, by decide, by decide, by decide, by decide, by decide, by decide, by decide, by decide, by decide, by decide, by decide, by decide, by decide, by decide, by decide, by decide⟩
theorem ut18 : Untouched main_arg18 := ⟨by decide, by decide, by decide, by decide, by decide, by decide, by decide, by decide, by decide, by decide, by decide, by decide, by decide, by decide, by decide, by decide, by decide⟩
theorem ut19 : Untouched main_arg19 := ⟨by decide, by decide, by decide, by decide, by decide, by decide, by decide, by decide, by decide, by decide, by decide, by decide, by decide, by decide, by decide, by decide, by decide⟩

/-! ## The node features and PPMI: input arrays of two regions each -/

theorem A0_1 : B1 m ρ c main_arg0 = B0 m ρ c main_arg0 := K1 m ρ c _ (by decide)
theorem A0_2 : B2 m ρ c main_arg0 = B0 m ρ c main_arg0 := (K2in m ρ c 0 rfl).trans (A0_1 m ρ c)
theorem A0_9 : B9 m ρ c main_arg0 = B0 m ρ c main_arg0 :=
  (K9 m ρ c _ (by decide)).trans <| (K8 m ρ c _ (by decide)).trans <| (K7 m ρ c _ (by decide)).trans <| (K6 m ρ c _ (by decide)).trans <|
  (K5 m ρ c _ (by decide)).trans <| (K4 m ρ c _ (by decide)).trans <| (K3 m ρ c _ (by decide)).trans <| A0_2 m ρ c
theorem A0_17 : B17 m ρ c main_arg0 = B0 m ρ c main_arg0 :=
  (K17 m ρ c _ (by decide)).trans <| (K16 m ρ c _ (by decide)).trans <| (K15 m ρ c _ (by decide)).trans <| (K14 m ρ c _ (by decide)).trans <|
  (K13 m ρ c _ (by decide)).trans <| (K12 m ρ c _ (by decide)).trans <| (K11 m ρ c _ (by decide)).trans <| (K10in m ρ c 0 rfl).trans <| A0_9 m ρ c

theorem A6_11 : B11 m ρ c main_arg6 = B0 m ρ c main_arg6 :=
  (K11 m ρ c _ (by decide)).trans <| (K10 m ρ c _ (by decide)).trans <| (K9 m ρ c _ (by decide)).trans <| (K8 m ρ c _ (by decide)).trans <|
  (K7 m ρ c _ (by decide)).trans <| (K6 m ρ c _ (by decide)).trans <| (K5 m ρ c _ (by decide)).trans <| (K4 m ρ c _ (by decide)).trans <|
  (K3 m ρ c _ (by decide)).trans <| (K2 m ρ c _ (by decide)).trans <| K1 m ρ c _ (by decide)
theorem A6_15 : B15 m ρ c main_arg6 = B0 m ρ c main_arg6 :=
  (K15 m ρ c _ (by decide)).trans <| (K14 m ρ c _ (by decide)).trans <| (K13 m ρ c _ (by decide)).trans <| (K12in m ρ c 0 rfl).trans <| A6_11 m ρ c
theorem A6_17 : B17 m ρ c main_arg6 = B0 m ρ c main_arg6 :=
  (K17 m ρ c _ (by decide)).trans <| (K16in m ρ c 0 rfl).trans <| A6_15 m ρ c

end Cert.KernelIdeal.Acc

end
-- ==== Proof.FrameI.lean ====
/-
  The frame claim: every weakly fair execution of @main terminates without a fault and leaves each of the twenty
  argument arrays as launched. Read off the whole run: the final state holds every unscoped buffer at the last
  valuation, and no item of @main changes an argument array (no host operation writes one; a region changes only its
  output array, which is never an argument).
-/
import proofs.«157716_j2267742732442_1_alg».proof.Proof.KeepI

set_option maxRecDepth 16384

noncomputable section

namespace Cert.KernelIdeal.Acc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]
variable (m : (ℓ : Loc nD τ sig) → Buf (Elt F) ℓ) (ρ : Dev nD → PrngReg)

/-- From "every unscoped buffer is at the last valuation": each argument array is as launched. -/
theorem args_of_all (c : Dev nD) (mem : (ℓ : Loc nD τ sig) → Buf (Elt F) ℓ)
    (h : ∀ b ∈ Pipeline.ucRefs τ sig, mem (((c : Thread nD τ)).1, b) = B17 m ρ c b) :
      mem ((c.tc : Thread nD τ).loc main_arg0) = m ((c.tc : Thread nD τ).loc main_arg0)
      ∧ mem ((c.tc : Thread nD τ).loc main_arg1) = m ((c.tc : Thread nD τ).loc main_arg1)
      ∧ mem ((c.tc : Thread nD τ).loc main_arg2) = m ((c.tc : Thread nD τ).loc main_arg2)
      ∧ mem ((c.tc : Thread nD τ).loc main_arg3) = m ((c.tc : Thread nD τ).loc main_arg3)
      ∧ mem ((c.tc : Thread nD τ).loc main_arg4) = m ((c.tc : Thread nD τ).loc main_arg4)
      ∧ mem ((c.tc : Thread nD τ).loc main_arg5) = m ((c.tc : Thread nD τ).loc main_arg5)
      ∧ mem ((c.tc : Thread nD τ).loc main_arg6) = m ((c.tc : Thread nD τ).loc main_arg6)
      ∧ mem ((c.tc : Thread nD τ).loc main_arg7) = m ((c.tc : Thread nD τ).loc main_arg7)
      ∧ mem ((c.tc : Thread nD τ).loc main_arg8) = m ((c.tc : Thread nD τ).loc main_arg8)
      ∧ mem ((c.tc : Thread nD τ).loc main_arg9) = m ((c.tc : Thread nD τ).loc main_arg9)
      ∧ mem ((c.tc : Thread nD τ).loc main_arg10) = m ((c.tc : Thread nD τ).loc main_arg10)
      ∧ mem ((c.tc : Thread nD τ).loc main_arg11) = m ((c.tc : Thread nD τ).loc main_arg11)
      ∧ mem ((c.tc : Thread nD τ).loc main_arg12) = m ((c.tc : Thread nD τ).loc main_arg12)
      ∧ mem ((c.tc : Thread nD τ).loc main_arg13) = m ((c.tc : Thread nD τ).loc main_arg13)
      ∧ mem ((c.tc : Thread nD τ).loc main_arg14) = m ((c.tc : Thread nD τ).loc main_arg14)
      ∧ mem ((c.tc : Thread nD τ).loc main_arg15) = m ((c.tc : Thread nD τ).loc main_arg15)
      ∧ mem ((c.tc : Thread nD τ).loc main_arg16) = m ((c.tc : Thread nD τ).loc main_arg16)
      ∧ mem ((c.tc : Thread nD τ).loc main_arg17) = m ((c.tc : Thread nD τ).loc main_arg17)
      ∧ mem ((c.tc : Thread nD τ).loc main_arg18) = m ((c.tc : Thread nD τ).loc main_arg18)
      ∧ mem ((c.tc : Thread nD τ).loc main_arg19) = m ((c.tc : Thread nD τ).loc main_arg19) :=
  ⟨(h _ (mem_ucA main_arg0 (by decide))).trans (A0_17 m ρ c),
      (h _ (mem_ucA main_arg1 (by decide))).trans (U17 m ρ c ut1),
      (h _ (mem_ucA main_arg2 (by decide))).trans (U17 m ρ c ut2),
      (h _ (mem_ucA main_arg3 (by decide))).trans (U17 m ρ c ut3),
      (h _ (mem_ucA main_arg4 (by decide))).trans (U17 m ρ c ut4),
      (h _ (mem_ucA main_arg5 (by decide))).trans (U17 m ρ c ut5),
      (h _ (mem_ucA main_arg6 (by decide))).trans (A6_17 m ρ c),
      (h _ (mem_ucA main_arg7 (by decide))).trans (U17 m ρ c ut7),
      (h _ (mem_ucA main_arg8 (by decide))).trans (U17 m ρ c ut8),
      (h _ (mem_ucA main_arg9 (by decide))).trans (U17 m ρ c ut9),
      (h _ (mem_ucA main_arg10 (by decide))).trans (U17 m ρ c ut10),
      (h _ (mem_ucA main_arg11 (by decide))).trans (U17 m ρ c ut11),
      (h _ (mem_ucA main_arg12 (by decide))).trans (U17 m ρ c ut12),
      (h _ (mem_ucA main_arg13 (by decide))).trans (U17 m ρ c ut13),
      (h _ (mem_ucA main_arg14 (by decide))).trans (U17 m ρ c ut14),
      (h _ (mem_ucA main_arg15 (by decide))).trans (U17 m ρ c ut15),
      (h _ (mem_ucA main_arg16 (by decide))).trans (U17 m ρ c ut16),
      (h _ (mem_ucA main_arg17 (by decide))).trans (U17 m ρ c ut17),
      (h _ (mem_ucA main_arg18 (by decide))).trans (U17 m ρ c ut18),
      (h _ (mem_ucA main_arg19 (by decide))).trans (U17 m ρ c ut19)⟩

theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs _ _).mono (fun r h c => args_of_all m ρ c r.2.mem (h c))
    (run_all m ρ)

end Cert.KernelIdeal.Acc

end
-- ==== Proof.RefI.lean ====
/-
  The reference's run and its read-at-an-index lemmas, brought into the unit.
-/
import proofs.«157716_j2267742732442_1_alg».proof.Proof.Gen.ReferenceIdeal.Run
import proofs.«157716_j2267742732442_1_alg».proof.Proof.Gen.ReferenceIdeal.Read
-- ==== Proof.LibAccRead.lean ====
/-
  Reading back a buffer after a list of stores whose LAST store covered the whole buffer.

  A kernel that keeps an accumulator stores the whole accumulator and later loads the whole accumulator again. The
  symbolic run records such a load as "what the load reads after the stores so far". When the most recent store went
  through the whole-shape rectangle at zero offsets, the load through the same rectangle reads that store's payload,
  whatever the earlier stores were.
-/
import Idealize.ShloMosaic.Lib.Pipeline.Value
import Idealize.ShloMosaic.Lib.Pipeline.FrameBody

noncomputable section

namespace Cert.Lib.AccRead

open Idealize.ShloMosaic

variable {Val : EltTy → Type} {S : Shape} {e : EltTy}

/-- A load through the whole-shape rectangle, after stores the last of which went through that rectangle, reads the
    last store's payload. -/
theorem readCov_cons_unit_zero [∀ e, Nonempty (Val e)] {sig : RefSig} {κ : Kind} {sp : Space}
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self .., by
    show y ∈ (Rect.whole S).set; rw [Rect.set_whole]; exact Finset.mem_univ y⟩), View.canon_cons_unit_zero rfl, View.ld_unit_zero rfl]

/-- The two zero offsets of a rank-2 shape, as the printed programs spell them. -/
theorem zero2 : (![0, 0] : Fin 2 → Nat) = fun _ => 0 := funext fun a => by fin_cases a <;> rfl

end Cert.Lib.AccRead

end
-- ==== Proof.PayI.lean ====
/-
  What the bodies' found stores amount to, as the skeletons' payload terms.

  In each region the accumulator update is the payload "previous accumulator + block product", the zeroing is the zero
  splat, and (regions 3 and 5, last step) the output is the payload "positive part of accumulator + bias row". The
  symbolic runs record loads of the accumulator after stores as reads of the store list; since every store and load
  goes through the whole-block rectangle, each such read is the last store's payload. So:
    * one contraction step (regions 0, 1, 2, 4): the output block is  update(x, w, zero);
    * case A (first step): the accumulator ends at  update(x, w, zero);
    * cases B, C: the accumulator ends at  update(x, w, previous);
    * case C: the output block is  finish(update(x, w, previous), bias).
-/
import proofs.«157716_j2267742732442_1_alg».proof.Proof.AccI0
import proofs.«157716_j2267742732442_1_alg».proof.Proof.AccI1
import proofs.«157716_j2267742732442_1_alg».proof.Proof.AccI2
import proofs.«157716_j2267742732442_1_alg».proof.Proof.AccI3
import proofs.«157716_j2267742732442_1_alg».proof.Proof.AccI4
import proofs.«157716_j2267742732442_1_alg».proof.Proof.AccI5
import proofs.«157716_j2267742732442_1_alg».proof.Proof.LibAccRead
import Idealize.ShloMosaic.Lib.Pipeline.Value

set_option maxRecDepth 16384

noncomputable section

namespace Cert.KernelIdeal.Acc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen Cert.Lib.AccRead

variable {F : FTy → Type} [FloatOps F]

theorem out0_eq (c : Dev nD) (i : grid0.Coords)
    (arg3 : Memref sig .tc .vmem S2048x512 .f32) (harg3 : arg3.IsWhole) (arg4 : Memref sig .tc .vmem S512x256 .f32) (harg4 : arg4.IsWhole)
    (arg5 : Memref sig .tc .vmem S1x256 .f32) (harg5 : arg5.IsWhole) (arg6 : Memref sig .tc .vmem S2048x256 .f32) (harg6 : arg6.IsWhole)
    (arg7 : Memref sig .tc .vmem S2048x256 .f32) (harg7 : arg7.IsWhole) (hf : first0 i) (hl : last0 i)
    (x0 : Vec F S2048x512 .f32) (x1 : Vec F S512x256 .f32) (x2 : Vec F S1x256 .f32) :
    out0 c i arg3 harg3 arg4 harg4 arg5 harg5 arg6 harg6 arg7 harg7 hf hl x0 x1 x2 = k0_pay2 x0 x1 (k0_pay1 (F := F)) := by
  unfold out0 bodyRun0
  dsimp only
  rw [View.canon_unit_zero zero2]
  sl_unfold_words
  rw [readCov_cons_unit_zero _ zero2, View.readCov_unit_zero _ zero2]
  simp only [View.readAt_eq_ld, Memref.IsWhole.read_unread, View.ld_unit_zero (S := S2048x512) zero2, View.ld_unit_zero (S := S512x256) zero2]

theorem out1_eq (c : Dev nD) (i : grid1.Coords)
    (arg3 : Memref sig .tc .vmem S2048x256 .f32) (harg3 : arg3.IsWhole) (arg4 : Memref sig .tc .vmem S256x128 .f32) (harg4 : arg4.IsWhole)
    (arg5 : Memref sig .tc .vmem S1x128 .f32) (harg5 : arg5.IsWhole) (arg6 : Memref sig .tc .vmem S2048x128 .f32) (harg6 : arg6.IsWhole)
    (arg7 : Memref sig .tc .vmem S2048x128 .f32) (harg7 : arg7.IsWhole) (hf : first1 i) (hl : last1 i)
    (x0 : Vec F S2048x256 .f32) (x1 : Vec F S256x128 .f32) (x2 : Vec F S1x128 .f32) :
    out1 c i arg3 harg3 arg4 harg4 arg5 harg5 arg6 harg6 arg7 harg7 hf hl x0 x1 x2 = k1_pay2 x0 x1 (k1_pay1 (F := F)) := by
  unfold out1 bodyRun1
  dsimp only
  rw [View.canon_unit_zero zero2]
  sl_unfold_words
  rw [readCov_cons_unit_zero _ zero2, View.readCov_unit_zero _ zero2]
  simp only [View.readAt_eq_ld, Memref.IsWhole.read_unread, View.ld_unit_zero (S := S2048x256) zero2, View.ld_unit_zero (S := S256x128) zero2]

theorem out2_eq (c : Dev nD) (i : grid2.Coords)
    (arg3 : Memref sig .tc .vmem S2048x512 .f32) (harg3 : arg3.IsWhole) (arg4 : Memref sig .tc .vmem S512x256 .f32) (harg4 : arg4.IsWhole)
    (arg5 : Memref sig .tc .vmem S1x256 .f32) (harg5 : arg5.IsWhole) (arg6 : Memref sig .tc .vmem S2048x256 .f32) (harg6 : arg6.IsWhole)
    (arg7 : Memref sig .tc .vmem S2048x256 .f32) (harg7 : arg7.IsWhole) (hf : first2 i) (hl : last2 i)
    (x0 : Vec F S2048x512 .f32) (x1 : Vec F S512x256 .f32) (x2 : Vec F S1x256 .f32) :
    out2 c i arg3 harg3 arg4 harg4 arg5 harg5 arg6 harg6 arg7 harg7 hf hl x0 x1 x2 = k2_pay2 x0 x1 (k2_pay1 (F := F)) := by
  unfold out2 bodyRun2
  dsimp only
  rw [View.canon_unit_zero zero2]
  sl_unfold_words
  rw [readCov_cons_unit_zero _ zero2, View.readCov_unit_zero _ zero2]
  simp only [View.readAt_eq_ld, Memref.IsWhole.read_unread, View.ld_unit_zero (S := S2048x512) zero2, View.ld_unit_zero (S := S512x256) zero2]

theorem out4_eq (c : Dev nD) (i : grid4.Coords)
    (arg3 : Memref sig .tc .vmem S2048x256 .f32) (harg3 : arg3.IsWhole) (arg4 : Memref sig .tc .vmem S256x128 .f32) (harg4 : arg4.IsWhole)
    (arg5 : Memref sig .tc .vmem S1x128 .f32) (harg5 : arg5.IsWhole) (arg6 : Memref sig .tc .vmem S2048x128 .f32) (harg6 : arg6.IsWhole)
    (arg7 : Memref sig .tc .vmem S2048x128 .f32) (harg7 : arg7.IsWhole) (hf : first4 i) (hl : last4 i)
    (x0 : Vec F S2048x256 .f32) (x1 : Vec F S256x128 .f32) (x2 : Vec F S1x128 .f32) :
    out4 c i arg3 harg3 arg4 harg4 arg5 harg5 arg6 harg6 arg7 harg7 hf hl x0 x1 x2 = k4_pay2 x0 x1 (k4_pay1 (F := F)) := by
  unfold out4 bodyRun4
  dsimp only
  rw [View.canon_unit_zero zero2]
  sl_unfold_words
  rw [readCov_cons_unit_zero _ zero2, View.readCov_unit_zero _ zero2]
  simp only [View.readAt_eq_ld, Memref.IsWhole.read_unread, View.ld_unit_zero (S := S2048x256) zero2, View.ld_unit_zero (S := S256x128) zero2]

/-! ## Region 3 -/

theorem sA3_eq (c : Dev nD) (i : grid3.Coords)
    (arg3 : Memref sig .tc .vmem S1024x2048 .f32) (harg3 : arg3.IsWhole) (arg4 : Memref sig .tc .vmem S2048x256 .f32) (harg4 : arg4.IsWhole)
    (arg5 : Memref sig .tc .vmem S1x256 .f32) (harg5 : arg5.IsWhole) (arg6 : Memref sig .tc .vmem S1024x256 .f32) (harg6 : arg6.IsWhole)
    (arg7 : Memref sig .tc .vmem S1024x256 .f32) (harg7 : arg7.IsWhole) (hf : first3 i) (hl : ¬last3 i)
    (x0 : Vec F S1024x2048 .f32) (x1 : Vec F S2048x256 .f32) (x2 : Vec F S1x256 .f32) :
    sA3 c i arg3 harg3 arg4 harg4 arg5 harg5 arg6 harg6 arg7 harg7 hf hl x0 x1 x2 = k3_pay2 x0 x1 (k3_pay1 (F := F)) := by
  unfold sA3 bodyRun3_A
  dsimp only
  rw [View.canon_cons_unit_zero zero2]
  sl_unfold_words
  rw [View.readCov_unit_zero _ zero2]
  simp only [View.readAt_eq_ld, Memref.IsWhole.read_unread, View.ld_unit_zero (S := S1024x2048) zero2, View.ld_unit_zero (S := S2048x256) zero2]

theorem sB3_eq (c : Dev nD) (i : grid3.Coords)
    (arg3 : Memref sig .tc .vmem S1024x2048 .f32) (harg3 : arg3.IsWhole) (arg4 : Memref sig .tc .vmem S2048x256 .f32) (harg4 : arg4.IsWhole)
    (arg5 : Memref sig .tc .vmem S1x256 .f32) (harg5 : arg5.IsWhole) (arg6 : Memref sig .tc .vmem S1024x256 .f32) (harg6 : arg6.IsWhole)
    (arg7 : Memref sig .tc .vmem S1024x256 .f32) (harg7 : arg7.IsWhole) (hf : ¬first3 i) (hl : ¬last3 i)
    (x0 : Vec F S1024x2048 .f32) (x1 : Vec F S2048x256 .f32) (x2 : Vec F S1x256 .f32) (xs : Vec F S1024x256 .f32) :
    sB3 c i arg3 harg3 arg4 harg4 arg5 harg5 arg6 harg6 arg7 harg7 hf hl x0 x1 x2 xs = k3_pay2 x0 x1 xs := by
  unfold sB3 bodyRun3_B
  dsimp only
  rw [View.canon_unit_zero zero2]
  sl_unfold_words
  simp only [View.readAt_eq_ld, Memref.IsWhole.read_unread, View.ld_unit_zero (S := S1024x2048) zero2, View.ld_unit_zero (S := S2048x256) zero2,
    View.ld_unit_zero (S := S1024x256) zero2]

theorem sC3_eq (c : Dev nD) (i : grid3.Coords)
    (arg3 : Memref sig .tc .vmem S1024x2048 .f32) (harg3 : arg3.IsWhole) (arg4 : Memref sig .tc .vmem S2048x256 .f32) (harg4 : arg4.IsWhole)
    (arg5 : Memref sig .tc .vmem S1x256 .f32) (harg5 : arg5.IsWhole) (arg6 : Memref sig .tc .vmem S1024x256 .f32) (harg6 : arg6.IsWhole)
    (arg7 : Memref sig .tc .vmem S1024x256 .f32) (harg7 : arg7.IsWhole) (hf : ¬first3 i) (hl : last3 i)
    (x0 : Vec F S1024x2048 .f32) (x1 : Vec F S2048x256 .f32) (x2 : Vec F S1x256 .f32) (xs : Vec F S1024x256 .f32) :
    sC3 c i arg3 harg3 arg4 harg4 arg5 harg5 arg6 harg6 arg7 harg7 hf hl x0 x1 x2 xs = k3_pay2 x0 x1 xs := by
  unfold sC3 bodyRun3_C
  dsimp only
  sl_unfold_words
  rw [View.canon_unit_zero zero2]
  simp only [View.readAt_eq_ld, Memref.IsWhole.read_unread, View.ld_unit_zero (S := S1024x2048) zero2, View.ld_unit_zero (S := S2048x256) zero2,
    View.ld_unit_zero (S := S1024x256) zero2]

theorem oC3_eq (c : Dev nD) (i : grid3.Coords)
    (arg3 : Memref sig .tc .vmem S1024x2048 .f32) (harg3 : arg3.IsWhole) (arg4 : Memref sig .tc .vmem S2048x256 .f32) (harg4 : arg4.IsWhole)
    (arg5 : Memref sig .tc .vmem S1x256 .f32) (harg5 : arg5.IsWhole) (arg6 : Memref sig .tc .vmem S1024x256 .f32) (harg6 : arg6.IsWhole)
    (arg7 : Memref sig .tc .vmem S1024x256 .f32) (harg7 : arg7.IsWhole) (hf : ¬first3 i) (hl : last3 i)
    (x0 : Vec F S1024x2048 .f32) (x1 : Vec F S2048x256 .f32) (x2 : Vec F S1x256 .f32) (xs : Vec F S1024x256 .f32) :
    oC3 c i arg3 harg3 arg4 harg4 arg5 harg5 arg6 harg6 arg7 harg7 hf hl x0 x1 x2 xs = k3_pay3 (k3_pay2 x0 x1 xs) x2 := by
  unfold oC3 bodyRun3_C
  dsimp only
  rw [View.canon_unit_zero zero2]
  sl_unfold_words
  rw [View.readCov_unit_zero _ zero2]
  simp only [View.readAt_eq_ld, Memref.IsWhole.read_unread, View.ld_unit_zero (S := S1024x2048) zero2, View.ld_unit_zero (S := S2048x256) zero2,
    View.ld_unit_zero (S := S1024x256) zero2, View.ld_unit_zero (S := S1x256) zero2]

/-! ## Region 5 -/

theorem sA5_eq (c : Dev nD) (i : grid5.Coords)
    (arg3 : Memref sig .tc .vmem S1024x2048 .f32) (harg3 : arg3.IsWhole) (arg4 : Memref sig .tc .vmem S2048x128 .f32) (harg4 : arg4.IsWhole)
    (arg5 : Memref sig .tc .vmem S1x128 .f32) (harg5 : arg5.IsWhole) (arg6 : Memref sig .tc .vmem S1024x128 .f32) (harg6 : arg6.IsWhole)
    (arg7 : Memref sig .tc .vmem S1024x128 .f32) (harg7 : arg7.IsWhole) (hf : first5 i) (hl : ¬last5 i)
    (x0 : Vec F S1024x2048 .f32) (x1 : Vec F S2048x128 .f32) (x2 : Vec F S1x128 .f32) :
    sA5 c i arg3 harg3 arg4 harg4 arg5 harg5 arg6 harg6 arg7 harg7 hf hl x0 x1 x2 = k5_pay2 x0 x1 (k5_pay1 (F := F)) := by
  unfold sA5 bodyRun5_A
  dsimp only
  rw [View.canon_cons_unit_zero zero2]
  sl_unfold_words
  rw [View.readCov_unit_zero _ zero2]
  simp only [View.readAt_eq_ld, Memref.IsWhole.read_unread, View.ld_unit_zero (S := S1024x2048) zero2, View.ld_unit_zero (S := S2048x128) zero2]

theorem sB5_eq (c : Dev nD) (i : grid5.Coords)
    (arg3 : Memref sig .tc .vmem S1024x2048 .f32) (harg3 : arg3.IsWhole) (arg4 : Memref sig .tc .vmem S2048x128 .f32) (harg4 : arg4.IsWhole)
    (arg5 : Memref sig .tc .vmem S1x128 .f32) (harg5 : arg5.IsWhole) (arg6 : Memref sig .tc .vmem S1024x128 .f32) (harg6 : arg6.IsWhole)
    (arg7 : Memref sig .tc .vmem S1024x128 .f32) (harg7 : arg7.IsWhole) (hf : ¬first5 i) (hl : ¬last5 i)
    (x0 : Vec F S1024x2048 .f32) (x1 : Vec F S2048x128 .f32) (x2 : Vec F S1x128 .f32) (xs : Vec F S1024x128 .f32) :
    sB5 c i arg3 harg3 arg4 harg4 arg5 harg5 arg6 harg6 arg7 harg7 hf hl x0 x1 x2 xs = k5_pay2 x0 x1 xs := by
  unfold sB5 bodyRun5_B
  dsimp only
  rw [View.canon_unit_zero zero2]
  sl_unfold_words
  simp only [View.readAt_eq_ld, Memref.IsWhole.read_unread, View.ld_unit_zero (S := S1024x2048) zero2, View.ld_unit_zero (S := S2048x128) zero2,
    View.ld_unit_zero (S := S1024x128) zero2]

theorem sC5_eq (c : Dev nD) (i : grid5.Coords)
    (arg3 : Memref sig .tc .vmem S1024x2048 .f32) (harg3 : arg3.IsWhole) (arg4 : Memref sig .tc .vmem S2048x128 .f32) (harg4 : arg4.IsWhole)
    (arg5 : Memref sig .tc .vmem S1x128 .f32) (harg5 : arg5.IsWhole) (arg6 : Memref sig .tc .vmem S1024x128 .f32) (harg6 : arg6.IsWhole)
    (arg7 : Memref sig .tc .vmem S1024x128 .f32) (harg7 : arg7.IsWhole) (hf : ¬first5 i) (hl : last5 i)
    (x0 : Vec F S1024x2048 .f32) (x1 : Vec F S2048x128 .f32) (x2 : Vec F S1x128 .f32) (xs : Vec F S1024x128 .f32) :
    sC5 c i arg3 harg3 arg4 harg4 arg5 harg5 arg6 harg6 arg7 harg7 hf hl x0 x1 x2 xs = k5_pay2 x0 x1 xs := by
  unfold sC5 bodyRun5_C
  dsimp only
  sl_unfold_words
  rw [View.canon_unit_zero zero2]
  simp only [View.readAt_eq_ld, Memref.IsWhole.read_unread, View.ld_unit_zero (S := S1024x2048) zero2, View.ld_unit_zero (S := S2048x128) zero2,
    View.ld_unit_zero (S := S1024x128) zero2]

theorem oC5_eq (c : Dev nD) (i : grid5.Coords)
    (arg3 : Memref sig .tc .vmem S1024x2048 .f32) (harg3 : arg3.IsWhole) (arg4 : Memref sig .tc .vmem S2048x128 .f32) (harg4 : arg4.IsWhole)
    (arg5 : Memref sig .tc .vmem S1x128 .f32) (harg5 : arg5.IsWhole) (arg6 : Memref sig .tc .vmem S1024x128 .f32) (harg6 : arg6.IsWhole)
    (arg7 : Memref sig .tc .vmem S1024x128 .f32) (harg7 : arg7.IsWhole) (hf : ¬first5 i) (hl : last5 i)
    (x0 : Vec F S1024x2048 .f32) (x1 : Vec F S2048x128 .f32) (x2 : Vec F S1x128 .f32) (xs : Vec F S1024x128 .f32) :
    oC5 c i arg3 harg3 arg4 harg4 arg5 harg5 arg6 harg6 arg7 harg7 hf hl x0 x1 x2 xs = k5_pay3 (k5_pay2 x0 x1 xs) x2 := by
  unfold oC5 bodyRun5_C
  dsimp only
  rw [View.canon_unit_zero zero2]
  sl_unfold_words
  rw [View.readCov_unit_zero _ zero2]
  simp only [View.readAt_eq_ld, Memref.IsWhole.read_unread, View.ld_unit_zero (S := S1024x2048) zero2, View.ld_unit_zero (S := S2048x128) zero2,
    View.ld_unit_zero (S := S1024x128) zero2, View.ld_unit_zero (S := S1x128) zero2]

end Cert.KernelIdeal.Acc

end
-- ==== Proof.LibPlainDot.lean ====
/-
  A plain matrix product read at an index.

  For the dimension numbers of an `M x K` by `K x N` product (contract the left operand's columns with the right
  operand's rows, no batch axis) the contraction index is one coordinate `k < K`, the left operand is read at
  `(row, k)` and the right at `(k, column)`. So at the ideal instance both the matrix unit's product into a zero
  accumulator and the host's `dot_general` are, at output index `(r, c)`, the sum over `k` of `l (r, k) * r (k, c)`.
-/
import Idealize.ShloMosaic.PureOps.Ideal.Laws
import Idealize.ShloMosaic.Lib.ValueIdx

noncomputable section

namespace Cert.Lib.PlainDot

open Idealize.ShloMosaic Idealize.ShloMosaic.ValueIdx

variable (M K N : ℕ)

theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The contraction sum of a plain product, over the contracted coordinate. -/
theorem sum_plain {α : Type*} [AddCommMonoid α] (f : (⟨2, ![M, K]⟩ : Shape).Idx → (⟨2, ![K, N]⟩ : Shape).Idx → α)
    (i : (⟨2, ![M, N]⟩ : Shape).Idx) :
    ∑ q : (DotDims.plain M K N).contr.Idx, f ((DotDims.plain M K N).lhsIdx i q) ((DotDims.plain M K N).rhsIdx i q)
      = ∑ k : Fin K, f (ix2 (i 0) k) (ix2 k (i 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact lhs0 M K N _ _
      | ⟨1, _⟩ => exact ((DotDims.plain M K N).lhsIdx_val_of_single (cl := 1) rfl i _).trans hk)
  have er : (DotDims.plain M K N).rhsIdx i ((contrEquiv1 (DotDims.plain M K N) K rfl rfl).symm k) = ix2 k (i 1) :=
    funext fun a => Fin.ext (by
      match a with
      | ⟨0, _⟩ => exact ((DotDims.plain M K N).rhsIdx_val_of_single (cr := 0) rfl i _).trans hk
      | ⟨1, _⟩ => exact rhs1 M K N _ _)
  rw [el, er]
  rfl

/-- The matrix unit's product into a zero accumulator, at an index. -/
theorem matmul_zero_apply {φ₁ φ₂ : FTy} (prec : Option ContractPrecision)
    (l : FVec Ideal ⟨2, ![M, K]⟩ φ₁) (r : FVec Ideal ⟨2, ![K, N]⟩ φ₂) (i : (⟨2, ![M, N]⟩ : Shape).Idx) :
    FloatOps.matmul (DotDims.plain M K N) prec l r (constant ⟨2, ![M, N]⟩ .f32 0x00000000#32) i
      = ∑ k : Fin K, l (ix2 (i 0) k) * r (ix2 k (i 1)) := by
  rw [Ideal.matmul_constant_zero_apply]
  exact sum_plain M K N (fun a b => l a * r b) i

/-- The host's `dot_general`, at an index. -/
theorem dotGeneral_apply {φ₁ φ₂ : FTy} (prec : Option ContractPrecision) (sched : HostSchedule)
    (l : FVec Ideal ⟨2, ![M, K]⟩ φ₁) (r : FVec Ideal ⟨2, ![K, N]⟩ φ₂) (i : (⟨2, ![M, N]⟩ : Shape).Idx) :
    FloatOps.dotGeneral (DotDims.plain M K N) prec sched l r i
      = ∑ k : Fin K, l (ix2 (i 0) k) * r (ix2 k (i 1)) := by
  rw [Ideal.dotGeneral_apply]
  exact sum_plain M K N (fun a b => l a * r b) i

end Cert.Lib.PlainDot

end
-- ==== Proof.LibGnnSpec.lean ====
/-
  The graph network both programs compute, over the extended reals and over arbitrary extents.

  A node feature matrix has one row per node. An edge `e` carries two index words: its source word names the row it
  reads (read as a signed integer and clamped into the rows), its destination word the row it adds to (an edge whose
  destination is not a row adds nowhere). The neighbour sum `agg x` has, at node `i` and column `c`, the sum of
  `x` at the source rows of the edges into `i`.

  One layer is, before its activation, `(agg x) · W_rel + x · W_root + b`. It can be formed in two orders: summing the
  neighbours' features and then multiplying by `W_rel` (`preAggFirst`), or multiplying every node's features by
  `W_rel` and then summing the neighbours' products (`preMulFirst`). The two agree when the features and the weights
  are finite, because a finite product distributes over a finite sum and two finite sums exchange; over the extended
  reals proper they need not agree.

  The network is three such layers, the first two followed by the positive part, the last by a softmax over each row.
-/
import Idealize.ShloMosaic.PureOps.Ideal
import Idealize.ShloMosaic.Lib.ValueIdx

noncomputable section

open scoped BigOperators

namespace Cert.Gnn

open Idealize.ShloMosaic Idealize.ShloMosaic.ValueIdx

/-- An `a × b` matrix of extended reals, indexed as the programs index a rank-2 array. -/
abbrev Mat (a b : ℕ) : Type := (⟨2, ![a, b]⟩ : Shape).Idx → EReal

/-- A vector of `n` extended reals. -/
abbrev Vec1 (n : ℕ) : Type := (⟨1, ![n]⟩ : Shape).Idx → EReal

/-- The edges' index words, one per edge, as a column. -/
abbrev EdgeIdx (R : ℕ) : Type := IVec ⟨2, ![R, 1]⟩ 32

/-- Every entry is a real number (neither infinity). -/
def IsReal {α : Type} (a : α → EReal) : Prop := ∀ i, a i ≠ ⊤ ∧ a i ≠ ⊥

/-- The matrix product: entry `(r, c)` is the sum over `k` of `l (r, k) · r (k, c)`. -/
def mm {M K N : ℕ} (l : Mat M K) (r : Mat K N) : Mat M N :=
  fun i => ∑ k : Fin K, l (ix2 (i 0) k) * r (ix2 k (i 1))

/-- The row an edge reads: its source word as a signed integer, clamped into `[0, N − 1]`. -/
def srcRow {N R : ℕ} (hN : 0 < N) (sidx : EdgeIdx R) (e : Fin R) : Fin N :=
  ⟨min (sidx (ix2 e 0)).toInt.toNat (N - 1), by omega⟩

/-- The edges into row `i`: those whose destination word, read signed, is `i`. -/
def inEdges {R : ℕ} (didx : EdgeIdx R) (i : ℕ) : Finset (Fin R) :=
  Finset.univ.filter fun e : Fin R => (didx (ix2 e 0)).toInt = (i : Int)

/-- The neighbour sum: at `(i, c)`, the sum over the edges into `i` of `x` at the edge's source row and column `c`. -/
def agg {N R C : ℕ} (hN : 0 < N) (sidx didx : EdgeIdx R) (x : Mat N C) : Mat N C :=
  fun i => ∑ e ∈ inEdges didx (i 0).val, x (ix2 (srcRow hN sidx e) (i 1))

/-- Add a vector to every row. -/
def addRow {N C : ℕ} (a : Mat N C) (b : Vec1 C) : Mat N C := fun i => a i + b (ix1 (i 1))

/-- The positive part, entry by entry. -/
def relu {α : Type} (a : α → EReal) : α → EReal := fun i => max (a i) 0

/-- A layer before its activation, multiplying first: `(x · W_root + agg (x · W_rel)) + b`. -/
def preMulFirst {N R Ci Co : ℕ} (hN : 0 < N) (sidx didx : EdgeIdx R) (x : Mat N Ci) (wrel wroot : Mat Ci Co)
    (b : Vec1 Co) : Mat N Co :=
  addRow (fun i => mm x wroot i + agg hN sidx didx (mm x wrel) i) b

/-- A layer before its activation, summing the neighbours first: `((agg x) · W_rel + x · W_root) + b`. -/
def preAggFirst {N R Ci Co : ℕ} (hN : 0 < N) (sidx didx : EdgeIdx R) (x : Mat N Ci) (wrel wroot : Mat Ci Co)
    (b : Vec1 Co) : Mat N Co :=
  addRow (fun i => mm (agg hN sidx didx x) wrel i + mm x wroot i) b

/-- The float word of negative infinity, as both programs write it (never evaluated: it is the same word on both sides). -/
abbrev negInf : EReal := Ideal.ofBits .f32 0xFF800000#32

/-- A row's maximum as both programs take it: the fold of `max` from negative infinity over the row, then once more
    against negative infinity. -/
def rowMax {N C : ℕ} (t : Mat N C) (r : Fin N) : EReal :=
  max negInf ((Finset.univ : Finset (Fin C)).fold max negInf fun k => t (ix2 r k))

/-- The softmax of each row: `exp (t − max) / ∑ exp (t − max)`. -/
def softmax {N C : ℕ} (t : Mat N C) : Mat N C :=
  fun i => Ideal.div (Ideal.exp (t i - rowMax t (i 0)))
    (∑ k : Fin C, Ideal.exp (t (ix2 (i 0) k) - rowMax t (i 0)))

/-- The three-layer network, every layer multiplying first. -/
def netMulFirst {N R C0 C1 C2 C3 : ℕ} (hN : 0 < N) (sidx didx : EdgeIdx R) (z : Mat N C0)
    (wrel1 wroot1 : Mat C0 C1) (b1 : Vec1 C1) (wrel2 wroot2 : Mat C1 C2) (b2 : Vec1 C2)
    (wrel3 wroot3 : Mat C2 C3) (b3 : Vec1 C3) : Mat N C3 :=
  softmax (preMulFirst hN sidx didx
    (relu (preMulFirst hN sidx didx (relu (preMulFirst hN sidx didx z wrel1 wroot1 b1)) wrel2 wroot2 b2))
    wrel3 wroot3 b3)

/-- The three-layer network, every layer summing the neighbours first. -/
def netAggFirst {N R C0 C1 C2 C3 : ℕ} (hN : 0 < N) (sidx didx : EdgeIdx R) (z : Mat N C0)
    (wrel1 wroot1 : Mat C0 C1) (b1 : Vec1 C1) (wrel2 wroot2 : Mat C1 C2) (b2 : Vec1 C2)
    (wrel3 wroot3 : Mat C2 C3) (b3 : Vec1 C3) : Mat N C3 :=
  softmax (preAggFirst hN sidx didx
    (relu (preAggFirst hN sidx didx (relu (preAggFirst hN sidx didx z wrel1 wroot1 b1)) wrel2 wroot2 b2))
    wrel3 wroot3 b3)

end Cert.Gnn

end
-- ==== Proof.LibGnnBlock.lean ====
/-
  Pieces the kernel bodies share, read at an index over arbitrary extents.

  * A bias reaches a body as a `[1, C]` array; `rowOf` is its one row as a vector.
  * A `[1, b]` array broadcast to `[a, b]` reads, at `(p, q)`, the operand at `(0, q)`.
  * The layer body: a product into a zero accumulator, plus an array, plus a broadcast row, then the maximum with a
    zero splat, is at `(p, q)` the number `max ((∑ k, x (p, k) · w (k, q) + a (p, q)) + b (0, q)) 0`; and that is the entry
    of `relu (addRow (x · w + a) (rowOf b))`.
-/
import proofs.«157716_j2267742732442_1_alg».proof.Proof.LibGnnSpec
import proofs.«157716_j2267742732442_1_alg».proof.Proof.LibPlainDot
import Idealize.ShloMosaic.Lib.Pipeline.Value
import Idealize.ShloMosaic.Lib.ValueIdx
import Idealize.ShloMosaic.PureOps.Ideal.Laws

noncomputable section

open scoped BigOperators

namespace Cert.Gnn

open Idealize.ShloMosaic Idealize.ShloMosaic.ValueIdx

/-- The one row of a `[1, C]` array, as a vector. -/
def rowOf {C : ℕ} (b : Mat 1 C) : Vec1 C := fun q => b (ix2 (0 : Fin 1) (q 0))

/-- A `[1, b]` array broadcast to `[a, b]` reads, at `(p, q)`, the operand at `(0, q)`. -/
theorem broadcastTo_1b_ab_apply {α : Type} {a b : ℕ} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if b = 1 then 0 else q.val
    split
    · have := q.isLt; omega
    · rfl

/-- The layer before its activation, from a block's pieces: `(x · w + a) + b` with `b` a `[1, N]` row. -/
def preBlock {M K N : ℕ} (x : Mat M K) (w : Mat K N) (a : Mat M N) (b : Mat 1 N) : Mat M N :=
  addRow (fun i => mm x w i + a i) (rowOf b)

theorem preBlock_apply {M K N : ℕ} (x : Mat M K) (w : Mat K N) (a : Mat M N) (b : Mat 1 N) (p : Fin M) (q : Fin N) :
    preBlock x w a b (ix2 p q) = (∑ k : Fin K, x (ix2 p k) * w (ix2 k q) + a (ix2 p q)) + b (ix2 (0 : Fin 1) q) := rfl

/-- A row of the layer's value depends only on the same row of the features and of the neighbour sum. -/
theorem preBlock_rows {M M' K N : ℕ} (x : Mat M K) (x' : Mat M' K) (w : Mat K N) (a : Mat M N) (a' : Mat M' N)
    (b : Mat 1 N) (p : Fin M) (p' : Fin M') (hx : ∀ k, x (ix2 p k) = x' (ix2 p' k))
    (ha : ∀ q, a (ix2 p q) = a' (ix2 p' q)) (q : Fin N) :
    preBlock x w a b (ix2 p q) = preBlock x' w a' b (ix2 p' q) := by
  rw [preBlock_apply, preBlock_apply, ha q]
  exact congrArg (fun s => (s + a' (ix2 p' q)) + b (ix2 (0 : Fin 1) q))
    (Finset.sum_congr rfl fun k _ => by rw [hx k])

/-- The body's pre-activation value at `(p, q)`: the product into a zero accumulator, plus `a`, plus the broadcast row. -/
theorem preBody_apply {M K N : ℕ} (d : DotDims ⟨2, ![M, K]⟩ ⟨2, ![K, N]⟩ ⟨2, ![M, N]⟩) (hd : d = DotDims.plain M K N)
    (x : Mat M K) (w : Mat K N) (a : Mat M N) (b : Mat 1 N)
    (hb : (⟨2, ![1, N]⟩ : Shape).Broadcasts ⟨2, ![M, N]⟩) (p : Fin M) (q : Fin N) :
    addf (F := Ideal) (φ := .f32)
        (addf (F := Ideal) (φ := .f32)
          (FloatOps.matmul (F := Ideal) (φ₁ := .bf16) (φ₂ := .bf16) d none x w (constant ⟨2, ![M, N]⟩ .f32 0x00000000#32)) a)
        (broadcastTo ⟨2, ![M, N]⟩ b hb) (ix2 p q)
      = preBlock x w a b (ix2 p q) := by
  subst hd
  rw [preBlock_apply]
  show (FloatOps.matmul (F := Ideal) (φ₁ := .bf16) (φ₂ := .bf16) (DotDims.plain M K N) none x w
      (constant ⟨2, ![M, N]⟩ .f32 0x00000000#32) (ix2 p q) + a (ix2 p q)) + broadcastTo ⟨2, ![M, N]⟩ b hb (ix2 p q) = _
  rw [Cert.Lib.PlainDot.matmul_zero_apply, broadcastTo_1b_ab_apply]
  rfl

/-- The maximum with a zero splat is the positive part. -/
theorem maxZero_apply {s : Shape} (v : s.Idx → EReal) (i : s.Idx) :
    maximumf (F := Ideal) (φ := .f32) v (broadcast s (Scalar.ofBits (F := Ideal) .f32 0x00000000#32)) i = relu v i := by
  show max (v i) (Ideal.ofBits .f32 0x00000000#32) = max (v i) 0
  rw [Ideal.ofBits_zero_f32]

end Cert.Gnn

end
-- ==== Proof.IdxI.lean ====
/-
  The bodies' payloads read at an index, at the ideal instance (every float an extended real, a change of float format
  the identity).

    zero        at (p, q)  is  0
    update(x, w, a)   at (p, q)  is  a(p, q) + Σ_k x(p, k) · w(k, q)        (the block product into a zero accumulator, added to a)
    finish(a, b)      at (p, q)  is  max(a(p, q) + b(0, q), 0)              (bias row broadcast down the rows, positive part)
-/
import proofs.«157716_j2267742732442_1_alg».proof.Proof.PayI
import proofs.«157716_j2267742732442_1_alg».proof.Proof.LibPlainDot
import proofs.«157716_j2267742732442_1_alg».proof.Proof.LibGnnBlock
import Idealize.ShloMosaic.Lib.ValueIdx
import Idealize.ShloMosaic.Lib.Pipeline.Value
import Idealize.ShloMosaic.PureOps.Ideal.Laws

set_option maxRecDepth 16384

noncomputable section

namespace Cert.KernelIdeal.Acc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen Idealize.ShloMosaic.ValueIdx Cert.Gnn

/-! ## The printed contraction records are the plain matrix product's -/

theorem dims0 : dot_S2048x512_S512x256_S2048x256_1_0_0_1_n_n = DotDims.plain 2048 512 256 := rfl
theorem dims1 : dot_S2048x256_S256x128_S2048x128_1_0_0_1_n_n = DotDims.plain 2048 256 128 := rfl
theorem dims3 : dot_S1024x2048_S2048x256_S1024x256_1_0_0_1_n_n = DotDims.plain 1024 2048 256 := rfl
theorem dims5 : dot_S1024x2048_S2048x128_S1024x128_1_0_0_1_n_n = DotDims.plain 1024 2048 128 := rfl

/-! ## The zero splats -/

theorem zero0 (j : S2048x256.Idx) : k0_pay1 (F := Ideal) j = 0 := by
  unfold k0_pay1; simp only [shapeCast_self]; exact Ideal.ofBits_zero_f32
theorem zero1 (j : S2048x128.Idx) : k1_pay1 (F := Ideal) j = 0 := by
  unfold k1_pay1; simp only [shapeCast_self]; exact Ideal.ofBits_zero_f32
theorem zero2' (j : S2048x256.Idx) : k2_pay1 (F := Ideal) j = 0 := by
  unfold k2_pay1; simp only [shapeCast_self]; exact Ideal.ofBits_zero_f32
theorem zero3 (j : S1024x256.Idx) : k3_pay1 (F := Ideal) j = 0 := by
  unfold k3_pay1; simp only [shapeCast_self]; exact Ideal.ofBits_zero_f32
theorem zero4 (j : S2048x128.Idx) : k4_pay1 (F := Ideal) j = 0 := by
  unfold k4_pay1; simp only [shapeCast_self]; exact Ideal.ofBits_zero_f32
theorem zero5 (j : S1024x128.Idx) : k5_pay1 (F := Ideal) j = 0 := by
  unfold k5_pay1; simp only [shapeCast_self]; exact Ideal.ofBits_zero_f32

/-! ## The accumulator update -/

theorem upd0 (x : Vec Ideal S2048x512 .f32) (w : Vec Ideal S512x256 .f32) (a : Vec Ideal S2048x256 .f32) (p : Fin 2048) (q : Fin 256) :
    k0_pay2 x w a (ix2 p q) = a (ix2 p q) + ∑ k : Fin 512, x (ix2 p k) * w (ix2 k q) := by
  unfold k0_pay2; simp only [shapeCast_self]
  show a (ix2 p q) + FloatOps.matmul (F := Ideal) dot_S2048x512_S512x256_S2048x256_1_0_0_1_n_n none
    (truncf .bf16 x bitsLt_bf16_f32) (truncf .bf16 w bitsLt_bf16_f32) (constant S2048x256 .f32 0x00000000#32) (ix2 p q) = _
  rw [dims0, Cert.Lib.PlainDot.matmul_zero_apply]; rfl

theorem upd1 (x : Vec Ideal S2048x256 .f32) (w : Vec Ideal S256x128 .f32) (a : Vec Ideal S2048x128 .f32) (p : Fin 2048) (q : Fin 128) :
    k1_pay2 x w a (ix2 p q) = a (ix2 p q) + ∑ k : Fin 256, x (ix2 p k) * w (ix2 k q) := by
  unfold k1_pay2; simp only [shapeCast_self]
  show a (ix2 p q) + FloatOps.matmul (F := Ideal) dot_S2048x256_S256x128_S2048x128_1_0_0_1_n_n none
    (truncf .bf16 x bitsLt_bf16_f32) (truncf .bf16 w bitsLt_bf16_f32) (constant S2048x128 .f32 0x00000000#32) (ix2 p q) = _
  rw [dims1, Cert.Lib.PlainDot.matmul_zero_apply]; rfl

theorem upd2 (x : Vec Ideal S2048x512 .f32) (w : Vec Ideal S512x256 .f32) (a : Vec Ideal S2048x256 .f32) (p : Fin 2048) (q : Fin 256) :
    k2_pay2 x w a (ix2 p q) = a (ix2 p q) + ∑ k : Fin 512, x (ix2 p k) * w (ix2 k q) := by
  unfold k2_pay2; simp only [shapeCast_self]
  show a (ix2 p q) + FloatOps.matmul (F := Ideal) dot_S2048x512_S512x256_S2048x256_1_0_0_1_n_n none
    (truncf .bf16 x bitsLt_bf16_f32) (truncf .bf16 w bitsLt_bf16_f32) (constant S2048x256 .f32 0x00000000#32) (ix2 p q) = _
  rw [dims0, Cert.Lib.PlainDot.matmul_zero_apply]; rfl

theorem upd3 (x : Vec Ideal S1024x2048 .f32) (w : Vec Ideal S2048x256 .f32) (a : Vec Ideal S1024x256 .f32) (p : Fin 1024) (q : Fin 256) :
    k3_pay2 x w a (ix2 p q) = a (ix2 p q) + ∑ k : Fin 2048, x (ix2 p k) * w (ix2 k q) := by
  unfold k3_pay2; simp only [shapeCast_self]
  show a (ix2 p q) + FloatOps.matmul (F := Ideal) dot_S1024x2048_S2048x256_S1024x256_1_0_0_1_n_n none
    (truncf .bf16 x bitsLt_bf16_f32) (truncf .bf16 w bitsLt_bf16_f32) (constant S1024x256 .f32 0x00000000#32) (ix2 p q) = _
  rw [dims3, Cert.Lib.PlainDot.matmul_zero_apply]; rfl

theorem upd4 (x : Vec Ideal S2048x256 .f32) (w : Vec Ideal S256x128 .f32) (a : Vec Ideal S2048x128 .f32) (p : Fin 2048) (q : Fin 128) :
    k4_pay2 x w a (ix2 p q) = a (ix2 p q) + ∑ k : Fin 256, x (ix2 p k) * w (ix2 k q) := by
  unfold k4_pay2; simp only [shapeCast_self]
  show a (ix2 p q) + FloatOps.matmul (F := Ideal) dot_S2048x256_S256x128_S2048x128_1_0_0_1_n_n none
    (truncf .bf16 x bitsLt_bf16_f32) (truncf .bf16 w bitsLt_bf16_f32) (constant S2048x128 .f32 0x00000000#32) (ix2 p q) = _
  rw [dims1, Cert.Lib.PlainDot.matmul_zero_apply]; rfl

theorem upd5 (x : Vec Ideal S1024x2048 .f32) (w : Vec Ideal S2048x128 .f32) (a : Vec Ideal S1024x128 .f32) (p : Fin 1024) (q : Fin 128) :
    k5_pay2 x w a (ix2 p q) = a (ix2 p q) + ∑ k : Fin 2048, x (ix2 p k) * w (ix2 k q) := by
  unfold k5_pay2; simp only [shapeCast_self]
  show a (ix2 p q) + FloatOps.matmul (F := Ideal) dot_S1024x2048_S2048x128_S1024x128_1_0_0_1_n_n none
    (truncf .bf16 x bitsLt_bf16_f32) (truncf .bf16 w bitsLt_bf16_f32) (constant S1024x128 .f32 0x00000000#32) (ix2 p q) = _
  rw [dims5, Cert.Lib.PlainDot.matmul_zero_apply]; rfl

/-! ## The finishing step of regions 3 and 5 -/

theorem fin3 (a : Vec Ideal S1024x256 .f32) (b : Vec Ideal S1x256 .f32) (p : Fin 1024) (q : Fin 256) :
    k3_pay3 a b (ix2 p q) = max (a (ix2 p q) + b (ix2 (0 : Fin 1) q)) 0 := by
  unfold k3_pay3; simp only [shapeCast_self]
  rw [maxZero_apply]
  show max (a (ix2 p q) + broadcastTo S1024x256 b broadcasts_S1x256_S1024x256 (ix2 p q)) 0 = _
  rw [broadcastTo_1b_ab_apply]

theorem fin5 (a : Vec Ideal S1024x128 .f32) (b : Vec Ideal S1x128 .f32) (p : Fin 1024) (q : Fin 128) :
    k5_pay3 a b (ix2 p q) = max (a (ix2 p q) + b (ix2 (0 : Fin 1) q)) 0 := by
  unfold k5_pay3; simp only [shapeCast_self]
  rw [maxZero_apply]
  show max (a (ix2 p q) + broadcastTo S1024x128 b broadcasts_S1x128_S1024x128 (ix2 p q)) 0 = _
  rw [broadcastTo_1b_ab_apply]

end Cert.KernelIdeal.Acc

end
-- ==== Proof.Flush0I.lean ====
/-
  Region 0's output array is the matrix product of its two operand arrays.

  At grid point t the body leaves in the output block  0 + Σ_k x(p, k) · w(k, q),  where x is row block t of the left
  array (all 512 columns) and w is the whole right array. Row p of block t is row  t·2048 + p  of the array, so the block
  is block t of the whole product  (A · W)(r, q) = Σ_k A(r, k) · W(k, q);  the four row blocks cover the 8192 rows.
-/
import proofs.«157716_j2267742732442_1_alg».proof.Proof.IdxI
import proofs.«157716_j2267742732442_1_alg».proof.Proof.RunI
import proofs.«157716_j2267742732442_1_alg».proof.Proof.LibGnnSpec

set_option maxRecDepth 16384

noncomputable section

namespace Cert.KernelIdeal.Acc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen Idealize.ShloMosaic.ValueIdx Cert.Gnn

-- the contents of the TensorCore's buffers when the region is entered
variable (V : (c : Dev nD) → (b : Ref sig .tc) → Buf (Elt Ideal) ((c : Thread nD τ).loc b))

/-- The left operand array (the node features) and the right operand array (the combined weights), as matrices. -/
abbrev opA0 (c : Dev nD) : S8192x512.Idx → EReal := V c main_arg0
abbrev opW0 (c : Dev nD) : S512x256.Idx → EReal := V c main_v0

/-- The printed index maps, decided over the grid: the left operand's block moves with the output's row block and spans
    all its columns; the right operand's block is the whole array; the output has four row blocks and one column block. -/
theorem idx_facts0 : ∀ t : Fin cfg0.N, win0_0.index t (0 : Fin 2) = win0_3.index t (0 : Fin 2)
    ∧ win0_0.index t (1 : Fin 2) = 0
    ∧ win0_1.index t (0 : Fin 2) = 0
    ∧ win0_1.index t (1 : Fin 2) = win0_3.index t (1 : Fin 2)
    ∧ win0_3.index t (0 : Fin 2) ≤ 3 ∧ win0_3.index t (1 : Fin 2) ≤ 0 :=
  (by decide +kernel : ∀ t : Fin grid0.N, _)

/-- Every row block of the output is some point's. -/
theorem idx_onto0 : ∀ q0 : Fin 4, ∃ t : Fin cfg0.N, win0_3.index t = ![q0.val, 0] :=
  (by decide +kernel : ∀ q0 : Fin 4, ∃ t : Fin grid0.N, win0_3.index t = ![q0.val, 0])

/-- WHAT POINT `t` WRITES BACK is block `t` of the product of the two operand arrays as the region finds them. -/
theorem flushed0_eq (c : Dev nD) (t : Fin cfg0.N) :
    (dat0 V c).flushed 3 t = ((cfg0.win 3).blk t).view.read (Elt Ideal) (mm (V c main_arg0) (V c main_v0)) := by
  show (cfg0.win 3).cut (grid0.coords t) ((dat0 V c).after 3 t) = _
  rw [after0_3]
  unfold outAt0
  rw [out0_eq]
  obtain ⟨e0, e1, e2, e3, e4, e5⟩ := idx_facts0 t
  funext j
  obtain ⟨p, q, rfl⟩ : ∃ (p : Fin 2048) (q : Fin 256), j = ix2 p q := ⟨j 0, j 1, eq_ix2 j⟩
  show k0_pay2 (iblk0 V c 0 t) (iblk0 V c 1 t) (k0_pay1 (F := Ideal)) (ix2 p q) = mm (V c main_arg0) (V c main_v0) (((cfg0.win 3).blk t).view.emb (ix2 p q))
  rw [upd0, zero0, zero_add]
  unfold mm
  refine Finset.sum_congr rfl fun k _ => ?_
  have h0 : ((cfg0.win 0).blk t).view.emb (ix2 p k) = ix2 ((((cfg0.win 3).blk t).view.emb (ix2 p q)) 0) k := by
    funext a; apply Fin.ext
    match a with
    | ⟨0, _⟩ => show win0_0.index t (0 : Fin 2) * 2048 + 1 * p.val = win0_3.index t (0 : Fin 2) * 2048 + 1 * p.val; omega
    | ⟨1, _⟩ => show win0_0.index t (1 : Fin 2) * 512 + 1 * k.val = k.val; omega
  have h1 : ((cfg0.win 1).blk t).view.emb (ix2 k q) = ix2 k ((((cfg0.win 3).blk t).view.emb (ix2 p q)) 1) := by
    funext a; apply Fin.ext
    match a with
    | ⟨0, _⟩ => show win0_1.index t (0 : Fin 2) * 512 + 1 * k.val = k.val; omega
    | ⟨1, _⟩ => show win0_1.index t (1 : Fin 2) * 256 + 1 * q.val = win0_3.index t (1 : Fin 2) * 256 + 1 * q.val; omega
  show opA0 V c (((cfg0.win 0).blk t).view.emb (ix2 p k)) * opW0 V c (((cfg0.win 1).blk t).view.emb (ix2 k q)) = _
  rw [h0, h1]; rfl

/-- An index of the output array is in point `t`'s block iff each coordinate is in the block's range on its axis. -/
theorem mem_blk0 (t : Fin cfg0.N) (i : S8192x256.Idx) :
    i ∈ ((cfg0.win 3).blk t).view.set ↔ ∀ a : Fin 2, win0_3.index t a * S2048x256.size a ≤ (i a).val ∧ (i a).val < win0_3.index t a * S2048x256.size a + S2048x256.size a := by
  show i ∈ ((View.whole main_v5).slice (win0_3.rect t)).set ↔ _
  rw [View.set_slice_whole, Rect.mem_set_unit]
  exact Iff.rfl

/-- Every index of the output array is in some point's block: row `r` is in row block `r / 2048`. -/
theorem cover0 (i : S8192x256.Idx) : ∃ t : Fin cfg0.N, (cfg0.win 3).flush t = true ∧ i ∈ ((cfg0.win 3).blk t).view.set := by
  have hi0 : (i 0).val < 8192 := (i 0).isLt
  have hi1 : (i 1).val < 256 := (i 1).isLt
  obtain ⟨t, ht⟩ := idx_onto0 ⟨(i 0).val / 2048, by omega⟩
  have q0 : win0_3.index t (0 : Fin 2) = (i 0).val / 2048 := congrFun ht 0
  have q1 : win0_3.index t (1 : Fin 2) = 0 := congrFun ht 1
  refine ⟨t, flush0_3 t, ?_⟩
  rw [mem_blk0]
  intro a
  match a with
  | ⟨0, _⟩ => show win0_3.index t (0 : Fin 2) * 2048 ≤ (i 0).val ∧ (i 0).val < win0_3.index t (0 : Fin 2) * 2048 + 2048; omega
  | ⟨1, _⟩ => show win0_3.index t (1 : Fin 2) * 256 ≤ (i 1).val ∧ (i 1).val < win0_3.index t (1 : Fin 2) * 256 + 256; omega

/-- THE OUTPUT ARRAY after the region: the product of the two operand arrays. -/
theorem final0 (c : Dev nD) : (dat0 V c).arrAt 3 cfg0.N = mm (V c main_arg0) (V c main_v0) :=
  (dat0 V c).arrAt_eq_of_cover 3 _ (fun t _ => flushed0_eq V c t) cover0

end Cert.KernelIdeal.Acc

end
-- ==== Proof.Flush1I.lean ====
/-
  Region 1's output array is the matrix product of its two operand arrays.

  At grid point t the body leaves in the output block  0 + Σ_k x(p, k) · w(k, q),  where x is row block t of the left
  array (all 256 columns) and w is the whole right array. Row p of block t is row  t·2048 + p  of the array, so the block
  is block t of the whole product; the four row blocks cover the 8192 rows.
-/
import proofs.«157716_j2267742732442_1_alg».proof.Proof.IdxI
import proofs.«157716_j2267742732442_1_alg».proof.Proof.RunI
import proofs.«157716_j2267742732442_1_alg».proof.Proof.LibGnnSpec

set_option maxRecDepth 16384

noncomputable section

namespace Cert.KernelIdeal.Acc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen Idealize.ShloMosaic.ValueIdx Cert.Gnn

-- the contents of the TensorCore's buffers when the region is entered
variable (V : (c : Dev nD) → (b : Ref sig .tc) → Buf (Elt Ideal) ((c : Thread nD τ).loc b))

/-- The left operand array (the first layer's output) and the right operand array (the combined weights), as matrices. -/
abbrev opA1 (c : Dev nD) : S8192x256.Idx → EReal := V c main_v30
abbrev opW1 (c : Dev nD) : S256x128.Idx → EReal := V c main_v1

theorem idx_facts1 : ∀ t : Fin cfg1.N, win1_0.index t (0 : Fin 2) = win1_3.index t (0 : Fin 2)
    ∧ win1_0.index t (1 : Fin 2) = 0
    ∧ win1_1.index t (0 : Fin 2) = 0
    ∧ win1_1.index t (1 : Fin 2) = win1_3.index t (1 : Fin 2)
    ∧ win1_3.index t (0 : Fin 2) ≤ 3 ∧ win1_3.index t (1 : Fin 2) ≤ 0 :=
  (by decide +kernel : ∀ t : Fin grid1.N, _)

theorem idx_onto1 : ∀ q0 : Fin 4, ∃ t : Fin cfg1.N, win1_3.index t = ![q0.val, 0] :=
  (by decide +kernel : ∀ q0 : Fin 4, ∃ t : Fin grid1.N, win1_3.index t = ![q0.val, 0])

/-- WHAT POINT `t` WRITES BACK is block `t` of the product of the two operand arrays as the region finds them. -/
theorem flushed1_eq (c : Dev nD) (t : Fin cfg1.N) :
    (dat1 V c).flushed 3 t = ((cfg1.win 3).blk t).view.read (Elt Ideal) (mm (V c main_v30) (V c main_v1)) := by
  show (cfg1.win 3).cut (grid1.coords t) ((dat1 V c).after 3 t) = _
  rw [after1_3]
  unfold outAt1
  rw [out1_eq]
  obtain ⟨e0, e1, e2, e3, e4, e5⟩ := idx_facts1 t
  funext j
  obtain ⟨p, q, rfl⟩ : ∃ (p : Fin 2048) (q : Fin 128), j = ix2 p q := ⟨j 0, j 1, eq_ix2 j⟩
  show k1_pay2 (iblk1 V c 0 t) (iblk1 V c 1 t) (k1_pay1 (F := Ideal)) (ix2 p q) = mm (V c main_v30) (V c main_v1) (((cfg1.win 3).blk t).view.emb (ix2 p q))
  rw [upd1, zero1, zero_add]
  unfold mm
  refine Finset.sum_congr rfl fun k _ => ?_
  have h0 : ((cfg1.win 0).blk t).view.emb (ix2 p k) = ix2 ((((cfg1.win 3).blk t).view.emb (ix2 p q)) 0) k := by
    funext a; apply Fin.ext
    match a with
    | ⟨0, _⟩ => show win1_0.index t (0 : Fin 2) * 2048 + 1 * p.val = win1_3.index t (0 : Fin 2) * 2048 + 1 * p.val; omega
    | ⟨1, _⟩ => show win1_0.index t (1 : Fin 2) * 256 + 1 * k.val = k.val; omega
  have h1 : ((cfg1.win 1).blk t).view.emb (ix2 k q) = ix2 k ((((cfg1.win 3).blk t).view.emb (ix2 p q)) 1) := by
    funext a; apply Fin.ext
    match a with
    | ⟨0, _⟩ => show win1_1.index t (0 : Fin 2) * 256 + 1 * k.val = k.val; omega
    | ⟨1, _⟩ => show win1_1.index t (1 : Fin 2) * 128 + 1 * q.val = win1_3.index t (1 : Fin 2) * 128 + 1 * q.val; omega
  show opA1 V c (((cfg1.win 0).blk t).view.emb (ix2 p k)) * opW1 V c (((cfg1.win 1).blk t).view.emb (ix2 k q)) = _
  rw [h0, h1]; rfl

theorem mem_blk1 (t : Fin cfg1.N) (i : S8192x128.Idx) :
    i ∈ ((cfg1.win 3).blk t).view.set ↔ ∀ a : Fin 2, win1_3.index t a * S2048x128.size a ≤ (i a).val ∧ (i a).val < win1_3.index t a * S2048x128.size a + S2048x128.size a := by
  show i ∈ ((View.whole main_v32).slice (win1_3.rect t)).set ↔ _
  rw [View.set_slice_whole, Rect.mem_set_unit]
  exact Iff.rfl

theorem cover1 (i : S8192x128.Idx) : ∃ t : Fin cfg1.N, (cfg1.win 3).flush t = true ∧ i ∈ ((cfg1.win 3).blk t).view.set := by
  have hi0 : (i 0).val < 8192 := (i 0).isLt
  have hi1 : (i 1).val < 128 := (i 1).isLt
  obtain ⟨t, ht⟩ := idx_onto1 ⟨(i 0).val / 2048, by omega⟩
  have q0 : win1_3.index t (0 : Fin 2) = (i 0).val / 2048 := congrFun ht 0
  have q1 : win1_3.index t (1 : Fin 2) = 0 := congrFun ht 1
  refine ⟨t, flush1_3 t, ?_⟩
  rw [mem_blk1]
  intro a
  match a with
  | ⟨0, _⟩ => show win1_3.index t (0 : Fin 2) * 2048 ≤ (i 0).val ∧ (i 0).val < win1_3.index t (0 : Fin 2) * 2048 + 2048; omega
  | ⟨1, _⟩ => show win1_3.index t (1 : Fin 2) * 128 ≤ (i 1).val ∧ (i 1).val < win1_3.index t (1 : Fin 2) * 128 + 128; omega

/-- THE OUTPUT ARRAY after the region: the product of the two operand arrays. -/
theorem final1 (c : Dev nD) : (dat1 V c).arrAt 3 cfg1.N = mm (V c main_v30) (V c main_v1) :=
  (dat1 V c).arrAt_eq_of_cover 3 _ (fun t _ => flushed1_eq V c t) cover1

end Cert.KernelIdeal.Acc

end
-- ==== Proof.LibMmDot.lean ====
/-
  The matrix product  (l · r)(i, j) = Σ_k l(i, k) · r(k, j)  is what the host's `dot_general` computes at the ideal
  instance for the plain dimension numbers (contract the left operand's columns with the right operand's rows).
-/
import proofs.«157716_j2267742732442_1_alg».proof.Proof.LibPlainDot
import proofs.«157716_j2267742732442_1_alg».proof.Proof.LibGnnSpec
import Idealize.ShloMosaic.PureOps.Ideal.Laws

noncomputable section

namespace Cert.Lib.MmDot

open Idealize.ShloMosaic Idealize.ShloMosaic.ValueIdx Cert.Gnn

theorem mm_eq_dot {M K N : ℕ} (d : DotDims ⟨2, ![M, K]⟩ ⟨2, ![K, N]⟩ ⟨2, ![M, N]⟩) (hd : d = DotDims.plain M K N)
    (l : Mat M K) (r : Mat K N) :
    mm l r = Host.dotGeneral (F := Ideal) (φ₁ := .f32) (φ₂ := .f32) d none l r := by
  subst hd
  funext i
  simp only [Host.dotGeneral]
  rw [Cert.Lib.PlainDot.dotGeneral_apply]
  rfl

end Cert.Lib.MmDot

end
-- ==== Proof.WalkA.lean ====
/-
  The local branch, buffer by buffer: each buffer the kernel's program computes holds the reference's stage of the same
  name at the kernel's own arguments.

    the four parameter products      (host)      =  the reference's four parameter products
    region 0's output                (kernel)    =  feats · (w1 · tao_1_L)                      (the matrix product is dot_general)
    the first layer's aggregation, bias, positive part   (host, the same operations as the reference's)
    region 1's output                (kernel)    =  h · (w2 · tao_2_L)
    the second layer's aggregation, bias, positive part  (host, the same operations)            =  H_L

  A host stretch is read off the composed operations; since the kernel's program and the reference apply the same
  operations, the two composed terms coincide once the operands coincide, and the gathers and scatter-adds are never
  opened.
-/
import proofs.«157716_j2267742732442_1_alg».proof.Proof.KeepI
import proofs.«157716_j2267742732442_1_alg».proof.Proof.RefI
import proofs.«157716_j2267742732442_1_alg».proof.Proof.Flush0I
import proofs.«157716_j2267742732442_1_alg».proof.Proof.Flush1I
import proofs.«157716_j2267742732442_1_alg».proof.Proof.LibMmDot
import Idealize.ShloMosaic.Lib.StableHlo.Run

set_option maxRecDepth 16384

noncomputable section

namespace Cert.KernelIdeal.Acc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen Idealize.ShloMosaic.StableHlo Cert.Gnn

variable (m : (ℓ : Loc nD τ sig) → Buf (Elt Ideal) ℓ) (ρ : Dev nD → PrngReg) (c : Dev nD)

/-! ## The parameter products -/

theorem v0_eq : B1 m ρ c (Proc.devRef .tc main_v0) = Cert.ReferenceIdeal.Read.val_main_v0 (F := Ideal) (m ((c : Thread nD τ).loc main_arg2)) (m ((c : Thread nD τ).loc main_arg7)) := by
  show StableHlo.after hostOps0 (B0 m ρ c) (Proc.devRef .tc main_v0) = _
  after_results; rfl
theorem v1_eq : B1 m ρ c (Proc.devRef .tc main_v1) = Cert.ReferenceIdeal.Read.val_main_v27 (F := Ideal) (m ((c : Thread nD τ).loc main_arg3)) (m ((c : Thread nD τ).loc main_arg9)) := by
  show StableHlo.after hostOps0 (B0 m ρ c) (Proc.devRef .tc main_v1) = _
  after_results; rfl
theorem v2_eq : B1 m ρ c (Proc.devRef .tc main_v2) = Cert.ReferenceIdeal.Read.val_main_v54 (F := Ideal) (m ((c : Thread nD τ).loc main_arg4)) (m ((c : Thread nD τ).loc main_arg11)) := by
  show StableHlo.after hostOps0 (B0 m ρ c) (Proc.devRef .tc main_v2) = _
  after_results; rfl
theorem v3_eq : B1 m ρ c (Proc.devRef .tc main_v3) = Cert.ReferenceIdeal.Read.val_main_v61 (F := Ideal) (m ((c : Thread nD τ).loc main_arg5)) (m ((c : Thread nD τ).loc main_arg13)) := by
  show StableHlo.after hostOps0 (B0 m ρ c) (Proc.devRef .tc main_v3) = _
  after_results; rfl

/-! ## Region 0 -/

theorem v5_eq : B2 m ρ c (Proc.devRef .tc main_v5)
    = Cert.ReferenceIdeal.Read.val_main_v1 (F := Ideal) (m ((c : Thread nD τ).loc main_arg0)) (m ((c : Thread nD τ).loc main_arg2)) (m ((c : Thread nD τ).loc main_arg7)) := by
  refine ((B2_arr m ρ c 3).trans (final0 (T1 m ρ) c)).trans ?_
  show mm (B1 m ρ c (Proc.devRef .tc main_arg0)) (B1 m ρ c (Proc.devRef .tc main_v0)) = _
  rw [A0_1 m ρ c, v0_eq]
  exact Cert.Lib.MmDot.mm_eq_dot _ rfl _ _

/-! ## The first layer on the host -/

set_option maxHeartbeats 4000000 in
/-- The edge aggregation of region 0's output, the bias and the positive part: the two host stretches after region 0,
    read together off the buffers as region 0 leaves them. -/
theorem v30_eq : B4 m ρ c (Proc.devRef .tc main_v30) = Cert.ReferenceIdeal.Read.val_main_v26 (F := Ideal)
    (m ((c : Thread nD τ).loc main_arg0)) (m ((c : Thread nD τ).loc main_arg1)) (m ((c : Thread nD τ).loc main_arg2)) (m ((c : Thread nD τ).loc main_arg7)) (m ((c : Thread nD τ).loc main_arg8)) (m ((c : Thread nD τ).loc main_arg18)) (m ((c : Thread nD τ).loc main_arg19)) := by
  show StableHlo.after hostOps1_1 (StableHlo.after hostOps1 (B2 m ρ c)) (Proc.devRef .tc main_v30) = _
  after_results
  rw [v5_eq, U2 m ρ c ut18, U2 m ρ c ut19, U2 m ρ c ut1, U2 m ρ c ut8]
  rfl

/-! ## Region 1 -/

theorem v32_eq : B6 m ρ c (Proc.devRef .tc main_v32) = Cert.ReferenceIdeal.Read.val_main_v28 (F := Ideal)
    (m ((c : Thread nD τ).loc main_arg0)) (m ((c : Thread nD τ).loc main_arg1)) (m ((c : Thread nD τ).loc main_arg2)) (m ((c : Thread nD τ).loc main_arg3)) (m ((c : Thread nD τ).loc main_arg7)) (m ((c : Thread nD τ).loc main_arg8)) (m ((c : Thread nD τ).loc main_arg9)) (m ((c : Thread nD τ).loc main_arg18)) (m ((c : Thread nD τ).loc main_arg19)) := by
  refine ((B6_arr m ρ c 3).trans (final1 (T5 m ρ) c)).trans ?_
  show mm (B5 m ρ c (Proc.devRef .tc main_v30)) (B5 m ρ c (Proc.devRef .tc main_v1)) = _
  rw [K5 m ρ c main_v30 (by decide), v30_eq,
    K5 m ρ c main_v1 (by decide), K4 m ρ c main_v1 (by decide), K3 m ρ c main_v1 (by decide), K2 m ρ c main_v1 (by decide), v1_eq]
  exact Cert.Lib.MmDot.mm_eq_dot _ rfl _ _

/-! ## The second layer on the host: H_L -/

set_option maxHeartbeats 4000000 in
/-- The edge aggregation of region 1's output, the bias and the positive part: H_L. -/
theorem v57_eq : B8 m ρ c (Proc.devRef .tc main_v57) = Cert.ReferenceIdeal.Read.val_main_v53 (F := Ideal)
    (m ((c : Thread nD τ).loc main_arg0)) (m ((c : Thread nD τ).loc main_arg1)) (m ((c : Thread nD τ).loc main_arg2)) (m ((c : Thread nD τ).loc main_arg3)) (m ((c : Thread nD τ).loc main_arg7)) (m ((c : Thread nD τ).loc main_arg8)) (m ((c : Thread nD τ).loc main_arg9)) (m ((c : Thread nD τ).loc main_arg10)) (m ((c : Thread nD τ).loc main_arg18)) (m ((c : Thread nD τ).loc main_arg19)) := by
  show StableHlo.after hostOps2_1 (StableHlo.after hostOps2 (B6 m ρ c)) (Proc.devRef .tc main_v57) = _
  after_results
  rw [v32_eq, U6 m ρ c ut18, U6 m ρ c ut19, U6 m ρ c ut1, U6 m ρ c ut10]
  rfl

end Cert.KernelIdeal.Acc

end
-- ==== Proof.Flush2I.lean ====
/-
  Region 2's output array is the matrix product of its two operand arrays (the global branch's first projection).

  At grid point t the body leaves in the output block  0 + Σ_k x(p, k) · w(k, q),  where x is row block t of the feature
  array (all 512 columns) and w is the whole combined weight array; row p of block t is row t·2048 + p of the array; the
  four row blocks cover the 8192 rows.
-/
import proofs.«157716_j2267742732442_1_alg».proof.Proof.IdxI
import proofs.«157716_j2267742732442_1_alg».proof.Proof.RunI
import proofs.«157716_j2267742732442_1_alg».proof.Proof.LibGnnSpec

set_option maxRecDepth 16384

noncomputable section

namespace Cert.KernelIdeal.Acc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen Idealize.ShloMosaic.ValueIdx Cert.Gnn

-- the contents of the TensorCore's buffers when the region is entered
variable (V : (c : Dev nD) → (b : Ref sig .tc) → Buf (Elt Ideal) ((c : Thread nD τ).loc b))

abbrev opA2 (c : Dev nD) : S8192x512.Idx → EReal := V c main_arg0
abbrev opW2 (c : Dev nD) : S512x256.Idx → EReal := V c main_v2

theorem idx_facts2 : ∀ t : Fin cfg2.N, win2_0.index t (0 : Fin 2) = win2_3.index t (0 : Fin 2)
    ∧ win2_0.index t (1 : Fin 2) = 0
    ∧ win2_1.index t (0 : Fin 2) = 0
    ∧ win2_1.index t (1 : Fin 2) = win2_3.index t (1 : Fin 2)
    ∧ win2_3.index t (0 : Fin 2) ≤ 3 ∧ win2_3.index t (1 : Fin 2) ≤ 0 :=
  (by decide +kernel : ∀ t : Fin grid2.N, _)

theorem idx_onto2 : ∀ q0 : Fin 4, ∃ t : Fin cfg2.N, win2_3.index t = ![q0.val, 0] :=
  (by decide +kernel : ∀ q0 : Fin 4, ∃ t : Fin grid2.N, win2_3.index t = ![q0.val, 0])

/-- WHAT POINT `t` WRITES BACK is block `t` of the product of the two operand arrays as the region finds them. -/
theorem flushed2_eq (c : Dev nD) (t : Fin cfg2.N) :
    (dat2 V c).flushed 3 t = ((cfg2.win 3).blk t).view.read (Elt Ideal) (mm (V c main_arg0) (V c main_v2)) := by
  show (cfg2.win 3).cut (grid2.coords t) ((dat2 V c).after 3 t) = _
  rw [after2_3]
  unfold outAt2
  rw [out2_eq]
  obtain ⟨e0, e1, e2, e3, e4, e5⟩ := idx_facts2 t
  funext j
  obtain ⟨p, q, rfl⟩ : ∃ (p : Fin 2048) (q : Fin 256), j = ix2 p q := ⟨j 0, j 1, eq_ix2 j⟩
  show k2_pay2 (iblk2 V c 0 t) (iblk2 V c 1 t) (k2_pay1 (F := Ideal)) (ix2 p q) = mm (V c main_arg0) (V c main_v2) (((cfg2.win 3).blk t).view.emb (ix2 p q))
  rw [upd2, zero2', zero_add]
  unfold mm
  refine Finset.sum_congr rfl fun k _ => ?_
  have h0 : ((cfg2.win 0).blk t).view.emb (ix2 p k) = ix2 ((((cfg2.win 3).blk t).view.emb (ix2 p q)) 0) k := by
    funext a; apply Fin.ext
    match a with
    | ⟨0, _⟩ => show win2_0.index t (0 : Fin 2) * 2048 + 1 * p.val = win2_3.index t (0 : Fin 2) * 2048 + 1 * p.val; omega
    | ⟨1, _⟩ => show win2_0.index t (1 : Fin 2) * 512 + 1 * k.val = k.val; omega
  have h1 : ((cfg2.win 1).blk t).view.emb (ix2 k q) = ix2 k ((((cfg2.win 3).blk t).view.emb (ix2 p q)) 1) := by
    funext a; apply Fin.ext
    match a with
    | ⟨0, _⟩ => show win2_1.index t (0 : Fin 2) * 512 + 1 * k.val = k.val; omega
    | ⟨1, _⟩ => show win2_1.index t (1 : Fin 2) * 256 + 1 * q.val = win2_3.index t (1 : Fin 2) * 256 + 1 * q.val; omega
  show opA2 V c (((cfg2.win 0).blk t).view.emb (ix2 p k)) * opW2 V c (((cfg2.win 1).blk t).view.emb (ix2 k q)) = _
  rw [h0, h1]; rfl

theorem mem_blk2 (t : Fin cfg2.N) (i : S8192x256.Idx) :
    i ∈ ((cfg2.win 3).blk t).view.set ↔ ∀ a : Fin 2, win2_3.index t a * S2048x256.size a ≤ (i a).val ∧ (i a).val < win2_3.index t a * S2048x256.size a + S2048x256.size a := by
  show i ∈ ((View.whole main_v59).slice (win2_3.rect t)).set ↔ _
  rw [View.set_slice_whole, Rect.mem_set_unit]
  exact Iff.rfl

theorem cover2 (i : S8192x256.Idx) : ∃ t : Fin cfg2.N, (cfg2.win 3).flush t = true ∧ i ∈ ((cfg2.win 3).blk t).view.set := by
  have hi0 : (i 0).val < 8192 := (i 0).isLt
  have hi1 : (i 1).val < 256 := (i 1).isLt
  obtain ⟨t, ht⟩ := idx_onto2 ⟨(i 0).val / 2048, by omega⟩
  have q0 : win2_3.index t (0 : Fin 2) = (i 0).val / 2048 := congrFun ht 0
  have q1 : win2_3.index t (1 : Fin 2) = 0 := congrFun ht 1
  refine ⟨t, flush2_3 t, ?_⟩
  rw [mem_blk2]
  intro a
  match a with
  | ⟨0, _⟩ => show win2_3.index t (0 : Fin 2) * 2048 ≤ (i 0).val ∧ (i 0).val < win2_3.index t (0 : Fin 2) * 2048 + 2048; omega
  | ⟨1, _⟩ => show win2_3.index t (1 : Fin 2) * 256 ≤ (i 1).val ∧ (i 1).val < win2_3.index t (1 : Fin 2) * 256 + 256; omega

/-- THE OUTPUT ARRAY after the region: the product of the two operand arrays. -/
theorem final2 (c : Dev nD) : (dat2 V c).arrAt 3 cfg2.N = mm (V c main_arg0) (V c main_v2) :=
  (dat2 V c).arrAt_eq_of_cover 3 _ (fun t _ => flushed2_eq V c t) cover2

end Cert.KernelIdeal.Acc

end
-- ==== Proof.LibBlockSum.lean ====
/-
  A sum cut into four consecutive blocks.

  A contraction of length 4·K carried out in four steps of K terms, each step added to what the previous steps left
  (starting from zero), is the whole contraction: addition of extended reals is associative and commutative, so no
  finiteness is needed.
-/
import Mathlib.Algebra.BigOperators.Fin
import Mathlib.Algebra.BigOperators.Intervals

open scoped BigOperators

namespace Cert.Lib.BlockSum

/-- A sum over the first `4·K` naturals, as four consecutive blocks of `K`, accumulated left to right from zero. -/
theorem sum_range_four {α : Type*} [AddCommMonoid α] (g : ℕ → α) (K : ℕ) :
    ((((0 + ∑ k ∈ Finset.range K, g k) + ∑ k ∈ Finset.range K, g (K + k)) + ∑ k ∈ Finset.range K, g (2 * K + k))
        + ∑ k ∈ Finset.range K, g (3 * K + k)) = ∑ k ∈ Finset.range (4 * K), g k := by
  rw [zero_add, show 4 * K = K + K + K + K by omega, Finset.sum_range_add, Finset.sum_range_add, Finset.sum_range_add]
  congr 1
  · congr 1
    refine Finset.sum_congr rfl fun k _ => ?_
    rw [show K + K + k = 2 * K + k by omega]
  · refine Finset.sum_congr rfl fun k _ => ?_
    rw [show K + K + K + k = 3 * K + k by omega]

/-- A sum over `Fin n` of a function of the value is the sum over the first `n` naturals. -/
theorem sum_fin_eq_range {α : Type*} [AddCommMonoid α] (g : ℕ → α) (n : ℕ) :
    ∑ k : Fin n, g k.val = ∑ k ∈ Finset.range n, g k := Fin.sum_univ_eq_sum_range g n

/-- A natural number as an index below `n`, wrapping around: total, so that a sum over naturals can index an array. -/
def fmod (n : ℕ) (h : 0 < n) (k : ℕ) : Fin n := ⟨k % n, Nat.mod_lt k h⟩

theorem fmod_val (n : ℕ) (h : 0 < n) (k : ℕ) : (fmod n h k).val = k % n := rfl

/-- On an index already below `n` it is that index. -/
theorem fmod_fin {n : ℕ} (h : 0 < n) (k : Fin n) : fmod n h k.val = k := Fin.ext (Nat.mod_eq_of_lt k.isLt)

end Cert.Lib.BlockSum
-- ==== Proof.Flush3I.lean ====
/-
  Region 3's output array is  max(PPMI · t1 + b, 0).

  Row block i of the output is produced over four consecutive grid points, one per contraction step j = 0..3. At step j
  the body adds to its accumulator the partial product over columns j·2048 .. j·2048 + 2047 of PPMI (rows of block i)
  against the same rows of t1. After the fourth step the accumulator holds
      ((((0 + S₀) + S₁) + S₂) + S₃),     S_j = Σ_{k < 2048} PPMI(r, j·2048 + k) · t1(j·2048 + k, q),
  which is the whole contraction Σ_{k < 8192} PPMI(r, k) · t1(k, q): a sum cut into four consecutive blocks, added left
  to right from zero (addition of extended reals is associative and commutative: no finiteness is used). The output
  block then takes the bias of column q and the positive part. Row p of block i is row i·1024 + p of the array, and the
  eight row blocks cover the 8192 rows.
-/
import proofs.«157716_j2267742732442_1_alg».proof.Proof.IdxI
import proofs.«157716_j2267742732442_1_alg».proof.Proof.RunI
import proofs.«157716_j2267742732442_1_alg».proof.Proof.LibGnnSpec
import proofs.«157716_j2267742732442_1_alg».proof.Proof.LibBlockSum

set_option maxRecDepth 16384

noncomputable section

namespace Cert.KernelIdeal.Acc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen Idealize.ShloMosaic.ValueIdx Cert.Gnn Cert.Lib.BlockSum

-- the contents of the TensorCore's buffers when the region is entered
variable (V : (c : Dev nD) → (b : Ref sig .tc) → Buf (Elt Ideal) ((c : Thread nD τ).loc b))

/-- The three operand arrays as matrices: PPMI, the projected features, the bias row. -/
abbrev opA3 (c : Dev nD) : S8192x8192.Idx → EReal := V c main_arg6
abbrev opB3 (c : Dev nD) : S8192x256.Idx → EReal := V c main_v59
abbrev opb3 (c : Dev nD) : S1x256.Idx → EReal := V c main_v60

/-- What the output array ends holding: the product of the two operand arrays, plus the bias row, positive part. -/
def G3 (c : Dev nD) : S8192x256.Idx → EReal :=
  fun i => max (mm (opA3 V c) (opB3 V c) i + opb3 V c (ix2 (0 : Fin 1) (i 1))) 0

/-- One term of the contraction at row `r`, column `q`: position `k` (wrapping, so that it is total). -/
def term3 (c : Dev nD) (r : Fin 8192) (q : Fin 256) (k : ℕ) : EReal :=
  opA3 V c (ix2 r (fmod 8192 (by decide) k)) * opB3 V c (ix2 (fmod 8192 (by decide) k) q)

/-- The array row that row `p` of the block of grid position `n` is. -/
def row3 (n : ℕ) (p : Fin 1024) : Fin 8192 := fmod 8192 (by decide) ((n / 4) * 1024 + p.val)

/-- The partial product of contraction step `j`. -/
def part3 (c : Dev nD) (n : ℕ) (p : Fin 1024) (q : Fin 256) (j : ℕ) : EReal :=
  ∑ k ∈ Finset.range 2048, term3 V c (row3 n p) q (j * 2048 + k)

/-- The printed index maps, decided over the grid: the points walk the contraction step fastest; PPMI's block is (row
    block, step), t1's block is (step, all columns), the bias is one block, the output's block is the row block. -/
theorem idx_facts3 : ∀ t : Fin cfg3.N, win3_0.index t (0 : Fin 2) = t.val / 4
    ∧ win3_0.index t (1 : Fin 2) = t.val % 4
    ∧ win3_1.index t (0 : Fin 2) = t.val % 4
    ∧ win3_1.index t (1 : Fin 2) = 0
    ∧ win3_2.index t (0 : Fin 2) = 0
    ∧ win3_2.index t (1 : Fin 2) = 0
    ∧ win3_3.index t (0 : Fin 2) = t.val / 4
    ∧ win3_3.index t (1 : Fin 2) = 0 :=
  (by decide +kernel : ∀ t : Fin grid3.N, _)

/-- Every row block of the output is written back at some last step. -/
theorem idx_onto3 : ∀ q0 : Fin 8, ∃ t : Fin cfg3.N, t.val % 4 = 3 ∧ t.val / 4 = q0.val :=
  (by decide +kernel : ∀ q0 : Fin 8, ∃ t : Fin grid3.N, t.val % 4 = 3 ∧ t.val / 4 = q0.val)

/-- The point's two input blocks, as matrices. -/
abbrev blkA3 (c : Dev nD) (t : Fin cfg3.N) : S1024x2048.Idx → EReal := iblk3 V c 0 t
abbrev blkB3 (c : Dev nD) (t : Fin cfg3.N) : S2048x256.Idx → EReal := iblk3 V c 1 t

/-- The block product of the point's two input blocks is the point's partial product. -/
theorem step3 (c : Dev nD) (t : Fin cfg3.N) (p : Fin 1024) (q : Fin 256) :
    ∑ k : Fin 2048, blkA3 V c t (ix2 p k) * blkB3 V c t (ix2 k q) = part3 V c t.val p q (t.val % 4) := by
  unfold part3
  rw [← sum_fin_eq_range (fun k => term3 V c (row3 t.val p) q ((t.val % 4) * 2048 + k)) 2048]
  refine Finset.sum_congr rfl fun k _ => ?_
  obtain ⟨e0, e1, e2, e3, -, -, -, -⟩ := idx_facts3 t
  have hN : t.val < 32 := lt_of_lt_of_eq t.isLt (show cfg3.N = 32 from N_3)
  have hp := p.isLt; have hk := k.isLt; have hq := q.isLt
  unfold term3
  have h0 : ((cfg3.win 0).blk t).view.emb (ix2 p k) = ix2 (row3 t.val p) (fmod 8192 (by decide) ((t.val % 4) * 2048 + k.val)) := by
    funext a; apply Fin.ext
    match a with
    | ⟨0, _⟩ => show win3_0.index t (0 : Fin 2) * 1024 + 1 * p.val = ((t.val / 4) * 1024 + p.val) % 8192; omega
    | ⟨1, _⟩ => show win3_0.index t (1 : Fin 2) * 2048 + 1 * k.val = ((t.val % 4) * 2048 + k.val) % 8192; omega
  have h1 : ((cfg3.win 1).blk t).view.emb (ix2 k q) = ix2 (fmod 8192 (by decide) ((t.val % 4) * 2048 + k.val)) q := by
    funext a; apply Fin.ext
    match a with
    | ⟨0, _⟩ => show win3_1.index t (0 : Fin 2) * 2048 + 1 * k.val = ((t.val % 4) * 2048 + k.val) % 8192; omega
    | ⟨1, _⟩ => show win3_1.index t (1 : Fin 2) * 256 + 1 * q.val = q.val; omega
  show opA3 V c (((cfg3.win 0).blk t).view.emb (ix2 p k)) * opB3 V c (((cfg3.win 1).blk t).view.emb (ix2 k q)) = _
  rw [h0, h1]

/-- The partial products of a point and of the point before it in the same row block are over the same array row. -/
theorem part3_pred (c : Dev nD) (n : ℕ) (hn : n % 4 ≠ 0) (p : Fin 1024) (q : Fin 256) (j : ℕ) :
    part3 V c (n - 1) p q j = part3 V c n p q j := by
  unfold part3 row3; rw [show (n - 1) / 4 = n / 4 by omega]

/-- After the first step the accumulator holds the first partial product (added to zero). -/
theorem acc3_0 (c : Dev nD) (t : Fin cfg3.N) (h : t.val % 4 = 0) (p : Fin 1024) (q : Fin 256) :
    (outsAt3 V c t.val t.isLt).2 (ix2 p q) = 0 + part3 V c t.val p q 0 := by
  rw [outsAt3_A V c t h]; dsimp only
  rw [sA3_eq, upd3, zero3, step3, h]

/-- After the second step: the first two. -/
theorem acc3_1 (c : Dev nD) (t : Fin cfg3.N) (h : t.val % 4 = 1) (p : Fin 1024) (q : Fin 256) :
    (outsAt3 V c t.val t.isLt).2 (ix2 p q) = (0 + part3 V c t.val p q 0) + part3 V c t.val p q 1 := by
  have hN : t.val < 32 := lt_of_lt_of_eq t.isLt (show cfg3.N = 32 from N_3)
  rw [outsAt3_B V c t (by omega) (by omega)]; dsimp only
  rw [sB3_eq, upd3, step3, h]
  have hprev := acc3_0 V c ⟨t.val - 1, by have := t.isLt; omega⟩ (by show (t.val - 1) % 4 = 0; omega) p q
  rw [show (outsAt3 V c (t.val - 1) _).2 (ix2 p q) = _ from hprev]
  show (0 + part3 V c (t.val - 1) p q 0) + _ = _
  rw [part3_pred V c t.val (by omega)]

/-- After the third step: the first three. -/
theorem acc3_2 (c : Dev nD) (t : Fin cfg3.N) (h : t.val % 4 = 2) (p : Fin 1024) (q : Fin 256) :
    (outsAt3 V c t.val t.isLt).2 (ix2 p q) = ((0 + part3 V c t.val p q 0) + part3 V c t.val p q 1) + part3 V c t.val p q 2 := by
  have hN : t.val < 32 := lt_of_lt_of_eq t.isLt (show cfg3.N = 32 from N_3)
  rw [outsAt3_B V c t (by omega) (by omega)]; dsimp only
  rw [sB3_eq, upd3, step3, h]
  have hprev := acc3_1 V c ⟨t.val - 1, by have := t.isLt; omega⟩ (by show (t.val - 1) % 4 = 1; omega) p q
  rw [show (outsAt3 V c (t.val - 1) _).2 (ix2 p q) = _ from hprev]
  show ((0 + part3 V c (t.val - 1) p q 0) + part3 V c (t.val - 1) p q 1) + _ = _
  rw [part3_pred V c t.val (by omega), part3_pred V c t.val (by omega)]

/-- The whole contraction at a row and a column is the four partial products added left to right from zero. -/
theorem mm3_parts (c : Dev nD) (n : ℕ) (p : Fin 1024) (q : Fin 256) :
    mm (opA3 V c) (opB3 V c) (ix2 (row3 n p) q)
      = (((0 + part3 V c n p q 0) + part3 V c n p q 1) + part3 V c n p q 2) + part3 V c n p q 3 := by
  have e : mm (opA3 V c) (opB3 V c) (ix2 (row3 n p) q) = ∑ k ∈ Finset.range (4 * 2048), term3 V c (row3 n p) q k := by
    rw [← sum_fin_eq_range (fun k => term3 V c (row3 n p) q k) (4 * 2048)]
    show ∑ k : Fin 8192, opA3 V c (ix2 (row3 n p) k) * opB3 V c (ix2 k q) = ∑ k : Fin 8192, term3 V c (row3 n p) q k.val
    refine Finset.sum_congr rfl fun k _ => ?_
    unfold term3; rw [fmod_fin]
  rw [e, ← sum_range_four]
  unfold part3
  simp only [zero_mul, zero_add, one_mul]

/-- WHAT A LAST-STEP POINT WRITES BACK is its block of `G3` of the three operand arrays as the region finds them. -/
theorem flushed3_eq (c : Dev nD) (t : Fin cfg3.N) (hfl : (cfg3.win 3).flush t = true) :
    (dat3 V c).flushed 3 t = ((cfg3.win 3).blk t).view.read (Elt Ideal) (G3 V c) := by
  have h1 : t.val % 4 = 3 := (flush3_3 t).mp hfl
  have hN : t.val < 32 := lt_of_lt_of_eq t.isLt (show cfg3.N = 32 from N_3)
  show (cfg3.win 3).cut (grid3.coords t) ((dat3 V c).after 3 t) = _
  rw [after3_3, outsAt3_C V c t (by omega) h1]; dsimp only
  rw [oC3_eq]
  obtain ⟨-, -, -, -, e4, e5, e6, e7⟩ := idx_facts3 t
  funext j
  obtain ⟨p, q, rfl⟩ : ∃ (p : Fin 1024) (q : Fin 256), j = ix2 p q := ⟨j 0, j 1, eq_ix2 j⟩
  have hp := p.isLt; have hq := q.isLt
  show k3_pay3 (k3_pay2 (iblk3 V c 0 t) (iblk3 V c 1 t) (outsAt3 V c (t.val - 1) _).2) (iblk3 V c 2 t) (ix2 p q)
    = G3 V c (((cfg3.win 3).blk t).view.emb (ix2 p q))
  rw [fin3, upd3, step3, h1]
  have hprev := acc3_2 V c ⟨t.val - 1, by have := t.isLt; omega⟩ (by show (t.val - 1) % 4 = 2; omega) p q
  rw [show (outsAt3 V c (t.val - 1) _).2 (ix2 p q) = _ from hprev]
  have hemb : ((cfg3.win 3).blk t).view.emb (ix2 p q) = ix2 (row3 t.val p) q := by
    funext a; apply Fin.ext
    match a with
    | ⟨0, _⟩ => show win3_3.index t (0 : Fin 2) * 1024 + 1 * p.val = ((t.val / 4) * 1024 + p.val) % 8192; omega
    | ⟨1, _⟩ => show win3_3.index t (1 : Fin 2) * 256 + 1 * q.val = q.val; omega
  have hb : iblk3 V c 2 t (ix2 (0 : Fin 1) q) = opb3 V c (ix2 (0 : Fin 1) q) := by
    show opb3 V c (((cfg3.win 2).blk t).view.emb (ix2 (0 : Fin 1) q)) = _
    refine congrArg (opb3 V c) ?_
    funext a; apply Fin.ext
    match a with
    | ⟨0, _⟩ => show win3_2.index t (0 : Fin 2) * 1 + 1 * 0 = 0; omega
    | ⟨1, _⟩ => show win3_2.index t (1 : Fin 2) * 256 + 1 * q.val = q.val; omega
  rw [hemb, hb]
  unfold G3
  rw [mm3_parts V c t.val p q]
  show max ((((0 + part3 V c (t.val - 1) p q 0) + part3 V c (t.val - 1) p q 1) + part3 V c (t.val - 1) p q 2 + part3 V c t.val p q 3) + _) 0 = _
  rw [part3_pred V c t.val (by omega), part3_pred V c t.val (by omega), part3_pred V c t.val (by omega)]

/-- An index of the output array is in point `t`'s block iff each coordinate is in the block's range on its axis. -/
theorem mem_blk3 (t : Fin cfg3.N) (i : S8192x256.Idx) :
    i ∈ ((cfg3.win 3).blk t).view.set ↔ ∀ a : Fin 2, win3_3.index t a * S1024x256.size a ≤ (i a).val ∧ (i a).val < win3_3.index t a * S1024x256.size a + S1024x256.size a := by
  show i ∈ ((View.whole main_v61).slice (win3_3.rect t)).set ↔ _
  rw [View.set_slice_whole, Rect.mem_set_unit]
  exact Iff.rfl

/-- Every index of the output array is in the block of some last-step point: row `r` is in row block `r / 1024`. -/
theorem cover3 (i : S8192x256.Idx) : ∃ t : Fin cfg3.N, (cfg3.win 3).flush t = true ∧ i ∈ ((cfg3.win 3).blk t).view.set := by
  have hi0 : (i 0).val < 8192 := (i 0).isLt
  have hi1 : (i 1).val < 256 := (i 1).isLt
  obtain ⟨t, ht3, htq⟩ := idx_onto3 ⟨(i 0).val / 1024, by omega⟩
  obtain ⟨-, -, -, -, -, -, e6, e7⟩ := idx_facts3 t
  have htq' : t.val / 4 = (i 0).val / 1024 := htq
  refine ⟨t, (flush3_3 t).mpr ht3, ?_⟩
  rw [mem_blk3]
  intro a
  match a with
  | ⟨0, _⟩ => show win3_3.index t (0 : Fin 2) * 1024 ≤ (i 0).val ∧ (i 0).val < win3_3.index t (0 : Fin 2) * 1024 + 1024; omega
  | ⟨1, _⟩ => show win3_3.index t (1 : Fin 2) * 256 ≤ (i 1).val ∧ (i 1).val < win3_3.index t (1 : Fin 2) * 256 + 256; omega

/-- THE OUTPUT ARRAY after the region. -/
theorem final3 (c : Dev nD) : (dat3 V c).arrAt 3 cfg3.N = G3 V c :=
  (dat3 V c).arrAt_eq_of_cover 3 _ (fun t hf => flushed3_eq V c t hf) cover3

end Cert.KernelIdeal.Acc

end
-- ==== Proof.Flush4I.lean ====
/-
  Region 4's output array is the matrix product of its two operand arrays (the global branch's second projection).

  At grid point t the body leaves in the output block  0 + Σ_k x(p, k) · w(k, q),  where x is row block t of the first
  global layer's output (all 256 columns) and w is the whole combined weight array; row p of block t is row t·2048 + p;
  the four row blocks cover the 8192 rows.
-/
import proofs.«157716_j2267742732442_1_alg».proof.Proof.IdxI
import proofs.«157716_j2267742732442_1_alg».proof.Proof.RunI
import proofs.«157716_j2267742732442_1_alg».proof.Proof.LibGnnSpec

set_option maxRecDepth 16384

noncomputable section

namespace Cert.KernelIdeal.Acc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen Idealize.ShloMosaic.ValueIdx Cert.Gnn

-- the contents of the TensorCore's buffers when the region is entered
variable (V : (c : Dev nD) → (b : Ref sig .tc) → Buf (Elt Ideal) ((c : Thread nD τ).loc b))

abbrev opA4 (c : Dev nD) : S8192x256.Idx → EReal := V c main_v61
abbrev opW4 (c : Dev nD) : S256x128.Idx → EReal := V c main_v3

theorem idx_facts4 : ∀ t : Fin cfg4.N, win4_0.index t (0 : Fin 2) = win4_3.index t (0 : Fin 2)
    ∧ win4_0.index t (1 : Fin 2) = 0
    ∧ win4_1.index t (0 : Fin 2) = 0
    ∧ win4_1.index t (1 : Fin 2) = win4_3.index t (1 : Fin 2)
    ∧ win4_3.index t (0 : Fin 2) ≤ 3 ∧ win4_3.index t (1 : Fin 2) ≤ 0 :=
  (by decide +kernel : ∀ t : Fin grid4.N, _)

theorem idx_onto4 : ∀ q0 : Fin 4, ∃ t : Fin cfg4.N, win4_3.index t = ![q0.val, 0] :=
  (by decide +kernel : ∀ q0 : Fin 4, ∃ t : Fin grid4.N, win4_3.index t = ![q0.val, 0])

/-- WHAT POINT `t` WRITES BACK is block `t` of the product of the two operand arrays as the region finds them. -/
theorem flushed4_eq (c : Dev nD) (t : Fin cfg4.N) :
    (dat4 V c).flushed 3 t = ((cfg4.win 3).blk t).view.read (Elt Ideal) (mm (V c main_v61) (V c main_v3)) := by
  show (cfg4.win 3).cut (grid4.coords t) ((dat4 V c).after 3 t) = _
  rw [after4_3]
  unfold outAt4
  rw [out4_eq]
  obtain ⟨e0, e1, e2, e3, e4, e5⟩ := idx_facts4 t
  funext j
  obtain ⟨p, q, rfl⟩ : ∃ (p : Fin 2048) (q : Fin 128), j = ix2 p q := ⟨j 0, j 1, eq_ix2 j⟩
  show k4_pay2 (iblk4 V c 0 t) (iblk4 V c 1 t) (k4_pay1 (F := Ideal)) (ix2 p q) = mm (V c main_v61) (V c main_v3) (((cfg4.win 3).blk t).view.emb (ix2 p q))
  rw [upd4, zero4, zero_add]
  unfold mm
  refine Finset.sum_congr rfl fun k _ => ?_
  have h0 : ((cfg4.win 0).blk t).view.emb (ix2 p k) = ix2 ((((cfg4.win 3).blk t).view.emb (ix2 p q)) 0) k := by
    funext a; apply Fin.ext
    match a with
    | ⟨0, _⟩ => show win4_0.index t (0 : Fin 2) * 2048 + 1 * p.val = win4_3.index t (0 : Fin 2) * 2048 + 1 * p.val; omega
    | ⟨1, _⟩ => show win4_0.index t (1 : Fin 2) * 256 + 1 * k.val = k.val; omega
  have h1 : ((cfg4.win 1).blk t).view.emb (ix2 k q) = ix2 k ((((cfg4.win 3).blk t).view.emb (ix2 p q)) 1) := by
    funext a; apply Fin.ext
    match a with
    | ⟨0, _⟩ => show win4_1.index t (0 : Fin 2) * 256 + 1 * k.val = k.val; omega
    | ⟨1, _⟩ => show win4_1.index t (1 : Fin 2) * 128 + 1 * q.val = win4_3.index t (1 : Fin 2) * 128 + 1 * q.val; omega
  show opA4 V c (((cfg4.win 0).blk t).view.emb (ix2 p k)) * opW4 V c (((cfg4.win 1).blk t).view.emb (ix2 k q)) = _
  rw [h0, h1]; rfl

theorem mem_blk4 (t : Fin cfg4.N) (i : S8192x128.Idx) :
    i ∈ ((cfg4.win 3).blk t).view.set ↔ ∀ a : Fin 2, win4_3.index t a * S2048x128.size a ≤ (i a).val ∧ (i a).val < win4_3.index t a * S2048x128.size a + S2048x128.size a := by
  show i ∈ ((View.whole main_v63).slice (win4_3.rect t)).set ↔ _
  rw [View.set_slice_whole, Rect.mem_set_unit]
  exact Iff.rfl

theorem cover4 (i : S8192x128.Idx) : ∃ t : Fin cfg4.N, (cfg4.win 3).flush t = true ∧ i ∈ ((cfg4.win 3).blk t).view.set := by
  have hi0 : (i 0).val < 8192 := (i 0).isLt
  have hi1 : (i 1).val < 128 := (i 1).isLt
  obtain ⟨t, ht⟩ := idx_onto4 ⟨(i 0).val / 2048, by omega⟩
  have q0 : win4_3.index t (0 : Fin 2) = (i 0).val / 2048 := congrFun ht 0
  have q1 : win4_3.index t (1 : Fin 2) = 0 := congrFun ht 1
  refine ⟨t, flush4_3 t, ?_⟩
  rw [mem_blk4]
  intro a
  match a with
  | ⟨0, _⟩ => show win4_3.index t (0 : Fin 2) * 2048 ≤ (i 0).val ∧ (i 0).val < win4_3.index t (0 : Fin 2) * 2048 + 2048; omega
  | ⟨1, _⟩ => show win4_3.index t (1 : Fin 2) * 128 ≤ (i 1).val ∧ (i 1).val < win4_3.index t (1 : Fin 2) * 128 + 128; omega

/-- THE OUTPUT ARRAY after the region: the product of the two operand arrays. -/
theorem final4 (c : Dev nD) : (dat4 V c).arrAt 3 cfg4.N = mm (V c main_v61) (V c main_v3) :=
  (dat4 V c).arrAt_eq_of_cover 3 _ (fun t _ => flushed4_eq V c t) cover4

end Cert.KernelIdeal.Acc

end
-- ==== Proof.Flush5I.lean ====
/-
  Region 5's output array is  max(PPMI · t2 + b, 0).

  Row block i of the output is produced over four consecutive grid points, one per contraction step j = 0..3. At step j
  the body adds to its accumulator the partial product over columns j·2048 .. j·2048 + 2047 of PPMI (rows of block i)
  against the same rows of t2. After the fourth step the accumulator holds
      ((((0 + S₀) + S₁) + S₂) + S₃),     S_j = Σ_{k < 2048} PPMI(r, j·2048 + k) · t2(j·2048 + k, q),
  which is the whole contraction Σ_{k < 8192} PPMI(r, k) · t2(k, q): a sum cut into four consecutive blocks, added left
  to right from zero (associativity and commutativity of addition only). The output block then takes the bias of
  column q and the positive part. Row p of block i is row i·1024 + p; the eight row blocks cover the 8192 rows.
-/
import proofs.«157716_j2267742732442_1_alg».proof.Proof.IdxI
import proofs.«157716_j2267742732442_1_alg».proof.Proof.RunI
import proofs.«157716_j2267742732442_1_alg».proof.Proof.LibGnnSpec
import proofs.«157716_j2267742732442_1_alg».proof.Proof.LibBlockSum

set_option maxRecDepth 16384

noncomputable section

namespace Cert.KernelIdeal.Acc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen Idealize.ShloMosaic.ValueIdx Cert.Gnn Cert.Lib.BlockSum

-- the contents of the TensorCore's buffers when the region is entered
variable (V : (c : Dev nD) → (b : Ref sig .tc) → Buf (Elt Ideal) ((c : Thread nD τ).loc b))

/-- The three operand arrays as matrices: PPMI, the projected features, the bias row. -/
abbrev opA5 (c : Dev nD) : S8192x8192.Idx → EReal := V c main_arg6
abbrev opB5 (c : Dev nD) : S8192x128.Idx → EReal := V c main_v63
abbrev opb5 (c : Dev nD) : S1x128.Idx → EReal := V c main_v64

/-- What the output array ends holding: the product of the two operand arrays, plus the bias row, positive part. -/
def G5 (c : Dev nD) : S8192x128.Idx → EReal :=
  fun i => max (mm (opA5 V c) (opB5 V c) i + opb5 V c (ix2 (0 : Fin 1) (i 1))) 0

/-- One term of the contraction at row `r`, column `q`: position `k` (wrapping, so that it is total). -/
def term5 (c : Dev nD) (r : Fin 8192) (q : Fin 128) (k : ℕ) : EReal :=
  opA5 V c (ix2 r (fmod 8192 (by decide) k)) * opB5 V c (ix2 (fmod 8192 (by decide) k) q)

/-- The array row that row `p` of the block of grid position `n` is. -/
def row5 (n : ℕ) (p : Fin 1024) : Fin 8192 := fmod 8192 (by decide) ((n / 4) * 1024 + p.val)

/-- The partial product of contraction step `j`. -/
def part5 (c : Dev nD) (n : ℕ) (p : Fin 1024) (q : Fin 128) (j : ℕ) : EReal :=
  ∑ k ∈ Finset.range 2048, term5 V c (row5 n p) q (j * 2048 + k)

theorem idx_facts5 : ∀ t : Fin cfg5.N, win5_0.index t (0 : Fin 2) = t.val / 4
    ∧ win5_0.index t (1 : Fin 2) = t.val % 4
    ∧ win5_1.index t (0 : Fin 2) = t.val % 4
    ∧ win5_1.index t (1 : Fin 2) = 0
    ∧ win5_2.index t (0 : Fin 2) = 0
    ∧ win5_2.index t (1 : Fin 2) = 0
    ∧ win5_3.index t (0 : Fin 2) = t.val / 4
    ∧ win5_3.index t (1 : Fin 2) = 0 :=
  (by decide +kernel : ∀ t : Fin grid5.N, _)

theorem idx_onto5 : ∀ q0 : Fin 8, ∃ t : Fin cfg5.N, t.val % 4 = 3 ∧ t.val / 4 = q0.val :=
  (by decide +kernel : ∀ q0 : Fin 8, ∃ t : Fin grid5.N, t.val % 4 = 3 ∧ t.val / 4 = q0.val)

/-- The point's two input blocks, as matrices. -/
abbrev blkA5 (c : Dev nD) (t : Fin cfg5.N) : S1024x2048.Idx → EReal := iblk5 V c 0 t
abbrev blkB5 (c : Dev nD) (t : Fin cfg5.N) : S2048x128.Idx → EReal := iblk5 V c 1 t

/-- The block product of the point's two input blocks is the point's partial product. -/
theorem step5 (c : Dev nD) (t : Fin cfg5.N) (p : Fin 1024) (q : Fin 128) :
    ∑ k : Fin 2048, blkA5 V c t (ix2 p k) * blkB5 V c t (ix2 k q) = part5 V c t.val p q (t.val % 4) := by
  unfold part5
  rw [← sum_fin_eq_range (fun k => term5 V c (row5 t.val p) q ((t.val % 4) * 2048 + k)) 2048]
  refine Finset.sum_congr rfl fun k _ => ?_
  obtain ⟨e0, e1, e2, e3, -, -, -, -⟩ := idx_facts5 t
  have hN : t.val < 32 := lt_of_lt_of_eq t.isLt (show cfg5.N = 32 from N_5)
  have hp := p.isLt; have hk := k.isLt; have hq := q.isLt
  unfold term5
  have h0 : ((cfg5.win 0).blk t).view.emb (ix2 p k) = ix2 (row5 t.val p) (fmod 8192 (by decide) ((t.val % 4) * 2048 + k.val)) := by
    funext a; apply Fin.ext
    match a with
    | ⟨0, _⟩ => show win5_0.index t (0 : Fin 2) * 1024 + 1 * p.val = ((t.val / 4) * 1024 + p.val) % 8192; omega
    | ⟨1, _⟩ => show win5_0.index t (1 : Fin 2) * 2048 + 1 * k.val = ((t.val % 4) * 2048 + k.val) % 8192; omega
  have h1 : ((cfg5.win 1).blk t).view.emb (ix2 k q) = ix2 (fmod 8192 (by decide) ((t.val % 4) * 2048 + k.val)) q := by
    funext a; apply Fin.ext
    match a with
    | ⟨0, _⟩ => show win5_1.index t (0 : Fin 2) * 2048 + 1 * k.val = ((t.val % 4) * 2048 + k.val) % 8192; omega
    | ⟨1, _⟩ => show win5_1.index t (1 : Fin 2) * 128 + 1 * q.val = q.val; omega
  show opA5 V c (((cfg5.win 0).blk t).view.emb (ix2 p k)) * opB5 V c (((cfg5.win 1).blk t).view.emb (ix2 k q)) = _
  rw [h0, h1]

theorem part5_pred (c : Dev nD) (n : ℕ) (hn : n % 4 ≠ 0) (p : Fin 1024) (q : Fin 128) (j : ℕ) :
    part5 V c (n - 1) p q j = part5 V c n p q j := by
  unfold part5 row5; rw [show (n - 1) / 4 = n / 4 by omega]

theorem acc5_0 (c : Dev nD) (t : Fin cfg5.N) (h : t.val % 4 = 0) (p : Fin 1024) (q : Fin 128) :
    (outsAt5 V c t.val t.isLt).2 (ix2 p q) = 0 + part5 V c t.val p q 0 := by
  rw [outsAt5_A V c t h]; dsimp only
  rw [sA5_eq, upd5, zero5, step5, h]

theorem acc5_1 (c : Dev nD) (t : Fin cfg5.N) (h : t.val % 4 = 1) (p : Fin 1024) (q : Fin 128) :
    (outsAt5 V c t.val t.isLt).2 (ix2 p q) = (0 + part5 V c t.val p q 0) + part5 V c t.val p q 1 := by
  have hN : t.val < 32 := lt_of_lt_of_eq t.isLt (show cfg5.N = 32 from N_5)
  rw [outsAt5_B V c t (by omega) (by omega)]; dsimp only
  rw [sB5_eq, upd5, step5, h]
  have hprev := acc5_0 V c ⟨t.val - 1, by have := t.isLt; omega⟩ (by show (t.val - 1) % 4 = 0; omega) p q
  rw [show (outsAt5 V c (t.val - 1) _).2 (ix2 p q) = _ from hprev]
  show (0 + part5 V c (t.val - 1) p q 0) + _ = _
  rw [part5_pred V c t.val (by omega)]

theorem acc5_2 (c : Dev nD) (t : Fin cfg5.N) (h : t.val % 4 = 2) (p : Fin 1024) (q : Fin 128) :
    (outsAt5 V c t.val t.isLt).2 (ix2 p q) = ((0 + part5 V c t.val p q 0) + part5 V c t.val p q 1) + part5 V c t.val p q 2 := by
  have hN : t.val < 32 := lt_of_lt_of_eq t.isLt (show cfg5.N = 32 from N_5)
  rw [outsAt5_B V c t (by omega) (by omega)]; dsimp only
  rw [sB5_eq, upd5, step5, h]
  have hprev := acc5_1 V c ⟨t.val - 1, by have := t.isLt; omega⟩ (by show (t.val - 1) % 4 = 1; omega) p q
  rw [show (outsAt5 V c (t.val - 1) _).2 (ix2 p q) = _ from hprev]
  show ((0 + part5 V c (t.val - 1) p q 0) + part5 V c (t.val - 1) p q 1) + _ = _
  rw [part5_pred V c t.val (by omega), part5_pred V c t.val (by omega)]

theorem mm5_parts (c : Dev nD) (n : ℕ) (p : Fin 1024) (q : Fin 128) :
    mm (opA5 V c) (opB5 V c) (ix2 (row5 n p) q)
      = (((0 + part5 V c n p q 0) + part5 V c n p q 1) + part5 V c n p q 2) + part5 V c n p q 3 := by
  have e : mm (opA5 V c) (opB5 V c) (ix2 (row5 n p) q) = ∑ k ∈ Finset.range (4 * 2048), term5 V c (row5 n p) q k := by
    rw [← sum_fin_eq_range (fun k => term5 V c (row5 n p) q k) (4 * 2048)]
    show ∑ k : Fin 8192, opA5 V c (ix2 (row5 n p) k) * opB5 V c (ix2 k q) = ∑ k : Fin 8192, term5 V c (row5 n p) q k.val
    refine Finset.sum_congr rfl fun k _ => ?_
    unfold term5; rw [fmod_fin]
  rw [e, ← sum_range_four]
  unfold part5
  simp only [zero_mul, zero_add, one_mul]

/-- WHAT A LAST-STEP POINT WRITES BACK is its block of `G5` of the three operand arrays as the region finds them. -/
theorem flushed5_eq (c : Dev nD) (t : Fin cfg5.N) (hfl : (cfg5.win 3).flush t = true) :
    (dat5 V c).flushed 3 t = ((cfg5.win 3).blk t).view.read (Elt Ideal) (G5 V c) := by
  have h1 : t.val % 4 = 3 := (flush5_3 t).mp hfl
  have hN : t.val < 32 := lt_of_lt_of_eq t.isLt (show cfg5.N = 32 from N_5)
  show (cfg5.win 3).cut (grid5.coords t) ((dat5 V c).after 3 t) = _
  rw [after5_3, outsAt5_C V c t (by omega) h1]; dsimp only
  rw [oC5_eq]
  obtain ⟨-, -, -, -, e4, e5, e6, e7⟩ := idx_facts5 t
  funext j
  obtain ⟨p, q, rfl⟩ : ∃ (p : Fin 1024) (q : Fin 128), j = ix2 p q := ⟨j 0, j 1, eq_ix2 j⟩
  have hp := p.isLt; have hq := q.isLt
  show k5_pay3 (k5_pay2 (iblk5 V c 0 t) (iblk5 V c 1 t) (outsAt5 V c (t.val - 1) _).2) (iblk5 V c 2 t) (ix2 p q)
    = G5 V c (((cfg5.win 3).blk t).view.emb (ix2 p q))
  rw [fin5, upd5, step5, h1]
  have hprev := acc5_2 V c ⟨t.val - 1, by have := t.isLt; omega⟩ (by show (t.val - 1) % 4 = 2; omega) p q
  rw [show (outsAt5 V c (t.val - 1) _).2 (ix2 p q) = _ from hprev]
  have hemb : ((cfg5.win 3).blk t).view.emb (ix2 p q) = ix2 (row5 t.val p) q := by
    funext a; apply Fin.ext
    match a with
    | ⟨0, _⟩ => show win5_3.index t (0 : Fin 2) * 1024 + 1 * p.val = ((t.val / 4) * 1024 + p.val) % 8192; omega
    | ⟨1, _⟩ => show win5_3.index t (1 : Fin 2) * 128 + 1 * q.val = q.val; omega
  have hb : iblk5 V c 2 t (ix2 (0 : Fin 1) q) = opb5 V c (ix2 (0 : Fin 1) q) := by
    show opb5 V c (((cfg5.win 2).blk t).view.emb (ix2 (0 : Fin 1) q)) = _
    refine congrArg (opb5 V c) ?_
    funext a; apply Fin.ext
    match a with
    | ⟨0, _⟩ => show win5_2.index t (0 : Fin 2) * 1 + 1 * 0 = 0; omega
    | ⟨1, _⟩ => show win5_2.index t (1 : Fin 2) * 128 + 1 * q.val = q.val; omega
  rw [hemb, hb]
  unfold G5
  rw [mm5_parts V c t.val p q]
  show max ((((0 + part5 V c (t.val - 1) p q 0) + part5 V c (t.val - 1) p q 1) + part5 V c (t.val - 1) p q 2 + part5 V c t.val p q 3) + _) 0 = _
  rw [part5_pred V c t.val (by omega), part5_pred V c t.val (by omega), part5_pred V c t.val (by omega)]

theorem mem_blk5 (t : Fin cfg5.N) (i : S8192x128.Idx) :
    i ∈ ((cfg5.win 3).blk t).view.set ↔ ∀ a : Fin 2, win5_3.index t a * S1024x128.size a ≤ (i a).val ∧ (i a).val < win5_3.index t a * S1024x128.size a + S1024x128.size a := by
  show i ∈ ((View.whole main_v65).slice (win5_3.rect t)).set ↔ _
  rw [View.set_slice_whole, Rect.mem_set_unit]
  exact Iff.rfl

theorem cover5 (i : S8192x128.Idx) : ∃ t : Fin cfg5.N, (cfg5.win 3).flush t = true ∧ i ∈ ((cfg5.win 3).blk t).view.set := by
  have hi0 : (i 0).val < 8192 := (i 0).isLt
  have hi1 : (i 1).val < 128 := (i 1).isLt
  obtain ⟨t, ht3, htq⟩ := idx_onto5 ⟨(i 0).val / 1024, by omega⟩
  obtain ⟨-, -, -, -, -, -, e6, e7⟩ := idx_facts5 t
  have htq' : t.val / 4 = (i 0).val / 1024 := htq
  refine ⟨t, (flush5_3 t).mpr ht3, ?_⟩
  rw [mem_blk5]
  intro a
  match a with
  | ⟨0, _⟩ => show win5_3.index t (0 : Fin 2) * 1024 ≤ (i 0).val ∧ (i 0).val < win5_3.index t (0 : Fin 2) * 1024 + 1024; omega
  | ⟨1, _⟩ => show win5_3.index t (1 : Fin 2) * 128 ≤ (i 1).val ∧ (i 1).val < win5_3.index t (1 : Fin 2) * 128 + 128; omega

/-- THE OUTPUT ARRAY after the region. -/
theorem final5 (c : Dev nD) : (dat5 V c).arrAt 3 cfg5.N = G5 V c :=
  (dat5 V c).arrAt_eq_of_cover 3 _ (fun t hf => flushed5_eq V c t hf) cover5

end Cert.KernelIdeal.Acc

end
-- ==== Proof.WalkB.lean ====
/-
  The global branch, buffer by buffer: each buffer the kernel's program computes holds the reference's stage at the
  kernel's own arguments.

    region 2's output   =  feats · (w1g · tao_1_G)
    region 3's output   =  max(PPMI · (that) + b1g, 0)        the bias reaches the kernel as a one-row array (a reshape of
                                                             the vector) and the reference as the vector broadcast along
                                                             the rows: at (r, q) both read b1g(q)
    region 4's output   =  (that) · (w2g · tao_2_G)
    region 5's output   =  max(PPMI · (that) + b2g, 0)  =  H_G
-/
import proofs.«157716_j2267742732442_1_alg».proof.Proof.WalkA
import proofs.«157716_j2267742732442_1_alg».proof.Proof.Flush2I
import proofs.«157716_j2267742732442_1_alg».proof.Proof.Flush3I
import proofs.«157716_j2267742732442_1_alg».proof.Proof.Flush4I
import proofs.«157716_j2267742732442_1_alg».proof.Proof.Flush5I

set_option maxRecDepth 16384

noncomputable section

namespace Cert.KernelIdeal.Acc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen Idealize.ShloMosaic.StableHlo Idealize.ShloMosaic.ValueIdx Cert.Gnn

/-- A vector laid out as a one-row array reads, at (0, q), the vector at q. -/
theorem row_of_vec {C : ℕ} (x : (⟨1, ![C]⟩ : Shape).Idx → EReal) (h : (⟨1, ![C]⟩ : Shape).ShapeCasts ⟨2, ![1, C]⟩) (q : Fin C) :
    shapeCast ⟨2, ![1, C]⟩ x h (ix2 (0 : Fin 1) q) = x (ix1 q) := by
  refine shapeCast_apply x h _ _ ?_
  rw [Shape.rowMajor_val_one, Shape.rowMajor_val_two]
  show q.val = 0 * C + q.val
  omega

/-- Region 3's function of its operands is the reference's first global layer. -/
theorem layer3_eq (x0 : (⟨S8192x512, .f32⟩ : BufTy).Contents (Elt Ideal)) (x4 : (⟨S256x256, .f32⟩ : BufTy).Contents (Elt Ideal))
    (x6 : (⟨S8192x8192, .f32⟩ : BufTy).Contents (Elt Ideal)) (x11 : (⟨S512x256, .f32⟩ : BufTy).Contents (Elt Ideal))
    (x12 : (⟨S256, .f32⟩ : BufTy).Contents (Elt Ideal)) :
    (fun i : S8192x256.Idx => max (mm x6 (Cert.ReferenceIdeal.Read.val_main_v55 (F := Ideal) x0 x4 x11) i
        + shapeCast S1x256 x12 shapeCasts_S256_S1x256 (ix2 (0 : Fin 1) (i 1))) 0)
      = Cert.ReferenceIdeal.Read.val_main_v60 (F := Ideal) x0 x4 x6 x11 x12 := by
  funext i
  obtain ⟨p, q, rfl⟩ : ∃ (p : Fin 8192) (q : Fin 256), i = ix2 p q := ⟨i 0, i 1, eq_ix2 i⟩
  have h56 : Cert.ReferenceIdeal.Read.val_main_v56 (F := Ideal) x0 x4 x6 x11 = mm x6 (Cert.ReferenceIdeal.Read.val_main_v55 (F := Ideal) x0 x4 x11) :=
    (Cert.Lib.MmDot.mm_eq_dot _ rfl _ _).symm
  show _ = max (Cert.ReferenceIdeal.Read.val_main_v56 (F := Ideal) x0 x4 x6 x11 (ix2 p q) + Cert.ReferenceIdeal.Read.val_main_v58 (F := Ideal) x12 (ix2 p q))
    (Cert.ReferenceIdeal.Read.val_main_call2_v0 (F := Ideal) (ix2 p q))
  rw [h56, Cert.ReferenceIdeal.Read.val_main_v58_apply, Cert.ReferenceIdeal.Read.val_main_v57_apply,
    Cert.ReferenceIdeal.Read.val_main_call2_v0_apply, Cert.ReferenceIdeal.Read.val_main_call2_cst_apply]
  show max (mm x6 _ (ix2 p q) + shapeCast S1x256 x12 shapeCasts_S256_S1x256 (ix2 (0 : Fin 1) q)) 0
    = max (_ + x12 _) (Ideal.ofBits .f32 0x00000000#32)
  rw [row_of_vec, Ideal.ofBits_zero_f32]
  have hi : ix1 q = Cert.ReferenceIdeal.Read.idx_main_v57 (Cert.ReferenceIdeal.Read.idx_main_v58 (ix2 p q)) := by
    funext a; match a with | ⟨0, _⟩ => rfl
  rw [hi]

/-- Region 5's function of its operands is the reference's second global layer. -/
theorem layer5_eq (x0 : (⟨S8192x512, .f32⟩ : BufTy).Contents (Elt Ideal)) (x4 : (⟨S256x256, .f32⟩ : BufTy).Contents (Elt Ideal))
    (x5 : (⟨S128x128, .f32⟩ : BufTy).Contents (Elt Ideal)) (x6 : (⟨S8192x8192, .f32⟩ : BufTy).Contents (Elt Ideal))
    (x11 : (⟨S512x256, .f32⟩ : BufTy).Contents (Elt Ideal)) (x12 : (⟨S256, .f32⟩ : BufTy).Contents (Elt Ideal))
    (x13 : (⟨S256x128, .f32⟩ : BufTy).Contents (Elt Ideal)) (x14 : (⟨S128, .f32⟩ : BufTy).Contents (Elt Ideal)) :
    (fun i : S8192x128.Idx => max (mm x6 (Cert.ReferenceIdeal.Read.val_main_v62 (F := Ideal) x0 x4 x5 x6 x11 x12 x13) i
        + shapeCast S1x128 x14 shapeCasts_S128_S1x128 (ix2 (0 : Fin 1) (i 1))) 0)
      = Cert.ReferenceIdeal.Read.val_main_v67 (F := Ideal) x0 x4 x5 x6 x11 x12 x13 x14 := by
  funext i
  obtain ⟨p, q, rfl⟩ : ∃ (p : Fin 8192) (q : Fin 128), i = ix2 p q := ⟨i 0, i 1, eq_ix2 i⟩
  have h63 : Cert.ReferenceIdeal.Read.val_main_v63 (F := Ideal) x0 x4 x5 x6 x11 x12 x13
      = mm x6 (Cert.ReferenceIdeal.Read.val_main_v62 (F := Ideal) x0 x4 x5 x6 x11 x12 x13) :=
    (Cert.Lib.MmDot.mm_eq_dot _ rfl _ _).symm
  show _ = max (Cert.ReferenceIdeal.Read.val_main_v63 (F := Ideal) x0 x4 x5 x6 x11 x12 x13 (ix2 p q) + Cert.ReferenceIdeal.Read.val_main_v65 (F := Ideal) x14 (ix2 p q))
    (Cert.ReferenceIdeal.Read.val_main_call3_v0 (F := Ideal) (ix2 p q))
  rw [h63, Cert.ReferenceIdeal.Read.val_main_v65_apply, Cert.ReferenceIdeal.Read.val_main_v64_apply,
    Cert.ReferenceIdeal.Read.val_main_call3_v0_apply, Cert.ReferenceIdeal.Read.val_main_call3_cst_apply]
  show max (mm x6 _ (ix2 p q) + shapeCast S1x128 x14 shapeCasts_S128_S1x128 (ix2 (0 : Fin 1) q)) 0
    = max (_ + x14 _) (Ideal.ofBits .f32 0x00000000#32)
  rw [row_of_vec, Ideal.ofBits_zero_f32]
  have hi : ix1 q = Cert.ReferenceIdeal.Read.idx_main_v64 (Cert.ReferenceIdeal.Read.idx_main_v65 (ix2 p q)) := by
    funext a; match a with | ⟨0, _⟩ => rfl
  rw [hi]

variable (m : (ℓ : Loc nD τ sig) → Buf (Elt Ideal) ℓ) (ρ : Dev nD → PrngReg) (c : Dev nD)

/-! ## Region 2 -/

theorem v59_eq : B10 m ρ c (Proc.devRef .tc main_v59)
    = Cert.ReferenceIdeal.Read.val_main_v55 (F := Ideal) (m ((c : Thread nD τ).loc main_arg0)) (m ((c : Thread nD τ).loc main_arg4)) (m ((c : Thread nD τ).loc main_arg11)) := by
  refine ((B10_arr m ρ c 3).trans (final2 (T9 m ρ) c)).trans ?_
  show mm (B9 m ρ c (Proc.devRef .tc main_arg0)) (B9 m ρ c (Proc.devRef .tc main_v2)) = _
  rw [A0_9 m ρ c, K9 m ρ c main_v2 (by decide), K8 m ρ c main_v2 (by decide), K7 m ρ c main_v2 (by decide), K6 m ρ c main_v2 (by decide),
    K5 m ρ c main_v2 (by decide), K4 m ρ c main_v2 (by decide), K3 m ρ c main_v2 (by decide), K2 m ρ c main_v2 (by decide), v2_eq]
  exact Cert.Lib.MmDot.mm_eq_dot _ rfl _ _

/-! ## Region 3 -/

theorem v60_eq : B11 m ρ c (Proc.devRef .tc main_v60) = shapeCast S1x256 (m ((c : Thread nD τ).loc main_arg12)) shapeCasts_S256_S1x256 := by
  show StableHlo.after hostOps3 (B10 m ρ c) (Proc.devRef .tc main_v60) = _
  after_results
  rw [U10 m ρ c ut12]
  rfl

theorem v61_eq : B12 m ρ c (Proc.devRef .tc main_v61)
    = Cert.ReferenceIdeal.Read.val_main_v60 (F := Ideal) (m ((c : Thread nD τ).loc main_arg0)) (m ((c : Thread nD τ).loc main_arg4)) (m ((c : Thread nD τ).loc main_arg6)) (m ((c : Thread nD τ).loc main_arg11)) (m ((c : Thread nD τ).loc main_arg12)) := by
  refine ((B12_arr m ρ c 3).trans (final3 (T11 m ρ) c)).trans ?_
  have hA : opA3 (T11 m ρ) c = (m ((c : Thread nD τ).loc main_arg6)) := A6_11 m ρ c
  have hB : opB3 (T11 m ρ) c = Cert.ReferenceIdeal.Read.val_main_v55 (F := Ideal) (m ((c : Thread nD τ).loc main_arg0)) (m ((c : Thread nD τ).loc main_arg4)) (m ((c : Thread nD τ).loc main_arg11)) :=
    (K11 m ρ c main_v59 (by decide)).trans (v59_eq m ρ c)
  have hb : opb3 (T11 m ρ) c = shapeCast S1x256 (m ((c : Thread nD τ).loc main_arg12)) shapeCasts_S256_S1x256 := v60_eq m ρ c
  unfold G3
  rw [hA, hB, hb]
  exact layer3_eq _ _ _ _ _

/-! ## Region 4 -/

theorem v63_eq : B14 m ρ c (Proc.devRef .tc main_v63)
    = Cert.ReferenceIdeal.Read.val_main_v62 (F := Ideal) (m ((c : Thread nD τ).loc main_arg0)) (m ((c : Thread nD τ).loc main_arg4)) (m ((c : Thread nD τ).loc main_arg5)) (m ((c : Thread nD τ).loc main_arg6)) (m ((c : Thread nD τ).loc main_arg11)) (m ((c : Thread nD τ).loc main_arg12)) (m ((c : Thread nD τ).loc main_arg13)) := by
  refine ((B14_arr m ρ c 3).trans (final4 (T13 m ρ) c)).trans ?_
  show mm (B13 m ρ c (Proc.devRef .tc main_v61)) (B13 m ρ c (Proc.devRef .tc main_v3)) = _
  rw [K13 m ρ c main_v61 (by decide), v61_eq,
    K13 m ρ c main_v3 (by decide), K12 m ρ c main_v3 (by decide), K11 m ρ c main_v3 (by decide), K10 m ρ c main_v3 (by decide),
    K9 m ρ c main_v3 (by decide), K8 m ρ c main_v3 (by decide), K7 m ρ c main_v3 (by decide), K6 m ρ c main_v3 (by decide),
    K5 m ρ c main_v3 (by decide), K4 m ρ c main_v3 (by decide), K3 m ρ c main_v3 (by decide), K2 m ρ c main_v3 (by decide), v3_eq]
  exact Cert.Lib.MmDot.mm_eq_dot _ rfl _ _

/-! ## Region 5: H_G -/

theorem v64_eq : B15 m ρ c (Proc.devRef .tc main_v64) = shapeCast S1x128 (m ((c : Thread nD τ).loc main_arg14)) shapeCasts_S128_S1x128 := by
  show StableHlo.after hostOps5 (B14 m ρ c) (Proc.devRef .tc main_v64) = _
  after_results
  rw [U14 m ρ c ut14]
  rfl

theorem v65_eq : B16 m ρ c (Proc.devRef .tc main_v65)
    = Cert.ReferenceIdeal.Read.val_main_v67 (F := Ideal) (m ((c : Thread nD τ).loc main_arg0)) (m ((c : Thread nD τ).loc main_arg4)) (m ((c : Thread nD τ).loc main_arg5)) (m ((c : Thread nD τ).loc main_arg6)) (m ((c : Thread nD τ).loc main_arg11)) (m ((c : Thread nD τ).loc main_arg12)) (m ((c : Thread nD τ).loc main_arg13)) (m ((c : Thread nD τ).loc main_arg14)) := by
  refine ((B16_arr m ρ c 3).trans (final5 (T15 m ρ) c)).trans ?_
  have hA : opA5 (T15 m ρ) c = (m ((c : Thread nD τ).loc main_arg6)) := A6_15 m ρ c
  have hB : opB5 (T15 m ρ) c = Cert.ReferenceIdeal.Read.val_main_v62 (F := Ideal) (m ((c : Thread nD τ).loc main_arg0)) (m ((c : Thread nD τ).loc main_arg4)) (m ((c : Thread nD τ).loc main_arg5)) (m ((c : Thread nD τ).loc main_arg6)) (m ((c : Thread nD τ).loc main_arg11)) (m ((c : Thread nD τ).loc main_arg12)) (m ((c : Thread nD τ).loc main_arg13)) :=
    (K15 m ρ c main_v63 (by decide)).trans (v63_eq m ρ c)
  have hb : opb5 (T15 m ρ) c = shapeCast S1x128 (m ((c : Thread nD τ).loc main_arg14)) shapeCasts_S128_S1x128 := v64_eq m ρ c
  unfold G5
  rw [hA, hB, hb]
  exact layer5_eq _ _ _ _ _ _ _ _

end Cert.KernelIdeal.Acc

end
-- ==== Proof.WalkC.lean ====
/-
  The attention fusion and the classifier: the last host stretch of the kernel's program applies to H_L and H_G the same
  operations as the reference (concatenate, project to two logits, softmax over the two, mix H_L and H_G with the two
  weights, project to the classes, add the class bias). With H_L and H_G equal to the reference's, the result buffer
  holds the reference's result at the kernel's arguments. The softmax is never opened.
-/
import proofs.«157716_j2267742732442_1_alg».proof.Proof.WalkB

set_option maxRecDepth 16384

noncomputable section

namespace Cert.KernelIdeal.Acc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen Idealize.ShloMosaic.StableHlo

variable (m : (ℓ : Loc nD τ sig) → Buf (Elt Ideal) ℓ) (ρ : Dev nD → PrngReg) (c : Dev nD)

/-- H_L is still in its buffer when the last stretch reads it: nothing in between writes it. -/
theorem v57_at16 : B16 m ρ c (Proc.devRef .tc main_v57) = Cert.ReferenceIdeal.Read.val_main_v53 (F := Ideal)
    (m ((c : Thread nD τ).loc main_arg0)) (m ((c : Thread nD τ).loc main_arg1)) (m ((c : Thread nD τ).loc main_arg2)) (m ((c : Thread nD τ).loc main_arg3)) (m ((c : Thread nD τ).loc main_arg7)) (m ((c : Thread nD τ).loc main_arg8)) (m ((c : Thread nD τ).loc main_arg9)) (m ((c : Thread nD τ).loc main_arg10)) (m ((c : Thread nD τ).loc main_arg18)) (m ((c : Thread nD τ).loc main_arg19)) :=
  (K16 m ρ c main_v57 (by decide)).trans <| (K15 m ρ c main_v57 (by decide)).trans <| (K14 m ρ c main_v57 (by decide)).trans <|
  (K13 m ρ c main_v57 (by decide)).trans <| (K12 m ρ c main_v57 (by decide)).trans <| (K11 m ρ c main_v57 (by decide)).trans <|
  (K10 m ρ c main_v57 (by decide)).trans <| (K9 m ρ c main_v57 (by decide)).trans <| v57_eq m ρ c

set_option maxHeartbeats 4000000 in
/-- THE RESULT BUFFER at the last valuation is the reference's result at the kernel's arguments. -/
theorem v89_eq : B17 m ρ c (Proc.devRef .tc main_v89) = Cert.ReferenceIdeal.Read.val_main_v91 (F := Ideal)
    (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) := by
  show StableHlo.after hostOps6 (B16 m ρ c) (Proc.devRef .tc main_v89) = _
  after_results
  rw [v57_at16, v65_eq, U16 m ρ c ut15, U16 m ρ c ut16, U16 m ρ c ut17]
  rfl

end Cert.KernelIdeal.Acc

end
-- ==== Proof.lean ====
/-
  The kernel computes a two-branch graph network on 8192 nodes and the reference computes the same network with plain
  matrix products.

  Local branch:  h ← feats · (w1 · tao_1_L);  h ← max(agg(h) + b1, 0);  h ← h · (w2 · tao_2_L);  H_L ← max(agg(h) + b2, 0),
  where agg gathers rows along the edge list, scales them by the source's norm, sums them into the destination rows and
  scales by the destination's norm. Global branch:  H_G ← max(PPMI · (max(PPMI · (feats · (w1g · tao_1_G)) + b1g, 0) ·
  (w2g · tao_2_G)) + b2g, 0).  Then a two-way softmax attention mixes H_L and H_G, and a linear classifier follows.

  In the kernel's program the six large products are tiled kernels: four of them take the whole contraction in one
  step; the two products with PPMI walk the 8192-long contraction in four steps of 2048, keeping an accumulator across
  the steps and adding the bias and taking the positive part at the last step. Everything else (the four small
  parameter products, the edge aggregation, the attention and the classifier) is the same host operations in both
  programs.

  * The frames. Each kernel region is a segment of @main: its arrays are split out of the core's buffers on entry and
    put back on exit, the accumulator lives in the region's invariant (at the contents the previous step left, where it
    is carried). Every weakly fair execution terminates with every buffer at a named valuation, and no item of @main
    writes an argument array. The word-level program and the idealized one have the same proof, read at either
    instance. The reference has no kernel: its frame is its run with the result dropped.
  * The idealization rewrote nothing, so that conjunct is trivial.
  * The values, at the ideal instance (floats are extended reals, a change of float format is the identity). A tiled
    product's output block is 0 + Σ_k x(p, k) · w(k, q) over the block's rows, and the blocks tile the array: the array
    is the matrix product, which is what the host's dot_general computes. For the four-step products the accumulator
    after the last step is ((((0 + S₀) + S₁) + S₂) + S₃) with S_j the j-th quarter of the contraction: the whole sum, by
    associativity and commutativity of addition alone — no finiteness is needed, and the precondition is never opened.
    The host stretches apply the same operations in both programs, so they are carried as composed terms: once the
    operands agree the terms agree, and the gathers, scatter-adds and the softmax are never opened.
-/
import proofs.«157716_j2267742732442_1_alg».proof.Defs
import proofs.«157716_j2267742732442_1_alg».proof.Proof.Gen.Kernel
import proofs.«157716_j2267742732442_1_alg».proof.Proof.Gen.KernelIdeal
import proofs.«157716_j2267742732442_1_alg».proof.Proof.Gen.ReferenceIdeal
import proofs.«157716_j2267742732442_1_alg».proof.Proof.Gen.Pre_finite_inputs
import proofs.«157716_j2267742732442_1_alg».proof.Proof.FrameK
import proofs.«157716_j2267742732442_1_alg».proof.Proof.FrameI
import proofs.«157716_j2267742732442_1_alg».proof.Proof.WalkC
import Idealize.ShloMosaic.Adequacy
import Idealize.ShloMosaic.Init

noncomputable section

namespace Cert.Proof

open Idealize.ShloMosaic Idealize.SL.Sem

theorem frame_k : Cert.frame_Kernel := fun m ρ _ => Cert.Kernel.Acc.frame_all m ρ

theorem frame_ki : Cert.frame_KernelIdeal := fun m ρ _ => Cert.KernelIdeal.Acc.frame_all m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the reference's result function of the (agreeing) arguments in their result buffers. -/
theorem algebraic : Cert.algebraic_KernelIdeal_ReferenceIdeal := by
  intro m ρ m' ρ' _ hagree
  refine ⟨fun c => Cert.ReferenceIdeal.Read.val_main_v91 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15))
      (m ((c.tc : Thread Cert.KernelIdeal.nD Cert.KernelIdeal.τ).loc Cert.KernelIdeal.main_arg16))
      (m ((c.tc : Thread Cert.KernelIdeal.nD Cert.KernelIdeal.τ).loc Cert.KernelIdeal.main_arg17))
      (m ((c.tc : Thread Cert.KernelIdeal.nD Cert.KernelIdeal.τ).loc Cert.KernelIdeal.main_arg18))
      (m ((c.tc : Thread Cert.KernelIdeal.nD Cert.KernelIdeal.τ).loc Cert.KernelIdeal.main_arg19)), ?_, ?_⟩
  · exact (θ_run Cert.KernelIdeal.defs _ _).mono
      (fun r h c => ⟨(h c _ (Cert.KernelIdeal.Acc.mem_ucA Cert.KernelIdeal.main_v89 (by decide))).trans (Cert.KernelIdeal.Acc.v89_eq m ρ c),
        Cert.KernelIdeal.Acc.args_of_all m ρ c r.2.mem (h c)⟩)
      (Cert.KernelIdeal.Acc.run_all m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v91_eq]
    obtain ⟨h0, h1, h2, h3, h4, h5, h6, h7, h8, h9, h10, h11, h12, h13, h14, h15, h16, h17, h18, h19⟩ := hagree c
    rw [h0, h1, h2, h3, h4, h5, h6, h7, h8, h9, h10, h11, h12, h13, h14, h15, h16, h17, h18, h19]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
